-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S_ : Shape := ⟨0, ![]⟩
abbrev S1x512 : Shape := ⟨2, ![1, 512]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  reducesTo_S_S_d : S_.ReducesTo [] S_
  bcast_S_S1x512 : S_.BroadcastsInDim S1x512 (![] : Fin 0 → Fin S1x512.rank)
  reducesTo_S1x512_S_d0_1 : S1x512.ReducesTo [0, 1] S_

variable [Facts]

def fn_part7 {F : FTy → Type} [FloatOps F] (main_v114 : IVec S_ 1) (main_v117 : IVec S1x512 1) (main_c_47 : IVec S_ 1) : IVec S_ 1 :=
  let main_v118 : IVec S_ 1 := (fun x v => Host.reduce IntOp.andi x v reducesTo_S1x512_S_d0_1 h_S_) main_v117 main_c_47
  let main_v119 : IVec S_ 1 := andi main_v114 main_v118
  main_v119

def fn_part6 {F : FTy → Type} [FloatOps F] (main_arg22 : FVec F S512x512 .f32) (main_arg23 : FVec F S512 .f32) (main_arg24 : FVec F S1x512 .f32) (main_v100 : IVec S_ 1) (main_v101 : FVec F S_ .f32) : IVec S_ 1 :=
  let main_cst_40 : FVec F S_ .f32 := constant S_ .f32 0x7F800000#32
  let main_v102 : IVec S_ 1 := cmpf .olt main_v101 main_cst_40
  let main_c_41 : IVec S_ 1 := constantI S_ 1 1#1
  let main_v103 : IVec S_ 1 := (fun x v => Host.reduce IntOp.andi x v reducesTo_S_S_d h_S_) main_v102 main_c_41
  let main_v104 : IVec S_ 1 := andi main_v100 main_v103
  let main_v105 : FVec F S512x512 .f32 := Host.absf main_arg22
  let main_cst_42 : FVec F S_ .f32 := constant S_ .f32 0x7F800000#32
  let main_v106 : FVec F S512x512 .f32 := broadcastInDim S512x512 ![] bcast_S_S512x512 main_cst_42
  let main_v107 : IVec S512x512 1 := cmpf .olt main_v105 main_v106
  let main_c_43 : IVec S_ 1 := constantI S_ 1 1#1
  let main_v108 : IVec S_ 1 := (fun x v => Host.reduce IntOp.andi x v reducesTo_S512x512_S_d0_1 h_S_) main_v107 main_c_43
  let main_v109 : IVec S_ 1 := andi main_v104 main_v108
  let main_v110 : FVec F S512 .f32 := Host.absf main_arg23
  let main_cst_44 : FVec F S_ .f32 := constant S_ .f32 0x7F800000#32
  let main_v111 : FVec F S512 .f32 := broadcastInDim S512 ![] bcast_S_S512 main_cst_44
  let main_v112 : IVec S512 1 := cmpf .olt main_v110 main_v111
  let main_c_45 : IVec S_ 1 := constantI S_ 1 1#1
  let main_v113 : IVec S_ 1 := (fun x v => Host.reduce IntOp.andi x v reducesTo_S512_S_d0 h_S_) main_v112 main_c_45
  let main_v114 : IVec S_ 1 := andi main_v109 main_v113
  let main_v115 : FVec F S1x512 .f32 := Host.absf main_arg24
  let main_cst_46 : FVec F S_ .f32 := constant S_ .f32 0x7F800000#32
  let main_v116 : FVec F S1x512 .f32 := broadcastInDim S1x512 ![] bcast_S_S1x512 main_cst_46
  let main_v117 : IVec S1x512 1 := cmpf .olt main_v115 main_v116
  let main_c_47 : IVec S_ 1 := constantI S_ 1 1#1
  fn_part7 (F := F) main_v114 main_v117 main_c_47

def fn_part5 {F : FTy → Type} [FloatOps F] (main_arg18 : FVec F S512x512 .f32) (main_arg19 : FVec F S512 .f32) (main_arg20 : FVec F S512 .f32) (main_arg21 : FVec F S_ .f32) (main_arg22 : FVec F S512x512 .f32) (main_arg23 : FVec F S512 .f32) (main_arg24 : FVec F S1x512 .f32) (main_v81 : IVec S_ 1) (main_v83 : IVec S_ 1) (main_c_33 : IVec S_ 1) : IVec S_ 1 :=
  let main_v84 : IVec S_ 1 := (fun x v => Host.reduce IntOp.andi x v reducesTo_S_S_d h_S_) main_v83 main_c_33
  let main_v85 : IVec S_ 1 := andi main_v81 main_v84
  let main_v86 : FVec F S512x512 .f32 := Host.absf main_arg18
  let main_cst_34 : FVec F S_ .f32 := constant S_ .f32 0x7F800000#32
  let main_v87 : FVec F S512x512 .f32 := broadcastInDim S512x512 ![] bcast_S_S512x512 main_cst_34
  let main_v88 : IVec S512x512 1 := cmpf .olt main_v86 main_v87
  let main_c_35 : IVec S_ 1 := constantI S_ 1 1#1
  let main_v89 : IVec S_ 1 := (fun x v => Host.reduce IntOp.andi x v reducesTo_S512x512_S_d0_1 h_S_) main_v88 main_c_35
  let main_v90 : IVec S_ 1 := andi main_v85 main_v89
  let main_v91 : FVec F S512 .f32 := Host.absf main_arg19
  let main_cst_36 : FVec F S_ .f32 := constant S_ .f32 0x7F800000#32
  let main_v92 : FVec F S512 .f32 := broadcastInDim S512 ![] bcast_S_S512 main_cst_36
  let main_v93 : IVec S512 1 := cmpf .olt main_v91 main_v92
  let main_c_37 : IVec S_ 1 := constantI S_ 1 1#1
  let main_v94 : IVec S_ 1 := (fun x v => Host.reduce IntOp.andi x v reducesTo_S512_S_d0 h_S_) main_v93 main_c_37
  let main_v95 : IVec S_ 1 := andi main_v90 main_v94
  let main_v96 : FVec F S512 .f32 := Host.absf main_arg20
  let main_cst_38 : FVec F S_ .f32 := constant S_ .f32 0x7F800000#32
  let main_v97 : FVec F S512 .f32 := broadcastInDim S512 ![] bcast_S_S512 main_cst_38
  let main_v98 : IVec S512 1 := cmpf .olt main_v96 main_v97
  let main_c_39 : IVec S_ 1 := constantI S_ 1 1#1
  let main_v99 : IVec S_ 1 := (fun x v => Host.reduce IntOp.andi x v reducesTo_S512_S_d0 h_S_) main_v98 main_c_39
  let main_v100 : IVec S_ 1 := andi main_v95 main_v99
  let main_v101 : FVec F S_ .f32 := Host.absf main_arg21
  fn_part6 (F := F) main_arg22 main_arg23 main_arg24 main_v100 main_v101

def fn_part4 {F : FTy → Type} [FloatOps F] (main_arg15 : FVec F S512 .f32) (main_arg16 : FVec F S512 .f32) (main_arg17 : FVec F S_ .f32) (main_arg18 : FVec F S512x512 .f32) (main_arg19 : FVec F S512 .f32) (main_arg20 : FVec F S512 .f32) (main_arg21 : FVec F S_ .f32) (main_arg22 : FVec F S512x512 .f32) (main_arg23 : FVec F S512 .f32) (main_arg24 : FVec F S1x512 .f32) (main_v66 : IVec S_ 1) (main_v67 : FVec F S512x512 .f32) : IVec S_ 1 :=
  let main_cst_26 : FVec F S_ .f32 := constant S_ .f32 0x7F800000#32
  let main_v68 : FVec F S512x512 .f32 := broadcastInDim S512x512 ![] bcast_S_S512x512 main_cst_26
  let main_v69 : IVec S512x512 1 := cmpf .olt main_v67 main_v68
  let main_c_27 : IVec S_ 1 := constantI S_ 1 1#1
  let main_v70 : IVec S_ 1 := (fun x v => Host.reduce IntOp.andi x v reducesTo_S512x512_S_d0_1 h_S_) main_v69 main_c_27
  let main_v71 : IVec S_ 1 := andi main_v66 main_v70
  let main_v72 : FVec F S512 .f32 := Host.absf main_arg15
  let main_cst_28 : FVec F S_ .f32 := constant S_ .f32 0x7F800000#32
  let main_v73 : FVec F S512 .f32 := broadcastInDim S512 ![] bcast_S_S512 main_cst_28
  let main_v74 : IVec S512 1 := cmpf .olt main_v72 main_v73
  let main_c_29 : IVec S_ 1 := constantI S_ 1 1#1
  let main_v75 : IVec S_ 1 := (fun x v => Host.reduce IntOp.andi x v reducesTo_S512_S_d0 h_S_) main_v74 main_c_29
  let main_v76 : IVec S_ 1 := andi main_v71 main_v75
  let main_v77 : FVec F S512 .f32 := Host.absf main_arg16
  let main_cst_30 : FVec F S_ .f32 := constant S_ .f32 0x7F800000#32
  let main_v78 : FVec F S512 .f32 := broadcastInDim S512 ![] bcast_S_S512 main_cst_30
  let main_v79 : IVec S512 1 := cmpf .olt main_v77 main_v78
  let main_c_31 : IVec S_ 1 := constantI S_ 1 1#1
  let main_v80 : IVec S_ 1 := (fun x v => Host.reduce IntOp.andi x v reducesTo_S512_S_d0 h_S_) main_v79 main_c_31
  let main_v81 : IVec S_ 1 := andi main_v76 main_v80
  let main_v82 : FVec F S_ .f32 := Host.absf main_arg17
  let main_cst_32 : FVec F S_ .f32 := constant S_ .f32 0x7F800000#32
  let main_v83 : IVec S_ 1 := cmpf .olt main_v82 main_cst_32
  let main_c_33 : IVec S_ 1 := constantI S_ 1 1#1
  fn_part5 (F := F) main_arg18 main_arg19 main_arg20 main_arg21 main_arg22 main_arg23 main_arg24 main_v81 main_v83 main_c_33

def fn_part3 {F : FTy → Type} [FloatOps F] (main_arg11 : FVec F S512 .f32) (main_arg12 : FVec F S512 .f32) (main_arg13 : FVec F S_ .f32) (main_arg14 : FVec F S512x512 .f32) (main_arg15 : FVec F S512 .f32) (main_arg16 : FVec F S512 .f32) (main_arg17 : FVec F S_ .f32) (main_arg18 : FVec F S512x512 .f32) (main_arg19 : FVec F S512 .f32) (main_arg20 : FVec F S512 .f32) (main_arg21 : FVec F S_ .f32) (main_arg22 : FVec F S512x512 .f32) (main_arg23 : FVec F S512 .f32) (main_arg24 : FVec F S1x512 .f32) (main_v47 : IVec S_ 1) (main_v50 : IVec S512x512 1) : IVec S_ 1 :=
  let main_c_19 : IVec S_ 1 := constantI S_ 1 1#1
  let main_v51 : IVec S_ 1 := (fun x v => Host.reduce IntOp.andi x v reducesTo_S512x512_S_d0_1 h_S_) main_v50 main_c_19
  let main_v52 : IVec S_ 1 := andi main_v47 main_v51
  let main_v53 : FVec F S512 .f32 := Host.absf main_arg11
  let main_cst_20 : FVec F S_ .f32 := constant S_ .f32 0x7F800000#32
  let main_v54 : FVec F S512 .f32 := broadcastInDim S512 ![] bcast_S_S512 main_cst_20
  let main_v55 : IVec S512 1 := cmpf .olt main_v53 main_v54
  let main_c_21 : IVec S_ 1 := constantI S_ 1 1#1
  let main_v56 : IVec S_ 1 := (fun x v => Host.reduce IntOp.andi x v reducesTo_S512_S_d0 h_S_) main_v55 main_c_21
  let main_v57 : IVec S_ 1 := andi main_v52 main_v56
  let main_v58 : FVec F S512 .f32 := Host.absf main_arg12
  let main_cst_22 : FVec F S_ .f32 := constant S_ .f32 0x7F800000#32
  let main_v59 : FVec F S512 .f32 := broadcastInDim S512 ![] bcast_S_S512 main_cst_22
  let main_v60 : IVec S512 1 := cmpf .olt main_v58 main_v59
  let main_c_23 : IVec S_ 1 := constantI S_ 1 1#1
  let main_v61 : IVec S_ 1 := (fun x v => Host.reduce IntOp.andi x v reducesTo_S512_S_d0 h_S_) main_v60 main_c_23
  let main_v62 : IVec S_ 1 := andi main_v57 main_v61
  let main_v63 : FVec F S_ .f32 := Host.absf main_arg13
  let main_cst_24 : FVec F S_ .f32 := constant S_ .f32 0x7F800000#32
  let main_v64 : IVec S_ 1 := cmpf .olt main_v63 main_cst_24
  let main_c_25 : IVec S_ 1 := constantI S_ 1 1#1
  let main_v65 : IVec S_ 1 := (fun x v => Host.reduce IntOp.andi x v reducesTo_S_S_d h_S_) main_v64 main_c_25
  let main_v66 : IVec S_ 1 := andi main_v62 main_v65
  let main_v67 : FVec F S512x512 .f32 := Host.absf main_arg14
  fn_part4 (F := F) main_arg15 main_arg16 main_arg17 main_arg18 main_arg19 main_arg20 main_arg21 main_arg22 main_arg23 main_arg24 main_v66 main_v67

def fn_part2 {F : FTy → Type} [FloatOps F] (main_arg7 : FVec F S512 .f32) (main_arg8 : FVec F S512 .f32) (main_arg9 : FVec F S_ .f32) (main_arg10 : FVec F S512x512 .f32) (main_arg11 : FVec F S512 .f32) (main_arg12 : FVec F S512 .f32) (main_arg13 : FVec F S_ .f32) (main_arg14 : FVec F S512x512 .f32) (main_arg15 : FVec F S512 .f32) (main_arg16 : FVec F S512 .f32) (main_arg17 : FVec F S_ .f32) (main_arg18 : FVec F S512x512 .f32) (main_arg19 : FVec F S512 .f32) (main_arg20 : FVec F S512 .f32) (main_arg21 : FVec F S_ .f32) (main_arg22 : FVec F S512x512 .f32) (main_arg23 : FVec F S512 .f32) (main_arg24 : FVec F S1x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S_ .f32 := Host.absf main_arg9
  let main_cst_16 : FVec F S_ .f32 := constant S_ .f32 0x7F800000#32
  let main_v45 : IVec S_ 1 := cmpf .olt main_v44 main_cst_16
  let main_c_17 : IVec S_ 1 := constantI S_ 1 1#1
  let main_v46 : IVec S_ 1 := (fun x v => Host.reduce IntOp.andi x v reducesTo_S_S_d h_S_) main_v45 main_c_17
  let main_v47 : IVec S_ 1 := andi main_v43 main_v46
  let main_v48 : FVec F S512x512 .f32 := Host.absf main_arg10
  let main_cst_18 : FVec F S_ .f32 := constant S_ .f32 0x7F800000#32
  let main_v49 : FVec F S512x512 .f32 := broadcastInDim S512x512 ![] bcast_S_S512x512 main_cst_18
  let main_v50 : IVec S512x512 1 := cmpf .olt main_v48 main_v49
  fn_part3 (F := F) main_arg11 main_arg12 main_arg13 main_arg14 main_arg15 main_arg16 main_arg17 main_arg18 main_arg19 main_arg20 main_arg21 main_arg22 main_arg23 main_arg24 main_v47 main_v50

def fn_part1 {F : FTy → Type} [FloatOps F] (main_arg4 : FVec F S4096x4096 .f32) (main_arg5 : FVec F S4096x4096 .f32) (main_arg6 : FVec F S512x512 .f32) (main_arg7 : FVec F S512 .f32) (main_arg8 : FVec F S512 .f32) (main_arg9 : FVec F S_ .f32) (main_arg10 : FVec F S512x512 .f32) (main_arg11 : FVec F S512 .f32) (main_arg12 : FVec F S512 .f32) (main_arg13 : FVec F S_ .f32) (main_arg14 : FVec F S512x512 .f32) (main_arg15 : FVec F S512 .f32) (main_arg16 : FVec F S512 .f32) (main_arg17 : FVec F S_ .f32) (main_arg18 : FVec F S512x512 .f32) (main_arg19 : FVec F S512 .f32) (main_arg20 : FVec F S512 .f32) (main_arg21 : FVec F S_ .f32) (main_arg22 : FVec F S512x512 .f32) (main_arg23 : FVec F S512 .f32) (main_arg24 : FVec F S1x512 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S4096x512 .f32) (main_arg1 : FVec F S4096x512 .f32) (main_arg2 : FVec F S4096x4096 .f32) (main_arg3 : FVec F S4096x4096 .f32) (main_arg4 : FVec F S4096x4096 .f32) (main_arg5 : FVec F S4096x4096 .f32) (main_arg6 : FVec F S512x512 .f32) (main_arg7 : FVec F S512 .f32) (main_arg8 : FVec F S512 .f32) (main_arg9 : FVec F S_ .f32) (main_arg10 : FVec F S512x512 .f32) (main_arg11 : FVec F S512 .f32) (main_arg12 : FVec F S512 .f32) (main_arg13 : FVec F S_ .f32) (main_arg14 : FVec F S512x512 .f32) (main_arg15 : FVec F S512 .f32) (main_arg16 : FVec F S512 .f32) (main_arg17 : FVec F S_ .f32) (main_arg18 : FVec F S512x512 .f32) (main_arg19 : FVec F S512 .f32) (main_arg20 : FVec F S512 .f32) (main_arg21 : FVec F S_ .f32) (main_arg22 : FVec F S512x512 .f32) (main_arg23 : FVec F S512 .f32) (main_arg24 : FVec F S1x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S_ : Shape := ⟨0, ![]⟩
abbrev S1x512 : Shape := ⟨2, ![1, 512]⟩
abbrev S1x1 : Shape := ⟨2, ![1, 1]⟩
abbrev S256x4096 : Shape := ⟨2, ![256, 4096]⟩
abbrev S256x512 : Shape := ⟨2, ![256, 512]⟩
abbrev S1 : Shape := ⟨1, ![1]⟩

abbrev nBuf : Space → Nat
  | .hbm => 60
  | .vmem => 68
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512x512, .f32⟩
  | .hbm, ⟨15, _⟩ => ⟨S512, .f32⟩
  | .hbm, ⟨16, _⟩ => ⟨S512, .f32⟩
  | .hbm, ⟨17, _⟩ => ⟨S_, .f32⟩
  | .hbm, ⟨18, _⟩ => ⟨S512x512, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S512x512, .f32⟩
  | .hbm, ⟨23, _⟩ => ⟨S512, .f32⟩
  | .hbm, ⟨24, _⟩ => ⟨S1x512, .f32⟩
  | .hbm, ⟨25, _⟩ => ⟨S512x512, .f32⟩
  | .hbm, ⟨26, _⟩ => ⟨S512x512, .bf16⟩
  | .hbm, ⟨27, _⟩ => ⟨S1x512, .f32⟩
  | .hbm, ⟨28, _⟩ => ⟨S4096x512, .bf16⟩
  | .hbm, ⟨29, _⟩ => ⟨S512x512, .f32⟩
  | .hbm, ⟨30, _⟩ => ⟨S512x512, .bf16⟩
  | .hbm, ⟨31, _⟩ => ⟨S512x512, .f32⟩
  | .hbm, ⟨32, _⟩ => ⟨S512x512, .bf16⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x1, .f32⟩
  | .hbm, ⟨38, _⟩ => ⟨S1x1, .f32⟩
  | .hbm, ⟨39, _⟩ => ⟨S4096x512, .bf16⟩
  | .hbm, ⟨40, _⟩ => ⟨S4096x512, .bf16⟩
  | .hbm, ⟨41, _⟩ => ⟨S1x512, .f32⟩
  | .hbm, ⟨42, _⟩ => ⟨S1x512, .f32⟩
  | .hbm, ⟨43, _⟩ => ⟨S4096x512, .bf16⟩
  | .hbm, ⟨44, _⟩ => ⟨S512x512, .f32⟩
  | .hbm, ⟨45, _⟩ => ⟨S512x512, .bf16⟩
  | .hbm, ⟨46, _⟩ => ⟨S512x512, .f32⟩
  | .hbm, ⟨47, _⟩ => ⟨S512x512, .bf16⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x1, .f32⟩
  | .hbm, ⟨53, _⟩ => ⟨S1x1, .f32⟩
  | .hbm, ⟨54, _⟩ => ⟨S4096x512, .bf16⟩
  | .hbm, ⟨55, _⟩ => ⟨S4096x512, .bf16⟩
  | .hbm, ⟨56, _⟩ => ⟨S1x512, .f32⟩
  | .hbm, ⟨57, _⟩ => ⟨S1x512, .f32⟩
  | .hbm, ⟨58, _⟩ => ⟨S4096x512, .f32⟩
  | .hbm, ⟨59, _⟩ => ⟨S4096x512, .f32⟩
  | .local _ .vmem, ⟨0, _⟩ => ⟨S4096x512, .bf16⟩
  | .local _ .vmem, ⟨1, _⟩ => ⟨S512x512, .bf16⟩
  | .local _ .vmem, ⟨2, _⟩ => ⟨S512x512, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x1, .f32⟩
  | .local _ .vmem, ⟨8, _⟩ => ⟨S1x1, .f32⟩
  | .local _ .vmem, ⟨9, _⟩ => ⟨S512x512, .bf16⟩
  | .local _ .vmem, ⟨10, _⟩ => ⟨S1x512, .f32⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | .local _ .vmem, ⟨14, _⟩ => ⟨S256x4096, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S1x512, .f32⟩
  | .local _ .vmem, ⟨20, _⟩ => ⟨S1x512, .f32⟩
  | .local _ .vmem, ⟨21, _⟩ => ⟨S4096x512, .bf16⟩
  | .local _ .vmem, ⟨22, _⟩ => ⟨S4096x512, .bf16⟩
  | .local _ .vmem, ⟨23, _⟩ => ⟨S1x512, .f32⟩
  | .local _ .vmem, ⟨24, _⟩ => ⟨S1x512, .f32⟩
  | .local _ .vmem, ⟨25, _⟩ => ⟨S4096x512, .bf16⟩
  | .local _ .vmem, ⟨26, _⟩ => ⟨S512x512, .bf16⟩
  | .local _ .vmem, ⟨27, _⟩ => ⟨S512x512, .bf16⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x1, .f32⟩
  | .local _ .vmem, ⟨33, _⟩ => ⟨S1x1, .f32⟩
  | .local _ .vmem, ⟨34, _⟩ => ⟨S512x512, .bf16⟩
  | .local _ .vmem, ⟨35, _⟩ => ⟨S1x512, .f32⟩
  | .local _ .vmem, ⟨36, _⟩ => ⟨S256x4096, .f32⟩
  | .local _ .vmem, ⟨37, _⟩ => ⟨S256x4096, .f32⟩
  | .local _ .vmem, ⟨38, _⟩ => ⟨S256x4096, .f32⟩
  | .local _ .vmem, ⟨39, _⟩ => ⟨S256x4096, .f32⟩
  | .local _ .vmem, ⟨40, _⟩ => ⟨S256x512, .bf16⟩
  | .local _ .vmem, ⟨41, _⟩ => ⟨S256x512, .bf16⟩
  | .local _ .vmem, ⟨42, _⟩ => ⟨S256x512, .bf16⟩
  | .local _ .vmem, ⟨43, _⟩ => ⟨S256x512, .bf16⟩
  | .local _ .vmem, ⟨44, _⟩ => ⟨S1x512, .f32⟩
  | .local _ .vmem, ⟨45, _⟩ => ⟨S1x512, .f32⟩
  | .local _ .vmem, ⟨46, _⟩ => ⟨S4096x512, .bf16⟩
  | .local _ .vmem, ⟨47, _⟩ => ⟨S4096x512, .bf16⟩
  | .local _ .vmem, ⟨48, _⟩ => ⟨S1x512, .f32⟩
  | .local _ .vmem, ⟨49, _⟩ => ⟨S1x512, .f32⟩
  | .local _ .vmem, ⟨50, _⟩ => ⟨S1x512, .f32⟩
  | .local _ .vmem, ⟨51, _⟩ => ⟨S1x512, .f32⟩
  | .local _ .vmem, ⟨52, _⟩ => ⟨S1x512, .f32⟩
  | .local _ .vmem, ⟨53, _⟩ => ⟨S256x512, .bf16⟩
  | .local _ .vmem, ⟨54, _⟩ => ⟨S256x512, .bf16⟩
  | .local _ .vmem, ⟨55, _⟩ => ⟨S256x512, .bf16⟩
  | .local _ .vmem, ⟨56, _⟩ => ⟨S256x512, .bf16⟩
  | .local _ .vmem, ⟨57, _⟩ => ⟨S256x512, .f32⟩
  | .local _ .vmem, ⟨58, _⟩ => ⟨S256x512, .f32⟩
  | .local _ .vmem, ⟨59, _⟩ => ⟨S1x512, .f32⟩
  | .local _ .vmem, ⟨60, _⟩ => ⟨S1x512, .f32⟩
  | .local _ .vmem, ⟨61, _⟩ => ⟨S1x512, .f32⟩
  | .local _ .vmem, ⟨62, _⟩ => ⟨S256x512, .bf16⟩
  | .local _ .vmem, ⟨63, _⟩ => ⟨S256x512, .bf16⟩
  | .local _ .vmem, ⟨64, _⟩ => ⟨S256x512, .bf16⟩
  | .local _ .vmem, ⟨65, _⟩ => ⟨S256x512, .bf16⟩
  | .local _ .vmem, ⟨66, _⟩ => ⟨S256x512, .f32⟩
  | .local _ .vmem, ⟨67, _⟩ => ⟨S256x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14_0 : Ref sig .tc := ⟨.hbm, 39, rfl⟩
abbrev main_call0_v14_1 : Ref sig .tc := ⟨.hbm, 40, rfl⟩
abbrev main_call0_v14_2 : Ref sig .tc := ⟨.hbm, 41, rfl⟩
abbrev main_call0_v14_3 : Ref sig .tc := ⟨.hbm, 42, rfl⟩
abbrev main_call0_v15 : Ref sig .tc := ⟨.hbm, 43, rfl⟩
abbrev main_call0_v16 : Ref sig .tc := ⟨.hbm, 44, rfl⟩
abbrev main_call0_v17 : Ref sig .tc := ⟨.hbm, 45, rfl⟩
abbrev main_call0_v18 : Ref sig .tc := ⟨.hbm, 46, rfl⟩
abbrev main_call0_v19 : Ref sig .tc := ⟨.hbm, 47, rfl⟩
abbrev main_call0_v20 : Ref sig .tc := ⟨.hbm, 48, rfl⟩
abbrev main_call0_v21 : Ref sig .tc := ⟨.hbm, 49, rfl⟩
abbrev main_call0_v22 : Ref sig .tc := ⟨.hbm, 50, rfl⟩
abbrev main_call0_v23 : Ref sig .tc := ⟨.hbm, 51, rfl⟩
abbrev main_call0_v24 : Ref sig .tc := ⟨.hbm, 52, rfl⟩
abbrev main_call0_v25 : Ref sig .tc := ⟨.hbm, 53, rfl⟩
abbrev main_call0_v26_0 : Ref sig .tc := ⟨.hbm, 54, rfl⟩
abbrev main_call0_v26_1 : Ref sig .tc := ⟨.hbm, 55, rfl⟩
abbrev main_call0_v26_2 : Ref sig .tc := ⟨.hbm, 56, rfl⟩
abbrev main_call0_v26_3 : Ref sig .tc := ⟨.hbm, 57, rfl⟩
abbrev main_v0_0 : Ref sig .tc := ⟨.hbm, 58, rfl⟩
abbrev main_v0_1 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc1_stg0_0 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg10_0 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_stg14_0 : Ref sig .tc := ⟨.vmem, 42, rfl⟩
abbrev cc1_stg14_1 : Ref sig .tc := ⟨.vmem, 43, rfl⟩
abbrev cc1_stg15_0 : Ref sig .tc := ⟨.vmem, 44, rfl⟩
abbrev cc1_stg16_0 : Ref sig .tc := ⟨.vmem, 45, rfl⟩
abbrev cc1_scratch0 : Ref sig .tc := ⟨.vmem, 46, rfl⟩
abbrev cc1_scratch1 : Ref sig .tc := ⟨.vmem, 47, rfl⟩
abbrev cc1_scratch2 : Ref sig .tc := ⟨.vmem, 48, rfl⟩
abbrev cc1_scratch3 : Ref sig .tc := ⟨.vmem, 49, rfl⟩
abbrev cc2_stg0_0 : Ref sig .tc := ⟨.vmem, 50, rfl⟩
abbrev cc2_stg1_0 : Ref sig .tc := ⟨.vmem, 51, rfl⟩
abbrev cc2_stg2_0 : Ref sig .tc := ⟨.vmem, 52, rfl⟩
abbrev cc2_stg3_0 : Ref sig .tc := ⟨.vmem, 53, rfl⟩
abbrev cc2_stg3_1 : Ref sig .tc := ⟨.vmem, 54, rfl⟩
abbrev cc2_stg4_0 : Ref sig .tc := ⟨.vmem, 55, rfl⟩
abbrev cc2_stg4_1 : Ref sig .tc := ⟨.vmem, 56, rfl⟩
abbrev cc2_stg5_0 : Ref sig .tc := ⟨.vmem, 57, rfl⟩
abbrev cc2_stg5_1 : Ref sig .tc := ⟨.vmem, 58, rfl⟩
abbrev cc3_stg0_0 : Ref sig .tc := ⟨.vmem, 59, rfl⟩
abbrev cc3_stg1_0 : Ref sig .tc := ⟨.vmem, 60, rfl⟩
abbrev cc3_stg2_0 : Ref sig .tc := ⟨.vmem, 61, rfl⟩
abbrev cc3_stg3_0 : Ref sig .tc := ⟨.vmem, 62, rfl⟩
abbrev cc3_stg3_1 : Ref sig .tc := ⟨.vmem, 63, rfl⟩
abbrev cc3_stg4_0 : Ref sig .tc := ⟨.vmem, 64, rfl⟩
abbrev cc3_stg4_1 : Ref sig .tc := ⟨.vmem, 65, rfl⟩
abbrev cc3_stg5_0 : Ref sig .tc := ⟨.vmem, 66, rfl⟩
abbrev cc3_stg5_1 : Ref sig .tc := ⟨.vmem, 67, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem16_0 : DmaSem sig := 20
abbrev cc1_sem0_0 : DmaSem sig := 21
abbrev cc1_sem1_0 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem11_1 : DmaSem sig := 33
abbrev cc1_sem12_0 : DmaSem sig := 34
abbrev cc1_sem12_1 : DmaSem sig := 35
abbrev cc1_sem13_0 : DmaSem sig := 36
abbrev cc1_sem13_1 : DmaSem sig := 37
abbrev cc1_sem14_0 : DmaSem sig := 38
abbrev cc1_sem14_1 : DmaSem sig := 39
abbrev cc1_sem15_0 : DmaSem sig := 40
abbrev cc1_sem16_0 : DmaSem sig := 41
abbrev cc2_sem0_0 : DmaSem sig := 42
abbrev cc2_sem1_0 : DmaSem sig := 43
abbrev cc2_sem2_0 : DmaSem sig := 44
abbrev cc2_sem3_0 : DmaSem sig := 45
abbrev cc2_sem3_1 : DmaSem sig := 46
abbrev cc2_sem4_0 : DmaSem sig := 47
abbrev cc2_sem4_1 : DmaSem sig := 48
abbrev cc2_sem5_0 : DmaSem sig := 49
abbrev cc2_sem5_1 : DmaSem sig := 50
abbrev cc3_sem0_0 : DmaSem sig := 51
abbrev cc3_sem1_0 : DmaSem sig := 52
abbrev cc3_sem2_0 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v67 : BitVec 1 := Scalar.cmpi .eq arg0 c15_i32
  let v68 : BitVec 32 := Scalar.extui v67
  let c0_i32_43 : BitVec 32 := 0#32
  let v69 : BitVec 1 := Scalar.cmpi .ne v68 c0_i32_43
  v69

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v67 : BitVec 1 := Scalar.cmpi .eq arg0 c15_i32
  let v68 : BitVec 32 := Scalar.extui v67
  let c0_i32_43 : BitVec 32 := 0#32
  let v69 : BitVec 1 := Scalar.cmpi .ne v68 c0_i32_43
  v69

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S256x4096 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x4096 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S1x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  shapeCasts_S_S1x1 : S_.ShapeCasts S1x1
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  packedbf16_S4096x512_S4096x512_0_0 : (Rect.unit (s := S4096x512) ![0, 0] S4096x512.size inb_S4096x512_S4096x512_0_0).PackedRows (EltTy.packing .bf16)
  inb_S256x4096_S256x4096_0_0 : ∀ a, (![0, 0] : Fin 2 → Nat) a + S256x4096.size a ≤ S256x4096.size a
  h_S256x4096 : 0 < S256x4096.numel
  broadcasts_S1x512_S256x512 : S1x512.Broadcasts S256x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  reduces_S256x512_S512 : S256x512.Reduces [0] S512
  reduces_S1x512_S1 : S1x512.Reduces [1] S1
  shapeCasts_S1_S1x1 : S1.ShapeCasts S1x1
  shapeCasts_S256x512_S256x512 : S256x512.ShapeCasts S256x512
  broadcasts_S1x1_S256x512 : S1x1.Broadcasts S256x512
  dot_S4096x512_S512x512_S4096x512_1_0_0_1_n_n_wf : DotDims.WF S4096x512 S512x512 S4096x512 [1] [0] [0] [1] [] []
  dot_S256x4096_S4096x512_S256x512_1_0_0_1_n_n_wf : DotDims.WF S256x4096 S4096x512 S256x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x4096.size a ≤ S4096x4096.size a
  hwx0_11 : ∀ i : grid0.Coords, EltTy.bits .f32 = 32 ∨ (Rect.block (s := S4096x4096) S256x4096.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x4096.size a ≤ S4096x4096.size a
  hwx0_12 : ∀ i : grid0.Coords, EltTy.bits .f32 = 32 ∨ (Rect.block (s := S4096x4096) S256x4096.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x512.size a ≤ S4096x512.size a
  hwx0_13 : ∀ i : grid0.Coords, EltTy.bits .bf16 = 32 ∨ (Rect.block (s := S4096x512) S256x512.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x512.size a ≤ S4096x512.size a
  hwx0_14 : ∀ i : grid0.Coords, EltTy.bits .bf16 = 32 ∨ (Rect.block (s := S4096x512) S256x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x512.size a ≤ S1x512.size a
  hwx0_15 : ∀ i : grid0.Coords, EltTy.bits .f32 = 32 ∨ (Rect.block (s := S1x512) S1x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x512.size a
  hwx0_16 : ∀ i : grid0.Coords, EltTy.bits .f32 = 32 ∨ (Rect.block (s := S1x512) S1x512.size (cc0_transform_16 i) (hinb0_16 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x512.size a
  hwx1_0 : ∀ i : grid1.Coords, EltTy.bits .bf16 = 32 ∨ (Rect.block (s := S4096x512) S4096x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x512.size a ≤ S512x512.size a
  hwx1_9 : ∀ i : grid1.Coords, EltTy.bits .bf16 = 32 ∨ (Rect.block (s := S512x512) S512x512.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x512.size a ≤ S1x512.size a
  hwx1_10 : ∀ i : grid1.Coords, EltTy.bits .f32 = 32 ∨ (Rect.block (s := S1x512) S1x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S256x4096.size a ≤ S4096x4096.size a
  hwx1_11 : ∀ i : grid1.Coords, EltTy.bits .f32 = 32 ∨ (Rect.block (s := S4096x4096) S256x4096.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S256x4096.size a ≤ S4096x4096.size a
  hwx1_12 : ∀ i : grid1.Coords, EltTy.bits .f32 = 32 ∨ (Rect.block (s := S4096x4096) S256x4096.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S256x512.size a ≤ S4096x512.size a
  hwx1_13 : ∀ i : grid1.Coords, EltTy.bits .bf16 = 32 ∨ (Rect.block (s := S4096x512) S256x512.size (cc1_transform_13 i) (hinb1_13 i)).WholeWords (EltTy.packing .bf16)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S256x512.size a ≤ S4096x512.size a
  hwx1_14 : ∀ i : grid1.Coords, EltTy.bits .bf16 = 32 ∨ (Rect.block (s := S4096x512) S256x512.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x512.size a ≤ S1x512.size a
  hwx1_15 : ∀ i : grid1.Coords, EltTy.bits .f32 = 32 ∨ (Rect.block (s := S1x512) S1x512.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x512.size a ≤ S1x512.size a
  hwx1_16 : ∀ i : grid1.Coords, EltTy.bits .f32 = 32 ∨ (Rect.block (s := S1x512) S1x512.size (cc1_transform_16 i) (hinb1_16 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x512.size a ≤ S1x512.size a
  hwx2_0 : ∀ i : grid2.Coords, EltTy.bits .f32 = 32 ∨ (Rect.block (s := S1x512) S1x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S4096x512.size a
  hwx2_3 : ∀ i : grid2.Coords, EltTy.bits .bf16 = 32 ∨ (Rect.block (s := S4096x512) S256x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x512.size a ≤ S4096x512.size a
  hwx2_4 : ∀ i : grid2.Coords, EltTy.bits .bf16 = 32 ∨ (Rect.block (s := S4096x512) S256x512.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x512.size a ≤ S4096x512.size a
  hwx2_5 : ∀ i : grid2.Coords, EltTy.bits .f32 = 32 ∨ (Rect.block (s := S4096x512) S256x512.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x512.size a ≤ S1x512.size a
  hwx3_0 : ∀ i : grid3.Coords, EltTy.bits .f32 = 32 ∨ (Rect.block (s := S1x512) S1x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x512.size a ≤ S4096x512.size a
  hwx3_3 : ∀ i : grid3.Coords, EltTy.bits .bf16 = 32 ∨ (Rect.block (s := S4096x512) S256x512.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x512.size a ≤ S4096x512.size a
  hwx3_4 : ∀ i : grid3.Coords, EltTy.bits .bf16 = 32 ∨ (Rect.block (s := S4096x512) S256x512.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x512.size a ≤ S4096x512.size a
  hwx3_5 : ∀ i : grid3.Coords, EltTy.bits .f32 = 32 ∨ (Rect.block (s := S4096x512) S256x512.size (cc3_transform_5 i) (hinb3_5 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_call0_v3) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v10) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v11) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v12) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v13) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v1) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v2) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg2) S256x4096.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg3) S256x4096.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_call0_v14_0) S256x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_call0_v14_1) S256x512.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_call0_v14_2) S1x512.size cc0_transform_15 reads0_15 true true 1 stage0_15 sem0_15
    hrank0 hreads0_15 hinb0_15 nbuf0_15 (Memref.isWhole_whole _) hwx0_15 hstage0_15

abbrev win0_16 : Pipeline.Window sig grid0 :=
  Pipeline.Window.ofSpec (Memref.whole main_call0_v14_3) S1x512.size cc0_transform_16 reads0_16 true true 1 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | 16 => fun i => !(k0_cond2 i == 1#1) | ⟨_ + 17, h⟩ => absurd h (Nat.not_lt.2 (Nat.le_add_left _ _))

abbrev win1_0 : Pipeline.Window sig grid1 :=
  Pipeline.Window.ofSpec (Memref.whole main_call0_v15) S4096x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v17) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v19) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v20) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v21) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v22) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v23) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v24) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v25) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v1) S512x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_call0_v2) S1x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg4) S256x4096.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_arg5) S256x4096.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_call0_v26_0) S256x512.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_call0_v26_1) S256x512.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_call0_v26_2) S1x512.size cc1_transform_15 reads1_15 true true 1 stage1_15 sem1_15
    hrank1 hreads1_15 hinb1_15 nbuf1_15 (Memref.isWhole_whole _) hwx1_15 hstage1_15

abbrev win1_16 : Pipeline.Window sig grid1 :=
  Pipeline.Window.ofSpec (Memref.whole main_call0_v26_3) S1x512.size cc1_transform_16 reads1_16 true true 1 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev idle1 : Fin 17 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k1_cond2 i == 1#1) | 16 => fun i => !(k1_cond2 i == 1#1) | ⟨_ + 17, h⟩ => absurd h (Nat.not_lt.2 (Nat.le_add_left _ _))

abbrev win2_0 : Pipeline.Window sig grid2 :=
  Pipeline.Window.ofSpec (Memref.whole main_call0_v14_2) S1x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_call0_v14_3) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg24) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v14_0) S256x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v14_1) S256x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v0_0) S256x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v26_2) S1x512.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_call0_v26_3) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg24) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v26_0) S256x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_call0_v26_1) S256x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v0_1) S256x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S_ : Shape := ⟨0, ![]⟩
abbrev S1x512 : Shape := ⟨2, ![1, 512]⟩
abbrev S512x1 : Shape := ⟨2, ![512, 1]⟩
abbrev S1x1 : Shape := ⟨2, ![1, 1]⟩
abbrev S1 : Shape := ⟨1, ![1]⟩
abbrev S2 : Shape := ⟨1, ![2]⟩

abbrev nBuf : Space → Nat
  | .hbm => 193
  | .vmem => 0
  | .smem => 0
  | _ => 0

abbrev hbmTy0_0 (i : Nat) : BufTy := match i % 128 with
  | 0 => ⟨S4096x512, .f32⟩
  | 1 => ⟨S4096x512, .f32⟩
  | 2 => ⟨S4096x4096, .f32⟩
  | 3 => ⟨S4096x4096, .f32⟩
  | 4 => ⟨S4096x4096, .f32⟩
  | 5 => ⟨S4096x4096, .f32⟩
  | 6 => ⟨S512x512, .f32⟩
  | 7 => ⟨S512, .f32⟩
  | 8 => ⟨S512, .f32⟩
  | 9 => ⟨S_, .f32⟩
  | 10 => ⟨S512x512, .f32⟩
  | 11 => ⟨S512, .f32⟩
  | 12 => ⟨S512, .f32⟩
  | 13 => ⟨S_, .f32⟩
  | 14 => ⟨S512x512, .f32⟩
  | 15 => ⟨S512, .f32⟩
  | 16 => ⟨S512, .f32⟩
  | 17 => ⟨S_, .f32⟩
  | 18 => ⟨S512x512, .f32⟩
  | 19 => ⟨S512, .f32⟩
  | 20 => ⟨S512, .f32⟩
  | 21 => ⟨S_, .f32⟩
  | 22 => ⟨S512x512, .f32⟩
  | 23 => ⟨S512, .f32⟩
  | 24 => ⟨S1x512, .f32⟩
  | 25 => ⟨S512x512, .f32⟩
  | 26 => ⟨S4096x512, .f32⟩
  | 27 => ⟨S1x512, .f32⟩
  | 28 => ⟨S4096x512, .f32⟩
  | 29 => ⟨S4096x512, .f32⟩
  | 30 => ⟨S4096x512, .f32⟩
  | 31 => ⟨S1x512, .f32⟩
  | 32 => ⟨S4096x512, .f32⟩
  | 33 => ⟨S4096x512, .f32⟩
  | 34 => ⟨S_, .f32⟩
  | 35 => ⟨S4096x512, .f32⟩
  | 36 => ⟨S4096x512, .i1⟩
  | 37 => ⟨S4096x512, .f32⟩
  | 38 => ⟨S4096x512, .f32⟩
  | 39 => ⟨S4096x512, .f32⟩
  | 40 => ⟨S512x512, .f32⟩
  | 41 => ⟨S4096x512, .f32⟩
  | 42 => ⟨S1x512, .f32⟩
  | 43 => ⟨S4096x512, .f32⟩
  | 44 => ⟨S4096x512, .f32⟩
  | 45 => ⟨S4096x512, .f32⟩
  | 46 => ⟨S1x512, .f32⟩
  | 47 => ⟨S4096x512, .f32⟩
  | 48 => ⟨S4096x512, .f32⟩
  | 49 => ⟨S_, .f32⟩
  | 50 => ⟨S4096x512, .f32⟩
  | 51 => ⟨S4096x512, .i1⟩
  | 52 => ⟨S4096x512, .f32⟩
  | 53 => ⟨S4096x512, .f32⟩
  | 54 => ⟨S4096x512, .f32⟩
  | 55 => ⟨S512x512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S1x512, .f32⟩
  | 62 => ⟨S4096x512, .f32⟩
  | 63 => ⟨S4096x512, .f32⟩
  | 64 => ⟨S_, .f32⟩
  | 65 => ⟨S4096x512, .f32⟩
  | 66 => ⟨S4096x512, .i1⟩
  | 67 => ⟨S4096x512, .f32⟩
  | 68 => ⟨S4096x512, .f32⟩
  | 69 => ⟨S4096x512, .f32⟩
  | 70 => ⟨S512x512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S1x512, .f32⟩
  | 77 => ⟨S4096x512, .f32⟩
  | 78 => ⟨S4096x512, .f32⟩
  | 79 => ⟨S_, .f32⟩
  | 80 => ⟨S4096x512, .f32⟩
  | 81 => ⟨S4096x512, .i1⟩
  | 82 => ⟨S4096x512, .f32⟩
  | 83 => ⟨S4096x512, .f32⟩
  | 84 => ⟨S4096x512, .f32⟩
  | 85 => ⟨S512x512, .f32⟩
  | 86 => ⟨S4096x512, .f32⟩
  | 87 => ⟨S1x512, .f32⟩
  | 88 => ⟨S4096x512, .f32⟩
  | 89 => ⟨S4096x512, .f32⟩
  | 90 => ⟨S4096x512, .f32⟩
  | 91 => ⟨S_, .f32⟩
  | 92 => ⟨S512, .f32⟩
  | 93 => ⟨S_, .f32⟩
  | 94 => ⟨S512, .f32⟩
  | 95 => ⟨S512, .f32⟩
  | 96 => ⟨S512x1, .f32⟩
  | 97 => ⟨S1x1, .f32⟩
  | 98 => ⟨S1, .f32⟩
  | 99 => ⟨S512x512, .f32⟩
  | 100 => ⟨S4096x512, .f32⟩
  | 101 => ⟨S1x512, .f32⟩
  | 102 => ⟨S4096x512, .f32⟩
  | 103 => ⟨S4096x512, .f32⟩
  | 104 => ⟨S4096x512, .f32⟩
  | 105 => ⟨S_, .f32⟩
  | 106 => ⟨S512, .f32⟩
  | 107 => ⟨S_, .f32⟩
  | 108 => ⟨S512, .f32⟩
  | 109 => ⟨S512, .f32⟩
  | 110 => ⟨S512x1, .f32⟩
  | 111 => ⟨S1x1, .f32⟩
  | 112 => ⟨S1, .f32⟩
  | 113 => ⟨S2, .f32⟩
  | 114 => ⟨S_, .f32⟩
  | 115 => ⟨S_, .f32⟩
  | 116 => ⟨S_, .f32⟩
  | 117 => ⟨S_, .f32⟩
  | 118 => ⟨S1, .f32⟩
  | 119 => ⟨S2, .f32⟩
  | 120 => ⟨S2, .f32⟩
  | 121 => ⟨S2, .f32⟩
  | 122 => ⟨S_, .f32⟩
  | 123 => ⟨S_, .f32⟩
  | 124 => ⟨S1, .f32⟩
  | 125 => ⟨S2, .f32⟩
  | 126 => ⟨S2, .f32⟩
  | 127 => ⟨S_, .f32⟩
  | _ => ⟨S4096x512, .f32⟩

abbrev hbmTy0_1 (i : Nat) : BufTy := match i % 128 with
  | 0 => ⟨S4096x512, .f32⟩
  | 1 => ⟨S1, .f32⟩
  | 2 => ⟨S_, .f32⟩
  | 3 => ⟨S4096x512, .f32⟩
  | 4 => ⟨S4096x512, .f32⟩
  | 5 => ⟨S4096x512, .f32⟩
  | 6 => ⟨S1, .f32⟩
  | 7 => ⟨S_, .f32⟩
  | 8 => ⟨S4096x512, .f32⟩
  | 9 => ⟨S4096x512, .f32⟩
  | 10 => ⟨S4096x512, .f32⟩
  | 11 => ⟨S512x512, .f32⟩
  | 12 => ⟨S4096x512, .f32⟩
  | 13 => ⟨S1x512, .f32⟩
  | 14 => ⟨S4096x512, .f32⟩
  | 15 => ⟨S4096x512, .f32⟩
  | 16 => ⟨S4096x512, .f32⟩
  | 17 => ⟨S_, .f32⟩
  | 18 => ⟨S512, .f32⟩
  | 19 => ⟨S_, .f32⟩
  | 20 => ⟨S512, .f32⟩
  | 21 => ⟨S512, .f32⟩
  | 22 => ⟨S512x1, .f32⟩
  | 23 => ⟨S1x1, .f32⟩
  | 24 => ⟨S1, .f32⟩
  | 25 => ⟨S512x512, .f32⟩
  | 26 => ⟨S4096x512, .f32⟩
  | 27 => ⟨S1x512, .f32⟩
  | 28 => ⟨S4096x512, .f32⟩
  | 29 => ⟨S4096x512, .f32⟩
  | 30 => ⟨S4096x512, .f32⟩
  | 31 => ⟨S_, .f32⟩
  | 32 => ⟨S512, .f32⟩
  | 33 => ⟨S_, .f32⟩
  | 34 => ⟨S512, .f32⟩
  | 35 => ⟨S512, .f32⟩
  | 36 => ⟨S512x1, .f32⟩
  | 37 => ⟨S1x1, .f32⟩
  | 38 => ⟨S1, .f32⟩
  | 39 => ⟨S2, .f32⟩
  | 40 => ⟨S_, .f32⟩
  | 41 => ⟨S_, .f32⟩
  | 42 => ⟨S_, .f32⟩
  | 43 => ⟨S_, .f32⟩
  | 44 => ⟨S1, .f32⟩
  | 45 => ⟨S2, .f32⟩
  | 46 => ⟨S2, .f32⟩
  | 47 => ⟨S2, .f32⟩
  | 48 => ⟨S_, .f32⟩
  | 49 => ⟨S_, .f32⟩
  | 50 => ⟨S1, .f32⟩
  | 51 => ⟨S2, .f32⟩
  | 52 => ⟨S2, .f32⟩
  | 53 => ⟨S_, .f32⟩
  | 54 => ⟨S4096x512, .f32⟩
  | 55 => ⟨S1, .f32⟩
  | 56 => ⟨S_, .f32⟩
  | 57 => ⟨S4096x512, .f32⟩
  | 58 => ⟨S4096x512, .f32⟩
  | 59 => ⟨S4096x512, .f32⟩
  | 60 => ⟨S1, .f32⟩
  | 61 => ⟨S_, .f32⟩
  | 62 => ⟨S4096x512, .f32⟩
  | 63 => ⟨S4096x512, .f32⟩
  | 64 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_0 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_1 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_2 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_3 : Ref sig .tc := ⟨.hbm, 91, rfl⟩
abbrev main_v62 : Ref sig .tc := ⟨.hbm, 92, rfl⟩
abbrev main_cst_4 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_5 : Ref sig .tc := ⟨.hbm, 105, rfl⟩
abbrev main_v74 : Ref sig .tc := ⟨.hbm, 106, rfl⟩
abbrev main_cst_6 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_7 : Ref sig .tc := ⟨.hbm, 114, rfl⟩
abbrev main_v81 : Ref sig .tc := ⟨.hbm, 115, rfl⟩
abbrev main_cst_8 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_9 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_10 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_11 : Ref sig .tc := ⟨.hbm, 145, rfl⟩
abbrev main_v108 : Ref sig .tc := ⟨.hbm, 146, rfl⟩
abbrev main_cst_12 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_13 : Ref sig .tc := ⟨.hbm, 159, rfl⟩
abbrev main_v120 : Ref sig .tc := ⟨.hbm, 160, rfl⟩
abbrev main_cst_14 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_15 : Ref sig .tc := ⟨.hbm, 168, rfl⟩
abbrev main_v127 : Ref sig .tc := ⟨.hbm, 169, rfl⟩
abbrev main_cst_16 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_17 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_18 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  reducesTo_S4096x512_S512_d0 : S4096x512.ReducesTo [0] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  shapeCasts_S1x1_S1 : S1x1.ShapeCasts S1
  concatenates_S1_S1_S2_d0 : Shape.Concatenates [S1, S1] S2 0
  reducesTo_S2_S_d0 : S2.ReducesTo [0] S_
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  slices_S2_S1_1 : S2.Slices ![1] S1
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S1x512_S512x1_S1x1_1_0_0_1_n_n_wf : DotDims.WF S1x512 S512x1 S1x1 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S1x512_S512x1_S1x1_1_0_0_1_n_n : DotDims S1x512 S512x1 S1x1 where
  lhsContracting := [1]
  rhsContracting := [0]
  lhsNonContracting := [0]
  rhsNonContracting := [1]
  lhsBatch := []
  rhsBatch := []
  wf := dot_S1x512_S512x1_S1x1_1_0_0_1_n_n_wf

class Facts : Prop extends Facts₀ where

variable [Facts]
-- ==== Proof.KComb2.lean ====
/- Region 2 of @main: the combine kernel (pipeline 2), at the contents `V` the region is entered with.
   At each of the 16 grid points the body reads the two [1,512] accumulated feature rows, the [1,512]
   attention row and one [256,512] row block of each of the two views, and stores one [256,512] row block
   of the result: the two logits are the lane sums of (attention · feature · 2⁻¹²), the two weights are
   exp(logit − max) times the reciprocal of their sum, and the block is view₁·w₁ + view₂·w₂. Nothing is
   kept between points, so what the body leaves in the output's buffer is one function of the input blocks. -/
import proofs.«122693_g27230092657376_cont_9to1_1130_10_alg».proof.Proof.Gen.Kernel.Launch
import proofs.«122693_g27230092657376_cont_9to1_1130_10_alg».proof.Proof.Gen.Kernel.Skeleton
import proofs.«122693_g27230092657376_cont_9to1_1130_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_row : Rect S1x512 := Rect.unit (s := S1x512) ![0, 0] S1x512.size inb_S1x512_S1x512_0_0
abbrev r2_blk : Rect S256x512 := Rect.unit (s := S256x512) ![0, 0] S256x512.size inb_S256x512_S256x512_0_0

/-- The output window's buffer after the body, from the input windows' blocks: its one store. -/
def out2_5 (x0 x1 x2 : Vec F S1x512 .f32) (x3 x4 : Vec F S256x512 .bf16) : Vec F S256x512 .f32 :=
  View.canon [⟨r2_blk, k2_pay1 (View.ld x2 r2_row) (View.ld x0 r2_row) (View.ld x2 r2_row) (View.ld x1 r2_row) (View.ld x3 r2_blk) (View.ld x4 r2_blk)⟩]

/-- The store covers the buffer. -/
theorem cover2_5 (p0 : Vec F S256x512 .f32) (y : S256x512.Idx) :
    ∃ pc ∈ ([⟨r2_blk, p0⟩] : List (View.Piece (Elt F) S256x512 .f32)), y ∈ pc.1.set :=
  View.cover_of_tiled [⟨r2_blk, p0⟩] S256x512.size (by rfl) y

set_option maxHeartbeats 1000000 in
/-- The body on whole buffers, the inputs' at read contents and the output's at anything, runs to the
    continuation with the inputs' as they were and the output's at `out2_5` of them. -/
theorem sound_kernel2 (c : Dev nD) (E : Set ℕ) (i : grid2.Coords)
    (arg1 : Memref sig .tc .vmem S1x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x512 .f32) (harg6 : arg6.IsWhole)
    (x0 x1 x2 : Vec F S1x512 .f32) (x3 x4 : Vec F S256x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_body i arg1 harg1 arg2 harg2 arg3 harg3 arg4 harg4 arg5 harg5 arg6 harg6) K := by
  simp only [cc2__combine_body_eq_skeleton]; unfold cc2__combine_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t`
    each input's buffer at its block and the output's at `out2_5` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KComb3.lean ====
/- Region 3 of @main: the combine kernel (pipeline 3), at the contents `V` the region is entered with.
   At each of the 16 grid points the body reads the two [1,512] accumulated feature rows, the [1,512]
   attention row and one [256,512] row block of each of the two views, and stores one [256,512] row block
   of the result: the two logits are the lane sums of (attention · feature · 2⁻¹²), the two weights are
   exp(logit − max) times the reciprocal of their sum, and the block is view₁·w₁ + view₂·w₂. Nothing is
   kept between points, so what the body leaves in the output's buffer is one function of the input blocks. -/
import proofs.«122693_g27230092657376_cont_9to1_1130_10_alg».proof.Proof.Gen.Kernel.Launch
import proofs.«122693_g27230092657376_cont_9to1_1130_10_alg».proof.Proof.Gen.Kernel.Skeleton
import proofs.«122693_g27230092657376_cont_9to1_1130_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_row : Rect S1x512 := Rect.unit (s := S1x512) ![0, 0] S1x512.size inb_S1x512_S1x512_0_0
abbrev r3_blk : Rect S256x512 := Rect.unit (s := S256x512) ![0, 0] S256x512.size inb_S256x512_S256x512_0_0

/-- The output window's buffer after the body, from the input windows' blocks: its one store. -/
def out3_5 (x0 x1 x2 : Vec F S1x512 .f32) (x3 x4 : Vec F S256x512 .bf16) : Vec F S256x512 .f32 :=
  View.canon [⟨r3_blk, k3_pay1 (View.ld x2 r3_row) (View.ld x0 r3_row) (View.ld x2 r3_row) (View.ld x1 r3_row) (View.ld x3 r3_blk) (View.ld x4 r3_blk)⟩]

/-- The store covers the buffer. -/
theorem cover3_5 (p0 : Vec F S256x512 .f32) (y : S256x512.Idx) :
    ∃ pc ∈ ([⟨r3_blk, p0⟩] : List (View.Piece (Elt F) S256x512 .f32)), y ∈ pc.1.set :=
  View.cover_of_tiled [⟨r3_blk, p0⟩] S256x512.size (by rfl) y

set_option maxHeartbeats 1000000 in
/-- The body on whole buffers, the inputs' at read contents and the output's at anything, runs to the
    continuation with the inputs' as they were and the output's at `out3_5` of them. -/
theorem sound_kernel3 (c : Dev nD) (E : Set ℕ) (i : grid3.Coords)
    (arg1 : Memref sig .tc .vmem S1x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x512 .f32) (harg6 : arg6.IsWhole)
    (x0 x1 x2 : Vec F S1x512 .f32) (x3 x4 : Vec F S256x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__combine_body i arg1 harg1 arg2 harg2 arg3 harg3 arg4 harg4 arg5 harg5 arg6 harg6) K := by
  simp only [cc3__combine_body_eq_skeleton]; unfold cc3__combine_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body at point `t`
    each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRun.lean ====
/- The whole run of @main: six segments — a stretch of host operations, the first pair region, a second stretch,
   the second pair region, and the two combine regions — composed in order. Between two segments every unscoped
   buffer of a core is held at named contents: the launch memory, then each host stretch's operations applied, then
   after a region its windows' arrays at what the pipeline's write-backs leave (an input window's array as it was)
   and every other buffer as before. The argument arrays are written by no stretch and are output window of no
   region, so the fold read at an argument walks back to the launch memory; the two results are the output arrays
   of the two combine regions. -/
import proofs.«122693_g27230092657376_cont_9to1_1130_10_alg».proof.Proof.KComb2
import proofs.«122693_g27230092657376_cont_9to1_1130_10_alg».proof.Proof.KComb3
import proofs.«122693_g27230092657376_cont_9to1_1130_10_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's TensorCore buffers, as a region's proof data take them. -/
abbrev Entry : Type := (c : Dev nD) → (b : Ref sig .tc) → Buf (Elt F) ((c : Thread nD τ).loc b)

/-- What a pair region supplies, at any entry contents: its proof data, reading its arrays off the entry contents,
    at full shares and owing nothing; the body obligation; and its invariant's two ends — made at the first point of
    the generator register and the scoped buffers no window stages, and giving them back at the last. -/
structure Pair0 where
  dat : (V : Entry (F := F)) → (c : Dev nD) → Dat τ (Elt F) Unit ℕ (UR sig nD τ) ℕ cfg0 c
  hA : ∀ V c w, (dat V c).A w = V c (Pipeline.arrRef spec0 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (iprop((∃ r, prngReg c r) ∗ Pipeline.scopedRest (Ix := Unit) (Name := ℕ) (U := UR sig nD τ) (Lvl := ℕ) (Val := Elt F) spec0 c) : sProp 𝕄) ⊢ (dat V c).Φ 0
  hout : ∀ V c, (dat V c).Φ (Fin.last cfg0.N) ⊢ (iprop((∃ r, prngReg c r) ∗ Pipeline.scopedRest (Ix := Unit) (Name := ℕ) (U := UR sig nD τ) (Lvl := ℕ) (Val := Elt F) spec0 c) : sProp 𝕄)

structure Pair1 where
  dat : (V : Entry (F := F)) → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (iprop((∃ r, prngReg c r) ∗ Pipeline.scopedRest (Ix := Unit) (Name := ℕ) (U := UR sig nD τ) (Lvl := ℕ) (Val := Elt F) spec1 c) : sProp 𝕄) ⊢ (dat V c).Φ 0
  hout : ∀ V c, (dat V c).Φ (Fin.last cfg1.N) ⊢ (iprop((∃ r, prngReg c r) ∗ Pipeline.scopedRest (Ix := Unit) (Name := ℕ) (U := UR sig nD τ) (Lvl := ℕ) (Val := Elt F) spec1 c) : sProp 𝕄)

variable (m : (ℓ : Loc nD τ sig) → Buf (Elt F) ℓ) (P0 : Pair0 (F := F)) (P1 : Pair1 (F := F))

/-! ## The buffer contents at each segment boundary -/

/-- At launch. -/
abbrev W0 : Dev nD → Valuation τ sig (Elt F) := fun c b => m (c, b)
/-- After the first host stretch (the first pair region's entry). -/
abbrev W1 : Dev nD → Valuation τ sig (Elt F) := fun c => StableHlo.after hostOps0 (W0 m c)
abbrev E1 : Entry (F := F) := fun c b => W1 m c b
/-- After the first pair region. -/
def W2 (c : Dev nD) : Valuation τ sig (Elt F) :=
  Pipeline.withArrays spec0 c (W1 m c) fun w => (P0.dat (E1 m) c).arrAt w cfg0.N
/-- After the second host stretch (the second pair region's entry). -/
abbrev W3 : Dev nD → Valuation τ sig (Elt F) := fun c => StableHlo.after hostOps1 (W2 m P0 c)
abbrev E3 : Entry (F := F) := fun c b => W3 m P0 c b
/-- After the second pair region (the first combine region's entry). -/
def W4 (c : Dev nD) : Valuation τ sig (Elt F) :=
  Pipeline.withArrays spec1 c (W3 m P0 c) fun w => (P1.dat (E3 m P0) c).arrAt w cfg1.N
abbrev E4 : Entry (F := F) := fun c b => W4 m P0 P1 c b
/-- After the first combine region (the second one's entry). -/
def W5 (c : Dev nD) : Valuation τ sig (Elt F) :=
  Pipeline.withArrays spec2 c (W4 m P0 P1 c) fun w => (dat2 (E4 m P0 P1) c).arrAt w cfg2.N
abbrev E5 : Entry (F := F) := fun c b => W5 m P0 P1 c b
/-- At the end. -/
def W6 (c : Dev nD) : Valuation τ sig (Elt F) :=
  Pipeline.withArrays spec3 c (W5 m P0 P1 c) fun w => (dat3 (E5 m P0 P1) c).arrAt w cfg3.N

/-! ### A region changes only its output windows' arrays -/

theorem W2_arr (c : Dev nD) (w : Fin cfg0.W) :
    W2 m P0 c (Proc.devRef .tc (Pipeline.arrRef spec0 w)) = (P0.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m P0 c (Proc.devRef .tc b) = W1 m c (Proc.devRef .tc b) := by
  unfold W2; exact Pipeline.withArrays_of_ne spec0 c _ _ b hb
theorem W4_arr (c : Dev nD) (w : Fin cfg1.W) :
    W4 m P0 P1 c (Proc.devRef .tc (Pipeline.arrRef spec1 w)) = (P1.dat (E3 m P0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m P0 P1 c (Proc.devRef .tc b) = W3 m P0 c (Proc.devRef .tc b) := by
  unfold W4; exact Pipeline.withArrays_of_ne spec1 c _ _ b hb
theorem W5_arr (c : Dev nD) (w : Fin cfg2.W) :
    W5 m P0 P1 c (Proc.devRef .tc (Pipeline.arrRef spec2 w)) = (dat2 (E4 m P0 P1) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m P0 P1 c (Proc.devRef .tc b) = W4 m P0 P1 c (Proc.devRef .tc b) := by
  unfold W5; exact Pipeline.withArrays_of_ne spec2 c _ _ b hb
theorem W6_arr (c : Dev nD) (w : Fin cfg3.W) :
    W6 m P0 P1 c (Proc.devRef .tc (Pipeline.arrRef spec3 w)) = (dat3 (E5 m P0 P1) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m P0 P1 c (Proc.devRef .tc b) = W5 m P0 P1 c (Proc.devRef .tc b) := by
  unfold W6; exact Pipeline.withArrays_of_ne spec3 c _ _ b hb

/-- A buffer that is no OUTPUT window's array of the first pair region is left as entered: an input window's array is
    never written back, and the rest is not the region's. -/
theorem W2_keep (c : Dev nD) (b : Ref sig .tc) (hb : ∀ w, (cfg0.win w).isOut = true → Pipeline.arrRef spec0 w ≠ b) :
    W2 m P0 c (Proc.devRef .tc b) = W1 m c (Proc.devRef .tc b) := by
  by_cases h : ∃ w, Pipeline.arrRef spec0 w = b
  · obtain ⟨w, rfl⟩ := h
    have hin : (cfg0.win w).isOut = false := by
      cases hio : (cfg0.win w).isOut
      · rfl
      · exact absurd rfl (hb w hio)
    exact (W2_arr m P0 c w).trans (((P0.dat (E1 m) c).arrAt_in w hin _).trans (P0.hA (E1 m) c w))
  · exact W2_of_ne m P0 c b fun w e => h ⟨w, e⟩
theorem W4_keep (c : Dev nD) (b : Ref sig .tc) (hb : ∀ w, (cfg1.win w).isOut = true → Pipeline.arrRef spec1 w ≠ b) :
    W4 m P0 P1 c (Proc.devRef .tc b) = W3 m P0 c (Proc.devRef .tc b) := by
  by_cases h : ∃ w, Pipeline.arrRef spec1 w = b
  · obtain ⟨w, rfl⟩ := h
    have hin : (cfg1.win w).isOut = false := by
      cases hio : (cfg1.win w).isOut
      · rfl
      · exact absurd rfl (hb w hio)
    exact (W4_arr m P0 P1 c w).trans (((P1.dat (E3 m P0) c).arrAt_in w hin _).trans (P1.hA (E3 m P0) c w))
  · exact W4_of_ne m P0 P1 c b fun w e => h ⟨w, e⟩
theorem W5_keep (c : Dev nD) (b : Ref sig .tc) (hb : ∀ w, (cfg2.win w).isOut = true → Pipeline.arrRef spec2 w ≠ b) :
    W5 m P0 P1 c (Proc.devRef .tc b) = W4 m P0 P1 c (Proc.devRef .tc b) := by
  by_cases h : ∃ w, Pipeline.arrRef spec2 w = b
  · obtain ⟨w, rfl⟩ := h
    have hin : (cfg2.win w).isOut = false := by
      cases hio : (cfg2.win w).isOut
      · rfl
      · exact absurd rfl (hb w hio)
    exact (W5_arr m P0 P1 c w).trans (((dat2 (E4 m P0 P1) c).arrAt_in w hin _).trans (A_eq2 (E4 m P0 P1) c w))
  · exact W5_of_ne m P0 P1 c b fun w e => h ⟨w, e⟩
theorem W6_keep (c : Dev nD) (b : Ref sig .tc) (hb : ∀ w, (cfg3.win w).isOut = true → Pipeline.arrRef spec3 w ≠ b) :
    W6 m P0 P1 c (Proc.devRef .tc b) = W5 m P0 P1 c (Proc.devRef .tc b) := by
  by_cases h : ∃ w, Pipeline.arrRef spec3 w = b
  · obtain ⟨w, rfl⟩ := h
    have hin : (cfg3.win w).isOut = false := by
      cases hio : (cfg3.win w).isOut
      · rfl
      · exact absurd rfl (hb w hio)
    exact (W6_arr m P0 P1 c w).trans (((dat3 (E5 m P0 P1) c).arrAt_in w hin _).trans (A_eq3 (E5 m P0 P1) c w))
  · exact W6_of_ne m P0 P1 c b fun w e => h ⟨w, e⟩

/-- A buffer no host stretch writes and no region has as an output window's array ends as launched. -/
theorem W6_launch (c : Dev nD) (b : Ref sig .tc) (h0 : b ∉ hostOps0_W) (h1 : b ∉ hostOps1_W)
    (o0 : ∀ w, (cfg0.win w).isOut = true → Pipeline.arrRef spec0 w ≠ b) (o1 : ∀ w, (cfg1.win w).isOut = true → Pipeline.arrRef spec1 w ≠ b)
    (o2 : ∀ w, (cfg2.win w).isOut = true → Pipeline.arrRef spec2 w ≠ b) (o3 : ∀ w, (cfg3.win w).isOut = true → Pipeline.arrRef spec3 w ≠ b) :
    W6 m P0 P1 c (Proc.devRef .tc b) = m ((c : Thread nD τ).loc b) :=
  (W6_keep m P0 P1 c b o3).trans <| (W5_keep m P0 P1 c b o2).trans <| (W4_keep m P0 P1 c b o1).trans <|
    (StableHlo.after_of_writes_sub hostOps1 _ hostOps1_writes h1).trans <| (W2_keep m P0 c b o0).trans <|
    (StableHlo.after_of_writes_sub hostOps0 _ hostOps0_writes h0).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => P0.dat (E1 m) c
  | ⟨1, _⟩ => fun c => P1.dat (E3 m P0) c
  | ⟨2, _⟩ => fun c => dat2 (E4 m P0 P1) c
  | ⟨3, _⟩ => fun c => dat3 (E5 m P0 P1) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m P0 P1 c) ∗ ∃ r, prngReg c r)

/-! ### The proof data's facts, pipeline by pipeline -/

theorem hA0 (c : Dev nD) (w : Fin cfg0.W) : (pdats m P0 P1 0 c).A w = W1 m c (Proc.devRef .tc (Pipeline.arrRef spec0 w)) := P0.hA (E1 m) c w
theorem hA1 (c : Dev nD) (w : Fin cfg1.W) : (pdats m P0 P1 1 c).A w = W3 m P0 c (Proc.devRef .tc (Pipeline.arrRef spec1 w)) := P1.hA (E3 m P0) c w
theorem hA2 (c : Dev nD) (w : Fin cfg2.W) : (pdats m P0 P1 2 c).A w = W4 m P0 P1 c (Proc.devRef .tc (Pipeline.arrRef spec2 w)) := A_eq2 (E4 m P0 P1) c w
theorem hA3 (c : Dev nD) (w : Fin cfg3.W) : (pdats m P0 P1 3 c).A w = W5 m P0 P1 c (Proc.devRef .tc (Pipeline.arrRef spec3 w)) := A_eq3 (E5 m P0 P1) c w
theorem hq0 (c : Dev nD) (w : Fin cfg0.W) : (pdats m P0 P1 0 c).q w = fullShare := P0.hq (E1 m) c w
theorem hq1 (c : Dev nD) (w : Fin cfg1.W) : (pdats m P0 P1 1 c).q w = fullShare := P1.hq (E3 m P0) c w
theorem hq2 (c : Dev nD) (w : Fin cfg2.W) : (pdats m P0 P1 2 c).q w = fullShare := rfl
theorem hq3 (c : Dev nD) (w : Fin cfg3.W) : (pdats m P0 P1 3 c).q w = fullShare := rfl
theorem howed0 (c : Dev nD) (t) : (pdats m P0 P1 0 c).owed t = 0 := P0.howed (E1 m) c t
theorem howed1 (c : Dev nD) (t) : (pdats m P0 P1 1 c).owed t = 0 := P1.howed (E3 m P0) c t
theorem howed2 (c : Dev nD) (t) : (pdats m P0 P1 2 c).owed t = 0 := rfl
theorem howed3 (c : Dev nD) (t) : (pdats m P0 P1 3 c).owed t = 0 := rfl

theorem hrec0 (c : Dev nD) (t) : (pdats m P0 P1 0 c).recorded t = Set.univ := P0.hrec (E1 m) c t
theorem hrec1 (c : Dev nD) (t) : (pdats m P0 P1 1 c).recorded t = Set.univ := P1.hrec (E3 m P0) c t
theorem hrec2 (c : Dev nD) (t) : (pdats m P0 P1 2 c).recorded t = Set.univ := rfl
theorem hrec3 (c : Dev nD) (t) : (pdats m P0 P1 3 c).recorded t = Set.univ := rfl

theorem hF0 (c : Dev nD) (w : Fin cfg0.W) : (pdats m P0 P1 0 c).arrAt w cfg0.N = W2 m P0 c (Proc.devRef .tc (Pipeline.arrRef spec0 w)) := (W2_arr m P0 c w).symm
theorem hrest0 (c : Dev nD) : ∀ b, b ∉ Finset.univ.image (Pipeline.arrRef spec0) → W2 m P0 c (Proc.devRef .tc b) = W1 m c (Proc.devRef .tc b) :=
  fun b hb => W2_of_ne m P0 c b fun w e => hb (Finset.mem_image.mpr ⟨w, Finset.mem_univ _, e⟩)
theorem hF1 (c : Dev nD) (w : Fin cfg1.W) : (pdats m P0 P1 1 c).arrAt w cfg1.N = W4 m P0 P1 c (Proc.devRef .tc (Pipeline.arrRef spec1 w)) := (W4_arr m P0 P1 c w).symm
theorem hrest1 (c : Dev nD) : ∀ b, b ∉ Finset.univ.image (Pipeline.arrRef spec1) → W4 m P0 P1 c (Proc.devRef .tc b) = W3 m P0 c (Proc.devRef .tc b) :=
  fun b hb => W4_of_ne m P0 P1 c b fun w e => hb (Finset.mem_image.mpr ⟨w, Finset.mem_univ _, e⟩)
theorem hF2 (c : Dev nD) (w : Fin cfg2.W) : (pdats m P0 P1 2 c).arrAt w cfg2.N = W5 m P0 P1 c (Proc.devRef .tc (Pipeline.arrRef spec2 w)) := (W5_arr m P0 P1 c w).symm
theorem hrest2 (c : Dev nD) : ∀ b, b ∉ Finset.univ.image (Pipeline.arrRef spec2) → W5 m P0 P1 c (Proc.devRef .tc b) = W4 m P0 P1 c (Proc.devRef .tc b) :=
  fun b hb => W5_of_ne m P0 P1 c b fun w e => hb (Finset.mem_image.mpr ⟨w, Finset.mem_univ _, e⟩)
theorem hF3 (c : Dev nD) (w : Fin cfg3.W) : (pdats m P0 P1 3 c).arrAt w cfg3.N = W6 m P0 P1 c (Proc.devRef .tc (Pipeline.arrRef spec3 w)) := (W6_arr m P0 P1 c w).symm
theorem hrest3 (c : Dev nD) : ∀ b, b ∉ Finset.univ.image (Pipeline.arrRef spec3) → W6 m P0 P1 c (Proc.devRef .tc b) = W5 m P0 P1 c (Proc.devRef .tc b) :=
  fun b hb => W6_of_ne m P0 P1 c b fun w e => hb (Finset.mem_image.mpr ⟨w, Finset.mem_univ _, e⟩)

/-! ## The regions as segments -/

set_option backward.isDefEq.respectTransparency.types false in
/-- Region 0 over the thread state: entered from every unscoped buffer at the boundary's contents, left with the
    region's arrays at what the pipeline leaves and every other buffer as entered; the generator register goes into
    the invariant and comes back; nothing owed; no semaphore of the kernel's own. -/
def reg0 : Pipeline.RegionSeg (pcfgs (F := F)) adm (pdats m P0 P1) () defs₀ 𝒱₀ L lv 0 where
  win := launch0.win.to₀
  block_pos := launch0.block_pos
  stage_whole := launch0.stage_whole
  K := PEmpty
  osem k := k.elim
  ho := Pipeline.OwnSemFacts.none _
  hbody c := (P0.hbody (E1 m) c).loose
  hwaits := Pipeline.hwaits_of_owed_zero _ _ _ _ L lv 0 fun c t => howed0 m P0 P1 c t
  pre c := iprop(StableHlo.held (c : Thread nD τ) (Pipeline.ucRefs τ sig) (W1 m c) ∗ R c)
  post c := iprop(StableHlo.held (c : Thread nD τ) (Pipeline.ucRefs τ sig) (W2 m P0 c) ∗ R c)
  X c := iprop(∃ r, prngReg c r)
  Y c := iprop(∃ r, prngReg c r)
  Z c := Pipeline.unscopedRest (Ix := Unit) (Name := ℕ) (U := UR sig nD τ) (Lvl := ℕ) spec0 c (fun b => W1 m c b)
  hentry c := by
    rw [Pipeline.ownSems0_none]
    have hsplit := Pipeline.arrays_of_unscopedBufs (p := 0) (pcfgs (F := F)) adm (pdats m P0 P1) launch0.win launch0.arr_whole c
      ((pdats m P0 P1 0 c).share_full fun w => hq0 m P0 P1 c w) (fun b => W1 m c b) fun w => hA0 m P0 P1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed0 m P0 P1 c 0]
      icases HO with ⟨%W, HO⟩; iexists W; isplitr; · ipureintro; exact fun x _ => Or.inl (by rw [hrec0 m P0 P1 c 0]; trivial)
      iexact HO
    isplitl [Hp]; · iexact Hp
    iexact Hrest
  hin c := by
    rw [show (pdats m P0 P1 0 c).Φ 0 = (P0.dat (E1 m) c).Φ 0 from rfl]
    iintro ⟨Hp, -, Hr⟩
    iapply (P0.hin (E1 m) c)
    isplitl [Hp]; · iexact Hp
    iexact Hr
  hout c := by
    rw [Pipeline.ownSems0_none, show (pdats m P0 P1 0 c).Φ (Fin.last _) = (P0.dat (E1 m) c).Φ (Fin.last cfg0.N) from rfl]
    iintro HΦ
    ihave H := (P0.hout (E1 m) c) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m P0 P1) ((pdats m P0 P1 0 c).share_full fun w => hq0 m P0 P1 c w)
      (fun b => W1 m c b) (fun b => W2 m P0 c b) ((pdats m P0 P1 0 c).arrAt · cfg0.N) (hF0 m P0 P1 c) (hrest0 m P0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed0 m P0 P1 c (Fin.last _)]
    icases HO with ⟨%W, -, HO⟩; iexists W; iexact HO

set_option backward.isDefEq.respectTransparency.types false in
/-- Region 1 over the thread state: entered from every unscoped buffer at the boundary's contents, left with the
    region's arrays at what the pipeline leaves and every other buffer as entered; the generator register goes into
    the invariant and comes back; nothing owed; no semaphore of the kernel's own. -/
def reg1 : Pipeline.RegionSeg (pcfgs (F := F)) adm (pdats m P0 P1) () defs₀ 𝒱₀ L lv 1 where
  win := launch1.win.to₀
  block_pos := launch1.block_pos
  stage_whole := launch1.stage_whole
  K := PEmpty
  osem k := k.elim
  ho := Pipeline.OwnSemFacts.none _
  hbody c := (P1.hbody (E3 m P0) c).loose
  hwaits := Pipeline.hwaits_of_owed_zero _ _ _ _ L lv 1 fun c t => howed1 m P0 P1 c t
  pre c := iprop(StableHlo.held (c : Thread nD τ) (Pipeline.ucRefs τ sig) (W3 m P0 c) ∗ R c)
  post c := iprop(StableHlo.held (c : Thread nD τ) (Pipeline.ucRefs τ sig) (W4 m P0 P1 c) ∗ R c)
  X c := iprop(∃ r, prngReg c r)
  Y c := iprop(∃ r, prngReg c r)
  Z c := Pipeline.unscopedRest (Ix := Unit) (Name := ℕ) (U := UR sig nD τ) (Lvl := ℕ) spec1 c (fun b => W3 m P0 c b)
  hentry c := by
    rw [Pipeline.ownSems0_none]
    have hsplit := Pipeline.arrays_of_unscopedBufs (p := 1) (pcfgs (F := F)) adm (pdats m P0 P1) launch1.win launch1.arr_whole c
      ((pdats m P0 P1 1 c).share_full fun w => hq1 m P0 P1 c w) (fun b => W3 m P0 c b) fun w => hA1 m P0 P1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed1 m P0 P1 c 0]
      icases HO with ⟨%W, HO⟩; iexists W; isplitr; · ipureintro; exact fun x _ => Or.inl (by rw [hrec1 m P0 P1 c 0]; trivial)
      iexact HO
    isplitl [Hp]; · iexact Hp
    iexact Hrest
  hin c := by
    rw [show (pdats m P0 P1 1 c).Φ 0 = (P1.dat (E3 m P0) c).Φ 0 from rfl]
    iintro ⟨Hp, -, Hr⟩
    iapply (P1.hin (E3 m P0) c)
    isplitl [Hp]; · iexact Hp
    iexact Hr
  hout c := by
    rw [Pipeline.ownSems0_none, show (pdats m P0 P1 1 c).Φ (Fin.last _) = (P1.dat (E3 m P0) c).Φ (Fin.last cfg1.N) from rfl]
    iintro HΦ
    ihave H := (P1.hout (E3 m P0) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m P0 P1) ((pdats m P0 P1 1 c).share_full fun w => hq1 m P0 P1 c w)
      (fun b => W3 m P0 c b) (fun b => W4 m P0 P1 c b) ((pdats m P0 P1 1 c).arrAt · cfg1.N) (hF1 m P0 P1 c) (hrest1 m P0 P1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed1 m P0 P1 c (Fin.last _)]
    icases HO with ⟨%W, -, HO⟩; iexists W; iexact HO

set_option backward.isDefEq.respectTransparency.types false in
/-- Region 2 over the thread state: entered from every unscoped buffer at the boundary's contents, left with the
    region's arrays at what the pipeline leaves and every other buffer as entered; the generator register goes into
    the invariant and comes back; nothing owed; no semaphore of the kernel's own. -/
def reg2 : Pipeline.RegionSeg (pcfgs (F := F)) adm (pdats m P0 P1) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m P0 P1) c).loose
  hwaits := Pipeline.hwaits_of_owed_zero _ _ _ _ L lv 2 fun c t => howed2 m P0 P1 c t
  pre c := iprop(StableHlo.held (c : Thread nD τ) (Pipeline.ucRefs τ sig) (W4 m P0 P1 c) ∗ R c)
  post c := iprop(StableHlo.held (c : Thread nD τ) (Pipeline.ucRefs τ sig) (W5 m P0 P1 c) ∗ R c)
  X c := iprop(∃ r, prngReg c r)
  Y c := iprop(∃ r, prngReg c r)
  Z c := Pipeline.unscopedRest (Ix := Unit) (Name := ℕ) (U := UR sig nD τ) (Lvl := ℕ) spec2 c (fun b => W4 m P0 P1 c b)
  hentry c := by
    rw [Pipeline.ownSems0_none]
    have hsplit := Pipeline.arrays_of_unscopedBufs (p := 2) (pcfgs (F := F)) adm (pdats m P0 P1) launch2.win launch2.arr_whole c
      ((pdats m P0 P1 2 c).share_full fun w => hq2 m P0 P1 c w) (fun b => W4 m P0 P1 c b) fun w => hA2 m P0 P1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed2 m P0 P1 c 0]
      icases HO with ⟨%W, HO⟩; iexists W; isplitr; · ipureintro; exact fun x _ => Or.inl (by rw [hrec2 m P0 P1 c 0]; trivial)
      iexact HO
    isplitl [Hp]; · iexact Hp
    iexact Hrest
  hin c := by
    rw [show (pdats m P0 P1 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m P0 P1 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m P0 P1) ((pdats m P0 P1 2 c).share_full fun w => hq2 m P0 P1 c w)
      (fun b => W4 m P0 P1 c b) (fun b => W5 m P0 P1 c b) ((pdats m P0 P1 2 c).arrAt · cfg2.N) (hF2 m P0 P1 c) (hrest2 m P0 P1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed2 m P0 P1 c (Fin.last _)]
    icases HO with ⟨%W, -, HO⟩; iexists W; iexact HO

set_option backward.isDefEq.respectTransparency.types false in
/-- Region 3 over the thread state: entered from every unscoped buffer at the boundary's contents, left with the
    region's arrays at what the pipeline leaves and every other buffer as entered; the generator register goes into
    the invariant and comes back; nothing owed; no semaphore of the kernel's own. -/
def reg3 : Pipeline.RegionSeg (pcfgs (F := F)) adm (pdats m P0 P1) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E5 m P0 P1) c).loose
  hwaits := Pipeline.hwaits_of_owed_zero _ _ _ _ L lv 3 fun c t => howed3 m P0 P1 c t
  pre c := iprop(StableHlo.held (c : Thread nD τ) (Pipeline.ucRefs τ sig) (W5 m P0 P1 c) ∗ R c)
  post c := iprop(Tₙ m P0 P1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (fun b => W5 m P0 P1 c b)
  hentry c := by
    rw [Pipeline.ownSems0_none]
    have hsplit := Pipeline.arrays_of_unscopedBufs (p := 3) (pcfgs (F := F)) adm (pdats m P0 P1) launch3.win launch3.arr_whole c
      ((pdats m P0 P1 3 c).share_full fun w => hq3 m P0 P1 c w) (fun b => W5 m P0 P1 c b) fun w => hA3 m P0 P1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed3 m P0 P1 c 0]
      icases HO with ⟨%W, HO⟩; iexists W; isplitr; · ipureintro; exact fun x _ => Or.inl (by rw [hrec3 m P0 P1 c 0]; trivial)
      iexact HO
    isplitl [Hp]; · iexact Hp
    iexact Hrest
  hin c := by
    rw [show (pdats m P0 P1 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m P0 P1 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m P0 P1) ((pdats m P0 P1 3 c).share_full fun w => hq3 m P0 P1 c w)
      (fun b => W5 m P0 P1 c b) (fun b => W6 m P0 P1 c b) ((pdats m P0 P1 3 c).arrAt · cfg3.N) (hF3 m P0 P1 c) (hrest3 m P0 P1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [howed3 m P0 P1 c (Fin.last _)]
    icases HO with ⟨%W, -, HO⟩; iexists W; iexact HO

/-! ## @main as segments, and the launch -/

abbrev segs : List (Pipeline.Seg (pcfgs (F := F)) adm (pdats m P0 P1) () defs₀ 𝒱₀ L lv) :=
  [ .host (hseg hostOps0 hostOps0_sub hostOps0_fresh (W0 m)),
    .region (reg0 m P0 P1),
    .host (hseg hostOps1 hostOps1_sub hostOps1_fresh (W2 m P0)),
    .region (reg1 m P0 P1),
    .region (reg2 m P0 P1),
    .region (reg3 m P0 P1) ]
theorem main_run (c : Dev nD) : main (F := F) c = Pipeline.Seg.run (segs m P0 P1) := (main_chain c).trans (by chain_rfl)

set_option backward.isDefEq.respectTransparency.types false in
/-- From any memory with zero counters every weakly fair execution of @main terminates, nothing faulting, and every
    final state holds each unscoped buffer of each core at the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m P0 P1 c b) :=
  Pipeline.θ_run_regions_kit (pcfgs (F := F)) adm (pdats m P0 P1) () cellOf_inj emb₁ defs₀ 𝒱₀ L lv m ρ main (segs m P0 P1)
    (fun c Q => by rw [main_run m P0 P1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m P0 P1)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m P0 P1 c b)
    (hfin := fun c s' => by
      iintro ⟨⟨Hh, -⟩, HSI⟩
      unfold StableHlo.held
      imodintro
      iapply (pointsTo_read_all (Pipeline.ucRefs τ sig) (fun b => (((c : Thread nD τ)).1, b)) (W6 m P0 P1 c) s')
      isplitl [Hh] <;> iassumption)
    (hQ := fun s h c => h c)

end Cert.Kernel.Hand

end
-- ==== Proof.KPost.lean ====
/- What the run leaves: each argument array as launched — no host stretch writes it and no region has it as an
   output window's array — and each of the two results at what its combine region's write-backs leave. -/
import proofs.«122693_g27230092657376_cont_9to1_1130_10_alg».proof.Proof.KRun

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (P0 : Pair0 (F := F)) (P1 : Pair1 (F := F))

/-- The first result is the first combine region's output array: the second combine region does not have it as a window. -/
theorem W6_res0 (c : Dev nD) : W6 m P0 P1 c (Proc.devRef .tc main_v0_0) = (dat2 (E4 m P0 P1) c).arrAt 5 cfg2.N :=
  (W6_of_ne m P0 P1 c main_v0_0 (by decide)).trans (W5_arr m P0 P1 c 5)
/-- The second result is the second combine region's output array. -/
theorem W6_res1 (c : Dev nD) : W6 m P0 P1 c (Proc.devRef .tc main_v0_1) = (dat3 (E5 m P0 P1) c).arrAt 5 cfg3.N :=
  W6_arr m P0 P1 c 5

/-- The run with its results named and its arguments unchanged. -/
theorem run_post (ρ : Dev nD → PrngReg) : θ_run defs (onTc (τ := τ) (main (F := F))) ⟨m, fun _ => 0, ρ⟩ (fun r => ∀ c : Dev nD,
      r.2.mem ((c.tc : Thread nD τ).loc main_v0_0) = (dat2 (E4 m P0 P1) c).arrAt 5 cfg2.N
      ∧ r.2.mem ((c.tc : Thread nD τ).loc main_v0_1) = (dat3 (E5 m P0 P1) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_v0_0 (by decide))).trans (W6_res0 m P0 P1 c),
      (h c _ (mem_uc main_v0_1 (by decide))).trans (W6_res1 m P0 P1 c),
      (h c _ (mem_uc main_arg0 (by decide))).trans (W6_launch m P0 P1 c main_arg0 (by decide) (by decide) (by decide) (by decide) (by decide) (by decide)),
      (h c _ (mem_uc main_arg1 (by decide))).trans (W6_launch m P0 P1 c main_arg1 (by decide) (by decide) (by decide) (by decide) (by decide) (by decide)),
      (h c _ (mem_uc main_arg2 (by decide))).trans (W6_launch m P0 P1 c main_arg2 (by decide) (by decide) (by decide) (by decide) (by decide) (by decide)),
      (h c _ (mem_uc main_arg3 (by decide))).trans (W6_launch m P0 P1 c main_arg3 (by decide) (by decide) (by decide) (by decide) (by decide) (by decide)),
      (h c _ (mem_uc main_arg4 (by decide))).trans (W6_launch m P0 P1 c main_arg4 (by decide) (by decide) (by decide) (by decide) (by decide) (by decide)),
      (h c _ (mem_uc main_arg5 (by decide))).trans (W6_launch m P0 P1 c main_arg5 (by decide) (by decide) (by decide) (by decide) (by decide) (by decide)),
      (h c _ (mem_uc main_arg6 (by decide))).trans (W6_launch m P0 P1 c main_arg6 (by decide) (by decide) (by decide) (by decide) (by decide) (by decide)),
      (h c _ (mem_uc main_arg7 (by decide))).trans (W6_launch m P0 P1 c main_arg7 (by decide) (by decide) (by decide) (by decide) (by decide) (by decide)),
      (h c _ (mem_uc main_arg8 (by decide))).trans (W6_launch m P0 P1 c main_arg8 (by decide) (by decide) (by decide) (by decide) (by decide) (by decide)),
      (h c _ (mem_uc main_arg9 (by decide))).trans (W6_launch m P0 P1 c main_arg9 (by decide) (by decide) (by decide) (by decide) (by decide) (by decide)),
      (h c _ (mem_uc main_arg10 (by decide))).trans (W6_launch m P0 P1 c main_arg10 (by decide) (by decide) (by decide) (by decide) (by decide) (by decide)),
      (h c _ (mem_uc main_arg11 (by decide))).trans (W6_launch m P0 P1 c main_arg11 (by decide) (by decide) (by decide) (by decide) (by decide) (by decide)),
      (h c _ (mem_uc main_arg12 (by decide))).trans (W6_launch m P0 P1 c main_arg12 (by decide) (by decide) (by decide) (by decide) (by decide) (by decide)),
      (h c _ (mem_uc main_arg13 (by decide))).trans (W6_launch m P0 P1 c main_arg13 (by decide) (by decide) (by decide) (by decide) (by decide) (by decide)),
      (h c _ (mem_uc main_arg14 (by decide))).trans (W6_launch m P0 P1 c main_arg14 (by decide) (by decide) (by decide) (by decide) (by decide) (by decide)),
      (h c _ (mem_uc main_arg15 (by decide))).trans (W6_launch m P0 P1 c main_arg15 (by decide) (by decide) (by decide) (by decide) (by decide) (by decide)),
      (h c _ (mem_uc main_arg16 (by decide))).trans (W6_launch m P0 P1 c main_arg16 (by decide) (by decide) (by decide) (by decide) (by decide) (by decide)),
      (h c _ (mem_uc main_arg17 (by decide))).trans (W6_launch m P0 P1 c main_arg17 (by decide) (by decide) (by decide) (by decide) (by decide) (by decide)),
      (h c _ (mem_uc main_arg18 (by decide))).trans (W6_launch m P0 P1 c main_arg18 (by decide) (by decide) (by decide) (by decide) (by decide) (by decide)),
      (h c _ (mem_uc main_arg19 (by decide))).trans (W6_launch m P0 P1 c main_arg19 (by decide) (by decide) (by decide) (by decide) (by decide) (by decide)),
      (h c _ (mem_uc main_arg20 (by decide))).trans (W6_launch m P0 P1 c main_arg20 (by decide) (by decide) (by decide) (by decide) (by decide) (by decide)),
      (h c _ (mem_uc main_arg21 (by decide))).trans (W6_launch m P0 P1 c main_arg21 (by decide) (by decide) (by decide) (by decide) (by decide) (by decide)),
      (h c _ (mem_uc main_arg22 (by decide))).trans (W6_launch m P0 P1 c main_arg22 (by decide) (by decide) (by decide) (by decide) (by decide) (by decide)),
      (h c _ (mem_uc main_arg23 (by decide))).trans (W6_launch m P0 P1 c main_arg23 (by decide) (by decide) (by decide) (by decide) (by decide) (by decide)),
      (h c _ (mem_uc main_arg24 (by decide))).trans (W6_launch m P0 P1 c main_arg24 (by decide) (by decide) (by decide) (by decide) (by decide) (by decide))⟩)
    (run m P0 P1 ρ)

include P0 P1 in
/-- The frame: every weakly fair execution terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => (h c).2.2) (run_post m P0 P1 ρ)

end Cert.Kernel.Hand

end
-- ==== Proof.KPair0a.lean ====
/-
  The first pair kernel's region: vocabulary shared by the three control cases of its body.

  The body runs at the sixteen points of a one-axis grid. At the first point it fills two
  whole-array buffers with the projected features  emb · Wᵀ + b  (rounded to bf16) of the two
  views and zeroes two row accumulators; at every point it multiplies one block of 256 rows of
  each adjacency matrix by the projected features, adds the bias, applies the parametric
  rectifier, stores the block (rounded to bf16) and adds the column sums of
  tanh(block · W_slaᵀ + b_sla) to the accumulators; at the last point it copies the accumulators
  out. Every access is of a whole buffer, through the rectangle at offset zero.
-/
import proofs.«122693_g27230092657376_cont_9to1_1130_10_alg».proof.Proof.Gen.Kernel.Launch
import proofs.«122693_g27230092657376_cont_9to1_1130_10_alg».proof.Proof.Gen.Kernel.Skeleton
import proofs.«122693_g27230092657376_cont_9to1_1130_10_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses -/

/-- Both offsets of a whole-buffer access of a matrix are zero. -/
theorem hz0_2 : (![0, 0] : Fin 2 → Nat) = fun _ => 0 := by funext a; fin_cases a <;> rfl

/-- A buffer whose LAST store was of the whole shape reads that store's value, whatever it held
    before and whatever was stored earlier: the whole-shape rectangle covers every index. -/
theorem read_writes_unit_zero {S : Shape} {e : EltTy} {sig' : RefSig} {κ : Kind} {sp : Space}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-! ## The two conditionals, as functions of the grid point -/

/-- The first conditional tests whether the grid coordinate is zero: it holds at the first point only. -/
abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second tests whether it is fifteen: it holds at the last point only. -/
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

/-! ## Where the two accumulator outputs are idle

The accumulator outputs (windows 15 and 16) are stored at the last point only; before it the body
does not touch their buffers and the pipeline does not write them back. -/

theorem idleAt0_15 : ∀ t : Fin cfg0.N, ¬cond0_1 (grid0.coords t) → cfg0.idle 15 (grid0.coords t) = true := by decide +kernel
theorem noFlush0_15 : ∀ t : Fin cfg0.N, ¬cond0_1 (grid0.coords t) → (cfg0.win 15).flush t = false := by decide +kernel
theorem liveAt0_15 : ∀ t : Fin cfg0.N, cond0_1 (grid0.coords t) → cfg0.idle 15 (grid0.coords t) = false := by decide +kernel
theorem idleAt0_16 : ∀ t : Fin cfg0.N, ¬cond0_1 (grid0.coords t) → cfg0.idle 16 (grid0.coords t) = true := by decide +kernel
theorem noFlush0_16 : ∀ t : Fin cfg0.N, ¬cond0_1 (grid0.coords t) → (cfg0.win 16).flush t = false := by decide +kernel
theorem liveAt0_16 : ∀ t : Fin cfg0.N, cond0_1 (grid0.coords t) → cfg0.idle 16 (grid0.coords t) = false := by decide +kernel

end Cert.Kernel.Hand

end
-- ==== Proof.KPair0b.lean ====
/-
  The first pair kernel's body at its three kinds of grid point.

  FIRST point: both projected-feature buffers are computed from the embedding, the two weight
  matrices and their biases and stored; the accumulators are zeroed; then the point's block of each
  view is computed and stored and its column sums are added to the (zero) accumulators.
  MIDDLE point: the projected-feature buffers are read as the first point left them, the point's
  block of each view is computed and stored, and its column sums are added to the running
  accumulators. At both, the accumulator outputs are not touched.
  LAST point: as at a middle point, and then the two running accumulators are copied into the
  accumulator outputs.
-/
import proofs.«122693_g27230092657376_cont_9to1_1130_10_alg».proof.Proof.KPair0a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- What a stored-into buffer reads at the end: the run's names for the loaded values opened, a
    load of a buffer at named contents reads them, a load after a whole-buffer store reads the
    stored value, and the buffer reads its last whole-buffer store. -/
local macro "pay_close" : tactic => `(tactic| (
  sl_unfold_words
  simp only [read_writes_unit_zero (S := S4096x512) _ _ hz0_2, read_writes_unit_zero (S := S512x512) _ _ hz0_2, read_writes_unit_zero (S := S1x512) _ _ hz0_2, read_writes_unit_zero (S := S1x1) _ _ hz0_2, read_writes_unit_zero (S := S256x4096) _ _ hz0_2, read_writes_unit_zero (S := S256x512) _ _ hz0_2,
    View.readCov_cons_toLoadRect, View.readAt_eq_ld, Memref.IsWhole.read_unread,
    View.ld_unit_zero (S := S4096x512) hz0_2, View.ld_unit_zero (S := S512x512) hz0_2, View.ld_unit_zero (S := S1x512) hz0_2, View.ld_unit_zero (S := S1x1) hz0_2, View.ld_unit_zero (S := S256x4096) hz0_2, View.ld_unit_zero (S := S256x512) hz0_2]))

set_option maxHeartbeats 4000000 in
/-- On whole buffers — the thirteen inputs at contents `x1 … x13`, the view outputs and the four
    scratch buffers at anything, the accumulator outputs at contents handed back untouched — the
    body at the first point runs to the continuation holding the inputs as they were, each view
    output at its block, the projected features and the first accumulator values in the scratch. -/
theorem sound_kernel0_A (c : Dev nD) (E : Set ℕ) (i : grid0.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : cond0_0 i) (hc1 : ¬cond0_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (xi16 : Vec F S1x512 .f32) (xi17 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ owns (c : Thread nD τ) arg16 fullShare xi16
        ∗ owns (c : Thread nD τ) arg17 fullShare xi17
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k0_pay6 x12 (k0_pay1 x1 x2 x4) x6 x8)
            ∗ owns (c : Thread nD τ) arg15 fullShare (k0_pay10 (k0_pay7 x13 (k0_pay2 x1 x3 x5) x7) (k0_pay8 x13 (k0_pay2 x1 x3 x5) x7) (k0_pay9 x9))
            ∗ owns (c : Thread nD τ) arg16 fullShare xi16
            ∗ owns (c : Thread nD τ) arg17 fullShare xi17
            ∗ owns (c : Thread nD τ) arg18 fullShare (k0_pay1 x1 x2 x4)
            ∗ owns (c : Thread nD τ) arg19 fullShare (k0_pay2 x1 x3 x5)
            ∗ owns (c : Thread nD τ) arg20 fullShare (k0_pay11 (k0_pay6 x12 (k0_pay1 x1 x2 x4) x6 x8) x10 x11 (k0_pay3 (F := F)))
            ∗ owns (c : Thread nD τ) arg21 fullShare (k0_pay12 (k0_pay7 x13 (k0_pay2 x1 x3 x5) x7) (k0_pay8 x13 (k0_pay2 x1 x3 x5) x7) (k0_pay9 x9) x10 x11 (k0_pay5 (k0_pay4 (F := F))))) -∗ K ⟨⟩))
      ⊢ wp frame (wpE (defs₀ (F := F)) Variants.none c none) E (cc0__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__pair_body_eq_skeleton]; unfold cc0__pair_body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16; obtain rfl := harg17.eq_unread hf17
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr; · ipureintro; exact harg16.read_unread _
    iexact H16
  isplitl [H17]
  · iexists _; isplitr; · ipureintro; exact harg17.read_unread _
    iexact H17
  isplitl [H18]
  · iexists _; isplitr
    swap; · iexact H18
    ipureintro
    pay_close
  isplitl [H19]
  · iexists _; isplitr
    swap; · iexact H19
    ipureintro
    pay_close
  isplitl [H20]
  · iexists _; isplitr
    swap; · iexact H20
    ipureintro
    pay_close
  iexists _; isplitr
  swap; · iexact H21
  ipureintro
  pay_close

set_option maxHeartbeats 4000000 in
/-- On whole buffers — the inputs at `x1 … x13`, the view outputs at anything, the accumulator
    outputs at contents handed back untouched, the scratch at the projected features `h1`, `h2`
    and the running sums `a1`, `a2` — the body at a middle point runs to the continuation holding
    the inputs and the projected features as they were, each view output at its block and the
    running sums advanced by the point's column sums. -/
theorem sound_kernel0_B (c : Dev nD) (E : Set ℕ) (i : grid0.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : ¬cond0_0 i) (hc1 : ¬cond0_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (xi16 : Vec F S1x512 .f32) (xi17 : Vec F S1x512 .f32) (h1 : Vec F S4096x512 .bf16) (h2 : Vec F S4096x512 .bf16) (a1 : Vec F S1x512 .f32) (a2 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ owns (c : Thread nD τ) arg16 fullShare xi16
        ∗ owns (c : Thread nD τ) arg17 fullShare xi17
        ∗ owns (c : Thread nD τ) arg18 fullShare h1
        ∗ owns (c : Thread nD τ) arg19 fullShare h2
        ∗ owns (c : Thread nD τ) arg20 fullShare a1
        ∗ owns (c : Thread nD τ) arg21 fullShare a2
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k0_pay6 x12 h1 x6 x8)
            ∗ owns (c : Thread nD τ) arg15 fullShare (k0_pay10 (k0_pay7 x13 h2 x7) (k0_pay8 x13 h2 x7) (k0_pay9 x9))
            ∗ owns (c : Thread nD τ) arg16 fullShare xi16
            ∗ owns (c : Thread nD τ) arg17 fullShare xi17
            ∗ owns (c : Thread nD τ) arg18 fullShare h1
            ∗ owns (c : Thread nD τ) arg19 fullShare h2
            ∗ owns (c : Thread nD τ) arg20 fullShare (k0_pay11 (k0_pay6 x12 h1 x6 x8) x10 x11 a1)
            ∗ owns (c : Thread nD τ) arg21 fullShare (k0_pay12 (k0_pay7 x13 h2 x7) (k0_pay8 x13 h2 x7) (k0_pay9 x9) x10 x11 a2)) -∗ K ⟨⟩))
      ⊢ wp frame (wpE (defs₀ (F := F)) Variants.none c none) E (cc0__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__pair_body_eq_skeleton]; unfold cc0__pair_body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16; obtain rfl := harg17.eq_unread hf17; obtain rfl := harg18.eq_unread hf18; obtain rfl := harg19.eq_unread hf19; obtain rfl := harg20.eq_unread hf20; obtain rfl := harg21.eq_unread hf21
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr
    swap; · iexact H20
    ipureintro
    pay_close
  iexists _; isplitr
  swap; · iexact H21
  ipureintro
  pay_close

set_option maxHeartbeats 4000000 in
/-- The same at the last point, the accumulator outputs now taken at anything and left at the
    advanced running sums. -/
theorem sound_kernel0_C (c : Dev nD) (E : Set ℕ) (i : grid0.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : ¬cond0_0 i) (hc1 : cond0_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (h1 : Vec F S4096x512 .bf16) (h2 : Vec F S4096x512 .bf16) (a1 : Vec F S1x512 .f32) (a2 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ owns (c : Thread nD τ) arg18 fullShare h1
        ∗ owns (c : Thread nD τ) arg19 fullShare h2
        ∗ owns (c : Thread nD τ) arg20 fullShare a1
        ∗ owns (c : Thread nD τ) arg21 fullShare a2
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k0_pay6 x12 h1 x6 x8)
            ∗ owns (c : Thread nD τ) arg15 fullShare (k0_pay10 (k0_pay7 x13 h2 x7) (k0_pay8 x13 h2 x7) (k0_pay9 x9))
            ∗ owns (c : Thread nD τ) arg16 fullShare (k0_pay11 (k0_pay6 x12 h1 x6 x8) x10 x11 a1)
            ∗ owns (c : Thread nD τ) arg17 fullShare (k0_pay12 (k0_pay7 x13 h2 x7) (k0_pay8 x13 h2 x7) (k0_pay9 x9) x10 x11 a2)
            ∗ owns (c : Thread nD τ) arg18 fullShare h1
            ∗ owns (c : Thread nD τ) arg19 fullShare h2
            ∗ owns (c : Thread nD τ) arg20 fullShare (k0_pay11 (k0_pay6 x12 h1 x6 x8) x10 x11 a1)
            ∗ owns (c : Thread nD τ) arg21 fullShare (k0_pay12 (k0_pay7 x13 h2 x7) (k0_pay8 x13 h2 x7) (k0_pay9 x9) x10 x11 a2)) -∗ K ⟨⟩))
      ⊢ wp frame (wpE (defs₀ (F := F)) Variants.none c none) E (cc0__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__pair_body_eq_skeleton]; unfold cc0__pair_body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg18.eq_unread hf18; obtain rfl := harg19.eq_unread hf19; obtain rfl := harg20.eq_unread hf20; obtain rfl := harg21.eq_unread hf21
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr
    swap; · iexact H16
    ipureintro
    pay_close
  isplitl [H17]
  · iexists _; isplitr
    swap; · iexact H17
    ipureintro
    pay_close
  isplitl [H18]
  · iexists _; isplitr; · ipureintro; exact harg18.read_unread _
    iexact H18
  isplitl [H19]
  · iexists _; isplitr; · ipureintro; exact harg19.read_unread _
    iexact H19
  isplitl [H20]
  · iexists _; isplitr
    swap; · iexact H20
    ipureintro
    pay_close
  iexists _; isplitr
  swap; · iexact H21
  ipureintro
  pay_close

end Cert.Kernel.Hand

end
-- ==== Proof.KPair0e.lean ====
/-
  The pair kernel's region: what its buffers hold point by point, and the body's obligation.

  Stated at a parameter `V`, the contents of the core's buffers when the region is entered.
  Eleven of the thirteen inputs (the embedding, the weights, the biases, the rectifier slopes)
  are one block each, the same at every point; the two adjacency matrices are cut into sixteen
  blocks of 256 rows. With  h₁, h₂  the projected features computed at the first point, the point
  t  stores the view blocks  view₁ t = prelu(adj₁[t] · h₁ + bias₁),  view₂ t  likewise, and the
  accumulators after it are  acc t = acc (t-1) + colsum(tanh(view t · W_slaᵀ + b_sla)),  from zero.
-/
import proofs.«122693_g27230092657376_cont_9to1_1130_10_alg».proof.Proof.KPair0b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds its block at every point, whether the point fetched it or the
    block index has not moved since the point that did — for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-! ## What the body computes -/

/-- The projected features of the first view,  emb · W₁ᵀ + b₁  rounded to bf16: computed at the first point. -/
def hbuf0_1 (c : Dev nD) : Vec F S4096x512 .bf16 := k0_pay1 (iblk0 V c 0 t0_0) (iblk0 V c 1 t0_0) (iblk0 V c 3 t0_0)
/-- The projected features of the second view. -/
def hbuf0_2 (c : Dev nD) : Vec F S4096x512 .bf16 := k0_pay2 (iblk0 V c 0 t0_0) (iblk0 V c 2 t0_0) (iblk0 V c 4 t0_0)
/-- The first view's block at point `t`: the point's 256 adjacency rows times the projected features,
    plus the bias, through the parametric rectifier, rounded to bf16. -/
def view0_1 (c : Dev nD) (t : Fin cfg0.N) : Vec F S256x512 .bf16 :=
  k0_pay6 (iblk0 V c 11 t) (hbuf0_1 V c) (iblk0 V c 5 t) (iblk0 V c 7 t)
/-- The second view's block at point `t`. -/
def view0_2 (c : Dev nD) (t : Fin cfg0.N) : Vec F S256x512 .bf16 :=
  k0_pay10 (k0_pay7 (iblk0 V c 12 t) (hbuf0_2 V c) (iblk0 V c 6 t)) (k0_pay8 (iblk0 V c 12 t) (hbuf0_2 V c) (iblk0 V c 6 t)) (k0_pay9 (iblk0 V c 8 t))
/-- One step of the first accumulator: `a` plus the column sums of tanh(view₁ t · W_slaᵀ + b_sla). -/
def step0_1 (c : Dev nD) (t : Fin cfg0.N) (a : Vec F S1x512 .f32) : Vec F S1x512 .f32 :=
  k0_pay11 (k0_pay6 (iblk0 V c 11 t) (hbuf0_1 V c) (iblk0 V c 5 t) (iblk0 V c 7 t)) (iblk0 V c 9 t) (iblk0 V c 10 t) a
/-- One step of the second accumulator. -/
def step0_2 (c : Dev nD) (t : Fin cfg0.N) (a : Vec F S1x512 .f32) : Vec F S1x512 .f32 :=
  k0_pay12 (k0_pay7 (iblk0 V c 12 t) (hbuf0_2 V c) (iblk0 V c 6 t)) (k0_pay8 (iblk0 V c 12 t) (hbuf0_2 V c) (iblk0 V c 6 t)) (k0_pay9 (iblk0 V c 8 t)) (iblk0 V c 9 t) (iblk0 V c 10 t) a

/-- The first accumulator after point `n`: from zero, one step per point. -/
def acc0_1 (c : Dev nD) : (n : ℕ) → n < cfg0.N → Vec F S1x512 .f32
  | 0, hn => step0_1 V c ⟨0, hn⟩ (k0_pay3 (F := F))
  | n + 1, hn => step0_1 V c ⟨n + 1, hn⟩ (acc0_1 c n (Nat.lt_of_succ_lt hn))
/-- The second accumulator after point `n`. -/
def acc0_2 (c : Dev nD) : (n : ℕ) → n < cfg0.N → Vec F S1x512 .f32
  | 0, hn => step0_2 V c ⟨0, hn⟩ (k0_pay5 (k0_pay4 (F := F)))
  | n + 1, hn => step0_2 V c ⟨n + 1, hn⟩ (acc0_2 c n (Nat.lt_of_succ_lt hn))

theorem acc0_1_zero (c : Dev nD) (t : Fin cfg0.N) (hz : t.val = 0) : acc0_1 V c t.val t.isLt = step0_1 V c t (k0_pay3 (F := F)) := by
  obtain ⟨n, hn⟩ := t
  cases n with
  | zero => rfl
  | succ n => exact absurd hz (Nat.succ_ne_zero n)
theorem acc0_2_zero (c : Dev nD) (t : Fin cfg0.N) (hz : t.val = 0) : acc0_2 V c t.val t.isLt = step0_2 V c t (k0_pay5 (k0_pay4 (F := F))) := by
  obtain ⟨n, hn⟩ := t
  cases n with
  | zero => rfl
  | succ n => exact absurd hz (Nat.succ_ne_zero n)
theorem acc0_1_pos (c : Dev nD) (t : Fin cfg0.N) (hz : t.val ≠ 0) :
    acc0_1 V c t.val t.isLt = step0_1 V c t (acc0_1 V c (t.val - 1) (Nat.lt_of_le_of_lt (Nat.sub_le _ _) t.isLt)) := by
  obtain ⟨n, hn⟩ := t
  cases n with
  | zero => exact absurd rfl hz
  | succ n => rfl
theorem acc0_2_pos (c : Dev nD) (t : Fin cfg0.N) (hz : t.val ≠ 0) :
    acc0_2 V c t.val t.isLt = step0_2 V c t (acc0_2 V c (t.val - 1) (Nat.lt_of_le_of_lt (Nat.sub_le _ _) t.isLt)) := by
  obtain ⟨n, hn⟩ := t
  cases n with
  | zero => exact absurd rfl hz
  | succ n => rfl

/-! ## The region's invariant -/

/-- The four scratch operands: whole scoped buffers of the kernel's own. -/
abbrev scM0_0 : Memref sig .tc .vmem S4096x512 .bf16 := Memref.whole cc0_scratch0
abbrev scM0_1 : Memref sig .tc .vmem S4096x512 .bf16 := Memref.whole cc0_scratch1
abbrev scM0_2 : Memref sig .tc .vmem S1x512 .f32 := Memref.whole cc0_scratch2
abbrev scM0_3 : Memref sig .tc .vmem S1x512 .f32 := Memref.whole cc0_scratch3

/-- Before point `n`: at the first point the four scratch buffers hold anything; afterwards the two
    feature buffers hold the projected features and the two accumulators what point `n - 1` left.
    Beside them ride the core's other scoped buffers, unopened, and the generator register. -/
def Phi0 (c : Dev nD) : (n : ℕ) → n ≤ cfg0.N → sProp 𝕄
  | 0, _ => iprop((∃ d, owns (c : Thread nD τ) scM0_0 fullShare d) ∗ (∃ d, owns (c : Thread nD τ) scM0_1 fullShare d)
      ∗ (∃ d, owns (c : Thread nD τ) scM0_2 fullShare d) ∗ (∃ d, owns (c : Thread nD τ) scM0_3 fullShare d)
      ∗ Pipeline.scopedRestBut spec0 c [cc0_scratch0, cc0_scratch1, cc0_scratch2, cc0_scratch3] ∗ (∃ r, prngReg c r))
  | n + 1, hn => iprop(owns (c : Thread nD τ) scM0_0 fullShare (hbuf0_1 V c) ∗ owns (c : Thread nD τ) scM0_1 fullShare (hbuf0_2 V c)
      ∗ owns (c : Thread nD τ) scM0_2 fullShare (acc0_1 V c n hn) ∗ owns (c : Thread nD τ) scM0_3 fullShare (acc0_2 V c n hn)
      ∗ Pipeline.scopedRestBut spec0 c [cc0_scratch0, cc0_scratch1, cc0_scratch2, cc0_scratch3] ∗ (∃ r, prngReg c r))

theorem Phi0_zero (c : Dev nD) (n : ℕ) (h : n ≤ cfg0.N) (hz : n = 0) :
    Phi0 V c n h = iprop((∃ d, owns (c : Thread nD τ) scM0_0 fullShare d) ∗ (∃ d, owns (c : Thread nD τ) scM0_1 fullShare d)
      ∗ (∃ d, owns (c : Thread nD τ) scM0_2 fullShare d) ∗ (∃ d, owns (c : Thread nD τ) scM0_3 fullShare d)
      ∗ Pipeline.scopedRestBut spec0 c [cc0_scratch0, cc0_scratch1, cc0_scratch2, cc0_scratch3] ∗ (∃ r, prngReg c r)) := by
  subst hz; rfl
theorem Phi0_succ (c : Dev nD) (n : ℕ) (hn : n < cfg0.N) :
    Phi0 V c (n + 1) hn = iprop(owns (c : Thread nD τ) scM0_0 fullShare (hbuf0_1 V c) ∗ owns (c : Thread nD τ) scM0_1 fullShare (hbuf0_2 V c)
      ∗ owns (c : Thread nD τ) scM0_2 fullShare (acc0_1 V c n hn) ∗ owns (c : Thread nD τ) scM0_3 fullShare (acc0_2 V c n hn)
      ∗ Pipeline.scopedRestBut spec0 c [cc0_scratch0, cc0_scratch1, cc0_scratch2, cc0_scratch3] ∗ (∃ r, prngReg c r)) := rfl
theorem Phi0_pos (c : Dev nD) (n : ℕ) (h : n ≤ cfg0.N) (hz : n ≠ 0) :
    Phi0 V c n h = iprop(owns (c : Thread nD τ) scM0_0 fullShare (hbuf0_1 V c) ∗ owns (c : Thread nD τ) scM0_1 fullShare (hbuf0_2 V c)
      ∗ owns (c : Thread nD τ) scM0_2 fullShare (acc0_1 V c (n - 1) (by omega)) ∗ owns (c : Thread nD τ) scM0_3 fullShare (acc0_2 V c (n - 1) (by omega))
      ∗ Pipeline.scopedRestBut spec0 c [cc0_scratch0, cc0_scratch1, cc0_scratch2, cc0_scratch3] ∗ (∃ r, prngReg c r)) := by
  cases n with
  | zero => exact absurd rfl hz
  | succ n => rfl

/-! ## The proof data -/

/-- The proof data of the pair kernel's pipeline on core `c`: the arrays as the region finds them;
    after the body at point `t` each input's buffer at its block, the view outputs' at the point's
    view blocks, the accumulator outputs' at the accumulators after `t` (read at the last point
    only: before it those windows are idle); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => view0_1 V c t
    | ⟨14, _⟩ => view0_2 V c t
    | ⟨15, _⟩ => acc0_1 V c t.val t.isLt
    | ⟨16, _⟩ => acc0_2 V c t.val t.isLt
    | ⟨_ + 17, h⟩ => absurd h (Nat.not_lt.2 (Nat.le_add_left _ _))
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = view0_1 V c t := by dsimp only [dat0]
theorem after0_14 (c : Dev nD) (t : Fin cfg0.N) : (dat0 V c).after 14 t = view0_2 V c t := by dsimp only [dat0]
theorem after0_15 (c : Dev nD) (t : Fin cfg0.N) : (dat0 V c).after 15 t = acc0_1 V c t.val t.isLt := by dsimp only [dat0]
theorem after0_16 (c : Dev nD) (t : Fin cfg0.N) : (dat0 V c).after 16 t = acc0_2 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t
    ∗ (dat0 V c).leavesExact 16 t)

set_option maxHeartbeats 8000000 in
/-- The body at any point. The inputs' buffers hold their blocks; the point decides the case. At the
    first point the scratch is taken at anything and left at the projected features and the first
    accumulator values; at a later point it is taken at what the point before left and the
    accumulators advance by one step; at the last point the accumulator outputs, until then handed
    back as found, receive the final accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  rw [show (dat0 V c).leavesExact 7 t = owns (c : Thread nD τ) (st0_7 t) fullShare ((dat0 V c).after 7 t) from by
    unfold Dat.leavesExact; rw [liveAt0_7 t], after0_7]
  rw [show (dat0 V c).leavesExact 8 t = owns (c : Thread nD τ) (st0_8 t) fullShare ((dat0 V c).after 8 t) from by
    unfold Dat.leavesExact; rw [liveAt0_8 t], after0_8]
  rw [show (dat0 V c).leavesExact 9 t = owns (c : Thread nD τ) (st0_9 t) fullShare ((dat0 V c).after 9 t) from by
    unfold Dat.leavesExact; rw [liveAt0_9 t], after0_9]
  rw [show (dat0 V c).leavesExact 10 t = owns (c : Thread nD τ) (st0_10 t) fullShare ((dat0 V c).after 10 t) from by
    unfold Dat.leavesExact; rw [liveAt0_10 t], after0_10]
  rw [show (dat0 V c).leavesExact 11 t = owns (c : Thread nD τ) (st0_11 t) fullShare ((dat0 V c).after 11 t) from by
    unfold Dat.leavesExact; rw [liveAt0_11 t], after0_11]
  rw [show (dat0 V c).leavesExact 12 t = owns (c : Thread nD τ) (st0_12 t) fullShare ((dat0 V c).after 12 t) from by
    unfold Dat.leavesExact; rw [liveAt0_12 t], after0_12]
  rw [show (dat0 V c).leavesExact 13 t = owns (c : Thread nD τ) (st0_13 t) fullShare ((dat0 V c).after 13 t) from by
    unfold Dat.leavesExact; rw [liveAt0_13 t], after0_13]
  rw [show (dat0 V c).leavesExact 14 t = owns (c : Thread nD τ) (st0_14 t) fullShare ((dat0 V c).after 14 t) from by
    unfold Dat.leavesExact; rw [liveAt0_14 t], after0_14]
  have hN : t.val < 16 := lt_of_lt_of_eq t.isLt (show cfg0.N = 16 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 15 t (idleAt0_15 t hc1) (noFlush0_15 t hc1),
      Dat.leavesExact_idle (dat0 V c) 16 t (idleAt0_16 t hc1) (noFlush0_16 t hc1)]
    rw [Phi0_castSucc V c t, Phi0_zero V c _ _ h0, acc0_1_zero V c t h0, acc0_2_zero V c t h0]
    obtain rfl : t = t0_0 := Fin.ext h0
    unfold view0_1 view0_2 step0_1 step0_2 hbuf0_1 hbuf0_2
    iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_kernel0_A c Set.univ (grid0.coords t0_0) (win0_0.stage (cfg0.slots t0_0 0)) (hstage0_0 ((cfg0.slots t0_0 0).cast nbuf0_0)) (win0_1.stage (cfg0.slots t0_0 1)) (hstage0_1 ((cfg0.slots t0_0 1).cast nbuf0_1)) (win0_2.stage (cfg0.slots t0_0 2)) (hstage0_2 ((cfg0.slots t0_0 2).cast nbuf0_2)) (win0_3.stage (cfg0.slots t0_0 3)) (hstage0_3 ((cfg0.slots t0_0 3).cast nbuf0_3)) (win0_4.stage (cfg0.slots t0_0 4)) (hstage0_4 ((cfg0.slots t0_0 4).cast nbuf0_4)) (win0_5.stage (cfg0.slots t0_0 5)) (hstage0_5 ((cfg0.slots t0_0 5).cast nbuf0_5)) (win0_6.stage (cfg0.slots t0_0 6)) (hstage0_6 ((cfg0.slots t0_0 6).cast nbuf0_6)) (win0_7.stage (cfg0.slots t0_0 7)) (hstage0_7 ((cfg0.slots t0_0 7).cast nbuf0_7)) (win0_8.stage (cfg0.slots t0_0 8)) (hstage0_8 ((cfg0.slots t0_0 8).cast nbuf0_8)) (win0_9.stage (cfg0.slots t0_0 9)) (hstage0_9 ((cfg0.slots t0_0 9).cast nbuf0_9)) (win0_10.stage (cfg0.slots t0_0 10)) (hstage0_10 ((cfg0.slots t0_0 10).cast nbuf0_10)) (win0_11.stage (cfg0.slots t0_0 11)) (hstage0_11 ((cfg0.slots t0_0 11).cast nbuf0_11)) (win0_12.stage (cfg0.slots t0_0 12)) (hstage0_12 ((cfg0.slots t0_0 12).cast nbuf0_12)) (win0_13.stage (cfg0.slots t0_0 13)) (hstage0_13 ((cfg0.slots t0_0 13).cast nbuf0_13)) (win0_14.stage (cfg0.slots t0_0 14)) (hstage0_14 ((cfg0.slots t0_0 14).cast nbuf0_14)) (win0_15.stage (cfg0.slots t0_0 15)) (hstage0_15 ((cfg0.slots t0_0 15).cast nbuf0_15)) (win0_16.stage (cfg0.slots t0_0 16)) (hstage0_16 ((cfg0.slots t0_0 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) hc0 hc1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0) (iblk0 V c 9 t0_0) (iblk0 V c 10 t0_0) (iblk0 V c 11 t0_0) (iblk0 V c 12 t0_0) ((dat0 V c).before 15 t0_0 d15) ((dat0 V c).before 16 t0_0 d16) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexact H15
    isplitl [H16]; · iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hrest Hg]
    · isplitl [HS0]; · iexact HS0
      isplitl [HS1]; · iexact HS1
      isplitl [HS2]; · iexact HS2
      isplitl [HS3]; · iexact HS3
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexists _; iexact H16
  · by_cases h1 : t.val = 15
    · have hc0 : ¬cond0_0 (grid0.coords t) := fun h => h0 ((hcond0_0 t).mp h)
      have hc1 : cond0_1 (grid0.coords t) := (hcond0_1 t).mpr h1
      rw [show (dat0 V c).leavesExact 15 t = owns (c : Thread nD τ) (st0_15 t) fullShare ((dat0 V c).after 15 t) from by
        unfold Dat.leavesExact; rw [liveAt0_15 t hc1], after0_15]
      rw [show (dat0 V c).leavesExact 16 t = owns (c : Thread nD τ) (st0_16 t) fullShare ((dat0 V c).after 16 t) from by
        unfold Dat.leavesExact; rw [liveAt0_16 t hc1], after0_16]
      rw [Phi0_castSucc V c t, Phi0_pos V c _ _ h0, acc0_1_pos V c t h0, acc0_2_pos V c t h0]
      unfold view0_1 view0_2 step0_1 step0_2
      iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (sound_kernel0_C c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (hbuf0_1 V c) (hbuf0_2 V c) (acc0_1 V c (t.val - 1) (Nat.lt_of_le_of_lt (Nat.sub_le _ _) t.isLt)) (acc0_2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, HS0, HS1, HS2, HS3⟩
      isplitl [HS0 HS1 HS2 HS3 Hrest Hg]
      · isplitl [HS0]; · iexact HS0
        isplitl [HS1]; · iexact HS1
        isplitl [HS2]; · iexact HS2
        isplitl [HS3]; · iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 15 t (idleAt0_15 t hc1) (noFlush0_15 t hc1),
        Dat.leavesExact_idle (dat0 V c) 16 t (idleAt0_16 t hc1) (noFlush0_16 t hc1)]
      rw [Phi0_castSucc V c t, Phi0_pos V c _ _ h0, acc0_1_pos V c t h0, acc0_2_pos V c t h0]
      unfold view0_1 view0_2 step0_1 step0_2
      iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (sound_kernel0_B c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) ((dat0 V c).before 15 t d15) ((dat0 V c).before 16 t d16) (hbuf0_1 V c) (hbuf0_2 V c) (acc0_1 V c (t.val - 1) (Nat.lt_of_le_of_lt (Nat.sub_le _ _) t.isLt)) (acc0_2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, HS0, HS1, HS2, HS3⟩
      isplitl [HS0 HS1 HS2 HS3 Hrest Hg]
      · isplitl [HS0]; · iexact HS0
        isplitl [HS1]; · iexact HS1
        isplitl [HS2]; · iexact HS2
        isplitl [HS3]; · iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- The generator register and the core's scoped buffers that are no staging buffer of this call make
    the invariant before the first point: the four
    scratch buffers are among those scoped buffers, at some contents. -/
theorem hin0 (c : Dev nD) :
    iprop((∃ r, prngReg c r) ∗ Pipeline.scopedRest spec0 c) ⊢ (dat0 V c).Φ 0 := by
  rw [show (dat0 V c).Φ 0 = Phi0 V c 0 (Nat.zero_le _) from rfl, Phi0_zero V c 0 _ rfl, scopedRest0_split]
  simp only [scM0_0, scM0_1, scM0_2, scM0_3, owns_whole]
  iintro ⟨Hg, ⟨H0, H1, H2, H3⟩, Hrest⟩
  isplitl [H0]; · iexact H0
  isplitl [H1]; · iexact H1
  isplitl [H2]; · iexact H2
  isplitl [H3]; · iexact H3
  isplitl [Hrest]; · iexact Hrest
  iexact Hg

/-- After the last point the invariant gives them back: the scratch buffers' named contents are forgotten. -/
theorem hout0 (c : Dev nD) :
    (dat0 V c).Φ (Fin.last cfg0.N) ⊢ iprop((∃ r, prngReg c r) ∗ Pipeline.scopedRest spec0 c) := by
  rw [show (dat0 V c).Φ (Fin.last cfg0.N) = Phi0 V c cfg0.N (le_refl _) from rfl,
    Phi0_pos V c _ _ (by rw [show cfg0.N = 16 from N_0]; decide), scopedRest0_split]
  simp only [scM0_0, scM0_1, scM0_2, scM0_3, owns_whole]
  iintro ⟨H0, H1, H2, H3, Hrest, Hg⟩
  isplitl [Hg]; · iexact Hg
  isplitl [H0 H1 H2 H3]
  · isplitl [H0]; · iexists _; iexact H0
    isplitl [H1]; · iexists _; iexact H1
    isplitl [H2]; · iexists _; iexact H2
    iexists _; iexact H3
  iexact Hrest

end Region

end Cert.Kernel.Hand

end
-- ==== Proof.KPair0Pkg.lean ====
/-
  The first pair region, packaged as the whole run takes it: its proof data at any entry
  contents, reading its arrays off them at full shares and owing nothing; the body obligation;
  and the two ends of its invariant.
-/
import proofs.«122693_g27230092657376_cont_9to1_1130_10_alg».proof.Proof.KPair0e
import proofs.«122693_g27230092657376_cont_9to1_1130_10_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first pair region's package. -/
def pair0 : Pair0 (F := F) where
  dat := dat0
  hA := A_eq0
  hq := fun _ _ _ => rfl
  howed := fun _ _ _ => rfl
  hrec := fun _ _ _ => rfl
  hbody := body_obligation0
  hin := hin0
  hout := hout0

end Cert.Kernel.Hand

end
-- ==== Proof.KPair1a.lean ====
/-
  The second pair kernel's region: vocabulary shared by the three control cases of its body.

  The body runs at the sixteen points of a one-axis grid. At the first point it fills two
  whole-array buffers with the projected features  emb · Wᵀ + b  (rounded to bf16) of the two
  views and zeroes two row accumulators; at every point it multiplies one block of 256 rows of
  each adjacency matrix by the projected features, adds the bias, applies the parametric
  rectifier, stores the block (rounded to bf16) and adds the column sums of
  tanh(block · W_slaᵀ + b_sla) to the accumulators; at the last point it copies the accumulators
  out. Every access is of a whole buffer, through the rectangle at offset zero.
-/
import proofs.«122693_g27230092657376_cont_9to1_1130_10_alg».proof.Proof.KPair0a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, as functions of the grid point -/

/-- The first conditional tests whether the grid coordinate is zero: it holds at the first point only. -/
abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second tests whether it is fifteen: it holds at the last point only. -/
abbrev cond1_1 (i : grid1.Coords) : Prop := k1_cond2 i = 1#1
theorem hcond1_1 : ∀ t : Fin cfg1.N, cond1_1 (grid1.coords t) ↔ t.val = 15 :=
  (by decide +kernel : ∀ t : Fin grid1.N, cond1_1 (grid1.coords t) ↔ t.val = 15)

/-! ## Where the two accumulator outputs are idle

The accumulator outputs (windows 15 and 16) are stored at the last point only; before it the body
does not touch their buffers and the pipeline does not write them back. -/

theorem idleAt1_15 : ∀ t : Fin cfg1.N, ¬cond1_1 (grid1.coords t) → cfg1.idle 15 (grid1.coords t) = true := by decide +kernel
theorem noFlush1_15 : ∀ t : Fin cfg1.N, ¬cond1_1 (grid1.coords t) → (cfg1.win 15).flush t = false := by decide +kernel
theorem liveAt1_15 : ∀ t : Fin cfg1.N, cond1_1 (grid1.coords t) → cfg1.idle 15 (grid1.coords t) = false := by decide +kernel
theorem idleAt1_16 : ∀ t : Fin cfg1.N, ¬cond1_1 (grid1.coords t) → cfg1.idle 16 (grid1.coords t) = true := by decide +kernel
theorem noFlush1_16 : ∀ t : Fin cfg1.N, ¬cond1_1 (grid1.coords t) → (cfg1.win 16).flush t = false := by decide +kernel
theorem liveAt1_16 : ∀ t : Fin cfg1.N, cond1_1 (grid1.coords t) → cfg1.idle 16 (grid1.coords t) = false := by decide +kernel

end Cert.Kernel.Hand

end
-- ==== Proof.KPair1b.lean ====
/-
  The second pair kernel's body at its three kinds of grid point.

  FIRST point: both projected-feature buffers are computed from the embedding, the two weight
  matrices and their biases and stored; the accumulators are zeroed; then the point's block of each
  view is computed and stored and its column sums are added to the (zero) accumulators.
  MIDDLE point: the projected-feature buffers are read as the first point left them, the point's
  block of each view is computed and stored, and its column sums are added to the running
  accumulators. At both, the accumulator outputs are not touched.
  LAST point: as at a middle point, and then the two running accumulators are copied into the
  accumulator outputs.
-/
import proofs.«122693_g27230092657376_cont_9to1_1130_10_alg».proof.Proof.KPair1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- What a stored-into buffer reads at the end: the run's names for the loaded values opened, a
    load of a buffer at named contents reads them, a load after a whole-buffer store reads the
    stored value, and the buffer reads its last whole-buffer store. -/
local macro "pay_close" : tactic => `(tactic| (
  sl_unfold_words
  simp only [read_writes_unit_zero (S := S4096x512) _ _ hz0_2, read_writes_unit_zero (S := S512x512) _ _ hz0_2, read_writes_unit_zero (S := S1x512) _ _ hz0_2, read_writes_unit_zero (S := S1x1) _ _ hz0_2, read_writes_unit_zero (S := S256x4096) _ _ hz0_2, read_writes_unit_zero (S := S256x512) _ _ hz0_2,
    View.readCov_cons_toLoadRect, View.readAt_eq_ld, Memref.IsWhole.read_unread,
    View.ld_unit_zero (S := S4096x512) hz0_2, View.ld_unit_zero (S := S512x512) hz0_2, View.ld_unit_zero (S := S1x512) hz0_2, View.ld_unit_zero (S := S1x1) hz0_2, View.ld_unit_zero (S := S256x4096) hz0_2, View.ld_unit_zero (S := S256x512) hz0_2]))

set_option maxHeartbeats 4000000 in
/-- On whole buffers — the thirteen inputs at contents `x1 … x13`, the view outputs and the four
    scratch buffers at anything, the accumulator outputs at contents handed back untouched — the
    body at the first point runs to the continuation holding the inputs as they were, each view
    output at its block, the projected features and the first accumulator values in the scratch. -/
theorem sound_kernel1_A (c : Dev nD) (E : Set ℕ) (i : grid1.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : cond1_0 i) (hc1 : ¬cond1_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (xi16 : Vec F S1x512 .f32) (xi17 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ owns (c : Thread nD τ) arg16 fullShare xi16
        ∗ owns (c : Thread nD τ) arg17 fullShare xi17
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k1_pay6 x12 (k1_pay1 x1 x2 x4) x6 x8)
            ∗ owns (c : Thread nD τ) arg15 fullShare (k1_pay10 (k1_pay7 x13 (k1_pay2 x1 x3 x5) x7) (k1_pay8 x13 (k1_pay2 x1 x3 x5) x7) (k1_pay9 x9))
            ∗ owns (c : Thread nD τ) arg16 fullShare xi16
            ∗ owns (c : Thread nD τ) arg17 fullShare xi17
            ∗ owns (c : Thread nD τ) arg18 fullShare (k1_pay1 x1 x2 x4)
            ∗ owns (c : Thread nD τ) arg19 fullShare (k1_pay2 x1 x3 x5)
            ∗ owns (c : Thread nD τ) arg20 fullShare (k1_pay11 (k1_pay6 x12 (k1_pay1 x1 x2 x4) x6 x8) x10 x11 (k1_pay3 (F := F)))
            ∗ owns (c : Thread nD τ) arg21 fullShare (k1_pay12 (k1_pay7 x13 (k1_pay2 x1 x3 x5) x7) (k1_pay8 x13 (k1_pay2 x1 x3 x5) x7) (k1_pay9 x9) x10 x11 (k1_pay5 (k1_pay4 (F := F))))) -∗ K ⟨⟩))
      ⊢ wp frame (wpE (defs₀ (F := F)) Variants.none c none) E (cc1__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__pair_body_eq_skeleton]; unfold cc1__pair_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16; obtain rfl := harg17.eq_unread hf17
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr; · ipureintro; exact harg16.read_unread _
    iexact H16
  isplitl [H17]
  · iexists _; isplitr; · ipureintro; exact harg17.read_unread _
    iexact H17
  isplitl [H18]
  · iexists _; isplitr
    swap; · iexact H18
    ipureintro
    pay_close
  isplitl [H19]
  · iexists _; isplitr
    swap; · iexact H19
    ipureintro
    pay_close
  isplitl [H20]
  · iexists _; isplitr
    swap; · iexact H20
    ipureintro
    pay_close
  iexists _; isplitr
  swap; · iexact H21
  ipureintro
  pay_close

set_option maxHeartbeats 4000000 in
/-- On whole buffers — the inputs at `x1 … x13`, the view outputs at anything, the accumulator
    outputs at contents handed back untouched, the scratch at the projected features `h1`, `h2`
    and the running sums `a1`, `a2` — the body at a middle point runs to the continuation holding
    the inputs and the projected features as they were, each view output at its block and the
    running sums advanced by the point's column sums. -/
theorem sound_kernel1_B (c : Dev nD) (E : Set ℕ) (i : grid1.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : ¬cond1_0 i) (hc1 : ¬cond1_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (xi16 : Vec F S1x512 .f32) (xi17 : Vec F S1x512 .f32) (h1 : Vec F S4096x512 .bf16) (h2 : Vec F S4096x512 .bf16) (a1 : Vec F S1x512 .f32) (a2 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ owns (c : Thread nD τ) arg16 fullShare xi16
        ∗ owns (c : Thread nD τ) arg17 fullShare xi17
        ∗ owns (c : Thread nD τ) arg18 fullShare h1
        ∗ owns (c : Thread nD τ) arg19 fullShare h2
        ∗ owns (c : Thread nD τ) arg20 fullShare a1
        ∗ owns (c : Thread nD τ) arg21 fullShare a2
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k1_pay6 x12 h1 x6 x8)
            ∗ owns (c : Thread nD τ) arg15 fullShare (k1_pay10 (k1_pay7 x13 h2 x7) (k1_pay8 x13 h2 x7) (k1_pay9 x9))
            ∗ owns (c : Thread nD τ) arg16 fullShare xi16
            ∗ owns (c : Thread nD τ) arg17 fullShare xi17
            ∗ owns (c : Thread nD τ) arg18 fullShare h1
            ∗ owns (c : Thread nD τ) arg19 fullShare h2
            ∗ owns (c : Thread nD τ) arg20 fullShare (k1_pay11 (k1_pay6 x12 h1 x6 x8) x10 x11 a1)
            ∗ owns (c : Thread nD τ) arg21 fullShare (k1_pay12 (k1_pay7 x13 h2 x7) (k1_pay8 x13 h2 x7) (k1_pay9 x9) x10 x11 a2)) -∗ K ⟨⟩))
      ⊢ wp frame (wpE (defs₀ (F := F)) Variants.none c none) E (cc1__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__pair_body_eq_skeleton]; unfold cc1__pair_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16; obtain rfl := harg17.eq_unread hf17; obtain rfl := harg18.eq_unread hf18; obtain rfl := harg19.eq_unread hf19; obtain rfl := harg20.eq_unread hf20; obtain rfl := harg21.eq_unread hf21
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr
    swap; · iexact H20
    ipureintro
    pay_close
  iexists _; isplitr
  swap; · iexact H21
  ipureintro
  pay_close

set_option maxHeartbeats 4000000 in
/-- The same at the last point, the accumulator outputs now taken at anything and left at the
    advanced running sums. -/
theorem sound_kernel1_C (c : Dev nD) (E : Set ℕ) (i : grid1.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : ¬cond1_0 i) (hc1 : cond1_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (h1 : Vec F S4096x512 .bf16) (h2 : Vec F S4096x512 .bf16) (a1 : Vec F S1x512 .f32) (a2 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ owns (c : Thread nD τ) arg18 fullShare h1
        ∗ owns (c : Thread nD τ) arg19 fullShare h2
        ∗ owns (c : Thread nD τ) arg20 fullShare a1
        ∗ owns (c : Thread nD τ) arg21 fullShare a2
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k1_pay6 x12 h1 x6 x8)
            ∗ owns (c : Thread nD τ) arg15 fullShare (k1_pay10 (k1_pay7 x13 h2 x7) (k1_pay8 x13 h2 x7) (k1_pay9 x9))
            ∗ owns (c : Thread nD τ) arg16 fullShare (k1_pay11 (k1_pay6 x12 h1 x6 x8) x10 x11 a1)
            ∗ owns (c : Thread nD τ) arg17 fullShare (k1_pay12 (k1_pay7 x13 h2 x7) (k1_pay8 x13 h2 x7) (k1_pay9 x9) x10 x11 a2)
            ∗ owns (c : Thread nD τ) arg18 fullShare h1
            ∗ owns (c : Thread nD τ) arg19 fullShare h2
            ∗ owns (c : Thread nD τ) arg20 fullShare (k1_pay11 (k1_pay6 x12 h1 x6 x8) x10 x11 a1)
            ∗ owns (c : Thread nD τ) arg21 fullShare (k1_pay12 (k1_pay7 x13 h2 x7) (k1_pay8 x13 h2 x7) (k1_pay9 x9) x10 x11 a2)) -∗ K ⟨⟩))
      ⊢ wp frame (wpE (defs₀ (F := F)) Variants.none c none) E (cc1__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__pair_body_eq_skeleton]; unfold cc1__pair_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg18.eq_unread hf18; obtain rfl := harg19.eq_unread hf19; obtain rfl := harg20.eq_unread hf20; obtain rfl := harg21.eq_unread hf21
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr
    swap; · iexact H16
    ipureintro
    pay_close
  isplitl [H17]
  · iexists _; isplitr
    swap; · iexact H17
    ipureintro
    pay_close
  isplitl [H18]
  · iexists _; isplitr; · ipureintro; exact harg18.read_unread _
    iexact H18
  isplitl [H19]
  · iexists _; isplitr; · ipureintro; exact harg19.read_unread _
    iexact H19
  isplitl [H20]
  · iexists _; isplitr
    swap; · iexact H20
    ipureintro
    pay_close
  iexists _; isplitr
  swap; · iexact H21
  ipureintro
  pay_close

end Cert.Kernel.Hand

end
-- ==== Proof.KPair1e.lean ====
/-
  The second pair kernel's region: what its buffers hold point by point, and the body's obligation.

  Stated at a parameter `V`, the contents of the core's buffers when the region is entered.
  Eleven of the thirteen inputs (the embedding, the weights, the biases, the rectifier slopes)
  are one block each, the same at every point; the two adjacency matrices are cut into sixteen
  blocks of 256 rows. With  h₁, h₂  the projected features computed at the first point, the point
  t  stores the view blocks  view₁ t = prelu(adj₁[t] · h₁ + bias₁),  view₂ t  likewise, and the
  accumulators after it are  acc t = acc (t-1) + colsum(tanh(view t · W_slaᵀ + b_sla)),  from zero.
-/
import proofs.«122693_g27230092657376_cont_9to1_1130_10_alg».proof.Proof.KPair1b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds its block at every point, whether the point fetched it or the
    block index has not moved since the point that did — for any proof data over `V` whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## What the body computes -/

/-- The projected features of the first view,  emb · W₁ᵀ + b₁  rounded to bf16: computed at the first point. -/
def hbuf1_1 (c : Dev nD) : Vec F S4096x512 .bf16 := k1_pay1 (iblk1 V c 0 t1_0) (iblk1 V c 1 t1_0) (iblk1 V c 3 t1_0)
/-- The projected features of the second view. -/
def hbuf1_2 (c : Dev nD) : Vec F S4096x512 .bf16 := k1_pay2 (iblk1 V c 0 t1_0) (iblk1 V c 2 t1_0) (iblk1 V c 4 t1_0)
/-- The first view's block at point `t`: the point's 256 adjacency rows times the projected features,
    plus the bias, through the parametric rectifier, rounded to bf16. -/
def view1_1 (c : Dev nD) (t : Fin cfg1.N) : Vec F S256x512 .bf16 :=
  k1_pay6 (iblk1 V c 11 t) (hbuf1_1 V c) (iblk1 V c 5 t) (iblk1 V c 7 t)
/-- The second view's block at point `t`. -/
def view1_2 (c : Dev nD) (t : Fin cfg1.N) : Vec F S256x512 .bf16 :=
  k1_pay10 (k1_pay7 (iblk1 V c 12 t) (hbuf1_2 V c) (iblk1 V c 6 t)) (k1_pay8 (iblk1 V c 12 t) (hbuf1_2 V c) (iblk1 V c 6 t)) (k1_pay9 (iblk1 V c 8 t))
/-- One step of the first accumulator: `a` plus the column sums of tanh(view₁ t · W_slaᵀ + b_sla). -/
def step1_1 (c : Dev nD) (t : Fin cfg1.N) (a : Vec F S1x512 .f32) : Vec F S1x512 .f32 :=
  k1_pay11 (k1_pay6 (iblk1 V c 11 t) (hbuf1_1 V c) (iblk1 V c 5 t) (iblk1 V c 7 t)) (iblk1 V c 9 t) (iblk1 V c 10 t) a
/-- One step of the second accumulator. -/
def step1_2 (c : Dev nD) (t : Fin cfg1.N) (a : Vec F S1x512 .f32) : Vec F S1x512 .f32 :=
  k1_pay12 (k1_pay7 (iblk1 V c 12 t) (hbuf1_2 V c) (iblk1 V c 6 t)) (k1_pay8 (iblk1 V c 12 t) (hbuf1_2 V c) (iblk1 V c 6 t)) (k1_pay9 (iblk1 V c 8 t)) (iblk1 V c 9 t) (iblk1 V c 10 t) a

/-- The first accumulator after point `n`: from zero, one step per point. -/
def acc1_1 (c : Dev nD) : (n : ℕ) → n < cfg1.N → Vec F S1x512 .f32
  | 0, hn => step1_1 V c ⟨0, hn⟩ (k1_pay3 (F := F))
  | n + 1, hn => step1_1 V c ⟨n + 1, hn⟩ (acc1_1 c n (Nat.lt_of_succ_lt hn))
/-- The second accumulator after point `n`. -/
def acc1_2 (c : Dev nD) : (n : ℕ) → n < cfg1.N → Vec F S1x512 .f32
  | 0, hn => step1_2 V c ⟨0, hn⟩ (k1_pay5 (k1_pay4 (F := F)))
  | n + 1, hn => step1_2 V c ⟨n + 1, hn⟩ (acc1_2 c n (Nat.lt_of_succ_lt hn))

theorem acc1_1_zero (c : Dev nD) (t : Fin cfg1.N) (hz : t.val = 0) : acc1_1 V c t.val t.isLt = step1_1 V c t (k1_pay3 (F := F)) := by
  obtain ⟨n, hn⟩ := t
  cases n with
  | zero => rfl
  | succ n => exact absurd hz (Nat.succ_ne_zero n)
theorem acc1_2_zero (c : Dev nD) (t : Fin cfg1.N) (hz : t.val = 0) : acc1_2 V c t.val t.isLt = step1_2 V c t (k1_pay5 (k1_pay4 (F := F))) := by
  obtain ⟨n, hn⟩ := t
  cases n with
  | zero => rfl
  | succ n => exact absurd hz (Nat.succ_ne_zero n)
theorem acc1_1_pos (c : Dev nD) (t : Fin cfg1.N) (hz : t.val ≠ 0) :
    acc1_1 V c t.val t.isLt = step1_1 V c t (acc1_1 V c (t.val - 1) (Nat.lt_of_le_of_lt (Nat.sub_le _ _) t.isLt)) := by
  obtain ⟨n, hn⟩ := t
  cases n with
  | zero => exact absurd rfl hz
  | succ n => rfl
theorem acc1_2_pos (c : Dev nD) (t : Fin cfg1.N) (hz : t.val ≠ 0) :
    acc1_2 V c t.val t.isLt = step1_2 V c t (acc1_2 V c (t.val - 1) (Nat.lt_of_le_of_lt (Nat.sub_le _ _) t.isLt)) := by
  obtain ⟨n, hn⟩ := t
  cases n with
  | zero => exact absurd rfl hz
  | succ n => rfl

/-! ## The region's invariant -/

/-- The four scratch operands: whole scoped buffers of the kernel's own. -/
abbrev scM1_0 : Memref sig .tc .vmem S4096x512 .bf16 := Memref.whole cc1_scratch0
abbrev scM1_1 : Memref sig .tc .vmem S4096x512 .bf16 := Memref.whole cc1_scratch1
abbrev scM1_2 : Memref sig .tc .vmem S1x512 .f32 := Memref.whole cc1_scratch2
abbrev scM1_3 : Memref sig .tc .vmem S1x512 .f32 := Memref.whole cc1_scratch3

/-- Before point `n`: at the first point the four scratch buffers hold anything; afterwards the two
    feature buffers hold the projected features and the two accumulators what point `n - 1` left.
    Beside them ride the core's other scoped buffers, unopened, and the generator register. -/
def Phi1 (c : Dev nD) : (n : ℕ) → n ≤ cfg1.N → sProp 𝕄
  | 0, _ => iprop((∃ d, owns (c : Thread nD τ) scM1_0 fullShare d) ∗ (∃ d, owns (c : Thread nD τ) scM1_1 fullShare d)
      ∗ (∃ d, owns (c : Thread nD τ) scM1_2 fullShare d) ∗ (∃ d, owns (c : Thread nD τ) scM1_3 fullShare d)
      ∗ Pipeline.scopedRestBut spec1 c [cc1_scratch0, cc1_scratch1, cc1_scratch2, cc1_scratch3] ∗ (∃ r, prngReg c r))
  | n + 1, hn => iprop(owns (c : Thread nD τ) scM1_0 fullShare (hbuf1_1 V c) ∗ owns (c : Thread nD τ) scM1_1 fullShare (hbuf1_2 V c)
      ∗ owns (c : Thread nD τ) scM1_2 fullShare (acc1_1 V c n hn) ∗ owns (c : Thread nD τ) scM1_3 fullShare (acc1_2 V c n hn)
      ∗ Pipeline.scopedRestBut spec1 c [cc1_scratch0, cc1_scratch1, cc1_scratch2, cc1_scratch3] ∗ (∃ r, prngReg c r))

theorem Phi1_zero (c : Dev nD) (n : ℕ) (h : n ≤ cfg1.N) (hz : n = 0) :
    Phi1 V c n h = iprop((∃ d, owns (c : Thread nD τ) scM1_0 fullShare d) ∗ (∃ d, owns (c : Thread nD τ) scM1_1 fullShare d)
      ∗ (∃ d, owns (c : Thread nD τ) scM1_2 fullShare d) ∗ (∃ d, owns (c : Thread nD τ) scM1_3 fullShare d)
      ∗ Pipeline.scopedRestBut spec1 c [cc1_scratch0, cc1_scratch1, cc1_scratch2, cc1_scratch3] ∗ (∃ r, prngReg c r)) := by
  subst hz; rfl
theorem Phi1_succ (c : Dev nD) (n : ℕ) (hn : n < cfg1.N) :
    Phi1 V c (n + 1) hn = iprop(owns (c : Thread nD τ) scM1_0 fullShare (hbuf1_1 V c) ∗ owns (c : Thread nD τ) scM1_1 fullShare (hbuf1_2 V c)
      ∗ owns (c : Thread nD τ) scM1_2 fullShare (acc1_1 V c n hn) ∗ owns (c : Thread nD τ) scM1_3 fullShare (acc1_2 V c n hn)
      ∗ Pipeline.scopedRestBut spec1 c [cc1_scratch0, cc1_scratch1, cc1_scratch2, cc1_scratch3] ∗ (∃ r, prngReg c r)) := rfl
theorem Phi1_pos (c : Dev nD) (n : ℕ) (h : n ≤ cfg1.N) (hz : n ≠ 0) :
    Phi1 V c n h = iprop(owns (c : Thread nD τ) scM1_0 fullShare (hbuf1_1 V c) ∗ owns (c : Thread nD τ) scM1_1 fullShare (hbuf1_2 V c)
      ∗ owns (c : Thread nD τ) scM1_2 fullShare (acc1_1 V c (n - 1) (by omega)) ∗ owns (c : Thread nD τ) scM1_3 fullShare (acc1_2 V c (n - 1) (by omega))
      ∗ Pipeline.scopedRestBut spec1 c [cc1_scratch0, cc1_scratch1, cc1_scratch2, cc1_scratch3] ∗ (∃ r, prngReg c r)) := by
  cases n with
  | zero => exact absurd rfl hz
  | succ n => rfl

/-! ## The proof data -/

/-- The proof data of the pair kernel's pipeline on core `c`: the arrays as the region finds them;
    after the body at point `t` each input's buffer at its block, the view outputs' at the point's
    view blocks, the accumulator outputs' at the accumulators after `t` (read at the last point
    only: before it those windows are idle); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => view1_1 V c t
    | ⟨14, _⟩ => view1_2 V c t
    | ⟨15, _⟩ => acc1_1 V c t.val t.isLt
    | ⟨16, _⟩ => acc1_2 V c t.val t.isLt
    | ⟨_ + 17, h⟩ => absurd h (Nat.not_lt.2 (Nat.le_add_left _ _))
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = view1_1 V c t := by dsimp only [dat1]
theorem after1_14 (c : Dev nD) (t : Fin cfg1.N) : (dat1 V c).after 14 t = view1_2 V c t := by dsimp only [dat1]
theorem after1_15 (c : Dev nD) (t : Fin cfg1.N) : (dat1 V c).after 15 t = acc1_1 V c t.val t.isLt := by dsimp only [dat1]
theorem after1_16 (c : Dev nD) (t : Fin cfg1.N) : (dat1 V c).after 16 t = acc1_2 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem liveAt1_9 : ∀ t : Fin cfg1.N, cfg1.idle 9 (grid1.coords t) = false := fun _ => rfl
theorem liveAt1_10 : ∀ t : Fin cfg1.N, cfg1.idle 10 (grid1.coords t) = false := fun _ => rfl
theorem liveAt1_11 : ∀ t : Fin cfg1.N, cfg1.idle 11 (grid1.coords t) = false := fun _ => rfl
theorem liveAt1_12 : ∀ t : Fin cfg1.N, cfg1.idle 12 (grid1.coords t) = false := fun _ => rfl
theorem liveAt1_13 : ∀ t : Fin cfg1.N, cfg1.idle 13 (grid1.coords t) = false := fun _ => rfl
theorem liveAt1_14 : ∀ t : Fin cfg1.N, cfg1.idle 14 (grid1.coords t) = false := fun _ => rfl

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t)

set_option maxHeartbeats 8000000 in
/-- The body at any point. The inputs' buffers hold their blocks; the point decides the case. At the
    first point the scratch is taken at anything and left at the projected features and the first
    accumulator values; at a later point it is taken at what the point before left and the
    accumulators advance by one step; at the last point the accumulator outputs, until then handed
    back as found, receive the final accumulators. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [show (dat1 V c).leavesExact 7 t = owns (c : Thread nD τ) (st1_7 t) fullShare ((dat1 V c).after 7 t) from by
    unfold Dat.leavesExact; rw [liveAt1_7 t], after1_7]
  rw [show (dat1 V c).leavesExact 8 t = owns (c : Thread nD τ) (st1_8 t) fullShare ((dat1 V c).after 8 t) from by
    unfold Dat.leavesExact; rw [liveAt1_8 t], after1_8]
  rw [show (dat1 V c).leavesExact 9 t = owns (c : Thread nD τ) (st1_9 t) fullShare ((dat1 V c).after 9 t) from by
    unfold Dat.leavesExact; rw [liveAt1_9 t], after1_9]
  rw [show (dat1 V c).leavesExact 10 t = owns (c : Thread nD τ) (st1_10 t) fullShare ((dat1 V c).after 10 t) from by
    unfold Dat.leavesExact; rw [liveAt1_10 t], after1_10]
  rw [show (dat1 V c).leavesExact 11 t = owns (c : Thread nD τ) (st1_11 t) fullShare ((dat1 V c).after 11 t) from by
    unfold Dat.leavesExact; rw [liveAt1_11 t], after1_11]
  rw [show (dat1 V c).leavesExact 12 t = owns (c : Thread nD τ) (st1_12 t) fullShare ((dat1 V c).after 12 t) from by
    unfold Dat.leavesExact; rw [liveAt1_12 t], after1_12]
  rw [show (dat1 V c).leavesExact 13 t = owns (c : Thread nD τ) (st1_13 t) fullShare ((dat1 V c).after 13 t) from by
    unfold Dat.leavesExact; rw [liveAt1_13 t], after1_13]
  rw [show (dat1 V c).leavesExact 14 t = owns (c : Thread nD τ) (st1_14 t) fullShare ((dat1 V c).after 14 t) from by
    unfold Dat.leavesExact; rw [liveAt1_14 t], after1_14]
  have hN : t.val < 16 := lt_of_lt_of_eq t.isLt (show cfg1.N = 16 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 15 t (idleAt1_15 t hc1) (noFlush1_15 t hc1),
      Dat.leavesExact_idle (dat1 V c) 16 t (idleAt1_16 t hc1) (noFlush1_16 t hc1)]
    rw [Phi1_castSucc V c t, Phi1_zero V c _ _ h0, acc1_1_zero V c t h0, acc1_2_zero V c t h0]
    obtain rfl : t = t1_0 := Fin.ext h0
    unfold view1_1 view1_2 step1_1 step1_2 hbuf1_1 hbuf1_2
    iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_kernel1_A c Set.univ (grid1.coords t1_0) (win1_0.stage (cfg1.slots t1_0 0)) (hstage1_0 ((cfg1.slots t1_0 0).cast nbuf1_0)) (win1_1.stage (cfg1.slots t1_0 1)) (hstage1_1 ((cfg1.slots t1_0 1).cast nbuf1_1)) (win1_2.stage (cfg1.slots t1_0 2)) (hstage1_2 ((cfg1.slots t1_0 2).cast nbuf1_2)) (win1_3.stage (cfg1.slots t1_0 3)) (hstage1_3 ((cfg1.slots t1_0 3).cast nbuf1_3)) (win1_4.stage (cfg1.slots t1_0 4)) (hstage1_4 ((cfg1.slots t1_0 4).cast nbuf1_4)) (win1_5.stage (cfg1.slots t1_0 5)) (hstage1_5 ((cfg1.slots t1_0 5).cast nbuf1_5)) (win1_6.stage (cfg1.slots t1_0 6)) (hstage1_6 ((cfg1.slots t1_0 6).cast nbuf1_6)) (win1_7.stage (cfg1.slots t1_0 7)) (hstage1_7 ((cfg1.slots t1_0 7).cast nbuf1_7)) (win1_8.stage (cfg1.slots t1_0 8)) (hstage1_8 ((cfg1.slots t1_0 8).cast nbuf1_8)) (win1_9.stage (cfg1.slots t1_0 9)) (hstage1_9 ((cfg1.slots t1_0 9).cast nbuf1_9)) (win1_10.stage (cfg1.slots t1_0 10)) (hstage1_10 ((cfg1.slots t1_0 10).cast nbuf1_10)) (win1_11.stage (cfg1.slots t1_0 11)) (hstage1_11 ((cfg1.slots t1_0 11).cast nbuf1_11)) (win1_12.stage (cfg1.slots t1_0 12)) (hstage1_12 ((cfg1.slots t1_0 12).cast nbuf1_12)) (win1_13.stage (cfg1.slots t1_0 13)) (hstage1_13 ((cfg1.slots t1_0 13).cast nbuf1_13)) (win1_14.stage (cfg1.slots t1_0 14)) (hstage1_14 ((cfg1.slots t1_0 14).cast nbuf1_14)) (win1_15.stage (cfg1.slots t1_0 15)) (hstage1_15 ((cfg1.slots t1_0 15).cast nbuf1_15)) (win1_16.stage (cfg1.slots t1_0 16)) (hstage1_16 ((cfg1.slots t1_0 16).cast nbuf1_16)) (Memref.whole cc1_scratch0) (Memref.isWhole_whole _) (Memref.whole cc1_scratch1) (Memref.isWhole_whole _) (Memref.whole cc1_scratch2) (Memref.isWhole_whole _) (Memref.whole cc1_scratch3) (Memref.isWhole_whole _) hc0 hc1 (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0) (iblk1 V c 8 t1_0) (iblk1 V c 9 t1_0) (iblk1 V c 10 t1_0) (iblk1 V c 11 t1_0) (iblk1 V c 12 t1_0) ((dat1 V c).before 15 t1_0 d15) ((dat1 V c).before 16 t1_0 d16) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexact H15
    isplitl [H16]; · iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hrest Hg]
    · isplitl [HS0]; · iexact HS0
      isplitl [HS1]; · iexact HS1
      isplitl [HS2]; · iexact HS2
      isplitl [HS3]; · iexact HS3
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexists _; iexact H16
  · by_cases h1 : t.val = 15
    · have hc0 : ¬cond1_0 (grid1.coords t) := fun h => h0 ((hcond1_0 t).mp h)
      have hc1 : cond1_1 (grid1.coords t) := (hcond1_1 t).mpr h1
      rw [show (dat1 V c).leavesExact 15 t = owns (c : Thread nD τ) (st1_15 t) fullShare ((dat1 V c).after 15 t) from by
        unfold Dat.leavesExact; rw [liveAt1_15 t hc1], after1_15]
      rw [show (dat1 V c).leavesExact 16 t = owns (c : Thread nD τ) (st1_16 t) fullShare ((dat1 V c).after 16 t) from by
        unfold Dat.leavesExact; rw [liveAt1_16 t hc1], after1_16]
      rw [Phi1_castSucc V c t, Phi1_pos V c _ _ h0, acc1_1_pos V c t h0, acc1_2_pos V c t h0]
      unfold view1_1 view1_2 step1_1 step1_2
      iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (sound_kernel1_C c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (Memref.whole cc1_scratch0) (Memref.isWhole_whole _) (Memref.whole cc1_scratch1) (Memref.isWhole_whole _) (Memref.whole cc1_scratch2) (Memref.isWhole_whole _) (Memref.whole cc1_scratch3) (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (hbuf1_1 V c) (hbuf1_2 V c) (acc1_1 V c (t.val - 1) (Nat.lt_of_le_of_lt (Nat.sub_le _ _) t.isLt)) (acc1_2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, HS0, HS1, HS2, HS3⟩
      isplitl [HS0 HS1 HS2 HS3 Hrest Hg]
      · isplitl [HS0]; · iexact HS0
        isplitl [HS1]; · iexact HS1
        isplitl [HS2]; · iexact HS2
        isplitl [HS3]; · iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 15 t (idleAt1_15 t hc1) (noFlush1_15 t hc1),
        Dat.leavesExact_idle (dat1 V c) 16 t (idleAt1_16 t hc1) (noFlush1_16 t hc1)]
      rw [Phi1_castSucc V c t, Phi1_pos V c _ _ h0, acc1_1_pos V c t h0, acc1_2_pos V c t h0]
      unfold view1_1 view1_2 step1_1 step1_2
      iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (sound_kernel1_B c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (Memref.whole cc1_scratch0) (Memref.isWhole_whole _) (Memref.whole cc1_scratch1) (Memref.isWhole_whole _) (Memref.whole cc1_scratch2) (Memref.isWhole_whole _) (Memref.whole cc1_scratch3) (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) ((dat1 V c).before 15 t d15) ((dat1 V c).before 16 t d16) (hbuf1_1 V c) (hbuf1_2 V c) (acc1_1 V c (t.val - 1) (Nat.lt_of_le_of_lt (Nat.sub_le _ _) t.isLt)) (acc1_2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, HS0, HS1, HS2, HS3⟩
      isplitl [HS0 HS1 HS2 HS3 Hrest Hg]
      · isplitl [HS0]; · iexact HS0
        isplitl [HS1]; · iexact HS1
        isplitl [HS2]; · iexact HS2
        isplitl [HS3]; · iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The generator register and the core's scoped buffers that are no staging buffer of this call make
    the invariant before the first point: the four
    scratch buffers are among those scoped buffers, at some contents. -/
theorem hin1 (c : Dev nD) :
    iprop((∃ r, prngReg c r) ∗ Pipeline.scopedRest spec1 c) ⊢ (dat1 V c).Φ 0 := by
  rw [show (dat1 V c).Φ 0 = Phi1 V c 0 (Nat.zero_le _) from rfl, Phi1_zero V c 0 _ rfl, scopedRest1_split]
  simp only [scM1_0, scM1_1, scM1_2, scM1_3, owns_whole]
  iintro ⟨Hg, ⟨H0, H1, H2, H3⟩, Hrest⟩
  isplitl [H0]; · iexact H0
  isplitl [H1]; · iexact H1
  isplitl [H2]; · iexact H2
  isplitl [H3]; · iexact H3
  isplitl [Hrest]; · iexact Hrest
  iexact Hg

/-- After the last point the invariant gives them back: the scratch buffers' named contents are forgotten. -/
theorem hout1 (c : Dev nD) :
    (dat1 V c).Φ (Fin.last cfg1.N) ⊢ iprop((∃ r, prngReg c r) ∗ Pipeline.scopedRest spec1 c) := by
  rw [show (dat1 V c).Φ (Fin.last cfg1.N) = Phi1 V c cfg1.N (le_refl _) from rfl,
    Phi1_pos V c _ _ (by rw [show cfg1.N = 16 from N_1]; decide), scopedRest1_split]
  simp only [scM1_0, scM1_1, scM1_2, scM1_3, owns_whole]
  iintro ⟨H0, H1, H2, H3, Hrest, Hg⟩
  isplitl [Hg]; · iexact Hg
  isplitl [H0 H1 H2 H3]
  · isplitl [H0]; · iexists _; iexact H0
    isplitl [H1]; · iexists _; iexact H1
    isplitl [H2]; · iexists _; iexact H2
    iexists _; iexact H3
  iexact Hrest

end Region

end Cert.Kernel.Hand

end
-- ==== Proof.KPair1Pkg.lean ====
/-
  The second pair region, packaged as the whole run takes it: its proof data at any entry
  contents, reading its arrays off them at full shares and owing nothing; the body obligation;
  and the two ends of its invariant.
-/
import proofs.«122693_g27230092657376_cont_9to1_1130_10_alg».proof.Proof.KPair1e
import proofs.«122693_g27230092657376_cont_9to1_1130_10_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second pair region's package. -/
def pair1 : Pair1 (F := F) where
  dat := dat1
  hA := A_eq1
  hq := fun _ _ _ => rfl
  howed := fun _ _ _ => rfl
  hrec := fun _ _ _ => rfl
  hbody := body_obligation1
  hin := hin1
  hout := hout1

end Cert.Kernel.Hand

end
-- ==== Proof.KIComb2.lean ====
/- Region 2 of @main: the combine kernel (pipeline 2), at the contents `V` the region is entered with.
   At each of the 16 grid points the body reads the two [1,512] accumulated feature rows, the [1,512]
   attention row and one [256,512] row block of each of the two views, and stores one [256,512] row block
   of the result: the two logits are the lane sums of (attention · feature · 2⁻¹²), the two weights are
   exp(logit − max) times the reciprocal of their sum, and the block is view₁·w₁ + view₂·w₂. Nothing is
   kept between points, so what the body leaves in the output's buffer is one function of the input blocks. -/
import proofs.«122693_g27230092657376_cont_9to1_1130_10_alg».proof.Proof.Gen.KernelIdeal.Launch
import proofs.«122693_g27230092657376_cont_9to1_1130_10_alg».proof.Proof.Gen.KernelIdeal.Skeleton
import proofs.«122693_g27230092657376_cont_9to1_1130_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_row : Rect S1x512 := Rect.unit (s := S1x512) ![0, 0] S1x512.size inb_S1x512_S1x512_0_0
abbrev r2_blk : Rect S256x512 := Rect.unit (s := S256x512) ![0, 0] S256x512.size inb_S256x512_S256x512_0_0

/-- The output window's buffer after the body, from the input windows' blocks: its one store. -/
def out2_5 (x0 x1 x2 : Vec F S1x512 .f32) (x3 x4 : Vec F S256x512 .bf16) : Vec F S256x512 .f32 :=
  View.canon [⟨r2_blk, k2_pay1 (View.ld x2 r2_row) (View.ld x0 r2_row) (View.ld x2 r2_row) (View.ld x1 r2_row) (View.ld x3 r2_blk) (View.ld x4 r2_blk)⟩]

/-- The store covers the buffer. -/
theorem cover2_5 (p0 : Vec F S256x512 .f32) (y : S256x512.Idx) :
    ∃ pc ∈ ([⟨r2_blk, p0⟩] : List (View.Piece (Elt F) S256x512 .f32)), y ∈ pc.1.set :=
  View.cover_of_tiled [⟨r2_blk, p0⟩] S256x512.size (by rfl) y

set_option maxHeartbeats 1000000 in
/-- The body on whole buffers, the inputs' at read contents and the output's at anything, runs to the
    continuation with the inputs' as they were and the output's at `out2_5` of them. -/
theorem sound_kernel2 (c : Dev nD) (E : Set ℕ) (i : grid2.Coords)
    (arg1 : Memref sig .tc .vmem S1x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x512 .f32) (harg6 : arg6.IsWhole)
    (x0 x1 x2 : Vec F S1x512 .f32) (x3 x4 : Vec F S256x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_body i arg1 harg1 arg2 harg2 arg3 harg3 arg4 harg4 arg5 harg5 arg6 harg6) K := by
  simp only [cc2__combine_body_eq_skeleton]; unfold cc2__combine_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t`
    each input's buffer at its block and the output's at `out2_5` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIComb3.lean ====
/- Region 3 of @main: the combine kernel (pipeline 3), at the contents `V` the region is entered with.
   At each of the 16 grid points the body reads the two [1,512] accumulated feature rows, the [1,512]
   attention row and one [256,512] row block of each of the two views, and stores one [256,512] row block
   of the result: the two logits are the lane sums of (attention · feature · 2⁻¹²), the two weights are
   exp(logit − max) times the reciprocal of their sum, and the block is view₁·w₁ + view₂·w₂. Nothing is
   kept between points, so what the body leaves in the output's buffer is one function of the input blocks. -/
import proofs.«122693_g27230092657376_cont_9to1_1130_10_alg».proof.Proof.Gen.KernelIdeal.Launch
import proofs.«122693_g27230092657376_cont_9to1_1130_10_alg».proof.Proof.Gen.KernelIdeal.Skeleton
import proofs.«122693_g27230092657376_cont_9to1_1130_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_row : Rect S1x512 := Rect.unit (s := S1x512) ![0, 0] S1x512.size inb_S1x512_S1x512_0_0
abbrev r3_blk : Rect S256x512 := Rect.unit (s := S256x512) ![0, 0] S256x512.size inb_S256x512_S256x512_0_0

/-- The output window's buffer after the body, from the input windows' blocks: its one store. -/
def out3_5 (x0 x1 x2 : Vec F S1x512 .f32) (x3 x4 : Vec F S256x512 .bf16) : Vec F S256x512 .f32 :=
  View.canon [⟨r3_blk, k3_pay1 (View.ld x2 r3_row) (View.ld x0 r3_row) (View.ld x2 r3_row) (View.ld x1 r3_row) (View.ld x3 r3_blk) (View.ld x4 r3_blk)⟩]

/-- The store covers the buffer. -/
theorem cover3_5 (p0 : Vec F S256x512 .f32) (y : S256x512.Idx) :
    ∃ pc ∈ ([⟨r3_blk, p0⟩] : List (View.Piece (Elt F) S256x512 .f32)), y ∈ pc.1.set :=
  View.cover_of_tiled [⟨r3_blk, p0⟩] S256x512.size (by rfl) y

set_option maxHeartbeats 1000000 in
/-- The body on whole buffers, the inputs' at read contents and the output's at anything, runs to the
    continuation with the inputs' as they were and the output's at `out3_5` of them. -/
theorem sound_kernel3 (c : Dev nD) (E : Set ℕ) (i : grid3.Coords)
    (arg1 : Memref sig .tc .vmem S1x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S256x512 .bf16) (harg4 : arg4.IsWhole)
    (arg5 : Memref sig .tc .vmem S256x512 .bf16) (harg5 : arg5.IsWhole) (arg6 : Memref sig .tc .vmem S256x512 .f32) (harg6 : arg6.IsWhole)
    (x0 x1 x2 : Vec F S1x512 .f32) (x3 x4 : Vec F S256x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__combine_body i arg1 harg1 arg2 harg2 arg3 harg3 arg4 harg4 arg5 harg5 arg6 harg6) K := by
  simp only [cc3__combine_body_eq_skeleton]; unfold cc3__combine_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body at point `t`
    each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRun.lean ====
/- The whole run of @main: six segments — a stretch of host operations, the first pair region, a second stretch,
   the second pair region, and the two combine regions — composed in order. Between two segments every unscoped
   buffer of a core is held at named contents: the launch memory, then each host stretch's operations applied, then
   after a region its windows' arrays at what the pipeline's write-backs leave (an input window's array as it was)
   and every other buffer as before. The argument arrays are written by no stretch and are output window of no
   region, so the fold read at an argument walks back to the launch memory; the two results are the output arrays
   of the two combine regions. -/
import proofs.«122693_g27230092657376_cont_9to1_1130_10_alg».proof.Proof.KIComb2
import proofs.«122693_g27230092657376_cont_9to1_1130_10_alg».proof.Proof.KIComb3
import proofs.«122693_g27230092657376_cont_9to1_1130_10_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a core's TensorCore buffers, as a region's proof data take them. -/
abbrev Entry : Type := (c : Dev nD) → (b : Ref sig .tc) → Buf (Elt F) ((c : Thread nD τ).loc b)

/-- What a pair region supplies, at any entry contents: its proof data, reading its arrays off the entry contents,
    at full shares and owing nothing; the body obligation; and its invariant's two ends — made at the first point of
    the generator register and the scoped buffers no window stages, and giving them back at the last. -/
structure Pair0 where
  dat : (V : Entry (F := F)) → (c : Dev nD) → Dat τ (Elt F) Unit ℕ (UR sig nD τ) ℕ cfg0 c
  hA : ∀ V c w, (dat V c).A w = V c (Pipeline.arrRef spec0 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (iprop((∃ r, prngReg c r) ∗ Pipeline.scopedRest (Ix := Unit) (Name := ℕ) (U := UR sig nD τ) (Lvl := ℕ) (Val := Elt F) spec0 c) : sProp 𝕄) ⊢ (dat V c).Φ 0
  hout : ∀ V c, (dat V c).Φ (Fin.last cfg0.N) ⊢ (iprop((∃ r, prngReg c r) ∗ Pipeline.scopedRest (Ix := Unit) (Name := ℕ) (U := UR sig nD τ) (Lvl := ℕ) (Val := Elt F) spec0 c) : sProp 𝕄)

structure Pair1 where
  dat : (V : Entry (F := F)) → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (iprop((∃ r, prngReg c r) ∗ Pipeline.scopedRest (Ix := Unit) (Name := ℕ) (U := UR sig nD τ) (Lvl := ℕ) (Val := Elt F) spec1 c) : sProp 𝕄) ⊢ (dat V c).Φ 0
  hout : ∀ V c, (dat V c).Φ (Fin.last cfg1.N) ⊢ (iprop((∃ r, prngReg c r) ∗ Pipeline.scopedRest (Ix := Unit) (Name := ℕ) (U := UR sig nD τ) (Lvl := ℕ) (Val := Elt F) spec1 c) : sProp 𝕄)

variable (m : (ℓ : Loc nD τ sig) → Buf (Elt F) ℓ) (P0 : Pair0 (F := F)) (P1 : Pair1 (F := F))

/-! ## The buffer contents at each segment boundary -/

/-- At launch. -/
abbrev W0 : Dev nD → Valuation τ sig (Elt F) := fun c b => m (c, b)
/-- After the first host stretch (the first pair region's entry). -/
abbrev W1 : Dev nD → Valuation τ sig (Elt F) := fun c => StableHlo.after hostOps0 (W0 m c)
abbrev E1 : Entry (F := F) := fun c b => W1 m c b
/-- After the first pair region. -/
def W2 (c : Dev nD) : Valuation τ sig (Elt F) :=
  Pipeline.withArrays spec0 c (W1 m c) fun w => (P0.dat (E1 m) c).arrAt w cfg0.N
/-- After the second host stretch (the second pair region's entry). -/
abbrev W3 : Dev nD → Valuation τ sig (Elt F) := fun c => StableHlo.after hostOps1 (W2 m P0 c)
abbrev E3 : Entry (F := F) := fun c b => W3 m P0 c b
/-- After the second pair region (the first combine region's entry). -/
def W4 (c : Dev nD) : Valuation τ sig (Elt F) :=
  Pipeline.withArrays spec1 c (W3 m P0 c) fun w => (P1.dat (E3 m P0) c).arrAt w cfg1.N
abbrev E4 : Entry (F := F) := fun c b => W4 m P0 P1 c b
/-- After the first combine region (the second one's entry). -/
def W5 (c : Dev nD) : Valuation τ sig (Elt F) :=
  Pipeline.withArrays spec2 c (W4 m P0 P1 c) fun w => (dat2 (E4 m P0 P1) c).arrAt w cfg2.N
abbrev E5 : Entry (F := F) := fun c b => W5 m P0 P1 c b
/-- At the end. -/
def W6 (c : Dev nD) : Valuation τ sig (Elt F) :=
  Pipeline.withArrays spec3 c (W5 m P0 P1 c) fun w => (dat3 (E5 m P0 P1) c).arrAt w cfg3.N

/-! ### A region changes only its output windows' arrays -/

theorem W2_arr (c : Dev nD) (w : Fin cfg0.W) :
    W2 m P0 c (Proc.devRef .tc (Pipeline.arrRef spec0 w)) = (P0.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m P0 c (Proc.devRef .tc b) = W1 m c (Proc.devRef .tc b) := by
  unfold W2; exact Pipeline.withArrays_of_ne spec0 c _ _ b hb
theorem W4_arr (c : Dev nD) (w : Fin cfg1.W) :
    W4 m P0 P1 c (Proc.devRef .tc (Pipeline.arrRef spec1 w)) = (P1.dat (E3 m P0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m P0 P1 c (Proc.devRef .tc b) = W3 m P0 c (Proc.devRef .tc b) := by
  unfold W4; exact Pipeline.withArrays_of_ne spec1 c _ _ b hb
theorem W5_arr (c : Dev nD) (w : Fin cfg2.W) :
    W5 m P0 P1 c (Proc.devRef .tc (Pipeline.arrRef spec2 w)) = (dat2 (E4 m P0 P1) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m P0 P1 c (Proc.devRef .tc b) = W4 m P0 P1 c (Proc.devRef .tc b) := by
  unfold W5; exact Pipeline.withArrays_of_ne spec2 c _ _ b hb
theorem W6_arr (c : Dev nD) (w : Fin cfg3.W) :
    W6 m P0 P1 c (Proc.devRef .tc (Pipeline.arrRef spec3 w)) = (dat3 (E5 m P0 P1) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m P0 P1 c (Proc.devRef .tc b) = W5 m P0 P1 c (Proc.devRef .tc b) := by
  unfold W6; exact Pipeline.withArrays_of_ne spec3 c _ _ b hb

/-- A buffer that is no OUTPUT window's array of the first pair region is left as entered: an input window's array is
    never written back, and the rest is not the region's. -/
theorem W2_keep (c : Dev nD) (b : Ref sig .tc) (hb : ∀ w, (cfg0.win w).isOut = true → Pipeline.arrRef spec0 w ≠ b) :
    W2 m P0 c (Proc.devRef .tc b) = W1 m c (Proc.devRef .tc b) := by
  by_cases h : ∃ w, Pipeline.arrRef spec0 w = b
  · obtain ⟨w, rfl⟩ := h
    have hin : (cfg0.win w).isOut = false := by
      cases hio : (cfg0.win w).isOut
      · rfl
      · exact absurd rfl (hb w hio)
    exact (W2_arr m P0 c w).trans (((P0.dat (E1 m) c).arrAt_in w hin _).trans (P0.hA (E1 m) c w))
  · exact W2_of_ne m P0 c b fun w e => h ⟨w, e⟩
theorem W4_keep (c : Dev nD) (b : Ref sig .tc) (hb : ∀ w, (cfg1.win w).isOut = true → Pipeline.arrRef spec1 w ≠ b) :
    W4 m P0 P1 c (Proc.devRef .tc b) = W3 m P0 c (Proc.devRef .tc b) := by
  by_cases h : ∃ w, Pipeline.arrRef spec1 w = b
  · obtain ⟨w, rfl⟩ := h
    have hin : (cfg1.win w).isOut = false := by
      cases hio : (cfg1.win w).isOut
      · rfl
      · exact absurd rfl (hb w hio)
    exact (W4_arr m P0 P1 c w).trans (((P1.dat (E3 m P0) c).arrAt_in w hin _).trans (P1.hA (E3 m P0) c w))
  · exact W4_of_ne m P0 P1 c b fun w e => h ⟨w, e⟩
theorem W5_keep (c : Dev nD) (b : Ref sig .tc) (hb : ∀ w, (cfg2.win w).isOut = true → Pipeline.arrRef spec2 w ≠ b) :
    W5 m P0 P1 c (Proc.devRef .tc b) = W4 m P0 P1 c (Proc.devRef .tc b) := by
  by_cases h : ∃ w, Pipeline.arrRef spec2 w = b
  · obtain ⟨w, rfl⟩ := h
    have hin : (cfg2.win w).isOut = false := by
      cases hio : (cfg2.win w).isOut
      · rfl
      · exact absurd rfl (hb w hio)
    exact (W5_arr m P0 P1 c w).trans (((dat2 (E4 m P0 P1) c).arrAt_in w hin _).trans (A_eq2 (E4 m P0 P1) c w))
  · exact W5_of_ne m P0 P1 c b fun w e => h ⟨w, e⟩
theorem W6_keep (c : Dev nD) (b : Ref sig .tc) (hb : ∀ w, (cfg3.win w).isOut = true → Pipeline.arrRef spec3 w ≠ b) :
    W6 m P0 P1 c (Proc.devRef .tc b) = W5 m P0 P1 c (Proc.devRef .tc b) := by
  by_cases h : ∃ w, Pipeline.arrRef spec3 w = b
  · obtain ⟨w, rfl⟩ := h
    have hin : (cfg3.win w).isOut = false := by
      cases hio : (cfg3.win w).isOut
      · rfl
      · exact absurd rfl (hb w hio)
    exact (W6_arr m P0 P1 c w).trans (((dat3 (E5 m P0 P1) c).arrAt_in w hin _).trans (A_eq3 (E5 m P0 P1) c w))
  · exact W6_of_ne m P0 P1 c b fun w e => h ⟨w, e⟩

/-- A buffer no host stretch writes and no region has as an output window's array ends as launched. -/
theorem W6_launch (c : Dev nD) (b : Ref sig .tc) (h0 : b ∉ hostOps0_W) (h1 : b ∉ hostOps1_W)
    (o0 : ∀ w, (cfg0.win w).isOut = true → Pipeline.arrRef spec0 w ≠ b) (o1 : ∀ w, (cfg1.win w).isOut = true → Pipeline.arrRef spec1 w ≠ b)
    (o2 : ∀ w, (cfg2.win w).isOut = true → Pipeline.arrRef spec2 w ≠ b) (o3 : ∀ w, (cfg3.win w).isOut = true → Pipeline.arrRef spec3 w ≠ b) :
    W6 m P0 P1 c (Proc.devRef .tc b) = m ((c : Thread nD τ).loc b) :=
  (W6_keep m P0 P1 c b o3).trans <| (W5_keep m P0 P1 c b o2).trans <| (W4_keep m P0 P1 c b o1).trans <|
    (StableHlo.after_of_writes_sub hostOps1 _ hostOps1_writes h1).trans <| (W2_keep m P0 c b o0).trans <|
    (StableHlo.after_of_writes_sub hostOps0 _ hostOps0_writes h0).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => P0.dat (E1 m) c
  | ⟨1, _⟩ => fun c => P1.dat (E3 m P0) c
  | ⟨2, _⟩ => fun c => dat2 (E4 m P0 P1) c
  | ⟨3, _⟩ => fun c => dat3 (E5 m P0 P1) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m P0 P1 c) ∗ ∃ r, prngReg c r)

/-! ### The proof data's facts, pipeline by pipeline -/

theorem hA0 (c : Dev nD) (w : Fin cfg0.W) : (pdats m P0 P1 0 c).A w = W1 m c (Proc.devRef .tc (Pipeline.arrRef spec0 w)) := P0.hA (E1 m) c w
theorem hA1 (c : Dev nD) (w : Fin cfg1.W) : (pdats m P0 P1 1 c).A w = W3 m P0 c (Proc.devRef .tc (Pipeline.arrRef spec1 w)) := P1.hA (E3 m P0) c w
theorem hA2 (c : Dev nD) (w : Fin cfg2.W) : (pdats m P0 P1 2 c).A w = W4 m P0 P1 c (Proc.devRef .tc (Pipeline.arrRef spec2 w)) := A_eq2 (E4 m P0 P1) c w
theorem hA3 (c : Dev nD) (w : Fin cfg3.W) : (pdats m P0 P1 3 c).A w = W5 m P0 P1 c (Proc.devRef .tc (Pipeline.arrRef spec3 w)) := A_eq3 (E5 m P0 P1) c w
theorem hq0 (c : Dev nD) (w : Fin cfg0.W) : (pdats m P0 P1 0 c).q w = fullShare := P0.hq (E1 m) c w
theorem hq1 (c : Dev nD) (w : Fin cfg1.W) : (pdats m P0 P1 1 c).q w = fullShare := P1.hq (E3 m P0) c w
theorem hq2 (c : Dev nD) (w : Fin cfg2.W) : (pdats m P0 P1 2 c).q w = fullShare := rfl
theorem hq3 (c : Dev nD) (w : Fin cfg3.W) : (pdats m P0 P1 3 c).q w = fullShare := rfl
theorem howed0 (c : Dev nD) (t) : (pdats m P0 P1 0 c).owed t = 0 := P0.howed (E1 m) c t
theorem howed1 (c : Dev nD) (t) : (pdats m P0 P1 1 c).owed t = 0 := P1.howed (E3 m P0) c t
theorem howed2 (c : Dev nD) (t) : (pdats m P0 P1 2 c).owed t = 0 := rfl
theorem howed3 (c : Dev nD) (t) : (pdats m P0 P1 3 c).owed t = 0 := rfl

theorem hrec0 (c : Dev nD) (t) : (pdats m P0 P1 0 c).recorded t = Set.univ := P0.hrec (E1 m) c t
theorem hrec1 (c : Dev nD) (t) : (pdats m P0 P1 1 c).recorded t = Set.univ := P1.hrec (E3 m P0) c t
theorem hrec2 (c : Dev nD) (t) : (pdats m P0 P1 2 c).recorded t = Set.univ := rfl
theorem hrec3 (c : Dev nD) (t) : (pdats m P0 P1 3 c).recorded t = Set.univ := rfl

theorem hF0 (c : Dev nD) (w : Fin cfg0.W) : (pdats m P0 P1 0 c).arrAt w cfg0.N = W2 m P0 c (Proc.devRef .tc (Pipeline.arrRef spec0 w)) := (W2_arr m P0 c w).symm
theorem hrest0 (c : Dev nD) : ∀ b, b ∉ Finset.univ.image (Pipeline.arrRef spec0) → W2 m P0 c (Proc.devRef .tc b) = W1 m c (Proc.devRef .tc b) :=
  fun b hb => W2_of_ne m P0 c b fun w e => hb (Finset.mem_image.mpr ⟨w, Finset.mem_univ _, e⟩)
theorem hF1 (c : Dev nD) (w : Fin cfg1.W) : (pdats m P0 P1 1 c).arrAt w cfg1.N = W4 m P0 P1 c (Proc.devRef .tc (Pipeline.arrRef spec1 w)) := (W4_arr m P0 P1 c w).symm
theorem hrest1 (c : Dev nD) : ∀ b, b ∉ Finset.univ.image (Pipeline.arrRef spec1) → W4 m P0 P1 c (Proc.devRef .tc b) = W3 m P0 c (Proc.devRef .tc b) :=
  fun b hb => W4_of_ne m P0 P1 c b fun w e => hb (Finset.mem_image.mpr ⟨w, Finset.mem_univ _, e⟩)
theorem hF2 (c : Dev nD) (w : Fin cfg2.W) : (pdats m P0 P1 2 c).arrAt w cfg2.N = W5 m P0 P1 c (Proc.devRef .tc (Pipeline.arrRef spec2 w)) := (W5_arr m P0 P1 c w).symm
theorem hrest2 (c : Dev nD) : ∀ b, b ∉ Finset.univ.image (Pipeline.arrRef spec2) → W5 m P0 P1 c (Proc.devRef .tc b) = W4 m P0 P1 c (Proc.devRef .tc b) :=
  fun b hb => W5_of_ne m P0 P1 c b fun w e => hb (Finset.mem_image.mpr ⟨w, Finset.mem_univ _, e⟩)
theorem hF3 (c : Dev nD) (w : Fin cfg3.W) : (pdats m P0 P1 3 c).arrAt w cfg3.N = W6 m P0 P1 c (Proc.devRef .tc (Pipeline.arrRef spec3 w)) := (W6_arr m P0 P1 c w).symm
theorem hrest3 (c : Dev nD) : ∀ b, b ∉ Finset.univ.image (Pipeline.arrRef spec3) → W6 m P0 P1 c (Proc.devRef .tc b) = W5 m P0 P1 c (Proc.devRef .tc b) :=
  fun b hb => W6_of_ne m P0 P1 c b fun w e => hb (Finset.mem_image.mpr ⟨w, Finset.mem_univ _, e⟩)

/-! ## The regions as segments -/

set_option backward.isDefEq.respectTransparency.types false in
/-- Region 0 over the thread state: entered from every unscoped buffer at the boundary's contents, left with the
    region's arrays at what the pipeline leaves and every other buffer as entered; the generator register goes into
    the invariant and comes back; nothing owed; no semaphore of the kernel's own. -/
def reg0 : Pipeline.RegionSeg (pcfgs (F := F)) adm (pdats m P0 P1) () defs₀ 𝒱₀ L lv 0 where
  win := launch0.win.to₀
  block_pos := launch0.block_pos
  stage_whole := launch0.stage_whole
  K := PEmpty
  osem k := k.elim
  ho := Pipeline.OwnSemFacts.none _
  hbody c := (P0.hbody (E1 m) c).loose
  hwaits := Pipeline.hwaits_of_owed_zero _ _ _ _ L lv 0 fun c t => howed0 m P0 P1 c t
  pre c := iprop(StableHlo.held (c : Thread nD τ) (Pipeline.ucRefs τ sig) (W1 m c) ∗ R c)
  post c := iprop(StableHlo.held (c : Thread nD τ) (Pipeline.ucRefs τ sig) (W2 m P0 c) ∗ R c)
  X c := iprop(∃ r, prngReg c r)
  Y c := iprop(∃ r, prngReg c r)
  Z c := Pipeline.unscopedRest (Ix := Unit) (Name := ℕ) (U := UR sig nD τ) (Lvl := ℕ) spec0 c (fun b => W1 m c b)
  hentry c := by
    rw [Pipeline.ownSems0_none]
    have hsplit := Pipeline.arrays_of_unscopedBufs (p := 0) (pcfgs (F := F)) adm (pdats m P0 P1) launch0.win launch0.arr_whole c
      ((pdats m P0 P1 0 c).share_full fun w => hq0 m P0 P1 c w) (fun b => W1 m c b) fun w => hA0 m P0 P1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed0 m P0 P1 c 0]
      icases HO with ⟨%W, HO⟩; iexists W; isplitr; · ipureintro; exact fun x _ => Or.inl (by rw [hrec0 m P0 P1 c 0]; trivial)
      iexact HO
    isplitl [Hp]; · iexact Hp
    iexact Hrest
  hin c := by
    rw [show (pdats m P0 P1 0 c).Φ 0 = (P0.dat (E1 m) c).Φ 0 from rfl]
    iintro ⟨Hp, -, Hr⟩
    iapply (P0.hin (E1 m) c)
    isplitl [Hp]; · iexact Hp
    iexact Hr
  hout c := by
    rw [Pipeline.ownSems0_none, show (pdats m P0 P1 0 c).Φ (Fin.last _) = (P0.dat (E1 m) c).Φ (Fin.last cfg0.N) from rfl]
    iintro HΦ
    ihave H := (P0.hout (E1 m) c) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m P0 P1) ((pdats m P0 P1 0 c).share_full fun w => hq0 m P0 P1 c w)
      (fun b => W1 m c b) (fun b => W2 m P0 c b) ((pdats m P0 P1 0 c).arrAt · cfg0.N) (hF0 m P0 P1 c) (hrest0 m P0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed0 m P0 P1 c (Fin.last _)]
    icases HO with ⟨%W, -, HO⟩; iexists W; iexact HO

set_option backward.isDefEq.respectTransparency.types false in
/-- Region 1 over the thread state: entered from every unscoped buffer at the boundary's contents, left with the
    region's arrays at what the pipeline leaves and every other buffer as entered; the generator register goes into
    the invariant and comes back; nothing owed; no semaphore of the kernel's own. -/
def reg1 : Pipeline.RegionSeg (pcfgs (F := F)) adm (pdats m P0 P1) () defs₀ 𝒱₀ L lv 1 where
  win := launch1.win.to₀
  block_pos := launch1.block_pos
  stage_whole := launch1.stage_whole
  K := PEmpty
  osem k := k.elim
  ho := Pipeline.OwnSemFacts.none _
  hbody c := (P1.hbody (E3 m P0) c).loose
  hwaits := Pipeline.hwaits_of_owed_zero _ _ _ _ L lv 1 fun c t => howed1 m P0 P1 c t
  pre c := iprop(StableHlo.held (c : Thread nD τ) (Pipeline.ucRefs τ sig) (W3 m P0 c) ∗ R c)
  post c := iprop(StableHlo.held (c : Thread nD τ) (Pipeline.ucRefs τ sig) (W4 m P0 P1 c) ∗ R c)
  X c := iprop(∃ r, prngReg c r)
  Y c := iprop(∃ r, prngReg c r)
  Z c := Pipeline.unscopedRest (Ix := Unit) (Name := ℕ) (U := UR sig nD τ) (Lvl := ℕ) spec1 c (fun b => W3 m P0 c b)
  hentry c := by
    rw [Pipeline.ownSems0_none]
    have hsplit := Pipeline.arrays_of_unscopedBufs (p := 1) (pcfgs (F := F)) adm (pdats m P0 P1) launch1.win launch1.arr_whole c
      ((pdats m P0 P1 1 c).share_full fun w => hq1 m P0 P1 c w) (fun b => W3 m P0 c b) fun w => hA1 m P0 P1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed1 m P0 P1 c 0]
      icases HO with ⟨%W, HO⟩; iexists W; isplitr; · ipureintro; exact fun x _ => Or.inl (by rw [hrec1 m P0 P1 c 0]; trivial)
      iexact HO
    isplitl [Hp]; · iexact Hp
    iexact Hrest
  hin c := by
    rw [show (pdats m P0 P1 1 c).Φ 0 = (P1.dat (E3 m P0) c).Φ 0 from rfl]
    iintro ⟨Hp, -, Hr⟩
    iapply (P1.hin (E3 m P0) c)
    isplitl [Hp]; · iexact Hp
    iexact Hr
  hout c := by
    rw [Pipeline.ownSems0_none, show (pdats m P0 P1 1 c).Φ (Fin.last _) = (P1.dat (E3 m P0) c).Φ (Fin.last cfg1.N) from rfl]
    iintro HΦ
    ihave H := (P1.hout (E3 m P0) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m P0 P1) ((pdats m P0 P1 1 c).share_full fun w => hq1 m P0 P1 c w)
      (fun b => W3 m P0 c b) (fun b => W4 m P0 P1 c b) ((pdats m P0 P1 1 c).arrAt · cfg1.N) (hF1 m P0 P1 c) (hrest1 m P0 P1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed1 m P0 P1 c (Fin.last _)]
    icases HO with ⟨%W, -, HO⟩; iexists W; iexact HO

set_option backward.isDefEq.respectTransparency.types false in
/-- Region 2 over the thread state: entered from every unscoped buffer at the boundary's contents, left with the
    region's arrays at what the pipeline leaves and every other buffer as entered; the generator register goes into
    the invariant and comes back; nothing owed; no semaphore of the kernel's own. -/
def reg2 : Pipeline.RegionSeg (pcfgs (F := F)) adm (pdats m P0 P1) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m P0 P1) c).loose
  hwaits := Pipeline.hwaits_of_owed_zero _ _ _ _ L lv 2 fun c t => howed2 m P0 P1 c t
  pre c := iprop(StableHlo.held (c : Thread nD τ) (Pipeline.ucRefs τ sig) (W4 m P0 P1 c) ∗ R c)
  post c := iprop(StableHlo.held (c : Thread nD τ) (Pipeline.ucRefs τ sig) (W5 m P0 P1 c) ∗ R c)
  X c := iprop(∃ r, prngReg c r)
  Y c := iprop(∃ r, prngReg c r)
  Z c := Pipeline.unscopedRest (Ix := Unit) (Name := ℕ) (U := UR sig nD τ) (Lvl := ℕ) spec2 c (fun b => W4 m P0 P1 c b)
  hentry c := by
    rw [Pipeline.ownSems0_none]
    have hsplit := Pipeline.arrays_of_unscopedBufs (p := 2) (pcfgs (F := F)) adm (pdats m P0 P1) launch2.win launch2.arr_whole c
      ((pdats m P0 P1 2 c).share_full fun w => hq2 m P0 P1 c w) (fun b => W4 m P0 P1 c b) fun w => hA2 m P0 P1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed2 m P0 P1 c 0]
      icases HO with ⟨%W, HO⟩; iexists W; isplitr; · ipureintro; exact fun x _ => Or.inl (by rw [hrec2 m P0 P1 c 0]; trivial)
      iexact HO
    isplitl [Hp]; · iexact Hp
    iexact Hrest
  hin c := by
    rw [show (pdats m P0 P1 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m P0 P1 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m P0 P1) ((pdats m P0 P1 2 c).share_full fun w => hq2 m P0 P1 c w)
      (fun b => W4 m P0 P1 c b) (fun b => W5 m P0 P1 c b) ((pdats m P0 P1 2 c).arrAt · cfg2.N) (hF2 m P0 P1 c) (hrest2 m P0 P1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed2 m P0 P1 c (Fin.last _)]
    icases HO with ⟨%W, -, HO⟩; iexists W; iexact HO

set_option backward.isDefEq.respectTransparency.types false in
/-- Region 3 over the thread state: entered from every unscoped buffer at the boundary's contents, left with the
    region's arrays at what the pipeline leaves and every other buffer as entered; the generator register goes into
    the invariant and comes back; nothing owed; no semaphore of the kernel's own. -/
def reg3 : Pipeline.RegionSeg (pcfgs (F := F)) adm (pdats m P0 P1) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E5 m P0 P1) c).loose
  hwaits := Pipeline.hwaits_of_owed_zero _ _ _ _ L lv 3 fun c t => howed3 m P0 P1 c t
  pre c := iprop(StableHlo.held (c : Thread nD τ) (Pipeline.ucRefs τ sig) (W5 m P0 P1 c) ∗ R c)
  post c := iprop(Tₙ m P0 P1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (fun b => W5 m P0 P1 c b)
  hentry c := by
    rw [Pipeline.ownSems0_none]
    have hsplit := Pipeline.arrays_of_unscopedBufs (p := 3) (pcfgs (F := F)) adm (pdats m P0 P1) launch3.win launch3.arr_whole c
      ((pdats m P0 P1 3 c).share_full fun w => hq3 m P0 P1 c w) (fun b => W5 m P0 P1 c b) fun w => hA3 m P0 P1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed3 m P0 P1 c 0]
      icases HO with ⟨%W, HO⟩; iexists W; isplitr; · ipureintro; exact fun x _ => Or.inl (by rw [hrec3 m P0 P1 c 0]; trivial)
      iexact HO
    isplitl [Hp]; · iexact Hp
    iexact Hrest
  hin c := by
    rw [show (pdats m P0 P1 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m P0 P1 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m P0 P1) ((pdats m P0 P1 3 c).share_full fun w => hq3 m P0 P1 c w)
      (fun b => W5 m P0 P1 c b) (fun b => W6 m P0 P1 c b) ((pdats m P0 P1 3 c).arrAt · cfg3.N) (hF3 m P0 P1 c) (hrest3 m P0 P1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [howed3 m P0 P1 c (Fin.last _)]
    icases HO with ⟨%W, -, HO⟩; iexists W; iexact HO

/-! ## @main as segments, and the launch -/

abbrev segs : List (Pipeline.Seg (pcfgs (F := F)) adm (pdats m P0 P1) () defs₀ 𝒱₀ L lv) :=
  [ .host (hseg hostOps0 hostOps0_sub hostOps0_fresh (W0 m)),
    .region (reg0 m P0 P1),
    .host (hseg hostOps1 hostOps1_sub hostOps1_fresh (W2 m P0)),
    .region (reg1 m P0 P1),
    .region (reg2 m P0 P1),
    .region (reg3 m P0 P1) ]
theorem main_run (c : Dev nD) : main (F := F) c = Pipeline.Seg.run (segs m P0 P1) := (main_chain c).trans (by chain_rfl)

set_option backward.isDefEq.respectTransparency.types false in
/-- From any memory with zero counters every weakly fair execution of @main terminates, nothing faulting, and every
    final state holds each unscoped buffer of each core at the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m P0 P1 c b) :=
  Pipeline.θ_run_regions_kit (pcfgs (F := F)) adm (pdats m P0 P1) () cellOf_inj emb₁ defs₀ 𝒱₀ L lv m ρ main (segs m P0 P1)
    (fun c Q => by rw [main_run m P0 P1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m P0 P1)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m P0 P1 c b)
    (hfin := fun c s' => by
      iintro ⟨⟨Hh, -⟩, HSI⟩
      unfold StableHlo.held
      imodintro
      iapply (pointsTo_read_all (Pipeline.ucRefs τ sig) (fun b => (((c : Thread nD τ)).1, b)) (W6 m P0 P1 c) s')
      isplitl [Hh] <;> iassumption)
    (hQ := fun s h c => h c)

end Cert.KernelIdeal.Hand

end
-- ==== Proof.KIPost.lean ====
/- What the run leaves: each argument array as launched — no host stretch writes it and no region has it as an
   output window's array — and each of the two results at what its combine region's write-backs leave. -/
import proofs.«122693_g27230092657376_cont_9to1_1130_10_alg».proof.Proof.KIRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (P0 : Pair0 (F := F)) (P1 : Pair1 (F := F))

/-- The first result is the first combine region's output array: the second combine region does not have it as a window. -/
theorem W6_res0 (c : Dev nD) : W6 m P0 P1 c (Proc.devRef .tc main_v0_0) = (dat2 (E4 m P0 P1) c).arrAt 5 cfg2.N :=
  (W6_of_ne m P0 P1 c main_v0_0 (by decide)).trans (W5_arr m P0 P1 c 5)
/-- The second result is the second combine region's output array. -/
theorem W6_res1 (c : Dev nD) : W6 m P0 P1 c (Proc.devRef .tc main_v0_1) = (dat3 (E5 m P0 P1) c).arrAt 5 cfg3.N :=
  W6_arr m P0 P1 c 5

/-- The run with its results named and its arguments unchanged. -/
theorem run_post (ρ : Dev nD → PrngReg) : θ_run defs (onTc (τ := τ) (main (F := F))) ⟨m, fun _ => 0, ρ⟩ (fun r => ∀ c : Dev nD,
      r.2.mem ((c.tc : Thread nD τ).loc main_v0_0) = (dat2 (E4 m P0 P1) c).arrAt 5 cfg2.N
      ∧ r.2.mem ((c.tc : Thread nD τ).loc main_v0_1) = (dat3 (E5 m P0 P1) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_v0_0 (by decide))).trans (W6_res0 m P0 P1 c),
      (h c _ (mem_uc main_v0_1 (by decide))).trans (W6_res1 m P0 P1 c),
      (h c _ (mem_uc main_arg0 (by decide))).trans (W6_launch m P0 P1 c main_arg0 (by decide) (by decide) (by decide) (by decide) (by decide) (by decide)),
      (h c _ (mem_uc main_arg1 (by decide))).trans (W6_launch m P0 P1 c main_arg1 (by decide) (by decide) (by decide) (by decide) (by decide) (by decide)),
      (h c _ (mem_uc main_arg2 (by decide))).trans (W6_launch m P0 P1 c main_arg2 (by decide) (by decide) (by decide) (by decide) (by decide) (by decide)),
      (h c _ (mem_uc main_arg3 (by decide))).trans (W6_launch m P0 P1 c main_arg3 (by decide) (by decide) (by decide) (by decide) (by decide) (by decide)),
      (h c _ (mem_uc main_arg4 (by decide))).trans (W6_launch m P0 P1 c main_arg4 (by decide) (by decide) (by decide) (by decide) (by decide) (by decide)),
      (h c _ (mem_uc main_arg5 (by decide))).trans (W6_launch m P0 P1 c main_arg5 (by decide) (by decide) (by decide) (by decide) (by decide) (by decide)),
      (h c _ (mem_uc main_arg6 (by decide))).trans (W6_launch m P0 P1 c main_arg6 (by decide) (by decide) (by decide) (by decide) (by decide) (by decide)),
      (h c _ (mem_uc main_arg7 (by decide))).trans (W6_launch m P0 P1 c main_arg7 (by decide) (by decide) (by decide) (by decide) (by decide) (by decide)),
      (h c _ (mem_uc main_arg8 (by decide))).trans (W6_launch m P0 P1 c main_arg8 (by decide) (by decide) (by decide) (by decide) (by decide) (by decide)),
      (h c _ (mem_uc main_arg9 (by decide))).trans (W6_launch m P0 P1 c main_arg9 (by decide) (by decide) (by decide) (by decide) (by decide) (by decide)),
      (h c _ (mem_uc main_arg10 (by decide))).trans (W6_launch m P0 P1 c main_arg10 (by decide) (by decide) (by decide) (by decide) (by decide) (by decide)),
      (h c _ (mem_uc main_arg11 (by decide))).trans (W6_launch m P0 P1 c main_arg11 (by decide) (by decide) (by decide) (by decide) (by decide) (by decide)),
      (h c _ (mem_uc main_arg12 (by decide))).trans (W6_launch m P0 P1 c main_arg12 (by decide) (by decide) (by decide) (by decide) (by decide) (by decide)),
      (h c _ (mem_uc main_arg13 (by decide))).trans (W6_launch m P0 P1 c main_arg13 (by decide) (by decide) (by decide) (by decide) (by decide) (by decide)),
      (h c _ (mem_uc main_arg14 (by decide))).trans (W6_launch m P0 P1 c main_arg14 (by decide) (by decide) (by decide) (by decide) (by decide) (by decide)),
      (h c _ (mem_uc main_arg15 (by decide))).trans (W6_launch m P0 P1 c main_arg15 (by decide) (by decide) (by decide) (by decide) (by decide) (by decide)),
      (h c _ (mem_uc main_arg16 (by decide))).trans (W6_launch m P0 P1 c main_arg16 (by decide) (by decide) (by decide) (by decide) (by decide) (by decide)),
      (h c _ (mem_uc main_arg17 (by decide))).trans (W6_launch m P0 P1 c main_arg17 (by decide) (by decide) (by decide) (by decide) (by decide) (by decide)),
      (h c _ (mem_uc main_arg18 (by decide))).trans (W6_launch m P0 P1 c main_arg18 (by decide) (by decide) (by decide) (by decide) (by decide) (by decide)),
      (h c _ (mem_uc main_arg19 (by decide))).trans (W6_launch m P0 P1 c main_arg19 (by decide) (by decide) (by decide) (by decide) (by decide) (by decide)),
      (h c _ (mem_uc main_arg20 (by decide))).trans (W6_launch m P0 P1 c main_arg20 (by decide) (by decide) (by decide) (by decide) (by decide) (by decide)),
      (h c _ (mem_uc main_arg21 (by decide))).trans (W6_launch m P0 P1 c main_arg21 (by decide) (by decide) (by decide) (by decide) (by decide) (by decide)),
      (h c _ (mem_uc main_arg22 (by decide))).trans (W6_launch m P0 P1 c main_arg22 (by decide) (by decide) (by decide) (by decide) (by decide) (by decide)),
      (h c _ (mem_uc main_arg23 (by decide))).trans (W6_launch m P0 P1 c main_arg23 (by decide) (by decide) (by decide) (by decide) (by decide) (by decide)),
      (h c _ (mem_uc main_arg24 (by decide))).trans (W6_launch m P0 P1 c main_arg24 (by decide) (by decide) (by decide) (by decide) (by decide) (by decide))⟩)
    (run m P0 P1 ρ)

include P0 P1 in
/-- The frame: every weakly fair execution terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => (h c).2.2) (run_post m P0 P1 ρ)

end Cert.KernelIdeal.Hand

end
-- ==== Proof.Spec.lean ====
/-
  The mathematics both programs compute, as pure functions on the extended reals.

  Two node sets (4096 nodes, 512 features each) are each seen through two weighted adjacency
  matrices.  For one view, with node features `emb`, a dense layer `W`, `bfc`, the adjacency `adj`, a
  second bias `bias` and a slope `p`:

      lin  (n, d) = (Σ_k emb(n, k) · W(d, k)) + bfc(d)              -- emb · Wᵀ + bfc
      agg  (n, d) = (Σ_k adj(n, k) · lin(k, d)) + bias(d)           -- adj · lin + bias
      view (n, d) = agg(n, d) if 0 ≤ agg(n, d), else p · agg(n, d)  -- the parametric rectifier

  The two views `v₁`, `v₂` of a node set are then mixed by one attention step shared by all views,
  with parameters `Wₐ`, `bₐ` and the row vector `a`:

      score(v)(n, j) = tanh((Σ_k v(n, k) · Wₐ(j, k)) + bₐ(j))
      colsum(v)(j)   = Σ_n score(v)(n, j)
      logit(v)       = Σ_j a(0, j) · (colsum(v)(j) / 4096)           -- a · mean over the nodes
      M              = max(logit v₁, logit v₂)
      βᵢ             = exp(logit vᵢ − M) / (exp(logit v₁ − M) + exp(logit v₂ − M))
      out(n, d)      = v₁(n, d) · β₁ + v₂(n, d) · β₂

  Every operation is the exact one on the extended reals (sums and products of `EReal`, the
  division, exponential and hyperbolic tangent of the ideal instance); the constant 4096 is kept as
  the float word that denotes it.  Indices are built from coordinates (`ix1`, `ix2`, `ix0`).
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `r` rows and `c` columns. -/
abbrev Mat (r c : Nat) : Type := (⟨2, ![r, c]⟩ : Shape).Idx → EReal
/-- A vector of extended reals of length `n`. -/
abbrev Vec1 (n : Nat) : Type := (⟨1, ![n]⟩ : Shape).Idx → EReal
/-- A scalar held as a rank-0 array. -/
abbrev Scal : Type := (⟨0, ![]⟩ : Shape).Idx → EReal
/-- One view of a node set: an entry per node and feature. -/
abbrev View : Type := Fin 4096 → Fin 512 → EReal

/-! ## One view -/

/-- The dense layer: `emb · Wᵀ + bfc` at node `n`, feature `d`. -/
def lin (emb : Mat 4096 512) (W : Mat 512 512) (bfc : Vec1 512) (n : Fin 4096) (d : Fin 512) : EReal :=
  (∑ k : Fin 512, emb (ix2 n k) * W (ix2 d k)) + bfc (ix1 d)

/-- The aggregation over the adjacency: `adj · lin + bias` at node `n`, feature `d`. -/
def agg (emb : Mat 4096 512) (adj : Mat 4096 4096) (W : Mat 512 512) (bfc bias : Vec1 512)
    (n : Fin 4096) (d : Fin 512) : EReal :=
  (∑ k : Fin 4096, adj (ix2 n k) * lin emb W bfc k d) + bias (ix1 d)

/-- The parametric rectifier with slope `p`: the identity on `0 ≤ o`, `p · o` below. -/
def prelu (p o : EReal) : EReal := if 0 ≤ o then o else p * o

/-- One view: the rectified aggregation. -/
def view (emb : Mat 4096 512) (adj : Mat 4096 4096) (W : Mat 512 512) (bfc bias : Vec1 512) (p : Scal) : View :=
  fun n d => prelu (p ix0) (agg emb adj W bfc bias n d)

/-! ## The attention over two views -/

/-- The float word of 4096, the number of nodes the mean divides by. -/
def nodes : EReal := Ideal.ofBits .f32 0x45800000#32

/-- The attention's hidden unit `j` at node `n`: `tanh (v · Wₐᵀ + bₐ)`. -/
def score (v : View) (Wa : Mat 512 512) (ba : Vec1 512) (n : Fin 4096) (j : Fin 512) : EReal :=
  Ideal.tanh ((∑ k : Fin 512, v n k * Wa (ix2 j k)) + ba (ix1 j))

/-- Hidden unit `j` summed over the nodes. -/
def colsum (v : View) (Wa : Mat 512 512) (ba : Vec1 512) (j : Fin 512) : EReal :=
  ∑ n : Fin 4096, score v Wa ba n j

/-- A view's attention logit: `a` against the mean of the hidden units over the nodes. -/
def logit (a : Mat 1 512) (v : View) (Wa : Mat 512 512) (ba : Vec1 512) : EReal :=
  ∑ j : Fin 512, a (ix2 0 j) * Ideal.div (colsum v Wa ba j) nodes

/-- `exp (l − max la lb)`: a logit's exponential after the shift by the larger of the two. -/
def expShift (la lb l : EReal) : EReal := Ideal.exp (l - max la lb)

/-- The softmax's denominator over the two logits. -/
def den (la lb : EReal) : EReal := expShift la lb la + expShift la lb lb

/-- The softmax weight of the logit `l` among `la`, `lb`. -/
def beta (la lb l : EReal) : EReal := Ideal.div (expShift la lb l) (den la lb)

/-- Two views mixed with the softmax weights of their logits. -/
def mix (v₁ v₂ : View) (la lb : EReal) (n : Fin 4096) (d : Fin 512) : EReal :=
  v₁ n d * beta la lb la + v₂ n d * beta la lb lb

/-- The attention step on two views. -/
def attend (v₁ v₂ : View) (Wa : Mat 512 512) (ba : Vec1 512) (a : Mat 1 512) (n : Fin 4096) (d : Fin 512) : EReal :=
  mix v₁ v₂ (logit a v₁ Wa ba) (logit a v₂ Wa ba) n d

/-! ## The whole computation for one node set -/

/-- The result for one node set at node `n`, feature `d`: its two views, attended. -/
def outAt (emb : Mat 4096 512) (adj₁ : Mat 4096 4096) (W₁ : Mat 512 512) (bfc₁ bias₁ : Vec1 512) (p₁ : Scal)
    (adj₂ : Mat 4096 4096) (W₂ : Mat 512 512) (bfc₂ bias₂ : Vec1 512) (p₂ : Scal)
    (Wa : Mat 512 512) (ba : Vec1 512) (a : Mat 1 512) (n : Fin 4096) (d : Fin 512) : EReal :=
  attend (view emb adj₁ W₁ bfc₁ bias₁ p₁) (view emb adj₂ W₂ bfc₂ bias₂ p₂) Wa ba a n d

/-- The result for one node set as an array. -/
def out (emb : Mat 4096 512) (adj₁ : Mat 4096 4096) (W₁ : Mat 512 512) (bfc₁ bias₁ : Vec1 512) (p₁ : Scal)
    (adj₂ : Mat 4096 4096) (W₂ : Mat 512 512) (bfc₂ bias₂ : Vec1 512) (p₂ : Scal)
    (Wa : Mat 512 512) (ba : Vec1 512) (a : Mat 1 512) : Mat 4096 512 :=
  fun i => outAt emb adj₁ W₁ bfc₁ bias₁ p₁ adj₂ W₂ bfc₂ bias₂ p₂ Wa ba a (i 0) (i 1)

theorem out_ix2 (emb : Mat 4096 512) (adj₁ : Mat 4096 4096) (W₁ : Mat 512 512) (bfc₁ bias₁ : Vec1 512) (p₁ : Scal)
    (adj₂ : Mat 4096 4096) (W₂ : Mat 512 512) (bfc₂ bias₂ : Vec1 512) (p₂ : Scal)
    (Wa : Mat 512 512) (ba : Vec1 512) (a : Mat 1 512) (n : Fin 4096) (d : Fin 512) :
    out emb adj₁ W₁ bfc₁ bias₁ p₁ adj₂ W₂ bfc₂ bias₂ p₂ Wa ba a (ix2 n d)
      = outAt emb adj₁ W₁ bfc₁ bias₁ p₁ adj₂ W₂ bfc₂ bias₂ p₂ Wa ba a n d := rfl

end Cert.Spec

end
-- ==== Proof.SpecAlgebra.lean ====
/-
  Laws that join two arrangements of the same computation, on the extended reals.

  * A sum over the 4096 nodes may be taken block by block (16 blocks of 256 consecutive nodes) and
    accumulated from zero: addition of extended reals is commutative and associative at the
    infinities too, so no finiteness is needed.
  * Multiplying by the float 2⁻¹² is dividing by the float 4096 (both words denote those numbers
    exactly), for every extended real.
  * `e · (1 / S) = e / S` holds whenever `S ≠ 0`.  At `S = 0` it fails (`0 / 0` is `⊥` while
    `0 · (1 / 0) = 0 · ⊤ = 0`), and the softmax denominator `exp (la − M) + exp (lb − M)`,
    `M = max la lb`, is zero exactly when `M` is infinite (`⊤ − ⊤ = ⊥` and `exp ⊥ = 0`).  The
    hyperbolic tangent lands in `[-1, 1]` at every extended real, so a column sum is always a real
    number and a logit is real as soon as the attention vector `a` is; then `M` is real, one of the
    two exponentials is `exp 0 = 1`, and the denominator is positive.
  * `max ⊥ x = x`.
-/
import proofs.«122693_g27230092657376_cont_9to1_1130_10_alg».proof.Proof.Spec
import Idealize.ShloMosaic.PureOps.Ideal.Laws
import Mathlib.Algebra.BigOperators.Fin
import Mathlib.Logic.Equiv.Fin.Basic

noncomputable section

open scoped BigOperators

namespace Cert.Spec

open Idealize.ShloMosaic Idealize.ShloMosaic.ValueIdx

/-! ## A sum over the nodes, block by block -/

/-- Node `r` of block `b`: blocks are 256 consecutive nodes. -/
def row (b : Fin 16) (r : Fin 256) : Fin 4096 := ⟨b.val * 256 + r.val, by omega⟩

theorem row_val (b : Fin 16) (r : Fin 256) : (row b r).val = b.val * 256 + r.val := rfl

/-- The sum of the sixteen block sums is the sum over all nodes. -/
theorem sum_blocks {M : Type*} [AddCommMonoid M] (f : Fin 4096 → M) :
    ∑ b : Fin 16, ∑ r : Fin 256, f (row b r) = ∑ n : Fin 4096, f n := by
  rw [← Fintype.sum_prod_type']
  refine Fintype.sum_equiv (finProdFinEquiv : Fin 16 × Fin 256 ≃ Fin 4096) _ _ fun p => congrArg f (Fin.ext ?_)
  show p.1.val * 256 + p.2.val = p.2.val + 256 * p.1.val
  omega

/-- An accumulator that starts at zero and adds one term per step holds, after `t` steps, the sum
    of the first `t` terms. -/
theorem acc_eq_sum_range {M : Type*} [AddCommMonoid M] (g acc : ℕ → M) (h0 : acc 0 = 0)
    (hs : ∀ t, acc (t + 1) = acc t + g t) (t : ℕ) : acc t = ∑ b ∈ Finset.range t, g b := by
  induction t with
  | zero => rw [h0, Finset.range_zero, Finset.sum_empty]
  | succ t ih => rw [hs, ih, Finset.sum_range_succ]

/-- After all sixteen steps such an accumulator of block sums holds the sum over all nodes. -/
theorem acc_blocks {M : Type*} [AddCommMonoid M] (f : Fin 4096 → M) (acc : ℕ → M) (h0 : acc 0 = 0)
    (hs : ∀ (t : ℕ) (ht : t < 16), acc (t + 1) = acc t + ∑ r : Fin 256, f (row ⟨t, ht⟩ r)) :
    acc 16 = ∑ n : Fin 4096, f n := by
  have key : ∀ t, t ≤ 16 → acc t = ∑ b ∈ Finset.range t, (if hb : b < 16 then ∑ r : Fin 256, f (row ⟨b, hb⟩ r) else 0) := by
    intro t
    induction t with
    | zero => intro _; rw [h0, Finset.range_zero, Finset.sum_empty]
    | succ t ih =>
      intro ht
      have ht' : t < 16 := by omega
      rw [hs t ht', ih (by omega), Finset.sum_range_succ, dif_pos ht']
  rw [key 16 le_rfl, Finset.sum_range, ← sum_blocks f]
  exact Finset.sum_congr rfl fun b _ => by rw [dif_pos b.isLt]

/-- A column sum of the attention's hidden units, block by block. -/
theorem colsum_blocks (v : View) (Wa : Mat 512 512) (ba : Vec1 512) (j : Fin 512) :
    ∑ b : Fin 16, ∑ r : Fin 256, score v Wa ba (row b r) j = colsum v Wa ba j :=
  sum_blocks fun n => score v Wa ba n j

/-! ## The two float words: 4096 and its reciprocal -/

/-- The word `0x45800000` is the float 4096. -/
theorem ofBits_nodes : Ideal.ofBits .f32 0x45800000#32 = ((4096 : ℝ) : EReal) := by
  simp [Ideal.ofBits, Ideal.ieee, -EReal.coe_mul]; norm_num

/-- The word `0x39800000` is the float 2⁻¹² = 1 / 4096. -/
theorem ofBits_invNodes : Ideal.ofBits .f32 0x39800000#32 = ((1 / 4096 : ℝ) : EReal) := by
  simp [Ideal.ofBits, Ideal.ieee, -EReal.coe_mul]; norm_num

/-- Multiplying by the float 2⁻¹² is dividing by the float 4096, at every extended real. -/
theorem mul_invNodes (x : EReal) : x * Ideal.ofBits .f32 0x39800000#32 = Ideal.div x nodes := by
  rw [nodes, ofBits_nodes, ofBits_invNodes, Ideal.div_coe (by norm_num : (4096 : ℝ) ≠ 0)]

/-- A weighted column sum scaled by 2⁻¹² is the weight times the column mean. -/
theorem mul_mul_invNodes (a s : EReal) : a * s * Ideal.ofBits .f32 0x39800000#32 = a * Ideal.div s nodes := by
  rw [mul_assoc, mul_invNodes]

/-- The logit computed as `Σ_j (a(0, j) · colsum(j)) · 2⁻¹²`. -/
theorem logit_eq_sum_scaled (a : Mat 1 512) (v : View) (Wa : Mat 512 512) (ba : Vec1 512) :
    ∑ j : Fin 512, a (ix2 0 j) * colsum v Wa ba j * Ideal.ofBits .f32 0x39800000#32 = logit a v Wa ba :=
  Finset.sum_congr rfl fun j _ => mul_mul_invNodes _ _

/-! ## Division by a nonzero denominator -/

/-- `e · (1 / S) = e / S` for `S ≠ 0`. -/
theorem mul_one_div (e S : EReal) (hS : S ≠ 0) : e * Ideal.div 1 S = Ideal.div e S := by
  simp only [Ideal.div, if_neg hS, one_mul]

/-- The same with the numerator `1` given as its float word. -/
theorem mul_oneWord_div (e S : EReal) (hS : S ≠ 0) :
    e * Ideal.div (Ideal.ofBits .f32 0x3F800000#32) S = Ideal.div e S := by
  have h1 : Ideal.ofBits .f32 0x3F800000#32 = 1 := by
    simp [Ideal.ofBits, Ideal.ieee, -EReal.coe_mul]; norm_num
  rw [h1]; exact mul_one_div e S hS

/-- A softmax weight as the shifted exponential times the reciprocal of the denominator. -/
theorem expShift_mul_inv_den (la lb l : EReal) (h : den la lb ≠ 0) :
    expShift la lb l * Ideal.div 1 (den la lb) = beta la lb l :=
  mul_one_div _ _ h

/-- The mix with each weight spelt `exp · (1 / denominator)`. -/
theorem mix_eq_of_inv (v₁ v₂ : View) (la lb : EReal) (h : den la lb ≠ 0) (n : Fin 4096) (d : Fin 512) :
    v₁ n d * (expShift la lb la * Ideal.div 1 (den la lb)) + v₂ n d * (expShift la lb lb * Ideal.div 1 (den la lb))
      = mix v₁ v₂ la lb n d := by
  rw [expShift_mul_inv_den la lb la h, expShift_mul_inv_den la lb lb h]; rfl

/-- The mix with each weight spelt `exp · (1 / denominator)`, the numerator `1` as its float word. -/
theorem mix_eq_of_invWord (v₁ v₂ : View) (la lb : EReal) (h : den la lb ≠ 0) (n : Fin 4096) (d : Fin 512) :
    v₁ n d * (expShift la lb la * Ideal.div (Ideal.ofBits .f32 0x3F800000#32) (den la lb))
      + v₂ n d * (expShift la lb lb * Ideal.div (Ideal.ofBits .f32 0x3F800000#32) (den la lb))
      = mix v₁ v₂ la lb n d := by
  rw [mul_oneWord_div _ _ h, mul_oneWord_div _ _ h]; rfl

/-! ## Real values: the logits are real when the attention vector is -/

/-- The hyperbolic tangent of an extended real is a real number. -/
theorem tanh_real (x : EReal) : ∃ r : ℝ, Ideal.tanh x = (r : EReal) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, rfl⟩

/-- A finite sum of reals is a real. -/
theorem sum_real {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨ra, hra⟩ := h a (Finset.mem_insert_self a s)
    obtain ⟨rs, hrs⟩ := ih fun i hi => h i (Finset.mem_insert_of_mem hi)
    exact ⟨ra + rs, by rw [Finset.sum_insert ha, hra, hrs, EReal.coe_add]⟩

/-- A column sum of hidden units is a real number, whatever the view. -/
theorem colsum_real (v : View) (Wa : Mat 512 512) (ba : Vec1 512) (j : Fin 512) :
    ∃ r : ℝ, colsum v Wa ba j = (r : EReal) :=
  sum_real _ _ fun n _ => tanh_real _

/-- A real divided by the float 4096 is a real. -/
theorem div_nodes_real (r : ℝ) : Ideal.div (r : EReal) nodes = ((r * (1 / 4096) : ℝ) : EReal) := by
  rw [nodes, ofBits_nodes, Ideal.div_coe (by norm_num : (4096 : ℝ) ≠ 0), ← EReal.coe_mul]

/-- A view's logit is a real number when every entry of the attention vector is. -/
theorem logit_real (a : Mat 1 512) (v : View) (Wa : Mat 512 512) (ba : Vec1 512)
    (ha : ∀ j : Fin 512, ∃ r : ℝ, a (ix2 0 j) = (r : EReal)) : ∃ r : ℝ, logit a v Wa ba = (r : EReal) := by
  refine sum_real _ _ fun j _ => ?_
  obtain ⟨ra, hra⟩ := ha j
  obtain ⟨rc, hrc⟩ := colsum_real v Wa ba j
  exact ⟨ra * (rc * (1 / 4096)), by rw [hra, hrc, div_nodes_real, ← EReal.coe_mul]⟩

/-- The softmax denominator of two real logits is not zero. -/
theorem den_ne_zero (la lb : EReal) (ha : ∃ r : ℝ, la = (r : EReal)) (hb : ∃ r : ℝ, lb = (r : EReal)) :
    den la lb ≠ 0 := by
  obtain ⟨ra, rfl⟩ := ha
  obtain ⟨rb, rfl⟩ := hb
  have hmax : max (ra : EReal) (rb : EReal) = ((max ra rb : ℝ) : EReal) :=
    (EReal.coe_strictMono.monotone.map_max).symm
  have e : den (ra : EReal) (rb : EReal)
      = ((Real.exp (ra - max ra rb) + Real.exp (rb - max ra rb) : ℝ) : EReal) := by
    unfold den expShift
    rw [hmax, ← EReal.coe_sub, ← EReal.coe_sub, Ideal.exp_coe, Ideal.exp_coe, ← EReal.coe_add]
  rw [e]
  have hpos : (0 : ℝ) < Real.exp (ra - max ra rb) + Real.exp (rb - max ra rb) := by positivity
  exact_mod_cast hpos.ne'

/-- The softmax denominator of the two views' logits is not zero when the attention vector is real. -/
theorem den_logit_ne_zero (a : Mat 1 512) (v₁ v₂ : View) (Wa : Mat 512 512) (ba : Vec1 512)
    (ha : ∀ j : Fin 512, ∃ r : ℝ, a (ix2 0 j) = (r : EReal)) :
    den (logit a v₁ Wa ba) (logit a v₂ Wa ba) ≠ 0 :=
  den_ne_zero _ _ (logit_real a v₁ Wa ba ha) (logit_real a v₂ Wa ba ha)

/-- The attention step with each weight spelt `exp · (1 / denominator)`, for a real attention vector. -/
theorem attend_eq_of_inv (v₁ v₂ : View) (Wa : Mat 512 512) (ba : Vec1 512) (a : Mat 1 512)
    (ha : ∀ j : Fin 512, ∃ r : ℝ, a (ix2 0 j) = (r : EReal)) (n : Fin 4096) (d : Fin 512) :
    v₁ n d * (expShift (logit a v₁ Wa ba) (logit a v₂ Wa ba) (logit a v₁ Wa ba)
        * Ideal.div 1 (den (logit a v₁ Wa ba) (logit a v₂ Wa ba)))
      + v₂ n d * (expShift (logit a v₁ Wa ba) (logit a v₂ Wa ba) (logit a v₂ Wa ba)
        * Ideal.div 1 (den (logit a v₁ Wa ba) (logit a v₂ Wa ba)))
      = attend v₁ v₂ Wa ba a n d :=
  mix_eq_of_inv v₁ v₂ _ _ (den_logit_ne_zero a v₁ v₂ Wa ba ha) n d

/-- The same with the numerator `1` as its float word. -/
theorem attend_eq_of_invWord (v₁ v₂ : View) (Wa : Mat 512 512) (ba : Vec1 512) (a : Mat 1 512)
    (ha : ∀ j : Fin 512, ∃ r : ℝ, a (ix2 0 j) = (r : EReal)) (n : Fin 4096) (d : Fin 512) :
    v₁ n d * (expShift (logit a v₁ Wa ba) (logit a v₂ Wa ba) (logit a v₁ Wa ba)
        * Ideal.div (Ideal.ofBits .f32 0x3F800000#32) (den (logit a v₁ Wa ba) (logit a v₂ Wa ba)))
      + v₂ n d * (expShift (logit a v₁ Wa ba) (logit a v₂ Wa ba) (logit a v₂ Wa ba)
        * Ideal.div (Ideal.ofBits .f32 0x3F800000#32) (den (logit a v₁ Wa ba) (logit a v₂ Wa ba)))
      = attend v₁ v₂ Wa ba a n d :=
  mix_eq_of_invWord v₁ v₂ _ _ (den_logit_ne_zero a v₁ v₂ Wa ba ha) n d

/-! ## The least element -/

/-- The word `0xFF800000` is `−∞`. -/
theorem ofBits_negInf : Ideal.ofBits .f32 0xFF800000#32 = ⊥ := by simp [Ideal.ofBits, Ideal.ieee]

/-- A maximum against `−∞` is the identity. -/
theorem max_negInf (x : EReal) : max (Ideal.ofBits .f32 0xFF800000#32) x = x := by
  rw [ofBits_negInf]; exact max_bot_left x

end Cert.Spec

end
-- ==== Proof.KIPairSpec.lean ====
/-
  The pair regions' arithmetic, joined to the specification.

  A pair region holds, for one node set: the node features, the two dense layers with their weights
  TRANSPOSED (entry (k, d) of the region's weight is entry (d, k) of the layer's), the biases and slopes as
  rows and [1,1] arrays, the attention's hidden layer transposed likewise, and at each of its sixteen points
  one block of 256 rows of each adjacency.  At its first point it computes the two dense layers whole; at
  every point it computes the block of each view and adds the block's sum of hidden units to an accumulator
  that starts at zero.  Stated here over arbitrary arrays that satisfy those entrywise equations: the dense
  layer is the specification's, a view block is that block of the specification's view, the accumulator
  after the sixteen points is the view's column sum, and an array assembled from the view blocks is the view.
-/
import proofs.«122693_g27230092657376_cont_9to1_1130_10_alg».proof.Proof.Spec
import proofs.«122693_g27230092657376_cont_9to1_1130_10_alg».proof.Proof.SpecAlgebra
import proofs.«122693_g27230092657376_cont_9to1_1130_10_alg».proof.Proof.Gen.KernelIdeal.Skeleton

noncomputable section

open scoped BigOperators

namespace Cert.Spec

open Idealize.ShloMosaic Idealize.ShloMosaic.ValueIdx

section OneView

variable (emb : Mat 4096 512) (adj : Mat 4096 4096) (W : Mat 512 512) (bfc bias : Vec1 512) (p : Scal)
  (Wa : Mat 512 512) (ba : Vec1 512)

/-- The dense layer from the region's arrays: the weight transposed, the bias as a row. -/
theorem lin_of_arrays (X : Mat 4096 512) (Wt : Mat 512 512) (b : Mat 1 512)
    (hX : ∀ (n : Fin 4096) (k : Fin 512), X (ix2 n k) = emb (ix2 n k))
    (hW : ∀ k d : Fin 512, Wt (ix2 k d) = W (ix2 d k))
    (hb : ∀ d : Fin 512, b (ix2 0 d) = bfc (ix1 d)) (n : Fin 4096) (d : Fin 512) :
    (∑ k : Fin 512, X (ix2 n k) * Wt (ix2 k d)) + b (ix2 0 d) = lin emb W bfc n d := by
  unfold lin
  rw [hb]
  exact congrArg (· + _) (Finset.sum_congr rfl fun k _ => by rw [hX, hW])

/-- A view's block from the region's arrays: block `t` of the adjacency against the dense layer, the second
    bias as a row, the slope as a [1,1] array. -/
theorem view_of_arrays (h : Mat 4096 512) (hh : ∀ (k : Fin 4096) (d : Fin 512), h (ix2 k d) = lin emb W bfc k d)
    (t : Fin 16) (mt : Mat 256 4096) (hM : ∀ (r : Fin 256) (k : Fin 4096), mt (ix2 r k) = adj (ix2 (row t r) k))
    (b : Mat 1 512) (hb : ∀ d : Fin 512, b (ix2 0 d) = bias (ix1 d))
    (ps : Mat 1 1) (hp : ps (ix2 0 0) = p ix0) (r : Fin 256) (d : Fin 512) :
    (let o := (∑ k : Fin 4096, mt (ix2 r k) * h (ix2 k d)) + b (ix2 0 d); if 0 ≤ o then o else ps (ix2 0 0) * o)
      = view emb adj W bfc bias p (row t r) d := by
  have e : (∑ k : Fin 4096, mt (ix2 r k) * h (ix2 k d)) + b (ix2 0 d) = agg emb adj W bfc bias (row t r) d := by
    unfold agg
    rw [hb]
    exact congrArg (· + _) (Finset.sum_congr rfl fun k _ => by rw [hM, hh])
  show (if 0 ≤ _ then _ else _) = _
  rw [e, hp]
  rfl

/-- The hidden units of one view block, summed over the block's 256 nodes. -/
theorem blockScore_of_arrays (v : View) (t : Fin 16) (vb : Mat 256 512)
    (hv : ∀ (r : Fin 256) (k : Fin 512), vb (ix2 r k) = v (row t r) k)
    (Wt : Mat 512 512) (hW : ∀ k j : Fin 512, Wt (ix2 k j) = Wa (ix2 j k))
    (b : Mat 1 512) (hb : ∀ j : Fin 512, b (ix2 0 j) = ba (ix1 j)) (j : Fin 512) :
    ∑ r : Fin 256, Ideal.tanh ((∑ k : Fin 512, vb (ix2 r k) * Wt (ix2 k j)) + b (ix2 0 j))
      = ∑ r : Fin 256, score v Wa ba (row t r) j := by
  refine Finset.sum_congr rfl fun r _ => ?_
  unfold score
  rw [hb]
  exact congrArg (fun x => Ideal.tanh (x + _)) (Finset.sum_congr rfl fun k _ => by rw [hv, hW])

/-- The accumulator after the sixteen points is the view's column sum. -/
theorem colsum_of_acc (v : View) (acc : ℕ → Mat 1 512) (j : Fin 512)
    (h0 : acc 0 (ix2 0 j) = 0)
    (hs : ∀ (t : ℕ) (ht : t < 16),
      acc (t + 1) (ix2 0 j) = acc t (ix2 0 j) + ∑ r : Fin 256, score v Wa ba (row ⟨t, ht⟩ r) j) :
    acc 16 (ix2 0 j) = colsum v Wa ba j :=
  acc_blocks (fun n => score v Wa ba n j) (fun t => acc t (ix2 0 j)) h0 hs

/-- Node `n` is node `n % 256` of block `n / 256`. -/
theorem row_div_mod (n : Fin 4096) (h1 : n.val / 256 < 16) (h2 : n.val % 256 < 256) :
    row ⟨n.val / 256, h1⟩ ⟨n.val % 256, h2⟩ = n :=
  Fin.ext (by show n.val / 256 * 256 + n.val % 256 = n.val; omega)

/-- An array assembled from the sixteen view blocks is the view. -/
theorem view_of_blocks (v : View) (A : Mat 4096 512) (vblk : Fin 16 → Mat 256 512)
    (hA : ∀ (i : (⟨2, ![4096, 512]⟩ : Shape).Idx) (h1 : (i 0).val / 256 < 16) (h2 : (i 0).val % 256 < 256),
      A i = vblk ⟨(i 0).val / 256, h1⟩ (ix2 ⟨(i 0).val % 256, h2⟩ (i 1)))
    (hv : ∀ (t : Fin 16) (r : Fin 256) (d : Fin 512), vblk t (ix2 r d) = v (row t r) d)
    (n : Fin 4096) (d : Fin 512) : A (ix2 n d) = v n d := by
  have h1 : n.val / 256 < 16 := by have := n.isLt; omega
  have h2 : n.val % 256 < 256 := Nat.mod_lt _ (by decide)
  have e := hA (ix2 n d) h1 h2
  rw [e]
  show vblk ⟨n.val / 256, h1⟩ (ix2 ⟨n.val % 256, h2⟩ d) = v n d
  rw [hv, row_div_mod]

end OneView

end Cert.Spec

/-! ## The same, over the pair region's payloads

The entrywise readings of the region's payloads are taken as hypotheses, in the form a reading of each
payload at an entry has; the conclusions are about the payloads' own terms. -/

namespace Cert.KernelIdeal.Hand

open Cert.KernelIdeal Cert.KernelIdeal.Gen
open Idealize.ShloMosaic Idealize.ShloMosaic.ValueIdx
open Cert.Spec (Mat Vec1 Scal View row)

/-- The dense layer's payload read at an entry (the first view's). -/
def Pay1 : Prop := ∀ (x : FVec Ideal S4096x512 .bf16) (w : FVec Ideal S512x512 .bf16) (b : FVec Ideal S1x512 .f32)
    (n : Fin 4096) (d : Fin 512),
  k0_pay1 (F := Ideal) x w b (ix2 n d) = (∑ k : Fin 512, x (ix2 n k) * w (ix2 k d)) + b (ix2 0 d)

/-- The dense layer's payload read at an entry (the second view's). -/
def Pay2 : Prop := ∀ (x : FVec Ideal S4096x512 .bf16) (w : FVec Ideal S512x512 .bf16) (b : FVec Ideal S1x512 .f32)
    (n : Fin 4096) (d : Fin 512),
  k0_pay2 (F := Ideal) x w b (ix2 n d) = (∑ k : Fin 512, x (ix2 n k) * w (ix2 k d)) + b (ix2 0 d)

/-- The two accumulators start at zero. -/
def Pay3 : Prop := ∀ j : Fin 512, k0_pay3 (F := Ideal) (ix2 0 j) = 0
def Pay5 : Prop := ∀ j : Fin 512, k0_pay5 (F := Ideal) (k0_pay4 (F := Ideal)) (ix2 0 j) = 0

/-- The first view's block read at an entry. -/
def Pay6 : Prop := ∀ (mt : FVec Ideal S256x4096 .f32) (h : FVec Ideal S4096x512 .bf16) (bias : FVec Ideal S1x512 .f32)
    (p : FVec Ideal S1x1 .f32) (r : Fin 256) (d : Fin 512),
  k0_pay6 (F := Ideal) mt h bias p (ix2 r d)
    = (let o := (∑ k : Fin 4096, mt (ix2 r k) * h (ix2 k d)) + bias (ix2 0 d); if 0 ≤ o then o else p (ix2 0 0) * o)

/-- The second view's block read at an entry. -/
def Pay10 : Prop := ∀ (mt : FVec Ideal S256x4096 .f32) (h : FVec Ideal S4096x512 .bf16) (bias : FVec Ideal S1x512 .f32)
    (p : FVec Ideal S1x1 .f32) (r : Fin 256) (d : Fin 512),
  k0_pay10 (F := Ideal) (k0_pay7 (F := Ideal) mt h bias) (k0_pay8 (F := Ideal) mt h bias) (k0_pay9 (F := Ideal) p) (ix2 r d)
    = (let o := (∑ k : Fin 4096, mt (ix2 r k) * h (ix2 k d)) + bias (ix2 0 d); if 0 ≤ o then o else p (ix2 0 0) * o)

/-- The first accumulator's step read at an entry. -/
def Pay11 : Prop := ∀ (v : FVec Ideal S256x512 .bf16) (w : FVec Ideal S512x512 .bf16) (b acc : FVec Ideal S1x512 .f32)
    (j : Fin 512),
  k0_pay11 (F := Ideal) v w b acc (ix2 0 j)
    = acc (ix2 0 j) + ∑ r : Fin 256, Ideal.tanh ((∑ k : Fin 512, v (ix2 r k) * w (ix2 k j)) + b (ix2 0 j))

/-- The second accumulator's step read at an entry. -/
def Pay12 : Prop := ∀ (v27 : FVec Ideal S256x512 .f32) (v29 : IVec S256x512 1) (v32 : FVec Ideal S256x512 .f32)
    (w : FVec Ideal S512x512 .bf16) (b acc : FVec Ideal S1x512 .f32) (j : Fin 512),
  k0_pay12 (F := Ideal) v27 v29 v32 w b acc (ix2 0 j)
    = acc (ix2 0 j)
      + ∑ r : Fin 256, Ideal.tanh ((∑ k : Fin 512, k0_pay10 (F := Ideal) v27 v29 v32 (ix2 r k) * w (ix2 k j)) + b (ix2 0 j))

section Pair

variable (emb : Mat 4096 512) (adj₁ : Mat 4096 4096) (W₁ : Mat 512 512) (bfc₁ bias₁ : Vec1 512) (p₁ : Scal)
  (adj₂ : Mat 4096 4096) (W₂ : Mat 512 512) (bfc₂ bias₂ : Vec1 512) (p₂ : Scal) (Wa : Mat 512 512) (ba : Vec1 512)
  (X0 : FVec Ideal S4096x512 .bf16) (X1 X2 : FVec Ideal S512x512 .bf16) (X3 X4 X5 X6 : FVec Ideal S1x512 .f32)
  (X7 X8 : FVec Ideal S1x1 .f32) (X9 : FVec Ideal S512x512 .bf16) (X10 : FVec Ideal S1x512 .f32)
  (M1 M2 : Fin 16 → FVec Ideal S256x4096 .f32)

/-- The first view's block at point `t`. -/
abbrev view1blk (t : Fin 16) : FVec Ideal S256x512 .bf16 :=
  k0_pay6 (F := Ideal) (M1 t) (k0_pay1 (F := Ideal) X0 X1 X3) X5 X7

/-- The second view's block at point `t`. -/
abbrev view2blk (t : Fin 16) : FVec Ideal S256x512 .bf16 :=
  k0_pay10 (F := Ideal) (k0_pay7 (F := Ideal) (M2 t) (k0_pay2 (F := Ideal) X0 X2 X4) X6)
    (k0_pay8 (F := Ideal) (M2 t) (k0_pay2 (F := Ideal) X0 X2 X4) X6) (k0_pay9 (F := Ideal) X8)

/-- (i) The first view's block is that block of the specification's first view. -/
theorem view1blk_eq (hp1 : Pay1) (hp6 : Pay6)
    (hX0 : ∀ (n : Fin 4096) (k : Fin 512), X0 (ix2 n k) = emb (ix2 n k))
    (hX1 : ∀ k d : Fin 512, X1 (ix2 k d) = W₁ (ix2 d k))
    (hX3 : ∀ d : Fin 512, X3 (ix2 0 d) = bfc₁ (ix1 d))
    (hX5 : ∀ d : Fin 512, X5 (ix2 0 d) = bias₁ (ix1 d))
    (hX7 : X7 (ix2 0 0) = p₁ ix0)
    (hM1 : ∀ (t : Fin 16) (r : Fin 256) (k : Fin 4096), M1 t (ix2 r k) = adj₁ (ix2 (row t r) k))
    (t : Fin 16) (r : Fin 256) (d : Fin 512) :
    view1blk X0 X1 X3 X5 X7 M1 t (ix2 r d) = Spec.view emb adj₁ W₁ bfc₁ bias₁ p₁ (row t r) d :=
  (hp6 _ _ _ _ r d).trans
    (Spec.view_of_arrays emb adj₁ W₁ bfc₁ bias₁ p₁ (k0_pay1 (F := Ideal) X0 X1 X3)
      (fun k d => (hp1 _ _ _ k d).trans (Spec.lin_of_arrays emb W₁ bfc₁ X0 X1 X3 hX0 hX1 hX3 k d))
      t (M1 t) (hM1 t) X5 hX5 X7 hX7 r d)

/-- (i) The second view's block is that block of the specification's second view. -/
theorem view2blk_eq (hp2 : Pay2) (hp10 : Pay10)
    (hX0 : ∀ (n : Fin 4096) (k : Fin 512), X0 (ix2 n k) = emb (ix2 n k))
    (hX2 : ∀ k d : Fin 512, X2 (ix2 k d) = W₂ (ix2 d k))
    (hX4 : ∀ d : Fin 512, X4 (ix2 0 d) = bfc₂ (ix1 d))
    (hX6 : ∀ d : Fin 512, X6 (ix2 0 d) = bias₂ (ix1 d))
    (hX8 : X8 (ix2 0 0) = p₂ ix0)
    (hM2 : ∀ (t : Fin 16) (r : Fin 256) (k : Fin 4096), M2 t (ix2 r k) = adj₂ (ix2 (row t r) k))
    (t : Fin 16) (r : Fin 256) (d : Fin 512) :
    view2blk X0 X2 X4 X6 X8 M2 t (ix2 r d) = Spec.view emb adj₂ W₂ bfc₂ bias₂ p₂ (row t r) d :=
  (hp10 _ _ _ _ r d).trans
    (Spec.view_of_arrays emb adj₂ W₂ bfc₂ bias₂ p₂ (k0_pay2 (F := Ideal) X0 X2 X4)
      (fun k d => (hp2 _ _ _ k d).trans (Spec.lin_of_arrays emb W₂ bfc₂ X0 X2 X4 hX0 hX2 hX4 k d))
      t (M2 t) (hM2 t) X6 hX6 X8 hX8 r d)

/-- (ii) The first accumulator after the sixteen points holds the first view's column sums. -/
theorem acc1_eq (hp1 : Pay1) (hp3 : Pay3) (hp6 : Pay6) (hp11 : Pay11)
    (hX0 : ∀ (n : Fin 4096) (k : Fin 512), X0 (ix2 n k) = emb (ix2 n k))
    (hX1 : ∀ k d : Fin 512, X1 (ix2 k d) = W₁ (ix2 d k))
    (hX3 : ∀ d : Fin 512, X3 (ix2 0 d) = bfc₁ (ix1 d))
    (hX5 : ∀ d : Fin 512, X5 (ix2 0 d) = bias₁ (ix1 d))
    (hX7 : X7 (ix2 0 0) = p₁ ix0)
    (hX9 : ∀ k j : Fin 512, X9 (ix2 k j) = Wa (ix2 j k))
    (hX10 : ∀ j : Fin 512, X10 (ix2 0 j) = ba (ix1 j))
    (hM1 : ∀ (t : Fin 16) (r : Fin 256) (k : Fin 4096), M1 t (ix2 r k) = adj₁ (ix2 (row t r) k))
    (acc1 : ℕ → FVec Ideal S1x512 .f32) (h0 : acc1 0 = k0_pay3 (F := Ideal))
    (hs : ∀ (t : ℕ) (ht : t < 16),
      acc1 (t + 1) = k0_pay11 (F := Ideal) (view1blk X0 X1 X3 X5 X7 M1 ⟨t, ht⟩) X9 X10 (acc1 t))
    (j : Fin 512) :
    acc1 16 (ix2 0 j) = Spec.colsum (Spec.view emb adj₁ W₁ bfc₁ bias₁ p₁) Wa ba j :=
  Spec.colsum_of_acc Wa ba (Spec.view emb adj₁ W₁ bfc₁ bias₁ p₁) acc1 j (by rw [h0]; exact hp3 j)
    (fun t ht => by
      rw [hs t ht, hp11]
      exact congrArg (_ + ·) (Spec.blockScore_of_arrays Wa ba (Spec.view emb adj₁ W₁ bfc₁ bias₁ p₁) ⟨t, ht⟩ _
        (fun r k => view1blk_eq emb adj₁ W₁ bfc₁ bias₁ p₁ X0 X1 X3 X5 X7 M1 hp1 hp6 hX0 hX1 hX3 hX5 hX7 hM1 ⟨t, ht⟩ r k)
        X9 hX9 X10 hX10 j))

/-- (ii) The second accumulator after the sixteen points holds the second view's column sums. -/
theorem acc2_eq (hp2 : Pay2) (hp5 : Pay5) (hp10 : Pay10) (hp12 : Pay12)
    (hX0 : ∀ (n : Fin 4096) (k : Fin 512), X0 (ix2 n k) = emb (ix2 n k))
    (hX2 : ∀ k d : Fin 512, X2 (ix2 k d) = W₂ (ix2 d k))
    (hX4 : ∀ d : Fin 512, X4 (ix2 0 d) = bfc₂ (ix1 d))
    (hX6 : ∀ d : Fin 512, X6 (ix2 0 d) = bias₂ (ix1 d))
    (hX8 : X8 (ix2 0 0) = p₂ ix0)
    (hX9 : ∀ k j : Fin 512, X9 (ix2 k j) = Wa (ix2 j k))
    (hX10 : ∀ j : Fin 512, X10 (ix2 0 j) = ba (ix1 j))
    (hM2 : ∀ (t : Fin 16) (r : Fin 256) (k : Fin 4096), M2 t (ix2 r k) = adj₂ (ix2 (row t r) k))
    (acc2 : ℕ → FVec Ideal S1x512 .f32) (h0 : acc2 0 = k0_pay5 (F := Ideal) (k0_pay4 (F := Ideal)))
    (hs : ∀ (t : ℕ) (ht : t < 16),
      acc2 (t + 1) = k0_pay12 (F := Ideal) (k0_pay7 (F := Ideal) (M2 ⟨t, ht⟩) (k0_pay2 (F := Ideal) X0 X2 X4) X6)
        (k0_pay8 (F := Ideal) (M2 ⟨t, ht⟩) (k0_pay2 (F := Ideal) X0 X2 X4) X6) (k0_pay9 (F := Ideal) X8) X9 X10 (acc2 t))
    (j : Fin 512) :
    acc2 16 (ix2 0 j) = Spec.colsum (Spec.view emb adj₂ W₂ bfc₂ bias₂ p₂) Wa ba j :=
  Spec.colsum_of_acc Wa ba (Spec.view emb adj₂ W₂ bfc₂ bias₂ p₂) acc2 j (by rw [h0]; exact hp5 j)
    (fun t ht => by
      rw [hs t ht, hp12]
      exact congrArg (_ + ·) (Spec.blockScore_of_arrays Wa ba (Spec.view emb adj₂ W₂ bfc₂ bias₂ p₂) ⟨t, ht⟩ _
        (fun r k => view2blk_eq emb adj₂ W₂ bfc₂ bias₂ p₂ X0 X2 X4 X6 X8 M2 hp2 hp10 hX0 hX2 hX4 hX6 hX8 hM2 ⟨t, ht⟩ r k)
        X9 hX9 X10 hX10 j))

end Pair

end Cert.KernelIdeal.Hand

end
-- ==== Proof.KIPairIface.lean ====
/- What the two pair regions' proof data must say of the arrays they leave, stated once so that the regions' side and
   the arithmetic's side can be written against it: the two views block by block (a block's rows are sixteen
   consecutive ranges of 256), and the two accumulated rows as sixteen additions from zero. The second pair region's
   payloads are the first's, term for term. -/
import proofs.«122693_g27230092657376_cont_9to1_1130_10_alg».proof.Proof.KIRun
import proofs.«122693_g27230092657376_cont_9to1_1130_10_alg».proof.Proof.KIPairSpec

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## Pair region 0: the input arrays, by name, and the values its proof data must have -/

section
variable (V : Entry (F := Ideal)) (c : Dev nD)
/-- The embedding cut to bf16. -/
abbrev X0_0 : FVec Ideal S4096x512 .bf16 := V c main_call0_v3
/-- The two dense weights, transposed. -/
abbrev X0_1 : FVec Ideal S512x512 .bf16 := V c main_call0_v5
abbrev X0_2 : FVec Ideal S512x512 .bf16 := V c main_call0_v7
/-- The two dense biases, the two aggregation biases, as rows. -/
abbrev X0_3 : FVec Ideal S1x512 .f32 := V c main_call0_v8
abbrev X0_4 : FVec Ideal S1x512 .f32 := V c main_call0_v9
abbrev X0_5 : FVec Ideal S1x512 .f32 := V c main_call0_v10
abbrev X0_6 : FVec Ideal S1x512 .f32 := V c main_call0_v11
/-- The two slopes. -/
abbrev X0_7 : FVec Ideal S1x1 .f32 := V c main_call0_v12
abbrev X0_8 : FVec Ideal S1x1 .f32 := V c main_call0_v13
/-- The attention weight, transposed, and its bias row. -/
abbrev X0_9 : FVec Ideal S512x512 .bf16 := V c main_call0_v1
abbrev X0_10 : FVec Ideal S1x512 .f32 := V c main_call0_v2
/-- Row block `t` of each adjacency array. -/
abbrev M0_1 (t : Fin 16) : FVec Ideal S256x4096 .f32 := fun y => (V c main_arg2 : S4096x4096.Idx → EReal) (ix2 (Cert.Spec.row t (y 0)) (y 1))
abbrev M0_2 (t : Fin 16) : FVec Ideal S256x4096 .f32 := fun y => (V c main_arg3 : S4096x4096.Idx → EReal) (ix2 (Cert.Spec.row t (y 0)) (y 1))
end

/-- What pair region 0's proof data leave, at any entry contents: the two view arrays block by block, and the two
    accumulated rows as sixteen steps from zero. -/
structure PairVal0 (P : Pair0 (F := Ideal)) where
  acc1 : Entry (F := Ideal) → Dev nD → ℕ → FVec Ideal S1x512 .f32
  acc2 : Entry (F := Ideal) → Dev nD → ℕ → FVec Ideal S1x512 .f32
  acc1_zero : ∀ V c, acc1 V c 0 = k0_pay3 (F := Ideal)
  acc1_succ : ∀ V c t (ht : t < 16), acc1 V c (t + 1)
    = k0_pay11 (F := Ideal) (view1blk (X0_0 V c) (X0_1 V c) (X0_3 V c) (X0_5 V c) (X0_7 V c) (M0_1 V c) ⟨t, ht⟩) (X0_9 V c) (X0_10 V c) (acc1 V c t)
  acc2_zero : ∀ V c, acc2 V c 0 = k0_pay5 (F := Ideal) (k0_pay4 (F := Ideal))
  acc2_succ : ∀ V c t (ht : t < 16), acc2 V c (t + 1)
    = k0_pay12 (F := Ideal) (k0_pay7 (F := Ideal) (M0_2 V c ⟨t, ht⟩) (k0_pay2 (F := Ideal) (X0_0 V c) (X0_2 V c) (X0_4 V c)) (X0_6 V c))
        (k0_pay8 (F := Ideal) (M0_2 V c ⟨t, ht⟩) (k0_pay2 (F := Ideal) (X0_0 V c) (X0_2 V c) (X0_4 V c)) (X0_6 V c)) (k0_pay9 (F := Ideal) (X0_8 V c))
        (X0_9 V c) (X0_10 V c) (acc2 V c t)
  arr13 : ∀ V c (i : S4096x512.Idx) (h1 : (i 0).val / 256 < 16) (h2 : (i 0).val % 256 < 256),
    ((P.dat V c).arrAt 13 cfg0.N : S4096x512.Idx → EReal) i
      = view1blk (X0_0 V c) (X0_1 V c) (X0_3 V c) (X0_5 V c) (X0_7 V c) (M0_1 V c) ⟨(i 0).val / 256, h1⟩ (ix2 ⟨(i 0).val % 256, h2⟩ (i 1))
  arr14 : ∀ V c (i : S4096x512.Idx) (h1 : (i 0).val / 256 < 16) (h2 : (i 0).val % 256 < 256),
    ((P.dat V c).arrAt 14 cfg0.N : S4096x512.Idx → EReal) i
      = view2blk (X0_0 V c) (X0_2 V c) (X0_4 V c) (X0_6 V c) (X0_8 V c) (M0_2 V c) ⟨(i 0).val / 256, h1⟩ (ix2 ⟨(i 0).val % 256, h2⟩ (i 1))
  arr15 : ∀ V c, ((P.dat V c).arrAt 15 cfg0.N : S1x512.Idx → EReal) = acc1 V c 16
  arr16 : ∀ V c, ((P.dat V c).arrAt 16 cfg0.N : S1x512.Idx → EReal) = acc2 V c 16

/-! ## Pair region 1: the input arrays, by name, and the values its proof data must have -/

section
variable (V : Entry (F := Ideal)) (c : Dev nD)
/-- The embedding cut to bf16. -/
abbrev X1_0 : FVec Ideal S4096x512 .bf16 := V c main_call0_v15
/-- The two dense weights, transposed. -/
abbrev X1_1 : FVec Ideal S512x512 .bf16 := V c main_call0_v17
abbrev X1_2 : FVec Ideal S512x512 .bf16 := V c main_call0_v19
/-- The two dense biases, the two aggregation biases, as rows. -/
abbrev X1_3 : FVec Ideal S1x512 .f32 := V c main_call0_v20
abbrev X1_4 : FVec Ideal S1x512 .f32 := V c main_call0_v21
abbrev X1_5 : FVec Ideal S1x512 .f32 := V c main_call0_v22
abbrev X1_6 : FVec Ideal S1x512 .f32 := V c main_call0_v23
/-- The two slopes. -/
abbrev X1_7 : FVec Ideal S1x1 .f32 := V c main_call0_v24
abbrev X1_8 : FVec Ideal S1x1 .f32 := V c main_call0_v25
/-- The attention weight, transposed, and its bias row. -/
abbrev X1_9 : FVec Ideal S512x512 .bf16 := V c main_call0_v1
abbrev X1_10 : FVec Ideal S1x512 .f32 := V c main_call0_v2
/-- Row block `t` of each adjacency array. -/
abbrev M1_1 (t : Fin 16) : FVec Ideal S256x4096 .f32 := fun y => (V c main_arg4 : S4096x4096.Idx → EReal) (ix2 (Cert.Spec.row t (y 0)) (y 1))
abbrev M1_2 (t : Fin 16) : FVec Ideal S256x4096 .f32 := fun y => (V c main_arg5 : S4096x4096.Idx → EReal) (ix2 (Cert.Spec.row t (y 0)) (y 1))
end

/-- What pair region 1's proof data leave, at any entry contents: the two view arrays block by block, and the two
    accumulated rows as sixteen steps from zero. -/
structure PairVal1 (P : Pair1 (F := Ideal)) where
  acc1 : Entry (F := Ideal) → Dev nD → ℕ → FVec Ideal S1x512 .f32
  acc2 : Entry (F := Ideal) → Dev nD → ℕ → FVec Ideal S1x512 .f32
  acc1_zero : ∀ V c, acc1 V c 0 = k0_pay3 (F := Ideal)
  acc1_succ : ∀ V c t (ht : t < 16), acc1 V c (t + 1)
    = k0_pay11 (F := Ideal) (view1blk (X1_0 V c) (X1_1 V c) (X1_3 V c) (X1_5 V c) (X1_7 V c) (M1_1 V c) ⟨t, ht⟩) (X1_9 V c) (X1_10 V c) (acc1 V c t)
  acc2_zero : ∀ V c, acc2 V c 0 = k0_pay5 (F := Ideal) (k0_pay4 (F := Ideal))
  acc2_succ : ∀ V c t (ht : t < 16), acc2 V c (t + 1)
    = k0_pay12 (F := Ideal) (k0_pay7 (F := Ideal) (M1_2 V c ⟨t, ht⟩) (k0_pay2 (F := Ideal) (X1_0 V c) (X1_2 V c) (X1_4 V c)) (X1_6 V c))
        (k0_pay8 (F := Ideal) (M1_2 V c ⟨t, ht⟩) (k0_pay2 (F := Ideal) (X1_0 V c) (X1_2 V c) (X1_4 V c)) (X1_6 V c)) (k0_pay9 (F := Ideal) (X1_8 V c))
        (X1_9 V c) (X1_10 V c) (acc2 V c t)
  arr13 : ∀ V c (i : S4096x512.Idx) (h1 : (i 0).val / 256 < 16) (h2 : (i 0).val % 256 < 256),
    ((P.dat V c).arrAt 13 cfg1.N : S4096x512.Idx → EReal) i
      = view1blk (X1_0 V c) (X1_1 V c) (X1_3 V c) (X1_5 V c) (X1_7 V c) (M1_1 V c) ⟨(i 0).val / 256, h1⟩ (ix2 ⟨(i 0).val % 256, h2⟩ (i 1))
  arr14 : ∀ V c (i : S4096x512.Idx) (h1 : (i 0).val / 256 < 16) (h2 : (i 0).val % 256 < 256),
    ((P.dat V c).arrAt 14 cfg1.N : S4096x512.Idx → EReal) i
      = view2blk (X1_0 V c) (X1_2 V c) (X1_4 V c) (X1_6 V c) (X1_8 V c) (M1_2 V c) ⟨(i 0).val / 256, h1⟩ (ix2 ⟨(i 0).val % 256, h2⟩ (i 1))
  arr15 : ∀ V c, ((P.dat V c).arrAt 15 cfg1.N : S1x512.Idx → EReal) = acc1 V c 16
  arr16 : ∀ V c, ((P.dat V c).arrAt 16 cfg1.N : S1x512.Idx → EReal) = acc2 V c 16

end Cert.KernelIdeal.Hand

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.KIPairPay.lean ====
/-
  What the first pair region's body stores, as plain arithmetic on the extended reals.

  The body of a pair region handles two views of one node set.  At the first grid point it forms, for each view, the
  dense layer  lin(n, d) = Σ_k x(n, k) · w(k, d) + b(0, d)  over all 4096 nodes (the weight arrives already transposed,
  so the product is rows of x against columns of w) and sets the two accumulator rows to zero.  At every grid point it
  takes a block of 256 adjacency rows and forms  o(r, d) = Σ_k mt(r, k) · h(k, d) + bias(0, d)  against the carried dense
  layer h, rectifies it (o where 0 ≤ o, the slope p(0, 0) times o below), and adds to the accumulator row, column by
  column, the sum over the block's 256 rows of  tanh(Σ_k v(r, k) · w(k, j) + b(0, j)),  v being the rectified block.

  Read at the exact values every change of float format is the identity, a shape cast onto the same shape is the
  identity, a product accumulated from the zero array is the plain sum of products, a one-row array spread over the
  rows reads its row, and a reduction over the rows from zero is the plain sum; so each stored value, at an entry
  given by its coordinates, is one of the formulas above.  The statements below say exactly that, one per stored value.
-/
import proofs.«122693_g27230092657376_cont_9to1_1130_10_alg».proof.Proof.Gen.KernelIdeal.Skeleton
import proofs.«122693_g27230092657376_cont_9to1_1130_10_alg».proof.Proof.LibMatmulIx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The three products read at an entry

Each product contracts the left operand's columns with the right operand's rows; accumulated from the zero array it
is, at the entry (p, q), the sum over k of l(p, k) · r(k, q). -/

theorem dotA_l0 (i : _) (q : dot_S4096x512_S512x512_S4096x512_1_0_0_1_n_n.contr.Idx) : (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide),
    dif_pos (show (0 : Fin S4096x512.rank) ∈ dot_S4096x512_S512x512_S4096x512_1_0_0_1_n_n.lhsNonContracting by decide)]
  rfl

theorem dotA_l1 (i : _) (q : dot_S4096x512_S512x512_S4096x512_1_0_0_1_n_n.contr.Idx) : (dot_S4096x512_S512x512_S4096x512_1_0_0_1_n_n.lhsIdx i q 1).val = (q ⟨0, by decide⟩).val :=
  dot_S4096x512_S512x512_S4096x512_1_0_0_1_n_n.lhsIdx_val_of_single rfl i q

theorem dotA_r0 (i : _) (q : dot_S4096x512_S512x512_S4096x512_1_0_0_1_n_n.contr.Idx) : (dot_S4096x512_S512x512_S4096x512_1_0_0_1_n_n.rhsIdx i q 0).val = (q ⟨0, by decide⟩).val :=
  dot_S4096x512_S512x512_S4096x512_1_0_0_1_n_n.rhsIdx_val_of_single rfl i q

theorem dotA_r1 (i : _) (q : dot_S4096x512_S512x512_S4096x512_1_0_0_1_n_n.contr.Idx) : (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide),
    dif_pos (show (1 : Fin S512x512.rank) ∈ dot_S4096x512_S512x512_S4096x512_1_0_0_1_n_n.rhsNonContracting by decide)]
  rfl

theorem dotB_l0 (i : _) (q : dot_S256x4096_S4096x512_S256x512_1_0_0_1_n_n.contr.Idx) : (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide),
    dif_pos (show (0 : Fin S256x4096.rank) ∈ dot_S256x4096_S4096x512_S256x512_1_0_0_1_n_n.lhsNonContracting by decide)]
  rfl

theorem dotB_l1 (i : _) (q : dot_S256x4096_S4096x512_S256x512_1_0_0_1_n_n.contr.Idx) : (dot_S256x4096_S4096x512_S256x512_1_0_0_1_n_n.lhsIdx i q 1).val = (q ⟨0, by decide⟩).val :=
  dot_S256x4096_S4096x512_S256x512_1_0_0_1_n_n.lhsIdx_val_of_single rfl i q

theorem dotB_r0 (i : _) (q : dot_S256x4096_S4096x512_S256x512_1_0_0_1_n_n.contr.Idx) : (dot_S256x4096_S4096x512_S256x512_1_0_0_1_n_n.rhsIdx i q 0).val = (q ⟨0, by decide⟩).val :=
  dot_S256x4096_S4096x512_S256x512_1_0_0_1_n_n.rhsIdx_val_of_single rfl i q

theorem dotB_r1 (i : _) (q : dot_S256x4096_S4096x512_S256x512_1_0_0_1_n_n.contr.Idx) : (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide),
    dif_pos (show (1 : Fin S4096x512.rank) ∈ dot_S256x4096_S4096x512_S256x512_1_0_0_1_n_n.rhsNonContracting by decide)]
  rfl

theorem dotC_l0 (i : _) (q : dot_S256x512_S512x512_S256x512_1_0_0_1_n_n.contr.Idx) : (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide),
    dif_pos (show (0 : Fin S256x512.rank) ∈ dot_S256x512_S512x512_S256x512_1_0_0_1_n_n.lhsNonContracting by decide)]
  rfl

theorem dotC_l1 (i : _) (q : dot_S256x512_S512x512_S256x512_1_0_0_1_n_n.contr.Idx) : (dot_S256x512_S512x512_S256x512_1_0_0_1_n_n.lhsIdx i q 1).val = (q ⟨0, by decide⟩).val :=
  dot_S256x512_S512x512_S256x512_1_0_0_1_n_n.lhsIdx_val_of_single rfl i q

theorem dotC_r0 (i : _) (q : dot_S256x512_S512x512_S256x512_1_0_0_1_n_n.contr.Idx) : (dot_S256x512_S512x512_S256x512_1_0_0_1_n_n.rhsIdx i q 0).val = (q ⟨0, by decide⟩).val :=
  dot_S256x512_S512x512_S256x512_1_0_0_1_n_n.rhsIdx_val_of_single rfl i q

theorem dotC_r1 (i : _) (q : dot_S256x512_S512x512_S256x512_1_0_0_1_n_n.contr.Idx) : (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide),
    dif_pos (show (1 : Fin S512x512.rank) ∈ dot_S256x512_S512x512_S256x512_1_0_0_1_n_n.rhsNonContracting by decide)]
  rfl

/-- The dense layer's product, 4096×512 by 512×512, at (n, d). -/
theorem mmA (x : FVec Ideal S4096x512 .bf16) (w : FVec Ideal S512x512 .bf16) (n : Fin 4096) (d : Fin 512) :
    matmul dot_S4096x512_S512x512_S4096x512_1_0_0_1_n_n none x w (constant (F := Ideal) S4096x512 .f32 0x00000000#32) (ix2 n d)
      = ∑ k : Fin 512, x (ix2 n k) * w (ix2 k d) :=
  MatmulIx.matmul_zero_ix2 dot_S4096x512_S512x512_S4096x512_1_0_0_1_n_n rfl rfl dotA_l0 dotA_l1 dotA_r0 dotA_r1 none x w n d

/-- The aggregation's product, a 256×4096 block of adjacency rows by 4096×512, at (r, d). -/
theorem mmB (x : FVec Ideal S256x4096 .bf16) (w : FVec Ideal S4096x512 .bf16) (r : Fin 256) (d : Fin 512) :
    matmul dot_S256x4096_S4096x512_S256x512_1_0_0_1_n_n none x w (constant (F := Ideal) S256x512 .f32 0x00000000#32) (ix2 r d)
      = ∑ k : Fin 4096, x (ix2 r k) * w (ix2 k d) :=
  MatmulIx.matmul_zero_ix2 dot_S256x4096_S4096x512_S256x512_1_0_0_1_n_n rfl rfl dotB_l0 dotB_l1 dotB_r0 dotB_r1 none x w r d

/-- The attention's product, a 256×512 block of view rows by 512×512, at (r, j). -/
theorem mmC (x : FVec Ideal S256x512 .bf16) (w : FVec Ideal S512x512 .bf16) (r : Fin 256) (j : Fin 512) :
    matmul dot_S256x512_S512x512_S256x512_1_0_0_1_n_n none x w (constant (F := Ideal) S256x512 .f32 0x00000000#32) (ix2 r j)
      = ∑ k : Fin 512, x (ix2 r k) * w (ix2 k j) :=
  MatmulIx.matmul_zero_ix2 dot_S256x512_S512x512_S256x512_1_0_0_1_n_n rfl rfl dotC_l0 dotC_l1 dotC_r0 dotC_r1 none x w r j

/-! ## The rectifier, the column sum and the row cast -/

/-- A selection on the bit of a decidable proposition is the conditional on the proposition. -/
theorem select_ofBool_decide {α : Type} (P : Prop) [Decidable P] (a b : α) :
    Scalar.select (BitVec.ofBool (decide P)) a b = if P then a else b := by
  by_cases h : P
  · rw [if_pos h, decide_eq_true h]; exact select_one a b
  · rw [if_neg h, decide_eq_false h]; exact select_zero a b

/-- The one entry of a 1×1 array taken out at position (0, 0). -/
theorem extract00 (p : FVec Ideal S1x1 .f32) : extractAt ![0, 0] p inpos_S1x1_p0_0 = p (ix2 0 0) :=
  congrArg p (funext fun a => Fin.ext (by match a with | ⟨0, _⟩ => rfl | ⟨1, _⟩ => rfl))

/-- The parametric rectifier as the body spells it (compare with the zero word, keep the entry where it is not
    below, else scale it by the slope) read at an entry: the entry itself when zero is at most it, the slope times
    it otherwise. -/
theorem prelu_read (v : FVec Ideal S256x512 .f32) (p : FVec Ideal S1x1 .f32) (r : Fin 256) (d : Fin 512) :
    select (cmpf .oge v (broadcast S256x512 (Scalar.ofBits (F := Ideal) .f32 0x00000000#32))) v
        (mulf (broadcast S256x512 (extractAt ![0, 0] p inpos_S1x1_p0_0)) v) (ix2 r d)
      = if 0 ≤ v (ix2 r d) then v (ix2 r d) else p (ix2 0 0) * v (ix2 r d) := by
  show Scalar.select (BitVec.ofBool (decide (Ideal.ofBits .f32 0x00000000#32 ≤ v (ix2 r d)))) (v (ix2 r d))
      (extractAt ![0, 0] p inpos_S1x1_p0_0 * v (ix2 r d)) = _
  rw [select_ofBool_decide, Ideal.ofBits_zero_f32, extract00]

/-- The sum over the 256 rows of a 256×512 array, read at column j. -/
theorem colSum_read (src : FVec Ideal S256x512 .f32) (j : Fin 512) :
    multiReduction .add [0] S512 src 0x00000000#32 reduces_S256x512_S512 (.inl rfl) rfl (ix1 j)
      = ∑ r : Fin 256, src (ix2 r j) := by
  refine (Ideal.multiReduction_add_single src 0x00000000#32 reduces_S256x512_S512 (.inl rfl) rfl (ix1 j)).trans ?_
  exact Finset.sum_congr rfl fun k _ => congrArg src (by funext c; apply Fin.ext; fin_cases c <;> rfl)

/-- A vector of 512 entries cast to the one row 1×512 reads, at (u, j), the vector's entry j. -/
theorem castRow_read {α : Type} (x : S512.Idx → α) (u : Fin 1) (j : Fin 512) :
    shapeCast S1x512 x shapeCasts_S512_S1x512 (ix2 u j) = x (ix1 j) :=
  (shapeCast_addUnit_apply ![512] x shapeCasts_S512_S1x512 (ix2 u j)).trans
    (congrArg x (funext fun a => by match a with | ⟨0, _⟩ => rfl))

/-! ## The payloads at an entry -/

/-- The first view's dense layer, stored into the carried buffer at the first grid point. -/
theorem k0_pay1_apply (x : FVec Ideal S4096x512 .bf16) (w : FVec Ideal S512x512 .bf16) (b : FVec Ideal S1x512 .f32)
    (n : Fin 4096) (d : Fin 512) :
    k0_pay1 x w b (ix2 n d) = (∑ k : Fin 512, x (ix2 n k) * w (ix2 k d)) + b (ix2 0 d) := by
  unfold k0_pay1
  rw [shapeCast_self, shapeCast_self x, shapeCast_self w, shapeCast_self b]
  exact congrArg₂ (· + ·) (mmA x w n d) (broadcastTo_1b_ab_apply b broadcasts_S1x512_S4096x512 n d)

/-- The second view's dense layer. -/
theorem k0_pay2_apply (x : FVec Ideal S4096x512 .bf16) (w : FVec Ideal S512x512 .bf16) (b : FVec Ideal S1x512 .f32)
    (n : Fin 4096) (d : Fin 512) :
    k0_pay2 x w b (ix2 n d) = (∑ k : Fin 512, x (ix2 n k) * w (ix2 k d)) + b (ix2 0 d) := by
  unfold k0_pay2
  rw [shapeCast_self, shapeCast_self x, shapeCast_self w, shapeCast_self b]
  exact congrArg₂ (· + ·) (mmA x w n d) (broadcastTo_1b_ab_apply b broadcasts_S1x512_S4096x512 n d)

/-- The first accumulator starts at zero. -/
theorem k0_pay3_apply (j : Fin 512) : k0_pay3 (F := Ideal) (ix2 0 j) = 0 := by
  unfold k0_pay3
  rw [shapeCast_self]
  exact Ideal.ofBits_zero_f32

/-- The second accumulator's starting row is zero. -/
theorem k0_pay4_apply (j : Fin 512) : k0_pay4 (F := Ideal) (ix2 0 j) = 0 := by
  unfold k0_pay4
  exact Ideal.ofBits_zero_f32

/-- Storing that row changes nothing in it. -/
theorem k0_pay5_eq (v : FVec Ideal S1x512 .f32) : k0_pay5 v = v := by
  unfold k0_pay5
  exact shapeCast_self v _

/-- The aggregation before the rectifier: a block of adjacency rows against the carried dense layer, plus the bias row. -/
theorem k0_pay7_apply (mt : FVec Ideal S256x4096 .f32) (h : FVec Ideal S4096x512 .bf16) (bias : FVec Ideal S1x512 .f32)
    (r : Fin 256) (d : Fin 512) :
    k0_pay7 mt h bias (ix2 r d) = (∑ k : Fin 4096, mt (ix2 r k) * h (ix2 k d)) + bias (ix2 0 d) := by
  unfold k0_pay7
  rw [shapeCast_self bias]
  exact congrArg₂ (· + ·) (mmB (truncf .bf16 mt bitsLt_bf16_f32) h r d)
    (broadcastTo_1b_ab_apply bias broadcasts_S1x512_S256x512 r d)

/-- The first view's block: the rectified aggregation. -/
theorem k0_pay6_apply (mt : FVec Ideal S256x4096 .f32) (h : FVec Ideal S4096x512 .bf16) (bias : FVec Ideal S1x512 .f32)
    (p : FVec Ideal S1x1 .f32) (r : Fin 256) (d : Fin 512) :
    k0_pay6 (F := Ideal) mt h bias p (ix2 r d)
      = (let o := (∑ k : Fin 4096, mt (ix2 r k) * h (ix2 k d)) + bias (ix2 0 d)
         if 0 ≤ o then o else p (ix2 0 0) * o) := by
  refine (prelu_read (k0_pay7 mt h bias) p r d).trans ?_
  rw [k0_pay7_apply]

/-- The second view's block, from the aggregation, its comparison with zero and the spread slope. -/
theorem k0_pay10_apply (mt : FVec Ideal S256x4096 .f32) (h : FVec Ideal S4096x512 .bf16) (bias : FVec Ideal S1x512 .f32)
    (p : FVec Ideal S1x1 .f32) (r : Fin 256) (d : Fin 512) :
    k0_pay10 (F := Ideal) (k0_pay7 mt h bias) (k0_pay8 (F := Ideal) mt h bias) (k0_pay9 p) (ix2 r d)
      = (let o := (∑ k : Fin 4096, mt (ix2 r k) * h (ix2 k d)) + bias (ix2 0 d)
         if 0 ≤ o then o else p (ix2 0 0) * o) := by
  refine (prelu_read (k0_pay7 mt h bias) p r d).trans ?_
  rw [k0_pay7_apply]

/-- The first accumulator's step: the carried row plus the block's column sums of the attention scores. -/
theorem k0_pay11_apply (v : FVec Ideal S256x512 .bf16) (w : FVec Ideal S512x512 .bf16) (b acc : FVec Ideal S1x512 .f32)
    (j : Fin 512) :
    k0_pay11 v w b acc (ix2 0 j)
      = acc (ix2 0 j) + ∑ r : Fin 256, Ideal.tanh ((∑ k : Fin 512, v (ix2 r k) * w (ix2 k j)) + b (ix2 0 j)) := by
  unfold k0_pay11
  rw [shapeCast_self, shapeCast_self w, shapeCast_self b]
  refine congrArg (acc (ix2 0 j) + ·) ?_
  refine (castRow_read _ 0 j).trans ?_
  refine (colSum_read _ j).trans ?_
  refine Finset.sum_congr rfl fun r _ => ?_
  exact congrArg Ideal.tanh (congrArg₂ (· + ·) (mmC v w r j) (broadcastTo_1b_ab_apply b broadcasts_S1x512_S256x512 r j))

/-- The second accumulator's step is the first's, on the second view's block. -/
theorem k0_pay12_eq (v27 : FVec Ideal S256x512 .f32) (v29 : IVec S256x512 1) (v32 : FVec Ideal S256x512 .f32)
    (w : FVec Ideal S512x512 .bf16) (b acc : FVec Ideal S1x512 .f32) :
    k0_pay12 v27 v29 v32 w b acc = k0_pay11 (k0_pay10 v27 v29 v32) w b acc := rfl

theorem k0_pay12_apply (v27 : FVec Ideal S256x512 .f32) (v29 : IVec S256x512 1) (v32 : FVec Ideal S256x512 .f32)
    (w : FVec Ideal S512x512 .bf16) (b acc : FVec Ideal S1x512 .f32) (j : Fin 512) :
    k0_pay12 v27 v29 v32 w b acc (ix2 0 j)
      = acc (ix2 0 j)
        + ∑ r : Fin 256, Ideal.tanh ((∑ k : Fin 512, k0_pay10 v27 v29 v32 (ix2 r k) * w (ix2 k j)) + b (ix2 0 j)) :=
  k0_pay11_apply (k0_pay10 v27 v29 v32) w b acc j

end Cert.KernelIdeal.Hand

end
-- ==== Proof.KIHost.lean ====
/- What the two stretches of host operations leave: the bf16 cut of each embedding, each weight matrix transposed and
   cut to bf16, each bias vector as a one-row matrix and each slope as a one-entry matrix — each as the operations' term
   of the buffers the stretch started from. -/
import proofs.«122693_g27230092657376_cont_9to1_1130_10_alg».proof.Proof.KIRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ) (P0 : Pair0 (F := F))

/-! ## The first stretch, from the launch memory -/

theorem W1_v0 (c : Dev nD) : (W1 m c (Proc.devRef .tc main_call0_v0) : S512x512.Idx → Elt F .f32) = transpose S512x512 [1, 0] (m ((c : Thread nD τ).loc main_arg22)) transposes_S512x512_S512x512_1_0 := by
  dsimp only [W1, W0, hostOps0]; after_results; rfl
theorem W1_v1 (c : Dev nD) : (W1 m c (Proc.devRef .tc main_call0_v1) : S512x512.Idx → Elt F .bf16) = truncf .bf16 (W1 m c (Proc.devRef .tc main_call0_v0)) bitsLt_bf16_f32 := by
  dsimp only [W1, W0, hostOps0]; after_results; rfl
theorem W1_v2 (c : Dev nD) : (W1 m c (Proc.devRef .tc main_call0_v2) : S1x512.Idx → Elt F .f32) = shapeCast S1x512 (m ((c : Thread nD τ).loc main_arg23)) shapeCasts_S512_S1x512 := by
  dsimp only [W1, W0, hostOps0]; after_results; rfl
theorem W1_v3 (c : Dev nD) : (W1 m c (Proc.devRef .tc main_call0_v3) : S4096x512.Idx → Elt F .bf16) = truncf .bf16 (m ((c : Thread nD τ).loc main_arg0)) bitsLt_bf16_f32 := by
  dsimp only [W1, W0, hostOps0]; after_results; rfl
theorem W1_v4 (c : Dev nD) : (W1 m c (Proc.devRef .tc main_call0_v4) : S512x512.Idx → Elt F .f32) = transpose S512x512 [1, 0] (m ((c : Thread nD τ).loc main_arg6)) transposes_S512x512_S512x512_1_0 := by
  dsimp only [W1, W0, hostOps0]; after_results; rfl
theorem W1_v5 (c : Dev nD) : (W1 m c (Proc.devRef .tc main_call0_v5) : S512x512.Idx → Elt F .bf16) = truncf .bf16 (W1 m c (Proc.devRef .tc main_call0_v4)) bitsLt_bf16_f32 := by
  dsimp only [W1, W0, hostOps0]; after_results; rfl
theorem W1_v6 (c : Dev nD) : (W1 m c (Proc.devRef .tc main_call0_v6) : S512x512.Idx → Elt F .f32) = transpose S512x512 [1, 0] (m ((c : Thread nD τ).loc main_arg10)) transposes_S512x512_S512x512_1_0 := by
  dsimp only [W1, W0, hostOps0]; after_results; rfl
theorem W1_v7 (c : Dev nD) : (W1 m c (Proc.devRef .tc main_call0_v7) : S512x512.Idx → Elt F .bf16) = truncf .bf16 (W1 m c (Proc.devRef .tc main_call0_v6)) bitsLt_bf16_f32 := by
  dsimp only [W1, W0, hostOps0]; after_results; rfl
theorem W1_v8 (c : Dev nD) : (W1 m c (Proc.devRef .tc main_call0_v8) : S1x512.Idx → Elt F .f32) = shapeCast S1x512 (m ((c : Thread nD τ).loc main_arg7)) shapeCasts_S512_S1x512 := by
  dsimp only [W1, W0, hostOps0]; after_results; rfl
theorem W1_v9 (c : Dev nD) : (W1 m c (Proc.devRef .tc main_call0_v9) : S1x512.Idx → Elt F .f32) = shapeCast S1x512 (m ((c : Thread nD τ).loc main_arg11)) shapeCasts_S512_S1x512 := by
  dsimp only [W1, W0, hostOps0]; after_results; rfl
theorem W1_v10 (c : Dev nD) : (W1 m c (Proc.devRef .tc main_call0_v10) : S1x512.Idx → Elt F .f32) = shapeCast S1x512 (m ((c : Thread nD τ).loc main_arg8)) shapeCasts_S512_S1x512 := by
  dsimp only [W1, W0, hostOps0]; after_results; rfl
theorem W1_v11 (c : Dev nD) : (W1 m c (Proc.devRef .tc main_call0_v11) : S1x512.Idx → Elt F .f32) = shapeCast S1x512 (m ((c : Thread nD τ).loc main_arg12)) shapeCasts_S512_S1x512 := by
  dsimp only [W1, W0, hostOps0]; after_results; rfl
theorem W1_v12 (c : Dev nD) : (W1 m c (Proc.devRef .tc main_call0_v12) : S1x1.Idx → Elt F .f32) = shapeCast S1x1 (m ((c : Thread nD τ).loc main_arg9)) shapeCasts_S_S1x1 := by
  dsimp only [W1, W0, hostOps0]; after_results; rfl
theorem W1_v13 (c : Dev nD) : (W1 m c (Proc.devRef .tc main_call0_v13) : S1x1.Idx → Elt F .f32) = shapeCast S1x1 (m ((c : Thread nD τ).loc main_arg13)) shapeCasts_S_S1x1 := by
  dsimp only [W1, W0, hostOps0]; after_results; rfl

/-! ## The second stretch, from the contents the first pair region leaves -/

theorem W3_v15 (c : Dev nD) : (W3 m P0 c (Proc.devRef .tc main_call0_v15) : S4096x512.Idx → Elt F .bf16) = truncf .bf16 (W2 m P0 c (Proc.devRef .tc main_arg1)) bitsLt_bf16_f32 := by
  dsimp only [W3, hostOps1]; after_results; rfl
theorem W3_v16 (c : Dev nD) : (W3 m P0 c (Proc.devRef .tc main_call0_v16) : S512x512.Idx → Elt F .f32) = transpose S512x512 [1, 0] (W2 m P0 c (Proc.devRef .tc main_arg14)) transposes_S512x512_S512x512_1_0 := by
  dsimp only [W3, hostOps1]; after_results; rfl
theorem W3_v17 (c : Dev nD) : (W3 m P0 c (Proc.devRef .tc main_call0_v17) : S512x512.Idx → Elt F .bf16) = truncf .bf16 (W3 m P0 c (Proc.devRef .tc main_call0_v16)) bitsLt_bf16_f32 := by
  dsimp only [W3, hostOps1]; after_results; rfl
theorem W3_v18 (c : Dev nD) : (W3 m P0 c (Proc.devRef .tc main_call0_v18) : S512x512.Idx → Elt F .f32) = transpose S512x512 [1, 0] (W2 m P0 c (Proc.devRef .tc main_arg18)) transposes_S512x512_S512x512_1_0 := by
  dsimp only [W3, hostOps1]; after_results; rfl
theorem W3_v19 (c : Dev nD) : (W3 m P0 c (Proc.devRef .tc main_call0_v19) : S512x512.Idx → Elt F .bf16) = truncf .bf16 (W3 m P0 c (Proc.devRef .tc main_call0_v18)) bitsLt_bf16_f32 := by
  dsimp only [W3, hostOps1]; after_results; rfl
theorem W3_v20 (c : Dev nD) : (W3 m P0 c (Proc.devRef .tc main_call0_v20) : S1x512.Idx → Elt F .f32) = shapeCast S1x512 (W2 m P0 c (Proc.devRef .tc main_arg15)) shapeCasts_S512_S1x512 := by
  dsimp only [W3, hostOps1]; after_results; rfl
theorem W3_v21 (c : Dev nD) : (W3 m P0 c (Proc.devRef .tc main_call0_v21) : S1x512.Idx → Elt F .f32) = shapeCast S1x512 (W2 m P0 c (Proc.devRef .tc main_arg19)) shapeCasts_S512_S1x512 := by
  dsimp only [W3, hostOps1]; after_results; rfl
theorem W3_v22 (c : Dev nD) : (W3 m P0 c (Proc.devRef .tc main_call0_v22) : S1x512.Idx → Elt F .f32) = shapeCast S1x512 (W2 m P0 c (Proc.devRef .tc main_arg16)) shapeCasts_S512_S1x512 := by
  dsimp only [W3, hostOps1]; after_results; rfl
theorem W3_v23 (c : Dev nD) : (W3 m P0 c (Proc.devRef .tc main_call0_v23) : S1x512.Idx → Elt F .f32) = shapeCast S1x512 (W2 m P0 c (Proc.devRef .tc main_arg20)) shapeCasts_S512_S1x512 := by
  dsimp only [W3, hostOps1]; after_results; rfl
theorem W3_v24 (c : Dev nD) : (W3 m P0 c (Proc.devRef .tc main_call0_v24) : S1x1.Idx → Elt F .f32) = shapeCast S1x1 (W2 m P0 c (Proc.devRef .tc main_arg17)) shapeCasts_S_S1x1 := by
  dsimp only [W3, hostOps1]; after_results; rfl
theorem W3_v25 (c : Dev nD) : (W3 m P0 c (Proc.devRef .tc main_call0_v25) : S1x1.Idx → Elt F .f32) = shapeCast S1x1 (W2 m P0 c (Proc.devRef .tc main_arg21)) shapeCasts_S_S1x1 := by
  dsimp only [W3, hostOps1]; after_results; rfl

end Cert.KernelIdeal.Hand

end
-- ==== Proof.KIThread.lean ====
/- Which contents each region finds in its windows' arrays: the arguments reach every region as launched, what the
   first stretch of host operations leaves reaches the first pair region (and, for the shared attention weights, the
   second), what a pair region writes back reaches its combine region unchanged. -/
import proofs.«122693_g27230092657376_cont_9to1_1130_10_alg».proof.Proof.KIHost

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]
variable (m : (ℓ : Loc nD τ sig) → Buf (Elt F) ℓ) (P0 : Pair0 (F := F)) (P1 : Pair1 (F := F))

/-- A buffer the first stretch does not write and the first pair region does not write back holds its launch contents
    when the second stretch starts. -/
theorem W2_launch (c : Dev nD) (b : Ref sig .tc) (h0 : b ∉ hostOps0_W)
    (o0 : ∀ w, (cfg0.win w).isOut = true → Pipeline.arrRef spec0 w ≠ b) :
    W2 m P0 c (Proc.devRef .tc b) = m ((c : Thread nD τ).loc b) :=
  (W2_keep m P0 c b o0).trans ((StableHlo.after_of_writes_sub hostOps0 _ hostOps0_writes h0).trans rfl)
theorem W3_launch (c : Dev nD) (b : Ref sig .tc) (h0 : b ∉ hostOps0_W) (h1 : b ∉ hostOps1_W)
    (o0 : ∀ w, (cfg0.win w).isOut = true → Pipeline.arrRef spec0 w ≠ b) :
    W3 m P0 c (Proc.devRef .tc b) = m ((c : Thread nD τ).loc b) :=
  (StableHlo.after_of_writes_sub hostOps1 _ hostOps1_writes h1).trans (W2_launch m P0 c b h0 o0)
theorem W4_launch (c : Dev nD) (b : Ref sig .tc) (h0 : b ∉ hostOps0_W) (h1 : b ∉ hostOps1_W)
    (o0 : ∀ w, (cfg0.win w).isOut = true → Pipeline.arrRef spec0 w ≠ b) (o1 : ∀ w, (cfg1.win w).isOut = true → Pipeline.arrRef spec1 w ≠ b) :
    W4 m P0 P1 c (Proc.devRef .tc b) = m ((c : Thread nD τ).loc b) :=
  (W4_keep m P0 P1 c b o1).trans (W3_launch m P0 c b h0 h1 o0)
theorem W5_launch (c : Dev nD) (b : Ref sig .tc) (h0 : b ∉ hostOps0_W) (h1 : b ∉ hostOps1_W)
    (o0 : ∀ w, (cfg0.win w).isOut = true → Pipeline.arrRef spec0 w ≠ b) (o1 : ∀ w, (cfg1.win w).isOut = true → Pipeline.arrRef spec1 w ≠ b)
    (o2 : ∀ w, (cfg2.win w).isOut = true → Pipeline.arrRef spec2 w ≠ b) :
    W5 m P0 P1 c (Proc.devRef .tc b) = m ((c : Thread nD τ).loc b) :=
  (W5_keep m P0 P1 c b o2).trans (W4_launch m P0 P1 c b h0 h1 o0 o1)

/-- What the first stretch leaves reaches the second pair region: the second stretch does not write it and the first
    pair region only reads it. -/
theorem W3_first (c : Dev nD) (b : Ref sig .tc) (h1 : b ∉ hostOps1_W)
    (o0 : ∀ w, (cfg0.win w).isOut = true → Pipeline.arrRef spec0 w ≠ b) :
    W3 m P0 c (Proc.devRef .tc b) = W1 m c (Proc.devRef .tc b) :=
  (StableHlo.after_of_writes_sub hostOps1 _ hostOps1_writes h1).trans (W2_keep m P0 c b o0)

/-- What the first pair region writes back reaches the first combine region unchanged. -/
theorem W4_pair0 (c : Dev nD) (w : Fin cfg0.W) (h1 : Pipeline.arrRef spec0 w ∉ hostOps1_W)
    (o1 : ∀ w', (cfg1.win w').isOut = true → Pipeline.arrRef spec1 w' ≠ Pipeline.arrRef spec0 w) :
    W4 m P0 P1 c (Proc.devRef .tc (Pipeline.arrRef spec0 w)) = (P0.dat (E1 m) c).arrAt w cfg0.N :=
  (W4_keep m P0 P1 c _ o1).trans ((StableHlo.after_of_writes_sub hostOps1 _ hostOps1_writes h1).trans (W2_arr m P0 c w))
/-- What the second pair region writes back reaches the second combine region unchanged. -/
theorem W5_pair1 (c : Dev nD) (w : Fin cfg1.W)
    (o2 : ∀ w', (cfg2.win w').isOut = true → Pipeline.arrRef spec2 w' ≠ Pipeline.arrRef spec1 w) :
    W5 m P0 P1 c (Proc.devRef .tc (Pipeline.arrRef spec1 w)) = (P1.dat (E3 m P0) c).arrAt w cfg1.N :=
  (W5_keep m P0 P1 c _ o2).trans (W4_arr m P0 P1 c w)

/-! ### The combine regions' five input arrays -/

theorem E4_view1 (c : Dev nD) : E4 m P0 P1 c main_call0_v14_0 = (P0.dat (E1 m) c).arrAt 13 cfg0.N := W4_pair0 m P0 P1 c 13 (by decide) (by decide)
theorem E4_view2 (c : Dev nD) : E4 m P0 P1 c main_call0_v14_1 = (P0.dat (E1 m) c).arrAt 14 cfg0.N := W4_pair0 m P0 P1 c 14 (by decide) (by decide)
theorem E4_acc1 (c : Dev nD) : E4 m P0 P1 c main_call0_v14_2 = (P0.dat (E1 m) c).arrAt 15 cfg0.N := W4_pair0 m P0 P1 c 15 (by decide) (by decide)
theorem E4_acc2 (c : Dev nD) : E4 m P0 P1 c main_call0_v14_3 = (P0.dat (E1 m) c).arrAt 16 cfg0.N := W4_pair0 m P0 P1 c 16 (by decide) (by decide)
theorem E4_att (c : Dev nD) : E4 m P0 P1 c main_arg24 = m ((c : Thread nD τ).loc main_arg24) := W4_launch m P0 P1 c main_arg24 (by decide) (by decide) (by decide) (by decide)
theorem E5_view1 (c : Dev nD) : E5 m P0 P1 c main_call0_v26_0 = (P1.dat (E3 m P0) c).arrAt 13 cfg1.N := W5_pair1 m P0 P1 c 13 (by decide)
theorem E5_view2 (c : Dev nD) : E5 m P0 P1 c main_call0_v26_1 = (P1.dat (E3 m P0) c).arrAt 14 cfg1.N := W5_pair1 m P0 P1 c 14 (by decide)
theorem E5_acc1 (c : Dev nD) : E5 m P0 P1 c main_call0_v26_2 = (P1.dat (E3 m P0) c).arrAt 15 cfg1.N := W5_pair1 m P0 P1 c 15 (by decide)
theorem E5_acc2 (c : Dev nD) : E5 m P0 P1 c main_call0_v26_3 = (P1.dat (E3 m P0) c).arrAt 16 cfg1.N := W5_pair1 m P0 P1 c 16 (by decide)
theorem E5_att (c : Dev nD) : E5 m P0 P1 c main_arg24 = m ((c : Thread nD τ).loc main_arg24) := W5_launch m P0 P1 c main_arg24 (by decide) (by decide) (by decide) (by decide) (by decide)

/-! ### The pair regions' thirteen input arrays -/

theorem E1_meta1 (c : Dev nD) : E1 m c main_arg2 = m ((c : Thread nD τ).loc main_arg2) := (StableHlo.after_of_writes_sub hostOps0 _ hostOps0_writes (by decide)).trans rfl
theorem E1_meta2 (c : Dev nD) : E1 m c main_arg3 = m ((c : Thread nD τ).loc main_arg3) := (StableHlo.after_of_writes_sub hostOps0 _ hostOps0_writes (by decide)).trans rfl
theorem E3_meta1 (c : Dev nD) : E3 m P0 c main_arg4 = m ((c : Thread nD τ).loc main_arg4) := W3_launch m P0 c main_arg4 (by decide) (by decide) (by decide)
theorem E3_meta2 (c : Dev nD) : E3 m P0 c main_arg5 = m ((c : Thread nD τ).loc main_arg5) := W3_launch m P0 c main_arg5 (by decide) (by decide) (by decide)
theorem E3_wsla (c : Dev nD) : E3 m P0 c main_call0_v1 = W1 m c (Proc.devRef .tc main_call0_v1) := W3_first m P0 c main_call0_v1 (by decide) (by decide)
theorem E3_bsla (c : Dev nD) : E3 m P0 c main_call0_v2 = W1 m c (Proc.devRef .tc main_call0_v2) := W3_first m P0 c main_call0_v2 (by decide) (by decide)
theorem W2_arg1 (c : Dev nD) : W2 m P0 c (Proc.devRef .tc main_arg1) = m ((c : Thread nD τ).loc main_arg1) := W2_launch m P0 c main_arg1 (by decide) (by decide)
theorem W2_arg14 (c : Dev nD) : W2 m P0 c (Proc.devRef .tc main_arg14) = m ((c : Thread nD τ).loc main_arg14) := W2_launch m P0 c main_arg14 (by decide) (by decide)
theorem W2_arg15 (c : Dev nD) : W2 m P0 c (Proc.devRef .tc main_arg15) = m ((c : Thread nD τ).loc main_arg15) := W2_launch m P0 c main_arg15 (by decide) (by decide)
theorem W2_arg16 (c : Dev nD) : W2 m P0 c (Proc.devRef .tc main_arg16) = m ((c : Thread nD τ).loc main_arg16) := W2_launch m P0 c main_arg16 (by decide) (by decide)
theorem W2_arg17 (c : Dev nD) : W2 m P0 c (Proc.devRef .tc main_arg17) = m ((c : Thread nD τ).loc main_arg17) := W2_launch m P0 c main_arg17 (by decide) (by decide)
theorem W2_arg18 (c : Dev nD) : W2 m P0 c (Proc.devRef .tc main_arg18) = m ((c : Thread nD τ).loc main_arg18) := W2_launch m P0 c main_arg18 (by decide) (by decide)
theorem W2_arg19 (c : Dev nD) : W2 m P0 c (Proc.devRef .tc main_arg19) = m ((c : Thread nD τ).loc main_arg19) := W2_launch m P0 c main_arg19 (by decide) (by decide)
theorem W2_arg20 (c : Dev nD) : W2 m P0 c (Proc.devRef .tc main_arg20) = m ((c : Thread nD τ).loc main_arg20) := W2_launch m P0 c main_arg20 (by decide) (by decide)
theorem W2_arg21 (c : Dev nD) : W2 m P0 c (Proc.devRef .tc main_arg21) = m ((c : Thread nD τ).loc main_arg21) := W2_launch m P0 c main_arg21 (by decide) (by decide)

end Cert.KernelIdeal.Hand

end
-- ==== Proof.KIHostIdx.lean ====
/- The host operations' results read at an entry, at the ideal values: a cut to bf16 changes nothing, a transposed
   weight matrix reads the argument at the swapped coordinates, a bias vector as a one-row matrix reads the vector,
   a slope as a one-entry matrix reads the slope. -/
import proofs.«122693_g27230092657376_cont_9to1_1130_10_alg».proof.Proof.KIThread
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (P0 : Pair0 (F := Ideal))

/-- A scalar as a one-entry matrix reads the scalar. -/
theorem shapeCast_scalar_11 {α : Type} (x : S_.Idx → α) (h : S_.ShapeCasts S1x1) : shapeCast S1x1 x h (ix2 0 0) = x ix0 :=
  shapeCast_apply x h _ _ (by rw [Shape.rowMajor_val_two]; rfl)

theorem W1_v3_at (c : Dev nD) (n : Fin 4096) (k : Fin 512) : (W1 m c (Proc.devRef .tc main_call0_v3) : S4096x512.Idx → EReal) (ix2 n k) = (m ((c : Thread nD τ).loc main_arg0) : S4096x512.Idx → EReal) (ix2 n k) := by
  rw [W1_v3]; rfl
theorem W1_v1_at (c : Dev nD) (k d : Fin 512) : (W1 m c (Proc.devRef .tc main_call0_v1) : S512x512.Idx → EReal) (ix2 k d) = (m ((c : Thread nD τ).loc main_arg22) : S512x512.Idx → EReal) (ix2 d k) := by
  rw [W1_v1, W1_v0]
  exact transpose_ix2_apply (a := 512) (b := 512) _ _ k d
theorem W1_v2_at (c : Dev nD) (d : Fin 512) : (W1 m c (Proc.devRef .tc main_call0_v2) : S1x512.Idx → EReal) (ix2 0 d) = (m ((c : Thread nD τ).loc main_arg23) : S512.Idx → EReal) (ix1 d) := by
  rw [W1_v2]
  exact shapeCast_a_1a_apply (a := 512) _ _ 0 d
theorem W1_v5_at (c : Dev nD) (k d : Fin 512) : (W1 m c (Proc.devRef .tc main_call0_v5) : S512x512.Idx → EReal) (ix2 k d) = (m ((c : Thread nD τ).loc main_arg6) : S512x512.Idx → EReal) (ix2 d k) := by
  rw [W1_v5, W1_v4]
  exact transpose_ix2_apply (a := 512) (b := 512) _ _ k d
theorem W1_v7_at (c : Dev nD) (k d : Fin 512) : (W1 m c (Proc.devRef .tc main_call0_v7) : S512x512.Idx → EReal) (ix2 k d) = (m ((c : Thread nD τ).loc main_arg10) : S512x512.Idx → EReal) (ix2 d k) := by
  rw [W1_v7, W1_v6]
  exact transpose_ix2_apply (a := 512) (b := 512) _ _ k d
theorem W1_v8_at (c : Dev nD) (d : Fin 512) : (W1 m c (Proc.devRef .tc main_call0_v8) : S1x512.Idx → EReal) (ix2 0 d) = (m ((c : Thread nD τ).loc main_arg7) : S512.Idx → EReal) (ix1 d) := by
  rw [W1_v8]
  exact shapeCast_a_1a_apply (a := 512) _ _ 0 d
theorem W1_v9_at (c : Dev nD) (d : Fin 512) : (W1 m c (Proc.devRef .tc main_call0_v9) : S1x512.Idx → EReal) (ix2 0 d) = (m ((c : Thread nD τ).loc main_arg11) : S512.Idx → EReal) (ix1 d) := by
  rw [W1_v9]
  exact shapeCast_a_1a_apply (a := 512) _ _ 0 d
theorem W1_v10_at (c : Dev nD) (d : Fin 512) : (W1 m c (Proc.devRef .tc main_call0_v10) : S1x512.Idx → EReal) (ix2 0 d) = (m ((c : Thread nD τ).loc main_arg8) : S512.Idx → EReal) (ix1 d) := by
  rw [W1_v10]
  exact shapeCast_a_1a_apply (a := 512) _ _ 0 d
theorem W1_v11_at (c : Dev nD) (d : Fin 512) : (W1 m c (Proc.devRef .tc main_call0_v11) : S1x512.Idx → EReal) (ix2 0 d) = (m ((c : Thread nD τ).loc main_arg12) : S512.Idx → EReal) (ix1 d) := by
  rw [W1_v11]
  exact shapeCast_a_1a_apply (a := 512) _ _ 0 d
theorem W1_v12_at (c : Dev nD) : (W1 m c (Proc.devRef .tc main_call0_v12) : S1x1.Idx → EReal) (ix2 0 0) = (m ((c : Thread nD τ).loc main_arg9) : S_.Idx → EReal) ix0 := by
  rw [W1_v12]
  exact shapeCast_scalar_11 _ _
theorem W1_v13_at (c : Dev nD) : (W1 m c (Proc.devRef .tc main_call0_v13) : S1x1.Idx → EReal) (ix2 0 0) = (m ((c : Thread nD τ).loc main_arg13) : S_.Idx → EReal) ix0 := by
  rw [W1_v13]
  exact shapeCast_scalar_11 _ _

theorem W3_v15_at (c : Dev nD) (n : Fin 4096) (k : Fin 512) : (W3 m P0 c (Proc.devRef .tc main_call0_v15) : S4096x512.Idx → EReal) (ix2 n k) = (m ((c : Thread nD τ).loc main_arg1) : S4096x512.Idx → EReal) (ix2 n k) := by
  rw [W3_v15, W2_arg1]; rfl
theorem W3_v17_at (c : Dev nD) (k d : Fin 512) : (W3 m P0 c (Proc.devRef .tc main_call0_v17) : S512x512.Idx → EReal) (ix2 k d) = (m ((c : Thread nD τ).loc main_arg14) : S512x512.Idx → EReal) (ix2 d k) := by
  rw [W3_v17, W3_v16, W2_arg14]
  exact transpose_ix2_apply (a := 512) (b := 512) _ _ k d
theorem W3_v19_at (c : Dev nD) (k d : Fin 512) : (W3 m P0 c (Proc.devRef .tc main_call0_v19) : S512x512.Idx → EReal) (ix2 k d) = (m ((c : Thread nD τ).loc main_arg18) : S512x512.Idx → EReal) (ix2 d k) := by
  rw [W3_v19, W3_v18, W2_arg18]
  exact transpose_ix2_apply (a := 512) (b := 512) _ _ k d
theorem W3_v20_at (c : Dev nD) (d : Fin 512) : (W3 m P0 c (Proc.devRef .tc main_call0_v20) : S1x512.Idx → EReal) (ix2 0 d) = (m ((c : Thread nD τ).loc main_arg15) : S512.Idx → EReal) (ix1 d) := by
  rw [W3_v20, W2_arg15]
  exact shapeCast_a_1a_apply (a := 512) _ _ 0 d
theorem W3_v21_at (c : Dev nD) (d : Fin 512) : (W3 m P0 c (Proc.devRef .tc main_call0_v21) : S1x512.Idx → EReal) (ix2 0 d) = (m ((c : Thread nD τ).loc main_arg19) : S512.Idx → EReal) (ix1 d) := by
  rw [W3_v21, W2_arg19]
  exact shapeCast_a_1a_apply (a := 512) _ _ 0 d
theorem W3_v22_at (c : Dev nD) (d : Fin 512) : (W3 m P0 c (Proc.devRef .tc main_call0_v22) : S1x512.Idx → EReal) (ix2 0 d) = (m ((c : Thread nD τ).loc main_arg16) : S512.Idx → EReal) (ix1 d) := by
  rw [W3_v22, W2_arg16]
  exact shapeCast_a_1a_apply (a := 512) _ _ 0 d
theorem W3_v23_at (c : Dev nD) (d : Fin 512) : (W3 m P0 c (Proc.devRef .tc main_call0_v23) : S1x512.Idx → EReal) (ix2 0 d) = (m ((c : Thread nD τ).loc main_arg20) : S512.Idx → EReal) (ix1 d) := by
  rw [W3_v23, W2_arg20]
  exact shapeCast_a_1a_apply (a := 512) _ _ 0 d
theorem W3_v24_at (c : Dev nD) : (W3 m P0 c (Proc.devRef .tc main_call0_v24) : S1x1.Idx → EReal) (ix2 0 0) = (m ((c : Thread nD τ).loc main_arg17) : S_.Idx → EReal) ix0 := by
  rw [W3_v24, W2_arg17]
  exact shapeCast_scalar_11 _ _
theorem W3_v25_at (c : Dev nD) : (W3 m P0 c (Proc.devRef .tc main_call0_v25) : S1x1.Idx → EReal) (ix2 0 0) = (m ((c : Thread nD τ).loc main_arg21) : S_.Idx → EReal) ix0 := by
  rw [W3_v25, W2_arg21]
  exact shapeCast_scalar_11 _ _

end Cert.KernelIdeal.Hand

end
-- ==== Proof.KIComb2Val.lean ====
/-
  The value of the first combine region at the ideal reading.

  At each of the sixteen points the body holds the two feature rows, the attention row and one block of
  256 rows of each view.  Its two logits are the lane sums of (attention · feature · 2⁻¹²); each weight is
  the exponential of a logit less the larger logit, times the reciprocal of the sum of the two
  exponentials; and the block it stores is view₁ · weight₁ + view₂ · weight₂, entry by entry.  The rows are
  the same at every point and the views' blocks move with the result's, so the block written at point `t`
  is block `t` of one function of the arrays the region starts from; the sixteen blocks tile the result.
  When the feature rows hold the views' column sums of the attention's hidden units and the attention row
  is real, that function is the specification's attention step on the two views.
-/
import proofs.«122693_g27230092657376_cont_9to1_1130_10_alg».proof.Proof.KIComb2
import proofs.«122693_g27230092657376_cont_9to1_1130_10_alg».proof.Proof.Spec
import proofs.«122693_g27230092657376_cont_9to1_1130_10_alg».proof.Proof.SpecAlgebra
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's arithmetic at an entry -/

/-- A logit as the body computes it: the lane sum of (attention · feature · 2⁻¹²). -/
def lsum (a s : FVec Ideal S1x512 .f32) : EReal :=
  ∑ k : Fin 512, a (ix2 0 k) * s (ix2 0 k) * Ideal.ofBits .f32 0x39800000#32

/-- A weight as the body computes it: the shifted exponential times the reciprocal of the sum of the two. -/
def wgt (la lb l : EReal) : EReal :=
  Spec.expShift la lb l * Ideal.div (Ideal.ofBits .f32 0x3F800000#32) (Spec.den la lb)

/-- The lane sum, kept as a [1,1] array, read at its one entry. -/
theorem laneSum_apply (a s : FVec Ideal S1x512 .f32)
    (hacc : (0x00000000#32 : BitVec 32) = 0x00000000#32) (hφ : FKind.Formats .f32) :
    shapeCast S1x1
        (multiReduction .add [1] S1
          (mulf (mulf a (shapeCast S1x512 s shapeCasts_S1x512_S1x512)) (broadcast S1x512 (Scalar.ofBits (F := Ideal) .f32 0x39800000#32)))
          0x00000000#32 reduces_S1x512_S1 hφ hacc)
        shapeCasts_S1_S1x1 (ix2 0 0)
      = lsum a s := by
  refine (shapeCast_apply _ shapeCasts_S1_S1x1 (ix2 0 0) (ix1 0) (by
    rw [Shape.rowMajor_val_one, Shape.rowMajor_val_two]; rfl)).trans ?_
  refine (Ideal.multiReduction_add_single _ 0x00000000#32 reduces_S1x512_S1 hφ hacc (ix1 0)).trans ?_
  unfold lsum
  refine Finset.sum_congr rfl fun k _ => ?_
  have e : reduces_S1x512_S1.lift (ix1 0) k = ix2 0 k := by
    funext c; apply Fin.ext; match c with | ⟨0, _⟩ => rfl | ⟨1, _⟩ => rfl
  rw [e, shapeCast_self]
  rfl

/-- The two logits as [1,1] arrays, as the body holds them. -/
def lvec (a s : FVec Ideal S1x512 .f32) : FVec Ideal S1x1 .f32 :=
  shapeCast S1x1
    (multiReduction .add [1] S1
      (mulf (mulf a (shapeCast S1x512 s shapeCasts_S1x512_S1x512)) (broadcast S1x512 (Scalar.ofBits (F := Ideal) .f32 0x39800000#32)))
      0x00000000#32 reduces_S1x512_S1 (.inl rfl) rfl)
    shapeCasts_S1_S1x1

/-- A weight as a [1,1] array. -/
def wvec (la lb l : FVec Ideal S1x1 .f32) : FVec Ideal S1x1 .f32 :=
  mulf (exp (subf l (maximumf la lb)))
    (divf (broadcast S1x1 (Scalar.ofBits (F := Ideal) .f32 0x3F800000#32))
      (addf (exp (subf la (maximumf la lb))) (exp (subf lb (maximumf la lb)))))

/-- The payload is the two view blocks, each times its weight spread over the block. -/
theorem pay_eq (a s1 a' s2 : FVec Ideal S1x512 .f32) (x3 x4 : FVec Ideal S256x512 .bf16) :
    k2_pay1 (F := Ideal) a s1 a' s2 x3 x4
      = addf
          (mulf (extf .f32 (shapeCast S256x512 x3 shapeCasts_S256x512_S256x512) bitsLt_bf16_f32)
            (broadcastTo S256x512 (wvec (lvec a s1) (lvec a' s2) (lvec a s1)) broadcasts_S1x1_S256x512))
          (mulf (extf .f32 (shapeCast S256x512 x4 shapeCasts_S256x512_S256x512) bitsLt_bf16_f32)
            (broadcastTo S256x512 (wvec (lvec a s1) (lvec a' s2) (lvec a' s2)) broadcasts_S1x1_S256x512)) := rfl

/-- A weight array at its one entry. -/
theorem wvec_apply (la lb l : FVec Ideal S1x1 .f32) :
    wvec la lb l (ix2 0 0) = wgt (la (ix2 0 0)) (lb (ix2 0 0)) (l (ix2 0 0)) := rfl

/-- A [1,1] array spread over a [256,512] block reads its one entry everywhere. -/
theorem spread_apply (w : FVec Ideal S1x1 .f32) (p : Fin 256) (q : Fin 512) :
    broadcastTo S256x512 w broadcasts_S1x1_S256x512 (ix2 p q) = w (ix2 0 0) :=
  broadcastTo_apply w broadcasts_S1x1_S256x512 (ix2 p q) (ix2 0 0) (fun c => by
    match c with
    | ⟨0, _⟩ => rfl
    | ⟨1, _⟩ => rfl)

/-- THE PAYLOAD AT AN ENTRY: view₁ times its weight plus view₂ times its weight. -/
theorem pay_apply (a s1 a' s2 : FVec Ideal S1x512 .f32) (x3 x4 : FVec Ideal S256x512 .bf16) (p : Fin 256) (q : Fin 512) :
    k2_pay1 (F := Ideal) a s1 a' s2 x3 x4 (ix2 p q)
      = x3 (ix2 p q) * wgt (lsum a s1) (lsum a' s2) (lsum a s1)
        + x4 (ix2 p q) * wgt (lsum a s1) (lsum a' s2) (lsum a' s2) := by
  rw [pay_eq]
  show (shapeCast S256x512 x3 shapeCasts_S256x512_S256x512) (ix2 p q)
        * broadcastTo S256x512 (wvec (lvec a s1) (lvec a' s2) (lvec a s1)) broadcasts_S1x1_S256x512 (ix2 p q)
      + (shapeCast S256x512 x4 shapeCasts_S256x512_S256x512) (ix2 p q)
        * broadcastTo S256x512 (wvec (lvec a s1) (lvec a' s2) (lvec a' s2)) broadcasts_S1x1_S256x512 (ix2 p q) = _
  rw [shapeCast_self, shapeCast_self, spread_apply, spread_apply, wvec_apply, wvec_apply]
  have h1 : lvec a s1 (ix2 0 0) = lsum a s1 := laneSum_apply a s1 rfl (.inl rfl)
  have h2 : lvec a' s2 (ix2 0 0) = lsum a' s2 := laneSum_apply a' s2 rfl (.inl rfl)
  rw [h1, h2]

/-! ## From the blocks to the array

Every point writes one block of 256 rows of the result back; the blocks of the two views move with it, and
the three [1,512] rows are their arrays whole at every point.  So what point `t` writes back is block `t` of
one function of the arrays the region is entered with, the sixteen blocks cover the array, and the array
ends holding that function. -/

/-- The result array of the combine region, entry by entry, from the arrays the region is entered with:
    the two feature rows `A0`, `A1`, the attention row `A2`, and the two views `A3`, `A4`. -/
def G2 (A0 A1 A2 : FVec Ideal S1x512 .f32) (A3 A4 : FVec Ideal S4096x512 .bf16) : S4096x512.Idx → EReal :=
  fun i => A3 i * wgt (lsum A2 A0) (lsum A2 A1) (lsum A2 A0) + A4 i * wgt (lsum A2 A0) (lsum A2 A1) (lsum A2 A1)

/-- The payload of blocks that are the rows whole and a block of each view is that block of `G2`. -/
theorem block_val (A0 A1 A2 : FVec Ideal S1x512 .f32) (A3 A4 : FVec Ideal S4096x512 .bf16)
    (x0 x1 x2 : FVec Ideal S1x512 .f32) (x3 x4 : FVec Ideal S256x512 .bf16) (e : S256x512.Idx → S4096x512.Idx)
    (h0 : x0 = A0) (h1 : x1 = A1) (h2 : x2 = A2) (h3 : ∀ y, x3 y = A3 (e y)) (h4 : ∀ y, x4 y = A4 (e y))
    (y : S256x512.Idx) :
    k2_pay1 (F := Ideal) x2 x0 x2 x1 x3 x4 y = G2 A0 A1 A2 A3 A4 (e y) := by
  subst h0 h1 h2
  obtain ⟨p, q, rfl⟩ : ∃ (p : Fin 256) (q : Fin 512), y = ix2 p q := ⟨y 0, y 1, eq_ix2 y⟩
  rw [pay_apply, h3, h4]
  rfl

theorem hz2 : (![0, 0] : Fin 2 → Nat) = fun _ => 0 := funext fun a => by fin_cases a <;> rfl

/-- The printed index maps, decided over the grid: the three rows stay at block 0, the views and the result
    are at row block `t`. -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- WHAT POINT `t` WRITES BACK is block `t` of `G2` of the arrays the region is entered with. -/
theorem flushed2_5_eq (c : Dev nD) (t : Fin cfg2.N) :
    (dat2 (F := Ideal) V c).flushed 5 t
      = ((cfg2.win 5).blk t).view.read (Elt Ideal)
          (G2 (V c main_call0_v14_2) (V c main_call0_v14_3) (V c main_arg24) (V c main_call0_v14_0) (V c main_call0_v14_1)) := by
  show (cfg2.win 5).cut (grid2.coords t) ((dat2 (F := Ideal) V c).after 5 t) = _
  rw [after2_5]
  unfold out2_5
  rw [View.canon_unit_zero hz2]
  simp only [View.ld_unit_zero (S := S1x512) hz2, View.ld_unit_zero (S := S256x512) hz2]
  obtain ⟨a00, a01, a10, a11, a20, a21, a30, a31, a40, a41, a50, a51⟩ := idx_facts2 t
  funext j
  show k2_pay1 (F := Ideal) (iblk2 V c 2 t) (iblk2 V c 0 t) (iblk2 V c 2 t) (iblk2 V c 1 t) (iblk2 V c 3 t) (iblk2 V c 4 t) j
    = G2 (V c main_call0_v14_2) (V c main_call0_v14_3) (V c main_arg24) (V c main_call0_v14_0) (V c main_call0_v14_1)
        (((cfg2.win 5).blk t).view.emb j)
  refine block_val (V c main_call0_v14_2) (V c main_call0_v14_3) (V c main_arg24) (V c main_call0_v14_0) (V c main_call0_v14_1)
    (iblk2 V c 0 t) (iblk2 V c 1 t) (iblk2 V c 2 t) (iblk2 V c 3 t) (iblk2 V c 4 t)
    (fun y => ((cfg2.win 5).blk t).view.emb y) ?_ ?_ ?_ ?_ ?_ j
  · funext y
    show V c main_call0_v14_2 (((cfg2.win 0).blk t).view.emb y) = V c main_call0_v14_2 y
    refine congrArg (V c main_call0_v14_2) (funext fun a => Fin.ext ?_)
    match a with
    | ⟨0, _⟩ => show win2_0.index t (0 : Fin 2) * 1 + 1 * (y 0).val = (y 0).val; omega
    | ⟨1, _⟩ => show win2_0.index t (1 : Fin 2) * 512 + 1 * (y 1).val = (y 1).val; omega
  · funext y
    show V c main_call0_v14_3 (((cfg2.win 1).blk t).view.emb y) = V c main_call0_v14_3 y
    refine congrArg (V c main_call0_v14_3) (funext fun a => Fin.ext ?_)
    match a with
    | ⟨0, _⟩ => show win2_1.index t (0 : Fin 2) * 1 + 1 * (y 0).val = (y 0).val; omega
    | ⟨1, _⟩ => show win2_1.index t (1 : Fin 2) * 512 + 1 * (y 1).val = (y 1).val; omega
  · funext y
    show V c main_arg24 (((cfg2.win 2).blk t).view.emb y) = V c main_arg24 y
    refine congrArg (V c main_arg24) (funext fun a => Fin.ext ?_)
    match a with
    | ⟨0, _⟩ => show win2_2.index t (0 : Fin 2) * 1 + 1 * (y 0).val = (y 0).val; omega
    | ⟨1, _⟩ => show win2_2.index t (1 : Fin 2) * 512 + 1 * (y 1).val = (y 1).val; omega
  · intro y
    show V c main_call0_v14_0 (((cfg2.win 3).blk t).view.emb y) = V c main_call0_v14_0 (((cfg2.win 5).blk t).view.emb y)
    refine congrArg (V c main_call0_v14_0) (funext fun a => Fin.ext ?_)
    match a with
    | ⟨0, _⟩ => show win2_3.index t (0 : Fin 2) * 256 + 1 * (y 0).val = win2_5.index t (0 : Fin 2) * 256 + 1 * (y 0).val; omega
    | ⟨1, _⟩ => show win2_3.index t (1 : Fin 2) * 512 + 1 * (y 1).val = win2_5.index t (1 : Fin 2) * 512 + 1 * (y 1).val; omega
  · intro y
    show V c main_call0_v14_1 (((cfg2.win 4).blk t).view.emb y) = V c main_call0_v14_1 (((cfg2.win 5).blk t).view.emb y)
    refine congrArg (V c main_call0_v14_1) (funext fun a => Fin.ext ?_)
    match a with
    | ⟨0, _⟩ => show win2_4.index t (0 : Fin 2) * 256 + 1 * (y 0).val = win2_5.index t (0 : Fin 2) * 256 + 1 * (y 0).val; omega
    | ⟨1, _⟩ => show win2_4.index t (1 : Fin 2) * 512 + 1 * (y 1).val = win2_5.index t (1 : Fin 2) * 512 + 1 * (y 1).val; omega

/-- An index of the result array is in point `t`'s block iff each coordinate is in the block's range. -/
theorem mem_blk2_5 (t : Fin cfg2.N) (i : S4096x512.Idx) :
    i ∈ ((cfg2.win 5).blk t).view.set
      ↔ ∀ a : Fin 2, win2_5.index t a * S256x512.size a ≤ (i a).val
          ∧ (i a).val < win2_5.index t a * S256x512.size a + S256x512.size a := by
  show i ∈ ((View.whole main_v0_0).slice (win2_5.rect t)).set ↔ _
  rw [View.set_slice_whole, Rect.mem_set_unit]
  exact Iff.rfl

/-- The sixteen blocks cover the result array: row `r` is in block `r / 256`. -/
theorem covered2_5 (i : S4096x512.Idx) :
    ∃ t : Fin cfg2.N, (cfg2.win 5).flush t = true ∧ i ∈ ((cfg2.win 5).blk t).view.set := by
  have hi0 : (i 0).val < 4096 := (i 0).isLt
  have hi1 : (i 1).val < 512 := (i 1).isLt
  have hN : grid2.N = 16 := N_2
  have ht : (i 0).val / 256 < cfg2.N := by show (i 0).val / 256 < grid2.N; omega
  refine ⟨⟨(i 0).val / 256, ht⟩, flush2_5 _, ?_⟩
  rw [mem_blk2_5]
  obtain ⟨-, -, -, -, -, -, -, -, -, -, e0, e1⟩ := idx_facts2 ⟨(i 0).val / 256, ht⟩
  have e0' : win2_5.index ⟨(i 0).val / 256, ht⟩ (0 : Fin 2) = (i 0).val / 256 := e0
  intro a
  match a with
  | ⟨0, _⟩ =>
    show win2_5.index ⟨(i 0).val / 256, ht⟩ (0 : Fin 2) * 256 ≤ (i 0).val
      ∧ (i 0).val < win2_5.index ⟨(i 0).val / 256, ht⟩ (0 : Fin 2) * 256 + 256
    omega
  | ⟨1, _⟩ =>
    show win2_5.index ⟨(i 0).val / 256, ht⟩ (1 : Fin 2) * 512 ≤ (i 1).val
      ∧ (i 1).val < win2_5.index ⟨(i 0).val / 256, ht⟩ (1 : Fin 2) * 512 + 512
    omega

/-- THE RESULT ARRAY after the region: `G2` of the arrays the region is entered with. -/
theorem final2 (c : Dev nD) :
    (dat2 (F := Ideal) V c).arrAt 5 cfg2.N
      = G2 (V c main_call0_v14_2) (V c main_call0_v14_3) (V c main_arg24) (V c main_call0_v14_0) (V c main_call0_v14_1) :=
  (dat2 (F := Ideal) V c).arrAt_eq_of_cover 5 _ (fun t _ => flushed2_5_eq V c t) covered2_5

/-! ## The result through the specification's pieces -/

/-- The body's logit of a feature row that holds a view's column sums is the specification's logit. -/
theorem lsum_eq_logit (a s : FVec Ideal S1x512 .f32) (v : Spec.View) (Wa : Spec.Mat 512 512) (ba : Spec.Vec1 512)
    (hs : ∀ j : Fin 512, s (ix2 0 j) = Spec.colsum v Wa ba j) : lsum a s = Spec.logit a v Wa ba := by
  unfold lsum
  rw [← Spec.logit_eq_sum_scaled]
  exact Finset.sum_congr rfl fun j _ => by rw [hs j]

/-- THE RESULT ARRAY, SPECIFIED: when the two view arrays hold the views `v₁`, `v₂`, the two feature rows hold
    their column sums and the attention row is real, the region leaves the attention step's mix of the two views. -/
theorem final2_spec (c : Dev nD) (v₁ v₂ : Spec.View) (Wa : Spec.Mat 512 512) (ba : Spec.Vec1 512)
    (hv1 : ∀ (n : Fin 4096) (d : Fin 512), V c main_call0_v14_0 (ix2 n d) = v₁ n d)
    (hv2 : ∀ (n : Fin 4096) (d : Fin 512), V c main_call0_v14_1 (ix2 n d) = v₂ n d)
    (hs1 : ∀ j : Fin 512, V c main_call0_v14_2 (ix2 0 j) = Spec.colsum v₁ Wa ba j)
    (hs2 : ∀ j : Fin 512, V c main_call0_v14_3 (ix2 0 j) = Spec.colsum v₂ Wa ba j)
    (ha : ∀ j : Fin 512, ∃ r : ℝ, V c main_arg24 (ix2 0 j) = (r : EReal)) :
    (dat2 (F := Ideal) V c).arrAt 5 cfg2.N
      = fun i => Spec.attend v₁ v₂ Wa ba (V c main_arg24) (i 0) (i 1) := by
  rw [final2]
  funext i
  obtain ⟨n, d, rfl⟩ : ∃ (n : Fin 4096) (d : Fin 512), i = ix2 n d := ⟨i 0, i 1, eq_ix2 i⟩
  unfold G2
  rw [lsum_eq_logit _ _ v₁ Wa ba hs1, lsum_eq_logit _ _ v₂ Wa ba hs2, hv1, hv2]
  exact Spec.attend_eq_of_invWord v₁ v₂ Wa ba (V c main_arg24) ha n d

end Cert.KernelIdeal.Hand

end
-- ==== Proof.KIComb3Val.lean ====
/-
  The value of the second combine region at the ideal reading: the second node set's two views mixed by
  the same attention step.  Its body is the first combine region's, operation for operation, on its own
  arrays, so the arithmetic at an entry is the first region's; what is repeated here is the passage from
  the sixteen blocks to the array, over this region's windows.
-/
import proofs.«122693_g27230092657376_cont_9to1_1130_10_alg».proof.Proof.KIComb3
import proofs.«122693_g27230092657376_cont_9to1_1130_10_alg».proof.Proof.KIComb2Val

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- This region's payload is the first combine region's, operation for operation. -/
theorem k3_pay1_eq (a s1 a' s2 : FVec Ideal S1x512 .f32) (x3 x4 : FVec Ideal S256x512 .bf16) :
    k3_pay1 (F := Ideal) a s1 a' s2 x3 x4 = k2_pay1 (F := Ideal) a s1 a' s2 x3 x4 := rfl

/-- The payload of blocks that are the rows whole and a block of each view is that block of `G2`. -/
theorem block_val3 (A0 A1 A2 : FVec Ideal S1x512 .f32) (A3 A4 : FVec Ideal S4096x512 .bf16)
    (x0 x1 x2 : FVec Ideal S1x512 .f32) (x3 x4 : FVec Ideal S256x512 .bf16) (e : S256x512.Idx → S4096x512.Idx)
    (h0 : x0 = A0) (h1 : x1 = A1) (h2 : x2 = A2) (h3 : ∀ y, x3 y = A3 (e y)) (h4 : ∀ y, x4 y = A4 (e y))
    (y : S256x512.Idx) :
    k3_pay1 (F := Ideal) x2 x0 x2 x1 x3 x4 y = G2 A0 A1 A2 A3 A4 (e y) :=
  (congrFun (k3_pay1_eq x2 x0 x2 x1 x3 x4) y).trans (block_val A0 A1 A2 A3 A4 x0 x1 x2 x3 x4 e h0 h1 h2 h3 h4 y)

/-! ## From the blocks to the array -/

/-- The printed index maps, decided over the grid: the three rows stay at block 0, the views and the result
    are at row block `t`. -/
theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- WHAT POINT `t` WRITES BACK is block `t` of `G2` of the arrays the region is entered with. -/
theorem flushed3_5_eq (c : Dev nD) (t : Fin cfg3.N) :
    (dat3 (F := Ideal) V c).flushed 5 t
      = ((cfg3.win 5).blk t).view.read (Elt Ideal)
          (G2 (V c main_call0_v26_2) (V c main_call0_v26_3) (V c main_arg24) (V c main_call0_v26_0) (V c main_call0_v26_1)) := by
  show (cfg3.win 5).cut (grid3.coords t) ((dat3 (F := Ideal) V c).after 5 t) = _
  rw [after3_5]
  unfold out3_5
  rw [View.canon_unit_zero hz2]
  simp only [View.ld_unit_zero (S := S1x512) hz2, View.ld_unit_zero (S := S256x512) hz2]
  obtain ⟨a00, a01, a10, a11, a20, a21, a30, a31, a40, a41, a50, a51⟩ := idx_facts3 t
  funext j
  show k3_pay1 (F := Ideal) (iblk3 V c 2 t) (iblk3 V c 0 t) (iblk3 V c 2 t) (iblk3 V c 1 t) (iblk3 V c 3 t) (iblk3 V c 4 t) j
    = G2 (V c main_call0_v26_2) (V c main_call0_v26_3) (V c main_arg24) (V c main_call0_v26_0) (V c main_call0_v26_1)
        (((cfg3.win 5).blk t).view.emb j)
  refine block_val3 (V c main_call0_v26_2) (V c main_call0_v26_3) (V c main_arg24) (V c main_call0_v26_0) (V c main_call0_v26_1)
    (iblk3 V c 0 t) (iblk3 V c 1 t) (iblk3 V c 2 t) (iblk3 V c 3 t) (iblk3 V c 4 t)
    (fun y => ((cfg3.win 5).blk t).view.emb y) ?_ ?_ ?_ ?_ ?_ j
  · funext y
    show V c main_call0_v26_2 (((cfg3.win 0).blk t).view.emb y) = V c main_call0_v26_2 y
    refine congrArg (V c main_call0_v26_2) (funext fun a => Fin.ext ?_)
    match a with
    | ⟨0, _⟩ => show win3_0.index t (0 : Fin 2) * 1 + 1 * (y 0).val = (y 0).val; omega
    | ⟨1, _⟩ => show win3_0.index t (1 : Fin 2) * 512 + 1 * (y 1).val = (y 1).val; omega
  · funext y
    show V c main_call0_v26_3 (((cfg3.win 1).blk t).view.emb y) = V c main_call0_v26_3 y
    refine congrArg (V c main_call0_v26_3) (funext fun a => Fin.ext ?_)
    match a with
    | ⟨0, _⟩ => show win3_1.index t (0 : Fin 2) * 1 + 1 * (y 0).val = (y 0).val; omega
    | ⟨1, _⟩ => show win3_1.index t (1 : Fin 2) * 512 + 1 * (y 1).val = (y 1).val; omega
  · funext y
    show V c main_arg24 (((cfg3.win 2).blk t).view.emb y) = V c main_arg24 y
    refine congrArg (V c main_arg24) (funext fun a => Fin.ext ?_)
    match a with
    | ⟨0, _⟩ => show win3_2.index t (0 : Fin 2) * 1 + 1 * (y 0).val = (y 0).val; omega
    | ⟨1, _⟩ => show win3_2.index t (1 : Fin 2) * 512 + 1 * (y 1).val = (y 1).val; omega
  · intro y
    show V c main_call0_v26_0 (((cfg3.win 3).blk t).view.emb y) = V c main_call0_v26_0 (((cfg3.win 5).blk t).view.emb y)
    refine congrArg (V c main_call0_v26_0) (funext fun a => Fin.ext ?_)
    match a with
    | ⟨0, _⟩ => show win3_3.index t (0 : Fin 2) * 256 + 1 * (y 0).val = win3_5.index t (0 : Fin 2) * 256 + 1 * (y 0).val; omega
    | ⟨1, _⟩ => show win3_3.index t (1 : Fin 2) * 512 + 1 * (y 1).val = win3_5.index t (1 : Fin 2) * 512 + 1 * (y 1).val; omega
  · intro y
    show V c main_call0_v26_1 (((cfg3.win 4).blk t).view.emb y) = V c main_call0_v26_1 (((cfg3.win 5).blk t).view.emb y)
    refine congrArg (V c main_call0_v26_1) (funext fun a => Fin.ext ?_)
    match a with
    | ⟨0, _⟩ => show win3_4.index t (0 : Fin 2) * 256 + 1 * (y 0).val = win3_5.index t (0 : Fin 2) * 256 + 1 * (y 0).val; omega
    | ⟨1, _⟩ => show win3_4.index t (1 : Fin 2) * 512 + 1 * (y 1).val = win3_5.index t (1 : Fin 2) * 512 + 1 * (y 1).val; omega

/-- An index of the result array is in point `t`'s block iff each coordinate is in the block's range. -/
theorem mem_blk3_5 (t : Fin cfg3.N) (i : S4096x512.Idx) :
    i ∈ ((cfg3.win 5).blk t).view.set
      ↔ ∀ a : Fin 2, win3_5.index t a * S256x512.size a ≤ (i a).val
          ∧ (i a).val < win3_5.index t a * S256x512.size a + S256x512.size a := by
  show i ∈ ((View.whole main_v0_1).slice (win3_5.rect t)).set ↔ _
  rw [View.set_slice_whole, Rect.mem_set_unit]
  exact Iff.rfl

/-- The sixteen blocks cover the result array: row `r` is in block `r / 256`. -/
theorem covered3_5 (i : S4096x512.Idx) :
    ∃ t : Fin cfg3.N, (cfg3.win 5).flush t = true ∧ i ∈ ((cfg3.win 5).blk t).view.set := by
  have hi0 : (i 0).val < 4096 := (i 0).isLt
  have hi1 : (i 1).val < 512 := (i 1).isLt
  have hN : grid3.N = 16 := N_3
  have ht : (i 0).val / 256 < cfg3.N := by show (i 0).val / 256 < grid3.N; omega
  refine ⟨⟨(i 0).val / 256, ht⟩, flush3_5 _, ?_⟩
  rw [mem_blk3_5]
  obtain ⟨-, -, -, -, -, -, -, -, -, -, e0, e1⟩ := idx_facts3 ⟨(i 0).val / 256, ht⟩
  have e0' : win3_5.index ⟨(i 0).val / 256, ht⟩ (0 : Fin 2) = (i 0).val / 256 := e0
  intro a
  match a with
  | ⟨0, _⟩ =>
    show win3_5.index ⟨(i 0).val / 256, ht⟩ (0 : Fin 2) * 256 ≤ (i 0).val
      ∧ (i 0).val < win3_5.index ⟨(i 0).val / 256, ht⟩ (0 : Fin 2) * 256 + 256
    omega
  | ⟨1, _⟩ =>
    show win3_5.index ⟨(i 0).val / 256, ht⟩ (1 : Fin 2) * 512 ≤ (i 1).val
      ∧ (i 1).val < win3_5.index ⟨(i 0).val / 256, ht⟩ (1 : Fin 2) * 512 + 512
    omega

/-- THE RESULT ARRAY after the region: `G2` of the arrays the region is entered with. -/
theorem final3 (c : Dev nD) :
    (dat3 (F := Ideal) V c).arrAt 5 cfg3.N
      = G2 (V c main_call0_v26_2) (V c main_call0_v26_3) (V c main_arg24) (V c main_call0_v26_0) (V c main_call0_v26_1) :=
  (dat3 (F := Ideal) V c).arrAt_eq_of_cover 5 _ (fun t _ => flushed3_5_eq V c t) covered3_5

/-! ## The result through the specification's pieces -/

/-- THE RESULT ARRAY, SPECIFIED: when the two view arrays hold the views `v₁`, `v₂`, the two feature rows hold
    their column sums and the attention row is real, the region leaves the attention step's mix of the two views. -/
theorem final3_spec (c : Dev nD) (v₁ v₂ : Spec.View) (Wa : Spec.Mat 512 512) (ba : Spec.Vec1 512)
    (hv1 : ∀ (n : Fin 4096) (d : Fin 512), V c main_call0_v26_0 (ix2 n d) = v₁ n d)
    (hv2 : ∀ (n : Fin 4096) (d : Fin 512), V c main_call0_v26_1 (ix2 n d) = v₂ n d)
    (hs1 : ∀ j : Fin 512, V c main_call0_v26_2 (ix2 0 j) = Spec.colsum v₁ Wa ba j)
    (hs2 : ∀ j : Fin 512, V c main_call0_v26_3 (ix2 0 j) = Spec.colsum v₂ Wa ba j)
    (ha : ∀ j : Fin 512, ∃ r : ℝ, V c main_arg24 (ix2 0 j) = (r : EReal)) :
    (dat3 (F := Ideal) V c).arrAt 5 cfg3.N
      = fun i => Spec.attend v₁ v₂ Wa ba (V c main_arg24) (i 0) (i 1) := by
  rw [final3]
  funext i
  obtain ⟨n, d, rfl⟩ : ∃ (n : Fin 4096) (d : Fin 512), i = ix2 n d := ⟨i 0, i 1, eq_ix2 i⟩
  unfold G2
  rw [lsum_eq_logit _ _ v₁ Wa ba hs1, lsum_eq_logit _ _ v₂ Wa ba hs2, hv1, hv2]
  exact Spec.attend_eq_of_invWord v₁ v₂ Wa ba (V c main_arg24) ha n d

end Cert.KernelIdeal.Hand

end
-- ==== Proof.KIValue.lean ====
/-
  The idealized kernel's two results are the specification's functions of the argument arrays.

  A combine region mixes the two views a pair region left, with weights computed from the two feature
  rows the pair region accumulated and from the attention row.  The pair region's arrays are the host
  operations' results — the node features and the weights cut to a narrower format (no change at the
  exact values), the weights transposed, the biases as rows and the slopes as one-entry arrays — so the
  views it leaves are the specification's views of the arguments and the rows it accumulates are their
  column sums.  With the attention row real (the precondition) the combine region's result is the
  specification's attention step on those views: the specification's output.
-/
import proofs.«122693_g27230092657376_cont_9to1_1130_10_alg».proof.Proof.KIPairIface
import proofs.«122693_g27230092657376_cont_9to1_1130_10_alg».proof.Proof.KIPairPay
import proofs.«122693_g27230092657376_cont_9to1_1130_10_alg».proof.Proof.KIPairSpec
import proofs.«122693_g27230092657376_cont_9to1_1130_10_alg».proof.Proof.KIHostIdx
import proofs.«122693_g27230092657376_cont_9to1_1130_10_alg».proof.Proof.KIComb2Val
import proofs.«122693_g27230092657376_cont_9to1_1130_10_alg».proof.Proof.KIComb3Val

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The payloads' readings -/

theorem pay1 : Pay1 := k0_pay1_apply
theorem pay2 : Pay2 := k0_pay2_apply
theorem pay3 : Pay3 := k0_pay3_apply
theorem pay5 : Pay5 := fun j => (congrFun (k0_pay5_eq _) _).trans (k0_pay4_apply j)
theorem pay6 : Pay6 := k0_pay6_apply
theorem pay10 : Pay10 := k0_pay10_apply
theorem pay11 : Pay11 := k0_pay11_apply
theorem pay12 : Pay12 := k0_pay12_apply

variable (m : (ℓ : Loc nD τ sig) → Buf (Elt Ideal) ℓ) (P0 : Pair0 (F := Ideal)) (P1 : Pair1 (F := Ideal))

/-! ## The first node set: pair region 0 and combine region 2 -/

/-- Row block `t` of the first adjacency, as the first pair region finds it, is the argument's. -/
theorem M0_1_at (c : Dev nD) (t : Fin 16) (r : Fin 256) (k : Fin 4096) :
    M0_1 (E1 m) c t (ix2 r k) = ((m ((c : Thread nD τ).loc main_arg2)) : S4096x4096.Idx → EReal) (ix2 (Cert.Spec.row t r) k) :=
  congrFun (E1_meta1 m c) _
theorem M0_2_at (c : Dev nD) (t : Fin 16) (r : Fin 256) (k : Fin 4096) :
    M0_2 (E1 m) c t (ix2 r k) = ((m ((c : Thread nD τ).loc main_arg3)) : S4096x4096.Idx → EReal) (ix2 (Cert.Spec.row t r) k) :=
  congrFun (E1_meta2 m c) _

/-- The first view array the first pair region leaves is the specification's first view of the arguments. -/
theorem join_view1_0 (PV0 : PairVal0 P0) (c : Dev nD) (n : Fin 4096) (d : Fin 512) :
    ((P0.dat (E1 m) c).arrAt 13 cfg0.N : S4096x512.Idx → EReal) (ix2 n d)
      = Cert.Spec.view (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) n d :=
  Cert.Spec.view_of_blocks (Spec.view (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9))) ((P0.dat (E1 m) c).arrAt 13 cfg0.N) (view1blk (X0_0 (E1 m) c) (X0_1 (E1 m) c) (X0_3 (E1 m) c) (X0_5 (E1 m) c) (X0_7 (E1 m) c) (M0_1 (E1 m) c)) (PV0.arr13 (E1 m) c)
    (view1blk_eq (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9))
      (X0_0 (E1 m) c) (X0_1 (E1 m) c) (X0_3 (E1 m) c) (X0_5 (E1 m) c) (X0_7 (E1 m) c) (M0_1 (E1 m) c) pay1 pay6
      (W1_v3_at m c) (W1_v5_at m c) (W1_v8_at m c) (W1_v10_at m c) (W1_v12_at m c) (M0_1_at m c)) n d

/-- The second view array is the specification's second view. -/
theorem join_view2_0 (PV0 : PairVal0 P0) (c : Dev nD) (n : Fin 4096) (d : Fin 512) :
    ((P0.dat (E1 m) c).arrAt 14 cfg0.N : S4096x512.Idx → EReal) (ix2 n d)
      = Cert.Spec.view (m ((c : Thread nD τ).loc main_arg0)) (m ((c : Thread nD τ).loc main_arg3)) (m ((c : Thread nD τ).loc main_arg10)) (m ((c : Thread nD τ).loc main_arg11)) (m ((c : Thread nD τ).loc main_arg12)) (m ((c : Thread nD τ).loc main_arg13)) n d :=
  Cert.Spec.view_of_blocks (Spec.view (m ((c : Thread nD τ).loc main_arg0)) (m ((c : Thread nD τ).loc main_arg3)) (m ((c : Thread nD τ).loc main_arg10)) (m ((c : Thread nD τ).loc main_arg11)) (m ((c : Thread nD τ).loc main_arg12)) (m ((c : Thread nD τ).loc main_arg13))) ((P0.dat (E1 m) c).arrAt 14 cfg0.N) (view2blk (X0_0 (E1 m) c) (X0_2 (E1 m) c) (X0_4 (E1 m) c) (X0_6 (E1 m) c) (X0_8 (E1 m) c) (M0_2 (E1 m) c)) (PV0.arr14 (E1 m) c)
    (view2blk_eq (m ((c : Thread nD τ).loc main_arg0)) (m ((c : Thread nD τ).loc main_arg3)) (m ((c : Thread nD τ).loc main_arg10)) (m ((c : Thread nD τ).loc main_arg11)) (m ((c : Thread nD τ).loc main_arg12)) (m ((c : Thread nD τ).loc main_arg13))
      (X0_0 (E1 m) c) (X0_2 (E1 m) c) (X0_4 (E1 m) c) (X0_6 (E1 m) c) (X0_8 (E1 m) c) (M0_2 (E1 m) c) pay2 pay10
      (W1_v3_at m c) (W1_v7_at m c) (W1_v9_at m c) (W1_v11_at m c) (W1_v13_at m c) (M0_2_at m c)) n d

/-- The first accumulated row holds the first view's column sums. -/
theorem join_acc1_0 (PV0 : PairVal0 P0) (c : Dev nD) (j : Fin 512) :
    ((P0.dat (E1 m) c).arrAt 15 cfg0.N : S1x512.Idx → EReal) (ix2 0 j)
      = Cert.Spec.colsum (Spec.view (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9))) (m ((c : Thread nD τ).loc main_arg22)) (m ((c : Thread nD τ).loc main_arg23)) j := by
  rw [PV0.arr15 (E1 m) c]
  exact acc1_eq (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg22)) (m ((c : Thread nD τ).loc main_arg23))
    (X0_0 (E1 m) c) (X0_1 (E1 m) c) (X0_3 (E1 m) c) (X0_5 (E1 m) c) (X0_7 (E1 m) c) (X0_9 (E1 m) c) (X0_10 (E1 m) c)
    (M0_1 (E1 m) c) pay1 pay3 pay6 pay11
    (W1_v3_at m c) (W1_v5_at m c) (W1_v8_at m c) (W1_v10_at m c) (W1_v12_at m c) (W1_v1_at m c) (W1_v2_at m c) (M0_1_at m c)
    (PV0.acc1 (E1 m) c) (PV0.acc1_zero (E1 m) c) (PV0.acc1_succ (E1 m) c) j

/-- The second accumulated row holds the second view's column sums. -/
theorem join_acc2_0 (PV0 : PairVal0 P0) (c : Dev nD) (j : Fin 512) :
    ((P0.dat (E1 m) c).arrAt 16 cfg0.N : S1x512.Idx → EReal) (ix2 0 j)
      = Cert.Spec.colsum (Spec.view (m ((c : Thread nD τ).loc main_arg0)) (m ((c : Thread nD τ).loc main_arg3)) (m ((c : Thread nD τ).loc main_arg10)) (m ((c : Thread nD τ).loc main_arg11)) (m ((c : Thread nD τ).loc main_arg12)) (m ((c : Thread nD τ).loc main_arg13))) (m ((c : Thread nD τ).loc main_arg22)) (m ((c : Thread nD τ).loc main_arg23)) j := by
  rw [PV0.arr16 (E1 m) c]
  exact acc2_eq (m ((c : Thread nD τ).loc main_arg0)) (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg22)) (m ((c : Thread nD τ).loc main_arg23))
    (X0_0 (E1 m) c) (X0_2 (E1 m) c) (X0_4 (E1 m) c) (X0_6 (E1 m) c) (X0_8 (E1 m) c) (X0_9 (E1 m) c) (X0_10 (E1 m) c)
    (M0_2 (E1 m) c) pay2 pay5 pay10 pay12
    (W1_v3_at m c) (W1_v7_at m c) (W1_v9_at m c) (W1_v11_at m c) (W1_v13_at m c) (W1_v1_at m c) (W1_v2_at m c) (M0_2_at m c)
    (PV0.acc2 (E1 m) c) (PV0.acc2_zero (E1 m) c) (PV0.acc2_succ (E1 m) c) j

/-- THE FIRST RESULT: the first combine region's output array is the specification's output for the first node set. -/
theorem kernel_res0 (PV0 : PairVal0 P0)
    (ha : ∀ (c : Dev nD) (j : Fin 512), ∃ r : ℝ, ((m ((c : Thread nD τ).loc main_arg24)) : S1x512.Idx → EReal) (ix2 0 j) = (r : EReal))
    (c : Dev nD) :
    (dat2 (F := Ideal) (E4 m P0 P1) c).arrAt 5 cfg2.N
      = Cert.Spec.out (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg22)) (m ((c : Thread nD τ).loc main_arg23)) (m ((c : Thread nD τ).loc main_arg24)) := by
  have h := final2_spec (E4 m P0 P1) c (Spec.view (m ((c : Thread nD τ).loc main_arg0)) (m ((c : Thread nD τ).loc main_arg2)) (m ((c : Thread nD τ).loc main_arg6)) (m ((c : Thread nD τ).loc main_arg7)) (m ((c : Thread nD τ).loc main_arg8)) (m ((c : Thread nD τ).loc main_arg9))) (Spec.view (m ((c : Thread nD τ).loc main_arg0)) (m ((c : Thread nD τ).loc main_arg3)) (m ((c : Thread nD τ).loc main_arg10)) (m ((c : Thread nD τ).loc main_arg11)) (m ((c : Thread nD τ).loc main_arg12)) (m ((c : Thread nD τ).loc main_arg13))) (m ((c : Thread nD τ).loc main_arg22)) (m ((c : Thread nD τ).loc main_arg23))
    (fun n d => by rw [E4_view1]; exact join_view1_0 m P0 PV0 c n d)
    (fun n d => by rw [E4_view2]; exact join_view2_0 m P0 PV0 c n d)
    (fun j => by rw [E4_acc1]; exact join_acc1_0 m P0 PV0 c j)
    (fun j => by rw [E4_acc2]; exact join_acc2_0 m P0 PV0 c j)
    (fun j => by rw [E4_att]; exact ha c j)
  rw [h, E4_att]
  rfl

/-! ## The second node set: pair region 1 and combine region 3 -/

theorem M1_1_at (c : Dev nD) (t : Fin 16) (r : Fin 256) (k : Fin 4096) :
    M1_1 (E3 m P0) c t (ix2 r k) = ((m ((c : Thread nD τ).loc main_arg4)) : S4096x4096.Idx → EReal) (ix2 (Cert.Spec.row t r) k) :=
  congrFun (E3_meta1 m P0 c) _
theorem M1_2_at (c : Dev nD) (t : Fin 16) (r : Fin 256) (k : Fin 4096) :
    M1_2 (E3 m P0) c t (ix2 r k) = ((m ((c : Thread nD τ).loc main_arg5)) : S4096x4096.Idx → EReal) (ix2 (Cert.Spec.row t r) k) :=
  congrFun (E3_meta2 m P0 c) _

/-- The attention's weight and bias reach the second pair region as the first stretch of host operations left them. -/
theorem X1_9_at (c : Dev nD) (k j : Fin 512) :
    X1_9 (E3 m P0) c (ix2 k j) = ((m ((c : Thread nD τ).loc main_arg22)) : S512x512.Idx → EReal) (ix2 j k) :=
  (congrFun (E3_wsla m P0 c) _).trans (W1_v1_at m c k j)
theorem X1_10_at (c : Dev nD) (j : Fin 512) :
    X1_10 (E3 m P0) c (ix2 0 j) = ((m ((c : Thread nD τ).loc main_arg23)) : S512.Idx → EReal) (ix1 j) :=
  (congrFun (E3_bsla m P0 c) _).trans (W1_v2_at m c j)

theorem join_view1_1 (PV1 : PairVal1 P1) (c : Dev nD) (n : Fin 4096) (d : Fin 512) :
    ((P1.dat (E3 m P0) c).arrAt 13 cfg1.N : S4096x512.Idx → EReal) (ix2 n d)
      = Cert.Spec.view (m ((c : Thread nD τ).loc main_arg1)) (m ((c : Thread nD τ).loc main_arg4)) (m ((c : Thread nD τ).loc main_arg14)) (m ((c : Thread nD τ).loc main_arg15)) (m ((c : Thread nD τ).loc main_arg16)) (m ((c : Thread nD τ).loc main_arg17)) n d :=
  Cert.Spec.view_of_blocks (Spec.view (m ((c : Thread nD τ).loc main_arg1)) (m ((c : Thread nD τ).loc main_arg4)) (m ((c : Thread nD τ).loc main_arg14)) (m ((c : Thread nD τ).loc main_arg15)) (m ((c : Thread nD τ).loc main_arg16)) (m ((c : Thread nD τ).loc main_arg17))) ((P1.dat (E3 m P0) c).arrAt 13 cfg1.N) (view1blk (X1_0 (E3 m P0) c) (X1_1 (E3 m P0) c) (X1_3 (E3 m P0) c) (X1_5 (E3 m P0) c) (X1_7 (E3 m P0) c) (M1_1 (E3 m P0) c)) (PV1.arr13 (E3 m P0) c)
    (view1blk_eq (m ((c : Thread nD τ).loc main_arg1)) (m ((c : Thread nD τ).loc main_arg4)) (m ((c : Thread nD τ).loc main_arg14)) (m ((c : Thread nD τ).loc main_arg15)) (m ((c : Thread nD τ).loc main_arg16)) (m ((c : Thread nD τ).loc main_arg17))
      (X1_0 (E3 m P0) c) (X1_1 (E3 m P0) c) (X1_3 (E3 m P0) c) (X1_5 (E3 m P0) c) (X1_7 (E3 m P0) c) (M1_1 (E3 m P0) c) pay1 pay6
      (W3_v15_at m P0 c) (W3_v17_at m P0 c) (W3_v20_at m P0 c) (W3_v22_at m P0 c) (W3_v24_at m P0 c) (M1_1_at m P0 c)) n d

theorem join_view2_1 (PV1 : PairVal1 P1) (c : Dev nD) (n : Fin 4096) (d : Fin 512) :
    ((P1.dat (E3 m P0) c).arrAt 14 cfg1.N : S4096x512.Idx → EReal) (ix2 n d)
      = Cert.Spec.view (m ((c : Thread nD τ).loc main_arg1)) (m ((c : Thread nD τ).loc main_arg5)) (m ((c : Thread nD τ).loc main_arg18)) (m ((c : Thread nD τ).loc main_arg19)) (m ((c : Thread nD τ).loc main_arg20)) (m ((c : Thread nD τ).loc main_arg21)) n d :=
  Cert.Spec.view_of_blocks (Spec.view (m ((c : Thread nD τ).loc main_arg1)) (m ((c : Thread nD τ).loc main_arg5)) (m ((c : Thread nD τ).loc main_arg18)) (m ((c : Thread nD τ).loc main_arg19)) (m ((c : Thread nD τ).loc main_arg20)) (m ((c : Thread nD τ).loc main_arg21))) ((P1.dat (E3 m P0) c).arrAt 14 cfg1.N) (view2blk (X1_0 (E3 m P0) c) (X1_2 (E3 m P0) c) (X1_4 (E3 m P0) c) (X1_6 (E3 m P0) c) (X1_8 (E3 m P0) c) (M1_2 (E3 m P0) c)) (PV1.arr14 (E3 m P0) c)
    (view2blk_eq (m ((c : Thread nD τ).loc main_arg1)) (m ((c : Thread nD τ).loc main_arg5)) (m ((c : Thread nD τ).loc main_arg18)) (m ((c : Thread nD τ).loc main_arg19)) (m ((c : Thread nD τ).loc main_arg20)) (m ((c : Thread nD τ).loc main_arg21))
      (X1_0 (E3 m P0) c) (X1_2 (E3 m P0) c) (X1_4 (E3 m P0) c) (X1_6 (E3 m P0) c) (X1_8 (E3 m P0) c) (M1_2 (E3 m P0) c) pay2 pay10
      (W3_v15_at m P0 c) (W3_v19_at m P0 c) (W3_v21_at m P0 c) (W3_v23_at m P0 c) (W3_v25_at m P0 c) (M1_2_at m P0 c)) n d

theorem join_acc1_1 (PV1 : PairVal1 P1) (c : Dev nD) (j : Fin 512) :
    ((P1.dat (E3 m P0) c).arrAt 15 cfg1.N : S1x512.Idx → EReal) (ix2 0 j)
      = Cert.Spec.colsum (Spec.view (m ((c : Thread nD τ).loc main_arg1)) (m ((c : Thread nD τ).loc main_arg4)) (m ((c : Thread nD τ).loc main_arg14)) (m ((c : Thread nD τ).loc main_arg15)) (m ((c : Thread nD τ).loc main_arg16)) (m ((c : Thread nD τ).loc main_arg17))) (m ((c : Thread nD τ).loc main_arg22)) (m ((c : Thread nD τ).loc main_arg23)) j := by
  rw [PV1.arr15 (E3 m P0) c]
  exact acc1_eq (m ((c : Thread nD τ).loc main_arg1)) (m ((c : Thread nD τ).loc main_arg4)) (m ((c : Thread nD τ).loc main_arg14)) (m ((c : Thread nD τ).loc main_arg15)) (m ((c : Thread nD τ).loc main_arg16)) (m ((c : Thread nD τ).loc main_arg17)) (m ((c : Thread nD τ).loc main_arg22)) (m ((c : Thread nD τ).loc main_arg23))
    (X1_0 (E3 m P0) c) (X1_1 (E3 m P0) c) (X1_3 (E3 m P0) c) (X1_5 (E3 m P0) c) (X1_7 (E3 m P0) c) (X1_9 (E3 m P0) c) (X1_10 (E3 m P0) c)
    (M1_1 (E3 m P0) c) pay1 pay3 pay6 pay11
    (W3_v15_at m P0 c) (W3_v17_at m P0 c) (W3_v20_at m P0 c) (W3_v22_at m P0 c) (W3_v24_at m P0 c) (X1_9_at m P0 c) (X1_10_at m P0 c) (M1_1_at m P0 c)
    (PV1.acc1 (E3 m P0) c) (PV1.acc1_zero (E3 m P0) c) (PV1.acc1_succ (E3 m P0) c) j

theorem join_acc2_1 (PV1 : PairVal1 P1) (c : Dev nD) (j : Fin 512) :
    ((P1.dat (E3 m P0) c).arrAt 16 cfg1.N : S1x512.Idx → EReal) (ix2 0 j)
      = Cert.Spec.colsum (Spec.view (m ((c : Thread nD τ).loc main_arg1)) (m ((c : Thread nD τ).loc main_arg5)) (m ((c : Thread nD τ).loc main_arg18)) (m ((c : Thread nD τ).loc main_arg19)) (m ((c : Thread nD τ).loc main_arg20)) (m ((c : Thread nD τ).loc main_arg21))) (m ((c : Thread nD τ).loc main_arg22)) (m ((c : Thread nD τ).loc main_arg23)) j := by
  rw [PV1.arr16 (E3 m P0) c]
  exact acc2_eq (m ((c : Thread nD τ).loc main_arg1)) (m ((c : Thread nD τ).loc main_arg5)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))
    (X1_0 (E3 m P0) c) (X1_2 (E3 m P0) c) (X1_4 (E3 m P0) c) (X1_6 (E3 m P0) c) (X1_8 (E3 m P0) c) (X1_9 (E3 m P0) c) (X1_10 (E3 m P0) c)
    (M1_2 (E3 m P0) c) pay2 pay5 pay10 pay12
    (W3_v15_at m P0 c) (W3_v19_at m P0 c) (W3_v21_at m P0 c) (W3_v23_at m P0 c) (W3_v25_at m P0 c) (X1_9_at m P0 c) (X1_10_at m P0 c) (M1_2_at m P0 c)
    (PV1.acc2 (E3 m P0) c) (PV1.acc2_zero (E3 m P0) c) (PV1.acc2_succ (E3 m P0) c) j

/-- THE SECOND RESULT: the second combine region's output array is the specification's output for the second node set. -/
theorem kernel_res1 (PV1 : PairVal1 P1)
    (ha : ∀ (c : Dev nD) (j : Fin 512), ∃ r : ℝ, ((m ((c : Thread nD τ).loc main_arg24)) : S1x512.Idx → EReal) (ix2 0 j) = (r : EReal))
    (c : Dev nD) :
    (dat3 (F := Ideal) (E5 m P0 P1) c).arrAt 5 cfg3.N
      = Cert.Spec.out (m ((c : Thread nD τ).loc main_arg1)) (m ((c : Thread nD τ).loc main_arg4)) (m ((c : Thread nD τ).loc main_arg14)) (m ((c : Thread nD τ).loc main_arg15)) (m ((c : Thread nD τ).loc main_arg16)) (m ((c : Thread nD τ).loc main_arg17)) (m ((c : Thread nD τ).loc main_arg5)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  have h := final3_spec (E5 m P0 P1) c (Spec.view (m ((c : Thread nD τ).loc main_arg1)) (m ((c : Thread nD τ).loc main_arg4)) (m ((c : Thread nD τ).loc main_arg14)) (m ((c : Thread nD τ).loc main_arg15)) (m ((c : Thread nD τ).loc main_arg16)) (m ((c : Thread nD τ).loc main_arg17))) (Spec.view (m ((c : Thread nD τ).loc main_arg1)) (m ((c : Thread nD τ).loc main_arg5)) (m ((c : Thread nD τ).loc main_arg18)) (m ((c : Thread nD τ).loc main_arg19)) (m ((c : Thread nD τ).loc main_arg20)) (m ((c : Thread nD τ).loc main_arg21))) (m ((c : Thread nD τ).loc main_arg22)) (m ((c : Thread nD τ).loc main_arg23))
    (fun n d => by rw [E5_view1]; exact join_view1_1 m P0 P1 PV1 c n d)
    (fun n d => by rw [E5_view2]; exact join_view2_1 m P0 P1 PV1 c n d)
    (fun j => by rw [E5_acc1]; exact join_acc1_1 m P0 P1 PV1 c j)
    (fun j => by rw [E5_acc2]; exact join_acc2_1 m P0 P1 PV1 c j)
    (fun j => by rw [E5_att]; exact ha c j)
  rw [h, E5_att]
  rfl

end Cert.KernelIdeal.Hand

end
-- ==== Proof.KIPair0a.lean ====
/-
  The pair kernel's region: vocabulary shared by the three control cases of its body.

  The body runs at the sixteen points of a one-axis grid. At the first point it fills two
  whole-array buffers with the projected features  emb · Wᵀ + b  (rounded to bf16) of the two
  views and zeroes two row accumulators; at every point it multiplies one block of 256 rows of
  each adjacency matrix by the projected features, adds the bias, applies the parametric
  rectifier, stores the block (rounded to bf16) and adds the column sums of
  tanh(block · W_slaᵀ + b_sla) to the accumulators; at the last point it copies the accumulators
  out. Every access is of a whole buffer, through the rectangle at offset zero.
-/
import proofs.«122693_g27230092657376_cont_9to1_1130_10_alg».proof.Proof.Gen.KernelIdeal.Launch
import proofs.«122693_g27230092657376_cont_9to1_1130_10_alg».proof.Proof.Gen.KernelIdeal.Skeleton
import proofs.«122693_g27230092657376_cont_9to1_1130_10_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses -/

/-- Both offsets of a whole-buffer access of a matrix are zero. -/
theorem hz0_2 : (![0, 0] : Fin 2 → Nat) = fun _ => 0 := by funext a; fin_cases a <;> rfl

/-- A buffer whose LAST store was of the whole shape reads that store's value, whatever it held
    before and whatever was stored earlier: the whole-shape rectangle covers every index. -/
theorem read_writes_unit_zero {S : Shape} {e : EltTy} {sig' : RefSig} {κ : Kind} {sp : Space}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-! ## The two conditionals, as functions of the grid point -/

/-- The first conditional tests whether the grid coordinate is zero: it holds at the first point only. -/
abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second tests whether it is fifteen: it holds at the last point only. -/
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

/-! ## Where the two accumulator outputs are idle

The accumulator outputs (windows 15 and 16) are stored at the last point only; before it the body
does not touch their buffers and the pipeline does not write them back. -/

theorem idleAt0_15 : ∀ t : Fin cfg0.N, ¬cond0_1 (grid0.coords t) → cfg0.idle 15 (grid0.coords t) = true := by decide +kernel
theorem noFlush0_15 : ∀ t : Fin cfg0.N, ¬cond0_1 (grid0.coords t) → (cfg0.win 15).flush t = false := by decide +kernel
theorem liveAt0_15 : ∀ t : Fin cfg0.N, cond0_1 (grid0.coords t) → cfg0.idle 15 (grid0.coords t) = false := by decide +kernel
theorem idleAt0_16 : ∀ t : Fin cfg0.N, ¬cond0_1 (grid0.coords t) → cfg0.idle 16 (grid0.coords t) = true := by decide +kernel
theorem noFlush0_16 : ∀ t : Fin cfg0.N, ¬cond0_1 (grid0.coords t) → (cfg0.win 16).flush t = false := by decide +kernel
theorem liveAt0_16 : ∀ t : Fin cfg0.N, cond0_1 (grid0.coords t) → cfg0.idle 16 (grid0.coords t) = false := by decide +kernel

end Cert.KernelIdeal.Hand

end
-- ==== Proof.KIPair0b.lean ====
/-
  The pair kernel's body at its three kinds of grid point.

  FIRST point: both projected-feature buffers are computed from the embedding, the two weight
  matrices and their biases and stored; the accumulators are zeroed; then the point's block of each
  view is computed and stored and its column sums are added to the (zero) accumulators.
  MIDDLE point: the projected-feature buffers are read as the first point left them, the point's
  block of each view is computed and stored, and its column sums are added to the running
  accumulators. At both, the accumulator outputs are not touched.
  LAST point: as at a middle point, and then the two running accumulators are copied into the
  accumulator outputs.
-/
import proofs.«122693_g27230092657376_cont_9to1_1130_10_alg».proof.Proof.KIPair0a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- What a stored-into buffer reads at the end: the run's names for the loaded values opened, a
    load of a buffer at named contents reads them, a load after a whole-buffer store reads the
    stored value, and the buffer reads its last whole-buffer store. -/
local macro "pay_close" : tactic => `(tactic| (
  sl_unfold_words
  simp only [read_writes_unit_zero (S := S4096x512) _ _ hz0_2, read_writes_unit_zero (S := S512x512) _ _ hz0_2, read_writes_unit_zero (S := S1x512) _ _ hz0_2, read_writes_unit_zero (S := S1x1) _ _ hz0_2, read_writes_unit_zero (S := S256x4096) _ _ hz0_2, read_writes_unit_zero (S := S256x512) _ _ hz0_2,
    View.readCov_cons_toLoadRect, View.readAt_eq_ld, Memref.IsWhole.read_unread,
    View.ld_unit_zero (S := S4096x512) hz0_2, View.ld_unit_zero (S := S512x512) hz0_2, View.ld_unit_zero (S := S1x512) hz0_2, View.ld_unit_zero (S := S1x1) hz0_2, View.ld_unit_zero (S := S256x4096) hz0_2, View.ld_unit_zero (S := S256x512) hz0_2]))

set_option maxHeartbeats 4000000 in
/-- On whole buffers — the thirteen inputs at contents `x1 … x13`, the view outputs and the four
    scratch buffers at anything, the accumulator outputs at contents handed back untouched — the
    body at the first point runs to the continuation holding the inputs as they were, each view
    output at its block, the projected features and the first accumulator values in the scratch. -/
theorem sound_kernel0_A (c : Dev nD) (E : Set ℕ) (i : grid0.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : cond0_0 i) (hc1 : ¬cond0_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (xi16 : Vec F S1x512 .f32) (xi17 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ owns (c : Thread nD τ) arg16 fullShare xi16
        ∗ owns (c : Thread nD τ) arg17 fullShare xi17
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k0_pay6 x12 (k0_pay1 x1 x2 x4) x6 x8)
            ∗ owns (c : Thread nD τ) arg15 fullShare (k0_pay10 (k0_pay7 x13 (k0_pay2 x1 x3 x5) x7) (k0_pay8 x13 (k0_pay2 x1 x3 x5) x7) (k0_pay9 x9))
            ∗ owns (c : Thread nD τ) arg16 fullShare xi16
            ∗ owns (c : Thread nD τ) arg17 fullShare xi17
            ∗ owns (c : Thread nD τ) arg18 fullShare (k0_pay1 x1 x2 x4)
            ∗ owns (c : Thread nD τ) arg19 fullShare (k0_pay2 x1 x3 x5)
            ∗ owns (c : Thread nD τ) arg20 fullShare (k0_pay11 (k0_pay6 x12 (k0_pay1 x1 x2 x4) x6 x8) x10 x11 (k0_pay3 (F := F)))
            ∗ owns (c : Thread nD τ) arg21 fullShare (k0_pay12 (k0_pay7 x13 (k0_pay2 x1 x3 x5) x7) (k0_pay8 x13 (k0_pay2 x1 x3 x5) x7) (k0_pay9 x9) x10 x11 (k0_pay5 (k0_pay4 (F := F))))) -∗ K ⟨⟩))
      ⊢ wp frame (wpE (defs₀ (F := F)) Variants.none c none) E (cc0__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__pair_body_eq_skeleton]; unfold cc0__pair_body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16; obtain rfl := harg17.eq_unread hf17
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr; · ipureintro; exact harg16.read_unread _
    iexact H16
  isplitl [H17]
  · iexists _; isplitr; · ipureintro; exact harg17.read_unread _
    iexact H17
  isplitl [H18]
  · iexists _; isplitr
    swap; · iexact H18
    ipureintro
    pay_close
  isplitl [H19]
  · iexists _; isplitr
    swap; · iexact H19
    ipureintro
    pay_close
  isplitl [H20]
  · iexists _; isplitr
    swap; · iexact H20
    ipureintro
    pay_close
  iexists _; isplitr
  swap; · iexact H21
  ipureintro
  pay_close

set_option maxHeartbeats 4000000 in
/-- On whole buffers — the inputs at `x1 … x13`, the view outputs at anything, the accumulator
    outputs at contents handed back untouched, the scratch at the projected features `h1`, `h2`
    and the running sums `a1`, `a2` — the body at a middle point runs to the continuation holding
    the inputs and the projected features as they were, each view output at its block and the
    running sums advanced by the point's column sums. -/
theorem sound_kernel0_B (c : Dev nD) (E : Set ℕ) (i : grid0.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : ¬cond0_0 i) (hc1 : ¬cond0_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (xi16 : Vec F S1x512 .f32) (xi17 : Vec F S1x512 .f32) (h1 : Vec F S4096x512 .bf16) (h2 : Vec F S4096x512 .bf16) (a1 : Vec F S1x512 .f32) (a2 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ owns (c : Thread nD τ) arg16 fullShare xi16
        ∗ owns (c : Thread nD τ) arg17 fullShare xi17
        ∗ owns (c : Thread nD τ) arg18 fullShare h1
        ∗ owns (c : Thread nD τ) arg19 fullShare h2
        ∗ owns (c : Thread nD τ) arg20 fullShare a1
        ∗ owns (c : Thread nD τ) arg21 fullShare a2
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k0_pay6 x12 h1 x6 x8)
            ∗ owns (c : Thread nD τ) arg15 fullShare (k0_pay10 (k0_pay7 x13 h2 x7) (k0_pay8 x13 h2 x7) (k0_pay9 x9))
            ∗ owns (c : Thread nD τ) arg16 fullShare xi16
            ∗ owns (c : Thread nD τ) arg17 fullShare xi17
            ∗ owns (c : Thread nD τ) arg18 fullShare h1
            ∗ owns (c : Thread nD τ) arg19 fullShare h2
            ∗ owns (c : Thread nD τ) arg20 fullShare (k0_pay11 (k0_pay6 x12 h1 x6 x8) x10 x11 a1)
            ∗ owns (c : Thread nD τ) arg21 fullShare (k0_pay12 (k0_pay7 x13 h2 x7) (k0_pay8 x13 h2 x7) (k0_pay9 x9) x10 x11 a2)) -∗ K ⟨⟩))
      ⊢ wp frame (wpE (defs₀ (F := F)) Variants.none c none) E (cc0__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__pair_body_eq_skeleton]; unfold cc0__pair_body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16; obtain rfl := harg17.eq_unread hf17; obtain rfl := harg18.eq_unread hf18; obtain rfl := harg19.eq_unread hf19; obtain rfl := harg20.eq_unread hf20; obtain rfl := harg21.eq_unread hf21
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr
    swap; · iexact H20
    ipureintro
    pay_close
  iexists _; isplitr
  swap; · iexact H21
  ipureintro
  pay_close

set_option maxHeartbeats 4000000 in
/-- The same at the last point, the accumulator outputs now taken at anything and left at the
    advanced running sums. -/
theorem sound_kernel0_C (c : Dev nD) (E : Set ℕ) (i : grid0.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : ¬cond0_0 i) (hc1 : cond0_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (h1 : Vec F S4096x512 .bf16) (h2 : Vec F S4096x512 .bf16) (a1 : Vec F S1x512 .f32) (a2 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ owns (c : Thread nD τ) arg18 fullShare h1
        ∗ owns (c : Thread nD τ) arg19 fullShare h2
        ∗ owns (c : Thread nD τ) arg20 fullShare a1
        ∗ owns (c : Thread nD τ) arg21 fullShare a2
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k0_pay6 x12 h1 x6 x8)
            ∗ owns (c : Thread nD τ) arg15 fullShare (k0_pay10 (k0_pay7 x13 h2 x7) (k0_pay8 x13 h2 x7) (k0_pay9 x9))
            ∗ owns (c : Thread nD τ) arg16 fullShare (k0_pay11 (k0_pay6 x12 h1 x6 x8) x10 x11 a1)
            ∗ owns (c : Thread nD τ) arg17 fullShare (k0_pay12 (k0_pay7 x13 h2 x7) (k0_pay8 x13 h2 x7) (k0_pay9 x9) x10 x11 a2)
            ∗ owns (c : Thread nD τ) arg18 fullShare h1
            ∗ owns (c : Thread nD τ) arg19 fullShare h2
            ∗ owns (c : Thread nD τ) arg20 fullShare (k0_pay11 (k0_pay6 x12 h1 x6 x8) x10 x11 a1)
            ∗ owns (c : Thread nD τ) arg21 fullShare (k0_pay12 (k0_pay7 x13 h2 x7) (k0_pay8 x13 h2 x7) (k0_pay9 x9) x10 x11 a2)) -∗ K ⟨⟩))
      ⊢ wp frame (wpE (defs₀ (F := F)) Variants.none c none) E (cc0__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__pair_body_eq_skeleton]; unfold cc0__pair_body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg18.eq_unread hf18; obtain rfl := harg19.eq_unread hf19; obtain rfl := harg20.eq_unread hf20; obtain rfl := harg21.eq_unread hf21
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr
    swap; · iexact H16
    ipureintro
    pay_close
  isplitl [H17]
  · iexists _; isplitr
    swap; · iexact H17
    ipureintro
    pay_close
  isplitl [H18]
  · iexists _; isplitr; · ipureintro; exact harg18.read_unread _
    iexact H18
  isplitl [H19]
  · iexists _; isplitr; · ipureintro; exact harg19.read_unread _
    iexact H19
  isplitl [H20]
  · iexists _; isplitr
    swap; · iexact H20
    ipureintro
    pay_close
  iexists _; isplitr
  swap; · iexact H21
  ipureintro
  pay_close

end Cert.KernelIdeal.Hand

end
-- ==== Proof.KIPair0e.lean ====
/-
  The pair kernel's region: what its buffers hold point by point, and the body's obligation.

  Stated at a parameter `V`, the contents of the core's buffers when the region is entered.
  Eleven of the thirteen inputs (the embedding, the weights, the biases, the rectifier slopes)
  are one block each, the same at every point; the two adjacency matrices are cut into sixteen
  blocks of 256 rows. With  h₁, h₂  the projected features computed at the first point, the point
  t  stores the view blocks  view₁ t = prelu(adj₁[t] · h₁ + bias₁),  view₂ t  likewise, and the
  accumulators after it are  acc t = acc (t-1) + colsum(tanh(view t · W_slaᵀ + b_sla)),  from zero.
-/
import proofs.«122693_g27230092657376_cont_9to1_1130_10_alg».proof.Proof.KIPair0b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds its block at every point, whether the point fetched it or the
    block index has not moved since the point that did — for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-! ## What the body computes -/

/-- The projected features of the first view,  emb · W₁ᵀ + b₁  rounded to bf16: computed at the first point. -/
def hbuf0_1 (c : Dev nD) : Vec F S4096x512 .bf16 := k0_pay1 (iblk0 V c 0 t0_0) (iblk0 V c 1 t0_0) (iblk0 V c 3 t0_0)
/-- The projected features of the second view. -/
def hbuf0_2 (c : Dev nD) : Vec F S4096x512 .bf16 := k0_pay2 (iblk0 V c 0 t0_0) (iblk0 V c 2 t0_0) (iblk0 V c 4 t0_0)
/-- The first view's block at point `t`: the point's 256 adjacency rows times the projected features,
    plus the bias, through the parametric rectifier, rounded to bf16. -/
def view0_1 (c : Dev nD) (t : Fin cfg0.N) : Vec F S256x512 .bf16 :=
  k0_pay6 (iblk0 V c 11 t) (hbuf0_1 V c) (iblk0 V c 5 t) (iblk0 V c 7 t)
/-- The second view's block at point `t`. -/
def view0_2 (c : Dev nD) (t : Fin cfg0.N) : Vec F S256x512 .bf16 :=
  k0_pay10 (k0_pay7 (iblk0 V c 12 t) (hbuf0_2 V c) (iblk0 V c 6 t)) (k0_pay8 (iblk0 V c 12 t) (hbuf0_2 V c) (iblk0 V c 6 t)) (k0_pay9 (iblk0 V c 8 t))
/-- One step of the first accumulator: `a` plus the column sums of tanh(view₁ t · W_slaᵀ + b_sla). -/
def step0_1 (c : Dev nD) (t : Fin cfg0.N) (a : Vec F S1x512 .f32) : Vec F S1x512 .f32 :=
  k0_pay11 (k0_pay6 (iblk0 V c 11 t) (hbuf0_1 V c) (iblk0 V c 5 t) (iblk0 V c 7 t)) (iblk0 V c 9 t) (iblk0 V c 10 t) a
/-- One step of the second accumulator. -/
def step0_2 (c : Dev nD) (t : Fin cfg0.N) (a : Vec F S1x512 .f32) : Vec F S1x512 .f32 :=
  k0_pay12 (k0_pay7 (iblk0 V c 12 t) (hbuf0_2 V c) (iblk0 V c 6 t)) (k0_pay8 (iblk0 V c 12 t) (hbuf0_2 V c) (iblk0 V c 6 t)) (k0_pay9 (iblk0 V c 8 t)) (iblk0 V c 9 t) (iblk0 V c 10 t) a

/-- The first accumulator after point `n`: from zero, one step per point. -/
def acc0_1 (c : Dev nD) : (n : ℕ) → n < cfg0.N → Vec F S1x512 .f32
  | 0, hn => step0_1 V c ⟨0, hn⟩ (k0_pay3 (F := F))
  | n + 1, hn => step0_1 V c ⟨n + 1, hn⟩ (acc0_1 c n (Nat.lt_of_succ_lt hn))
/-- The second accumulator after point `n`. -/
def acc0_2 (c : Dev nD) : (n : ℕ) → n < cfg0.N → Vec F S1x512 .f32
  | 0, hn => step0_2 V c ⟨0, hn⟩ (k0_pay5 (k0_pay4 (F := F)))
  | n + 1, hn => step0_2 V c ⟨n + 1, hn⟩ (acc0_2 c n (Nat.lt_of_succ_lt hn))

theorem acc0_1_zero (c : Dev nD) (t : Fin cfg0.N) (hz : t.val = 0) : acc0_1 V c t.val t.isLt = step0_1 V c t (k0_pay3 (F := F)) := by
  obtain ⟨n, hn⟩ := t
  cases n with
  | zero => rfl
  | succ n => exact absurd hz (Nat.succ_ne_zero n)
theorem acc0_2_zero (c : Dev nD) (t : Fin cfg0.N) (hz : t.val = 0) : acc0_2 V c t.val t.isLt = step0_2 V c t (k0_pay5 (k0_pay4 (F := F))) := by
  obtain ⟨n, hn⟩ := t
  cases n with
  | zero => rfl
  | succ n => exact absurd hz (Nat.succ_ne_zero n)
theorem acc0_1_pos (c : Dev nD) (t : Fin cfg0.N) (hz : t.val ≠ 0) :
    acc0_1 V c t.val t.isLt = step0_1 V c t (acc0_1 V c (t.val - 1) (Nat.lt_of_le_of_lt (Nat.sub_le _ _) t.isLt)) := by
  obtain ⟨n, hn⟩ := t
  cases n with
  | zero => exact absurd rfl hz
  | succ n => rfl
theorem acc0_2_pos (c : Dev nD) (t : Fin cfg0.N) (hz : t.val ≠ 0) :
    acc0_2 V c t.val t.isLt = step0_2 V c t (acc0_2 V c (t.val - 1) (Nat.lt_of_le_of_lt (Nat.sub_le _ _) t.isLt)) := by
  obtain ⟨n, hn⟩ := t
  cases n with
  | zero => exact absurd rfl hz
  | succ n => rfl

/-! ## The region's invariant -/

/-- The four scratch operands: whole scoped buffers of the kernel's own. -/
abbrev scM0_0 : Memref sig .tc .vmem S4096x512 .bf16 := Memref.whole cc0_scratch0
abbrev scM0_1 : Memref sig .tc .vmem S4096x512 .bf16 := Memref.whole cc0_scratch1
abbrev scM0_2 : Memref sig .tc .vmem S1x512 .f32 := Memref.whole cc0_scratch2
abbrev scM0_3 : Memref sig .tc .vmem S1x512 .f32 := Memref.whole cc0_scratch3

/-- Before point `n`: at the first point the four scratch buffers hold anything; afterwards the two
    feature buffers hold the projected features and the two accumulators what point `n - 1` left.
    Beside them ride the core's other scoped buffers, unopened, and the generator register. -/
def Phi0 (c : Dev nD) : (n : ℕ) → n ≤ cfg0.N → sProp 𝕄
  | 0, _ => iprop((∃ d, owns (c : Thread nD τ) scM0_0 fullShare d) ∗ (∃ d, owns (c : Thread nD τ) scM0_1 fullShare d)
      ∗ (∃ d, owns (c : Thread nD τ) scM0_2 fullShare d) ∗ (∃ d, owns (c : Thread nD τ) scM0_3 fullShare d)
      ∗ Pipeline.scopedRestBut spec0 c [cc0_scratch0, cc0_scratch1, cc0_scratch2, cc0_scratch3] ∗ (∃ r, prngReg c r))
  | n + 1, hn => iprop(owns (c : Thread nD τ) scM0_0 fullShare (hbuf0_1 V c) ∗ owns (c : Thread nD τ) scM0_1 fullShare (hbuf0_2 V c)
      ∗ owns (c : Thread nD τ) scM0_2 fullShare (acc0_1 V c n hn) ∗ owns (c : Thread nD τ) scM0_3 fullShare (acc0_2 V c n hn)
      ∗ Pipeline.scopedRestBut spec0 c [cc0_scratch0, cc0_scratch1, cc0_scratch2, cc0_scratch3] ∗ (∃ r, prngReg c r))

theorem Phi0_zero (c : Dev nD) (n : ℕ) (h : n ≤ cfg0.N) (hz : n = 0) :
    Phi0 V c n h = iprop((∃ d, owns (c : Thread nD τ) scM0_0 fullShare d) ∗ (∃ d, owns (c : Thread nD τ) scM0_1 fullShare d)
      ∗ (∃ d, owns (c : Thread nD τ) scM0_2 fullShare d) ∗ (∃ d, owns (c : Thread nD τ) scM0_3 fullShare d)
      ∗ Pipeline.scopedRestBut spec0 c [cc0_scratch0, cc0_scratch1, cc0_scratch2, cc0_scratch3] ∗ (∃ r, prngReg c r)) := by
  subst hz; rfl
theorem Phi0_succ (c : Dev nD) (n : ℕ) (hn : n < cfg0.N) :
    Phi0 V c (n + 1) hn = iprop(owns (c : Thread nD τ) scM0_0 fullShare (hbuf0_1 V c) ∗ owns (c : Thread nD τ) scM0_1 fullShare (hbuf0_2 V c)
      ∗ owns (c : Thread nD τ) scM0_2 fullShare (acc0_1 V c n hn) ∗ owns (c : Thread nD τ) scM0_3 fullShare (acc0_2 V c n hn)
      ∗ Pipeline.scopedRestBut spec0 c [cc0_scratch0, cc0_scratch1, cc0_scratch2, cc0_scratch3] ∗ (∃ r, prngReg c r)) := rfl
theorem Phi0_pos (c : Dev nD) (n : ℕ) (h : n ≤ cfg0.N) (hz : n ≠ 0) :
    Phi0 V c n h = iprop(owns (c : Thread nD τ) scM0_0 fullShare (hbuf0_1 V c) ∗ owns (c : Thread nD τ) scM0_1 fullShare (hbuf0_2 V c)
      ∗ owns (c : Thread nD τ) scM0_2 fullShare (acc0_1 V c (n - 1) (by omega)) ∗ owns (c : Thread nD τ) scM0_3 fullShare (acc0_2 V c (n - 1) (by omega))
      ∗ Pipeline.scopedRestBut spec0 c [cc0_scratch0, cc0_scratch1, cc0_scratch2, cc0_scratch3] ∗ (∃ r, prngReg c r)) := by
  cases n with
  | zero => exact absurd rfl hz
  | succ n => rfl

/-! ## The proof data -/

/-- The proof data of the pair kernel's pipeline on core `c`: the arrays as the region finds them;
    after the body at point `t` each input's buffer at its block, the view outputs' at the point's
    view blocks, the accumulator outputs' at the accumulators after `t` (read at the last point
    only: before it those windows are idle); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => view0_1 V c t
    | ⟨14, _⟩ => view0_2 V c t
    | ⟨15, _⟩ => acc0_1 V c t.val t.isLt
    | ⟨16, _⟩ => acc0_2 V c t.val t.isLt
    | ⟨_ + 17, h⟩ => absurd h (Nat.not_lt.2 (Nat.le_add_left _ _))
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = view0_1 V c t := by dsimp only [dat0]
theorem after0_14 (c : Dev nD) (t : Fin cfg0.N) : (dat0 V c).after 14 t = view0_2 V c t := by dsimp only [dat0]
theorem after0_15 (c : Dev nD) (t : Fin cfg0.N) : (dat0 V c).after 15 t = acc0_1 V c t.val t.isLt := by dsimp only [dat0]
theorem after0_16 (c : Dev nD) (t : Fin cfg0.N) : (dat0 V c).after 16 t = acc0_2 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t
    ∗ (dat0 V c).leavesExact 16 t)

set_option maxHeartbeats 8000000 in
/-- The body at any point. The inputs' buffers hold their blocks; the point decides the case. At the
    first point the scratch is taken at anything and left at the projected features and the first
    accumulator values; at a later point it is taken at what the point before left and the
    accumulators advance by one step; at the last point the accumulator outputs, until then handed
    back as found, receive the final accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  rw [show (dat0 V c).leavesExact 5 t = owns (c : Thread nD τ) (st0_5 t) fullShare ((dat0 V c).after 5 t) from by
    unfold Dat.leavesExact; rw [liveAt0_5 t], after0_5]
  rw [show (dat0 V c).leavesExact 6 t = owns (c : Thread nD τ) (st0_6 t) fullShare ((dat0 V c).after 6 t) from by
    unfold Dat.leavesExact; rw [liveAt0_6 t], after0_6]
  rw [show (dat0 V c).leavesExact 7 t = owns (c : Thread nD τ) (st0_7 t) fullShare ((dat0 V c).after 7 t) from by
    unfold Dat.leavesExact; rw [liveAt0_7 t], after0_7]
  rw [show (dat0 V c).leavesExact 8 t = owns (c : Thread nD τ) (st0_8 t) fullShare ((dat0 V c).after 8 t) from by
    unfold Dat.leavesExact; rw [liveAt0_8 t], after0_8]
  rw [show (dat0 V c).leavesExact 9 t = owns (c : Thread nD τ) (st0_9 t) fullShare ((dat0 V c).after 9 t) from by
    unfold Dat.leavesExact; rw [liveAt0_9 t], after0_9]
  rw [show (dat0 V c).leavesExact 10 t = owns (c : Thread nD τ) (st0_10 t) fullShare ((dat0 V c).after 10 t) from by
    unfold Dat.leavesExact; rw [liveAt0_10 t], after0_10]
  rw [show (dat0 V c).leavesExact 11 t = owns (c : Thread nD τ) (st0_11 t) fullShare ((dat0 V c).after 11 t) from by
    unfold Dat.leavesExact; rw [liveAt0_11 t], after0_11]
  rw [show (dat0 V c).leavesExact 12 t = owns (c : Thread nD τ) (st0_12 t) fullShare ((dat0 V c).after 12 t) from by
    unfold Dat.leavesExact; rw [liveAt0_12 t], after0_12]
  rw [show (dat0 V c).leavesExact 13 t = owns (c : Thread nD τ) (st0_13 t) fullShare ((dat0 V c).after 13 t) from by
    unfold Dat.leavesExact; rw [liveAt0_13 t], after0_13]
  rw [show (dat0 V c).leavesExact 14 t = owns (c : Thread nD τ) (st0_14 t) fullShare ((dat0 V c).after 14 t) from by
    unfold Dat.leavesExact; rw [liveAt0_14 t], after0_14]
  have hN : t.val < 16 := lt_of_lt_of_eq t.isLt (show cfg0.N = 16 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 15 t (idleAt0_15 t hc1) (noFlush0_15 t hc1),
      Dat.leavesExact_idle (dat0 V c) 16 t (idleAt0_16 t hc1) (noFlush0_16 t hc1)]
    rw [Phi0_castSucc V c t, Phi0_zero V c _ _ h0, acc0_1_zero V c t h0, acc0_2_zero V c t h0]
    obtain rfl : t = t0_0 := Fin.ext h0
    unfold view0_1 view0_2 step0_1 step0_2 hbuf0_1 hbuf0_2
    iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_kernel0_A c Set.univ (grid0.coords t0_0) (win0_0.stage (cfg0.slots t0_0 0)) (hstage0_0 ((cfg0.slots t0_0 0).cast nbuf0_0)) (win0_1.stage (cfg0.slots t0_0 1)) (hstage0_1 ((cfg0.slots t0_0 1).cast nbuf0_1)) (win0_2.stage (cfg0.slots t0_0 2)) (hstage0_2 ((cfg0.slots t0_0 2).cast nbuf0_2)) (win0_3.stage (cfg0.slots t0_0 3)) (hstage0_3 ((cfg0.slots t0_0 3).cast nbuf0_3)) (win0_4.stage (cfg0.slots t0_0 4)) (hstage0_4 ((cfg0.slots t0_0 4).cast nbuf0_4)) (win0_5.stage (cfg0.slots t0_0 5)) (hstage0_5 ((cfg0.slots t0_0 5).cast nbuf0_5)) (win0_6.stage (cfg0.slots t0_0 6)) (hstage0_6 ((cfg0.slots t0_0 6).cast nbuf0_6)) (win0_7.stage (cfg0.slots t0_0 7)) (hstage0_7 ((cfg0.slots t0_0 7).cast nbuf0_7)) (win0_8.stage (cfg0.slots t0_0 8)) (hstage0_8 ((cfg0.slots t0_0 8).cast nbuf0_8)) (win0_9.stage (cfg0.slots t0_0 9)) (hstage0_9 ((cfg0.slots t0_0 9).cast nbuf0_9)) (win0_10.stage (cfg0.slots t0_0 10)) (hstage0_10 ((cfg0.slots t0_0 10).cast nbuf0_10)) (win0_11.stage (cfg0.slots t0_0 11)) (hstage0_11 ((cfg0.slots t0_0 11).cast nbuf0_11)) (win0_12.stage (cfg0.slots t0_0 12)) (hstage0_12 ((cfg0.slots t0_0 12).cast nbuf0_12)) (win0_13.stage (cfg0.slots t0_0 13)) (hstage0_13 ((cfg0.slots t0_0 13).cast nbuf0_13)) (win0_14.stage (cfg0.slots t0_0 14)) (hstage0_14 ((cfg0.slots t0_0 14).cast nbuf0_14)) (win0_15.stage (cfg0.slots t0_0 15)) (hstage0_15 ((cfg0.slots t0_0 15).cast nbuf0_15)) (win0_16.stage (cfg0.slots t0_0 16)) (hstage0_16 ((cfg0.slots t0_0 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) hc0 hc1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0) (iblk0 V c 8 t0_0) (iblk0 V c 9 t0_0) (iblk0 V c 10 t0_0) (iblk0 V c 11 t0_0) (iblk0 V c 12 t0_0) ((dat0 V c).before 15 t0_0 d15) ((dat0 V c).before 16 t0_0 d16) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexact H15
    isplitl [H16]; · iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hrest Hg]
    · isplitl [HS0]; · iexact HS0
      isplitl [HS1]; · iexact HS1
      isplitl [HS2]; · iexact HS2
      isplitl [HS3]; · iexact HS3
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexists _; iexact H16
  · by_cases h1 : t.val = 15
    · have hc0 : ¬cond0_0 (grid0.coords t) := fun h => h0 ((hcond0_0 t).mp h)
      have hc1 : cond0_1 (grid0.coords t) := (hcond0_1 t).mpr h1
      rw [show (dat0 V c).leavesExact 15 t = owns (c : Thread nD τ) (st0_15 t) fullShare ((dat0 V c).after 15 t) from by
        unfold Dat.leavesExact; rw [liveAt0_15 t hc1], after0_15]
      rw [show (dat0 V c).leavesExact 16 t = owns (c : Thread nD τ) (st0_16 t) fullShare ((dat0 V c).after 16 t) from by
        unfold Dat.leavesExact; rw [liveAt0_16 t hc1], after0_16]
      rw [Phi0_castSucc V c t, Phi0_pos V c _ _ h0, acc0_1_pos V c t h0, acc0_2_pos V c t h0]
      unfold view0_1 view0_2 step0_1 step0_2
      iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (sound_kernel0_C c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (hbuf0_1 V c) (hbuf0_2 V c) (acc0_1 V c (t.val - 1) (Nat.lt_of_le_of_lt (Nat.sub_le _ _) t.isLt)) (acc0_2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, HS0, HS1, HS2, HS3⟩
      isplitl [HS0 HS1 HS2 HS3 Hrest Hg]
      · isplitl [HS0]; · iexact HS0
        isplitl [HS1]; · iexact HS1
        isplitl [HS2]; · iexact HS2
        isplitl [HS3]; · iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 15 t (idleAt0_15 t hc1) (noFlush0_15 t hc1),
        Dat.leavesExact_idle (dat0 V c) 16 t (idleAt0_16 t hc1) (noFlush0_16 t hc1)]
      rw [Phi0_castSucc V c t, Phi0_pos V c _ _ h0, acc0_1_pos V c t h0, acc0_2_pos V c t h0]
      unfold view0_1 view0_2 step0_1 step0_2
      iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (sound_kernel0_B c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _) (Memref.whole cc0_scratch3) (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) ((dat0 V c).before 15 t d15) ((dat0 V c).before 16 t d16) (hbuf0_1 V c) (hbuf0_2 V c) (acc0_1 V c (t.val - 1) (Nat.lt_of_le_of_lt (Nat.sub_le _ _) t.isLt)) (acc0_2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, HS0, HS1, HS2, HS3⟩
      isplitl [HS0 HS1 HS2 HS3 Hrest Hg]
      · isplitl [HS0]; · iexact HS0
        isplitl [HS1]; · iexact HS1
        isplitl [HS2]; · iexact HS2
        isplitl [HS3]; · iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- The generator register and the core's scoped buffers that are no staging buffer of this call make
    the invariant before the first point: the four
    scratch buffers are among those scoped buffers, at some contents. -/
theorem hin0 (c : Dev nD) :
    iprop((∃ r, prngReg c r) ∗ Pipeline.scopedRest spec0 c) ⊢ (dat0 V c).Φ 0 := by
  rw [show (dat0 V c).Φ 0 = Phi0 V c 0 (Nat.zero_le _) from rfl, Phi0_zero V c 0 _ rfl, scopedRest0_split]
  simp only [scM0_0, scM0_1, scM0_2, scM0_3, owns_whole]
  iintro ⟨Hg, ⟨H0, H1, H2, H3⟩, Hrest⟩
  isplitl [H0]; · iexact H0
  isplitl [H1]; · iexact H1
  isplitl [H2]; · iexact H2
  isplitl [H3]; · iexact H3
  isplitl [Hrest]; · iexact Hrest
  iexact Hg

/-- After the last point the invariant gives them back: the scratch buffers' named contents are forgotten. -/
theorem hout0 (c : Dev nD) :
    (dat0 V c).Φ (Fin.last cfg0.N) ⊢ iprop((∃ r, prngReg c r) ∗ Pipeline.scopedRest spec0 c) := by
  rw [show (dat0 V c).Φ (Fin.last cfg0.N) = Phi0 V c cfg0.N (le_refl _) from rfl,
    Phi0_pos V c _ _ (by rw [show cfg0.N = 16 from N_0]; decide), scopedRest0_split]
  simp only [scM0_0, scM0_1, scM0_2, scM0_3, owns_whole]
  iintro ⟨H0, H1, H2, H3, Hrest, Hg⟩
  isplitl [Hg]; · iexact Hg
  isplitl [H0 H1 H2 H3]
  · isplitl [H0]; · iexists _; iexact H0
    isplitl [H1]; · iexists _; iexact H1
    isplitl [H2]; · iexists _; iexact H2
    iexists _; iexact H3
  iexact Hrest

end Region

end Cert.KernelIdeal.Hand

end
-- ==== Proof.KIPair0Pkg.lean ====
/-
  The first pair region, packaged as the whole run takes it: its proof data at any entry
  contents, reading its arrays off them at full shares and owing nothing; the body obligation;
  and the two ends of its invariant.
-/
import proofs.«122693_g27230092657376_cont_9to1_1130_10_alg».proof.Proof.KIPair0e
import proofs.«122693_g27230092657376_cont_9to1_1130_10_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first pair region's package. -/
def pair0 : Pair0 (F := F) where
  dat := dat0
  hA := A_eq0
  hq := fun _ _ _ => rfl
  howed := fun _ _ _ => rfl
  hrec := fun _ _ _ => rfl
  hbody := body_obligation0
  hin := hin0
  hout := hout0

end Cert.KernelIdeal.Hand

end
-- ==== Proof.KIPair1a.lean ====
/-
  The second pair kernel's region: vocabulary shared by the three control cases of its body.

  The body runs at the sixteen points of a one-axis grid. At the first point it fills two
  whole-array buffers with the projected features  emb · Wᵀ + b  (rounded to bf16) of the two
  views and zeroes two row accumulators; at every point it multiplies one block of 256 rows of
  each adjacency matrix by the projected features, adds the bias, applies the parametric
  rectifier, stores the block (rounded to bf16) and adds the column sums of
  tanh(block · W_slaᵀ + b_sla) to the accumulators; at the last point it copies the accumulators
  out. Every access is of a whole buffer, through the rectangle at offset zero.
-/
import proofs.«122693_g27230092657376_cont_9to1_1130_10_alg».proof.Proof.KIPair0a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, as functions of the grid point -/

/-- The first conditional tests whether the grid coordinate is zero: it holds at the first point only. -/
abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second tests whether it is fifteen: it holds at the last point only. -/
abbrev cond1_1 (i : grid1.Coords) : Prop := k1_cond2 i = 1#1
theorem hcond1_1 : ∀ t : Fin cfg1.N, cond1_1 (grid1.coords t) ↔ t.val = 15 :=
  (by decide +kernel : ∀ t : Fin grid1.N, cond1_1 (grid1.coords t) ↔ t.val = 15)

/-! ## Where the two accumulator outputs are idle

The accumulator outputs (windows 15 and 16) are stored at the last point only; before it the body
does not touch their buffers and the pipeline does not write them back. -/

theorem idleAt1_15 : ∀ t : Fin cfg1.N, ¬cond1_1 (grid1.coords t) → cfg1.idle 15 (grid1.coords t) = true := by decide +kernel
theorem noFlush1_15 : ∀ t : Fin cfg1.N, ¬cond1_1 (grid1.coords t) → (cfg1.win 15).flush t = false := by decide +kernel
theorem liveAt1_15 : ∀ t : Fin cfg1.N, cond1_1 (grid1.coords t) → cfg1.idle 15 (grid1.coords t) = false := by decide +kernel
theorem idleAt1_16 : ∀ t : Fin cfg1.N, ¬cond1_1 (grid1.coords t) → cfg1.idle 16 (grid1.coords t) = true := by decide +kernel
theorem noFlush1_16 : ∀ t : Fin cfg1.N, ¬cond1_1 (grid1.coords t) → (cfg1.win 16).flush t = false := by decide +kernel
theorem liveAt1_16 : ∀ t : Fin cfg1.N, cond1_1 (grid1.coords t) → cfg1.idle 16 (grid1.coords t) = false := by decide +kernel

end Cert.KernelIdeal.Hand

end
-- ==== Proof.KIPair1b.lean ====
/-
  The second pair kernel's body at its three kinds of grid point.

  FIRST point: both projected-feature buffers are computed from the embedding, the two weight
  matrices and their biases and stored; the accumulators are zeroed; then the point's block of each
  view is computed and stored and its column sums are added to the (zero) accumulators.
  MIDDLE point: the projected-feature buffers are read as the first point left them, the point's
  block of each view is computed and stored, and its column sums are added to the running
  accumulators. At both, the accumulator outputs are not touched.
  LAST point: as at a middle point, and then the two running accumulators are copied into the
  accumulator outputs.
-/
import proofs.«122693_g27230092657376_cont_9to1_1130_10_alg».proof.Proof.KIPair1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- What a stored-into buffer reads at the end: the run's names for the loaded values opened, a
    load of a buffer at named contents reads them, a load after a whole-buffer store reads the
    stored value, and the buffer reads its last whole-buffer store. -/
local macro "pay_close" : tactic => `(tactic| (
  sl_unfold_words
  simp only [read_writes_unit_zero (S := S4096x512) _ _ hz0_2, read_writes_unit_zero (S := S512x512) _ _ hz0_2, read_writes_unit_zero (S := S1x512) _ _ hz0_2, read_writes_unit_zero (S := S1x1) _ _ hz0_2, read_writes_unit_zero (S := S256x4096) _ _ hz0_2, read_writes_unit_zero (S := S256x512) _ _ hz0_2,
    View.readCov_cons_toLoadRect, View.readAt_eq_ld, Memref.IsWhole.read_unread,
    View.ld_unit_zero (S := S4096x512) hz0_2, View.ld_unit_zero (S := S512x512) hz0_2, View.ld_unit_zero (S := S1x512) hz0_2, View.ld_unit_zero (S := S1x1) hz0_2, View.ld_unit_zero (S := S256x4096) hz0_2, View.ld_unit_zero (S := S256x512) hz0_2]))

set_option maxHeartbeats 4000000 in
/-- On whole buffers — the thirteen inputs at contents `x1 … x13`, the view outputs and the four
    scratch buffers at anything, the accumulator outputs at contents handed back untouched — the
    body at the first point runs to the continuation holding the inputs as they were, each view
    output at its block, the projected features and the first accumulator values in the scratch. -/
theorem sound_kernel1_A (c : Dev nD) (E : Set ℕ) (i : grid1.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : cond1_0 i) (hc1 : ¬cond1_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (xi16 : Vec F S1x512 .f32) (xi17 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ owns (c : Thread nD τ) arg16 fullShare xi16
        ∗ owns (c : Thread nD τ) arg17 fullShare xi17
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k1_pay6 x12 (k1_pay1 x1 x2 x4) x6 x8)
            ∗ owns (c : Thread nD τ) arg15 fullShare (k1_pay10 (k1_pay7 x13 (k1_pay2 x1 x3 x5) x7) (k1_pay8 x13 (k1_pay2 x1 x3 x5) x7) (k1_pay9 x9))
            ∗ owns (c : Thread nD τ) arg16 fullShare xi16
            ∗ owns (c : Thread nD τ) arg17 fullShare xi17
            ∗ owns (c : Thread nD τ) arg18 fullShare (k1_pay1 x1 x2 x4)
            ∗ owns (c : Thread nD τ) arg19 fullShare (k1_pay2 x1 x3 x5)
            ∗ owns (c : Thread nD τ) arg20 fullShare (k1_pay11 (k1_pay6 x12 (k1_pay1 x1 x2 x4) x6 x8) x10 x11 (k1_pay3 (F := F)))
            ∗ owns (c : Thread nD τ) arg21 fullShare (k1_pay12 (k1_pay7 x13 (k1_pay2 x1 x3 x5) x7) (k1_pay8 x13 (k1_pay2 x1 x3 x5) x7) (k1_pay9 x9) x10 x11 (k1_pay5 (k1_pay4 (F := F))))) -∗ K ⟨⟩))
      ⊢ wp frame (wpE (defs₀ (F := F)) Variants.none c none) E (cc1__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__pair_body_eq_skeleton]; unfold cc1__pair_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16; obtain rfl := harg17.eq_unread hf17
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr; · ipureintro; exact harg16.read_unread _
    iexact H16
  isplitl [H17]
  · iexists _; isplitr; · ipureintro; exact harg17.read_unread _
    iexact H17
  isplitl [H18]
  · iexists _; isplitr
    swap; · iexact H18
    ipureintro
    pay_close
  isplitl [H19]
  · iexists _; isplitr
    swap; · iexact H19
    ipureintro
    pay_close
  isplitl [H20]
  · iexists _; isplitr
    swap; · iexact H20
    ipureintro
    pay_close
  iexists _; isplitr
  swap; · iexact H21
  ipureintro
  pay_close

set_option maxHeartbeats 4000000 in
/-- On whole buffers — the inputs at `x1 … x13`, the view outputs at anything, the accumulator
    outputs at contents handed back untouched, the scratch at the projected features `h1`, `h2`
    and the running sums `a1`, `a2` — the body at a middle point runs to the continuation holding
    the inputs and the projected features as they were, each view output at its block and the
    running sums advanced by the point's column sums. -/
theorem sound_kernel1_B (c : Dev nD) (E : Set ℕ) (i : grid1.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : ¬cond1_0 i) (hc1 : ¬cond1_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (xi16 : Vec F S1x512 .f32) (xi17 : Vec F S1x512 .f32) (h1 : Vec F S4096x512 .bf16) (h2 : Vec F S4096x512 .bf16) (a1 : Vec F S1x512 .f32) (a2 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ owns (c : Thread nD τ) arg16 fullShare xi16
        ∗ owns (c : Thread nD τ) arg17 fullShare xi17
        ∗ owns (c : Thread nD τ) arg18 fullShare h1
        ∗ owns (c : Thread nD τ) arg19 fullShare h2
        ∗ owns (c : Thread nD τ) arg20 fullShare a1
        ∗ owns (c : Thread nD τ) arg21 fullShare a2
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k1_pay6 x12 h1 x6 x8)
            ∗ owns (c : Thread nD τ) arg15 fullShare (k1_pay10 (k1_pay7 x13 h2 x7) (k1_pay8 x13 h2 x7) (k1_pay9 x9))
            ∗ owns (c : Thread nD τ) arg16 fullShare xi16
            ∗ owns (c : Thread nD τ) arg17 fullShare xi17
            ∗ owns (c : Thread nD τ) arg18 fullShare h1
            ∗ owns (c : Thread nD τ) arg19 fullShare h2
            ∗ owns (c : Thread nD τ) arg20 fullShare (k1_pay11 (k1_pay6 x12 h1 x6 x8) x10 x11 a1)
            ∗ owns (c : Thread nD τ) arg21 fullShare (k1_pay12 (k1_pay7 x13 h2 x7) (k1_pay8 x13 h2 x7) (k1_pay9 x9) x10 x11 a2)) -∗ K ⟨⟩))
      ⊢ wp frame (wpE (defs₀ (F := F)) Variants.none c none) E (cc1__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__pair_body_eq_skeleton]; unfold cc1__pair_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16; obtain rfl := harg17.eq_unread hf17; obtain rfl := harg18.eq_unread hf18; obtain rfl := harg19.eq_unread hf19; obtain rfl := harg20.eq_unread hf20; obtain rfl := harg21.eq_unread hf21
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr
    swap; · iexact H20
    ipureintro
    pay_close
  iexists _; isplitr
  swap; · iexact H21
  ipureintro
  pay_close

set_option maxHeartbeats 4000000 in
/-- The same at the last point, the accumulator outputs now taken at anything and left at the
    advanced running sums. -/
theorem sound_kernel1_C (c : Dev nD) (E : Set ℕ) (i : grid1.Coords) (arg1 : Memref sig .tc .vmem S4096x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S256x4096 .f32) (harg12 : arg12.IsWhole) (arg13 : Memref sig .tc .vmem S256x4096 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1x512 .f32) (harg17 : arg17.IsWhole) (arg18 : Memref sig .tc .vmem S4096x512 .bf16) (harg18 : arg18.IsWhole) (arg19 : Memref sig .tc .vmem S4096x512 .bf16) (harg19 : arg19.IsWhole) (arg20 : Memref sig .tc .vmem S1x512 .f32) (harg20 : arg20.IsWhole) (arg21 : Memref sig .tc .vmem S1x512 .f32) (harg21 : arg21.IsWhole)
    (hc0 : ¬cond1_0 i) (hc1 : cond1_1 i) (x1 : Vec F S4096x512 .bf16) (x2 : Vec F S512x512 .bf16) (x3 : Vec F S512x512 .bf16) (x4 : Vec F S1x512 .f32) (x5 : Vec F S1x512 .f32) (x6 : Vec F S1x512 .f32) (x7 : Vec F S1x512 .f32) (x8 : Vec F S1x1 .f32) (x9 : Vec F S1x1 .f32) (x10 : Vec F S512x512 .bf16) (x11 : Vec F S1x512 .f32) (x12 : Vec F S256x4096 .f32) (x13 : Vec F S256x4096 .f32)
    (h1 : Vec F S4096x512 .bf16) (h2 : Vec F S4096x512 .bf16) (a1 : Vec F S1x512 .f32) (a2 : Vec F S1x512 .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ owns (c : Thread nD τ) arg18 fullShare h1
        ∗ owns (c : Thread nD τ) arg19 fullShare h2
        ∗ owns (c : Thread nD τ) arg20 fullShare a1
        ∗ owns (c : Thread nD τ) arg21 fullShare a2
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare (k1_pay6 x12 h1 x6 x8)
            ∗ owns (c : Thread nD τ) arg15 fullShare (k1_pay10 (k1_pay7 x13 h2 x7) (k1_pay8 x13 h2 x7) (k1_pay9 x9))
            ∗ owns (c : Thread nD τ) arg16 fullShare (k1_pay11 (k1_pay6 x12 h1 x6 x8) x10 x11 a1)
            ∗ owns (c : Thread nD τ) arg17 fullShare (k1_pay12 (k1_pay7 x13 h2 x7) (k1_pay8 x13 h2 x7) (k1_pay9 x9) x10 x11 a2)
            ∗ owns (c : Thread nD τ) arg18 fullShare h1
            ∗ owns (c : Thread nD τ) arg19 fullShare h2
            ∗ owns (c : Thread nD τ) arg20 fullShare (k1_pay11 (k1_pay6 x12 h1 x6 x8) x10 x11 a1)
            ∗ owns (c : Thread nD τ) arg21 fullShare (k1_pay12 (k1_pay7 x13 h2 x7) (k1_pay8 x13 h2 x7) (k1_pay9 x9) x10 x11 a2)) -∗ K ⟨⟩))
      ⊢ wp frame (wpE (defs₀ (F := F)) Variants.none c none) E (cc1__pair_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1__pair_body_eq_skeleton]; unfold cc1__pair_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg18.eq_unread hf18; obtain rfl := harg19.eq_unread hf19; obtain rfl := harg20.eq_unread hf20; obtain rfl := harg21.eq_unread hf21
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr
    swap; · iexact H14
    ipureintro
    pay_close
  isplitl [H15]
  · iexists _; isplitr
    swap; · iexact H15
    ipureintro
    pay_close
  isplitl [H16]
  · iexists _; isplitr
    swap; · iexact H16
    ipureintro
    pay_close
  isplitl [H17]
  · iexists _; isplitr
    swap; · iexact H17
    ipureintro
    pay_close
  isplitl [H18]
  · iexists _; isplitr; · ipureintro; exact harg18.read_unread _
    iexact H18
  isplitl [H19]
  · iexists _; isplitr; · ipureintro; exact harg19.read_unread _
    iexact H19
  isplitl [H20]
  · iexists _; isplitr
    swap; · iexact H20
    ipureintro
    pay_close
  iexists _; isplitr
  swap; · iexact H21
  ipureintro
  pay_close

end Cert.KernelIdeal.Hand

end
-- ==== Proof.KIPair1e.lean ====
/-
  The second pair kernel's region: what its buffers hold point by point, and the body's obligation.

  Stated at a parameter `V`, the contents of the core's buffers when the region is entered.
  Eleven of the thirteen inputs (the embedding, the weights, the biases, the rectifier slopes)
  are one block each, the same at every point; the two adjacency matrices are cut into sixteen
  blocks of 256 rows. With  h₁, h₂  the projected features computed at the first point, the point
  t  stores the view blocks  view₁ t = prelu(adj₁[t] · h₁ + bias₁),  view₂ t  likewise, and the
  accumulators after it are  acc t = acc (t-1) + colsum(tanh(view t · W_slaᵀ + b_sla)),  from zero.
-/
import proofs.«122693_g27230092657376_cont_9to1_1130_10_alg».proof.Proof.KIPair1b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input's staging buffer holds its block at every point, whether the point fetched it or the
    block index has not moved since the point that did — for any proof data over `V` whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## What the body computes -/

/-- The projected features of the first view,  emb · W₁ᵀ + b₁  rounded to bf16: computed at the first point. -/
def hbuf1_1 (c : Dev nD) : Vec F S4096x512 .bf16 := k1_pay1 (iblk1 V c 0 t1_0) (iblk1 V c 1 t1_0) (iblk1 V c 3 t1_0)
/-- The projected features of the second view. -/
def hbuf1_2 (c : Dev nD) : Vec F S4096x512 .bf16 := k1_pay2 (iblk1 V c 0 t1_0) (iblk1 V c 2 t1_0) (iblk1 V c 4 t1_0)
/-- The first view's block at point `t`: the point's 256 adjacency rows times the projected features,
    plus the bias, through the parametric rectifier, rounded to bf16. -/
def view1_1 (c : Dev nD) (t : Fin cfg1.N) : Vec F S256x512 .bf16 :=
  k1_pay6 (iblk1 V c 11 t) (hbuf1_1 V c) (iblk1 V c 5 t) (iblk1 V c 7 t)
/-- The second view's block at point `t`. -/
def view1_2 (c : Dev nD) (t : Fin cfg1.N) : Vec F S256x512 .bf16 :=
  k1_pay10 (k1_pay7 (iblk1 V c 12 t) (hbuf1_2 V c) (iblk1 V c 6 t)) (k1_pay8 (iblk1 V c 12 t) (hbuf1_2 V c) (iblk1 V c 6 t)) (k1_pay9 (iblk1 V c 8 t))
/-- One step of the first accumulator: `a` plus the column sums of tanh(view₁ t · W_slaᵀ + b_sla). -/
def step1_1 (c : Dev nD) (t : Fin cfg1.N) (a : Vec F S1x512 .f32) : Vec F S1x512 .f32 :=
  k1_pay11 (k1_pay6 (iblk1 V c 11 t) (hbuf1_1 V c) (iblk1 V c 5 t) (iblk1 V c 7 t)) (iblk1 V c 9 t) (iblk1 V c 10 t) a
/-- One step of the second accumulator. -/
def step1_2 (c : Dev nD) (t : Fin cfg1.N) (a : Vec F S1x512 .f32) : Vec F S1x512 .f32 :=
  k1_pay12 (k1_pay7 (iblk1 V c 12 t) (hbuf1_2 V c) (iblk1 V c 6 t)) (k1_pay8 (iblk1 V c 12 t) (hbuf1_2 V c) (iblk1 V c 6 t)) (k1_pay9 (iblk1 V c 8 t)) (iblk1 V c 9 t) (iblk1 V c 10 t) a

/-- The first accumulator after point `n`: from zero, one step per point. -/
def acc1_1 (c : Dev nD) : (n : ℕ) → n < cfg1.N → Vec F S1x512 .f32
  | 0, hn => step1_1 V c ⟨0, hn⟩ (k1_pay3 (F := F))
  | n + 1, hn => step1_1 V c ⟨n + 1, hn⟩ (acc1_1 c n (Nat.lt_of_succ_lt hn))
/-- The second accumulator after point `n`. -/
def acc1_2 (c : Dev nD) : (n : ℕ) → n < cfg1.N → Vec F S1x512 .f32
  | 0, hn => step1_2 V c ⟨0, hn⟩ (k1_pay5 (k1_pay4 (F := F)))
  | n + 1, hn => step1_2 V c ⟨n + 1, hn⟩ (acc1_2 c n (Nat.lt_of_succ_lt hn))

theorem acc1_1_zero (c : Dev nD) (t : Fin cfg1.N) (hz : t.val = 0) : acc1_1 V c t.val t.isLt = step1_1 V c t (k1_pay3 (F := F)) := by
  obtain ⟨n, hn⟩ := t
  cases n with
  | zero => rfl
  | succ n => exact absurd hz (Nat.succ_ne_zero n)
theorem acc1_2_zero (c : Dev nD) (t : Fin cfg1.N) (hz : t.val = 0) : acc1_2 V c t.val t.isLt = step1_2 V c t (k1_pay5 (k1_pay4 (F := F))) := by
  obtain ⟨n, hn⟩ := t
  cases n with
  | zero => rfl
  | succ n => exact absurd hz (Nat.succ_ne_zero n)
theorem acc1_1_pos (c : Dev nD) (t : Fin cfg1.N) (hz : t.val ≠ 0) :
    acc1_1 V c t.val t.isLt = step1_1 V c t (acc1_1 V c (t.val - 1) (Nat.lt_of_le_of_lt (Nat.sub_le _ _) t.isLt)) := by
  obtain ⟨n, hn⟩ := t
  cases n with
  | zero => exact absurd rfl hz
  | succ n => rfl
theorem acc1_2_pos (c : Dev nD) (t : Fin cfg1.N) (hz : t.val ≠ 0) :
    acc1_2 V c t.val t.isLt = step1_2 V c t (acc1_2 V c (t.val - 1) (Nat.lt_of_le_of_lt (Nat.sub_le _ _) t.isLt)) := by
  obtain ⟨n, hn⟩ := t
  cases n with
  | zero => exact absurd rfl hz
  | succ n => rfl

/-! ## The region's invariant -/

/-- The four scratch operands: whole scoped buffers of the kernel's own. -/
abbrev scM1_0 : Memref sig .tc .vmem S4096x512 .bf16 := Memref.whole cc1_scratch0
abbrev scM1_1 : Memref sig .tc .vmem S4096x512 .bf16 := Memref.whole cc1_scratch1
abbrev scM1_2 : Memref sig .tc .vmem S1x512 .f32 := Memref.whole cc1_scratch2
abbrev scM1_3 : Memref sig .tc .vmem S1x512 .f32 := Memref.whole cc1_scratch3

/-- Before point `n`: at the first point the four scratch buffers hold anything; afterwards the two
    feature buffers hold the projected features and the two accumulators what point `n - 1` left.
    Beside them ride the core's other scoped buffers, unopened, and the generator register. -/
def Phi1 (c : Dev nD) : (n : ℕ) → n ≤ cfg1.N → sProp 𝕄
  | 0, _ => iprop((∃ d, owns (c : Thread nD τ) scM1_0 fullShare d) ∗ (∃ d, owns (c : Thread nD τ) scM1_1 fullShare d)
      ∗ (∃ d, owns (c : Thread nD τ) scM1_2 fullShare d) ∗ (∃ d, owns (c : Thread nD τ) scM1_3 fullShare d)
      ∗ Pipeline.scopedRestBut spec1 c [cc1_scratch0, cc1_scratch1, cc1_scratch2, cc1_scratch3] ∗ (∃ r, prngReg c r))
  | n + 1, hn => iprop(owns (c : Thread nD τ) scM1_0 fullShare (hbuf1_1 V c) ∗ owns (c : Thread nD τ) scM1_1 fullShare (hbuf1_2 V c)
      ∗ owns (c : Thread nD τ) scM1_2 fullShare (acc1_1 V c n hn) ∗ owns (c : Thread nD τ) scM1_3 fullShare (acc1_2 V c n hn)
      ∗ Pipeline.scopedRestBut spec1 c [cc1_scratch0, cc1_scratch1, cc1_scratch2, cc1_scratch3] ∗ (∃ r, prngReg c r))

theorem Phi1_zero (c : Dev nD) (n : ℕ) (h : n ≤ cfg1.N) (hz : n = 0) :
    Phi1 V c n h = iprop((∃ d, owns (c : Thread nD τ) scM1_0 fullShare d) ∗ (∃ d, owns (c : Thread nD τ) scM1_1 fullShare d)
      ∗ (∃ d, owns (c : Thread nD τ) scM1_2 fullShare d) ∗ (∃ d, owns (c : Thread nD τ) scM1_3 fullShare d)
      ∗ Pipeline.scopedRestBut spec1 c [cc1_scratch0, cc1_scratch1, cc1_scratch2, cc1_scratch3] ∗ (∃ r, prngReg c r)) := by
  subst hz; rfl
theorem Phi1_succ (c : Dev nD) (n : ℕ) (hn : n < cfg1.N) :
    Phi1 V c (n + 1) hn = iprop(owns (c : Thread nD τ) scM1_0 fullShare (hbuf1_1 V c) ∗ owns (c : Thread nD τ) scM1_1 fullShare (hbuf1_2 V c)
      ∗ owns (c : Thread nD τ) scM1_2 fullShare (acc1_1 V c n hn) ∗ owns (c : Thread nD τ) scM1_3 fullShare (acc1_2 V c n hn)
      ∗ Pipeline.scopedRestBut spec1 c [cc1_scratch0, cc1_scratch1, cc1_scratch2, cc1_scratch3] ∗ (∃ r, prngReg c r)) := rfl
theorem Phi1_pos (c : Dev nD) (n : ℕ) (h : n ≤ cfg1.N) (hz : n ≠ 0) :
    Phi1 V c n h = iprop(owns (c : Thread nD τ) scM1_0 fullShare (hbuf1_1 V c) ∗ owns (c : Thread nD τ) scM1_1 fullShare (hbuf1_2 V c)
      ∗ owns (c : Thread nD τ) scM1_2 fullShare (acc1_1 V c (n - 1) (by omega)) ∗ owns (c : Thread nD τ) scM1_3 fullShare (acc1_2 V c (n - 1) (by omega))
      ∗ Pipeline.scopedRestBut spec1 c [cc1_scratch0, cc1_scratch1, cc1_scratch2, cc1_scratch3] ∗ (∃ r, prngReg c r)) := by
  cases n with
  | zero => exact absurd rfl hz
  | succ n => rfl

/-! ## The proof data -/

/-- The proof data of the pair kernel's pipeline on core `c`: the arrays as the region finds them;
    after the body at point `t` each input's buffer at its block, the view outputs' at the point's
    view blocks, the accumulator outputs' at the accumulators after `t` (read at the last point
    only: before it those windows are idle); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => view1_1 V c t
    | ⟨14, _⟩ => view1_2 V c t
    | ⟨15, _⟩ => acc1_1 V c t.val t.isLt
    | ⟨16, _⟩ => acc1_2 V c t.val t.isLt
    | ⟨_ + 17, h⟩ => absurd h (Nat.not_lt.2 (Nat.le_add_left _ _))
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = view1_1 V c t := by dsimp only [dat1]
theorem after1_14 (c : Dev nD) (t : Fin cfg1.N) : (dat1 V c).after 14 t = view1_2 V c t := by dsimp only [dat1]
theorem after1_15 (c : Dev nD) (t : Fin cfg1.N) : (dat1 V c).after 15 t = acc1_1 V c t.val t.isLt := by dsimp only [dat1]
theorem after1_16 (c : Dev nD) (t : Fin cfg1.N) : (dat1 V c).after 16 t = acc1_2 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem liveAt1_9 : ∀ t : Fin cfg1.N, cfg1.idle 9 (grid1.coords t) = false := fun _ => rfl
theorem liveAt1_10 : ∀ t : Fin cfg1.N, cfg1.idle 10 (grid1.coords t) = false := fun _ => rfl
theorem liveAt1_11 : ∀ t : Fin cfg1.N, cfg1.idle 11 (grid1.coords t) = false := fun _ => rfl
theorem liveAt1_12 : ∀ t : Fin cfg1.N, cfg1.idle 12 (grid1.coords t) = false := fun _ => rfl
theorem liveAt1_13 : ∀ t : Fin cfg1.N, cfg1.idle 13 (grid1.coords t) = false := fun _ => rfl
theorem liveAt1_14 : ∀ t : Fin cfg1.N, cfg1.idle 14 (grid1.coords t) = false := fun _ => rfl

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t)

set_option maxHeartbeats 8000000 in
/-- The body at any point. The inputs' buffers hold their blocks; the point decides the case. At the
    first point the scratch is taken at anything and left at the projected features and the first
    accumulator values; at a later point it is taken at what the point before left and the
    accumulators advance by one step; at the last point the accumulator outputs, until then handed
    back as found, receive the final accumulators. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  rw [show (dat1 V c).leavesExact 7 t = owns (c : Thread nD τ) (st1_7 t) fullShare ((dat1 V c).after 7 t) from by
    unfold Dat.leavesExact; rw [liveAt1_7 t], after1_7]
  rw [show (dat1 V c).leavesExact 8 t = owns (c : Thread nD τ) (st1_8 t) fullShare ((dat1 V c).after 8 t) from by
    unfold Dat.leavesExact; rw [liveAt1_8 t], after1_8]
  rw [show (dat1 V c).leavesExact 9 t = owns (c : Thread nD τ) (st1_9 t) fullShare ((dat1 V c).after 9 t) from by
    unfold Dat.leavesExact; rw [liveAt1_9 t], after1_9]
  rw [show (dat1 V c).leavesExact 10 t = owns (c : Thread nD τ) (st1_10 t) fullShare ((dat1 V c).after 10 t) from by
    unfold Dat.leavesExact; rw [liveAt1_10 t], after1_10]
  rw [show (dat1 V c).leavesExact 11 t = owns (c : Thread nD τ) (st1_11 t) fullShare ((dat1 V c).after 11 t) from by
    unfold Dat.leavesExact; rw [liveAt1_11 t], after1_11]
  rw [show (dat1 V c).leavesExact 12 t = owns (c : Thread nD τ) (st1_12 t) fullShare ((dat1 V c).after 12 t) from by
    unfold Dat.leavesExact; rw [liveAt1_12 t], after1_12]
  rw [show (dat1 V c).leavesExact 13 t = owns (c : Thread nD τ) (st1_13 t) fullShare ((dat1 V c).after 13 t) from by
    unfold Dat.leavesExact; rw [liveAt1_13 t], after1_13]
  rw [show (dat1 V c).leavesExact 14 t = owns (c : Thread nD τ) (st1_14 t) fullShare ((dat1 V c).after 14 t) from by
    unfold Dat.leavesExact; rw [liveAt1_14 t], after1_14]
  have hN : t.val < 16 := lt_of_lt_of_eq t.isLt (show cfg1.N = 16 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 15 t (idleAt1_15 t hc1) (noFlush1_15 t hc1),
      Dat.leavesExact_idle (dat1 V c) 16 t (idleAt1_16 t hc1) (noFlush1_16 t hc1)]
    rw [Phi1_castSucc V c t, Phi1_zero V c _ _ h0, acc1_1_zero V c t h0, acc1_2_zero V c t h0]
    obtain rfl : t = t1_0 := Fin.ext h0
    unfold view1_1 view1_2 step1_1 step1_2 hbuf1_1 hbuf1_2
    iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_kernel1_A c Set.univ (grid1.coords t1_0) (win1_0.stage (cfg1.slots t1_0 0)) (hstage1_0 ((cfg1.slots t1_0 0).cast nbuf1_0)) (win1_1.stage (cfg1.slots t1_0 1)) (hstage1_1 ((cfg1.slots t1_0 1).cast nbuf1_1)) (win1_2.stage (cfg1.slots t1_0 2)) (hstage1_2 ((cfg1.slots t1_0 2).cast nbuf1_2)) (win1_3.stage (cfg1.slots t1_0 3)) (hstage1_3 ((cfg1.slots t1_0 3).cast nbuf1_3)) (win1_4.stage (cfg1.slots t1_0 4)) (hstage1_4 ((cfg1.slots t1_0 4).cast nbuf1_4)) (win1_5.stage (cfg1.slots t1_0 5)) (hstage1_5 ((cfg1.slots t1_0 5).cast nbuf1_5)) (win1_6.stage (cfg1.slots t1_0 6)) (hstage1_6 ((cfg1.slots t1_0 6).cast nbuf1_6)) (win1_7.stage (cfg1.slots t1_0 7)) (hstage1_7 ((cfg1.slots t1_0 7).cast nbuf1_7)) (win1_8.stage (cfg1.slots t1_0 8)) (hstage1_8 ((cfg1.slots t1_0 8).cast nbuf1_8)) (win1_9.stage (cfg1.slots t1_0 9)) (hstage1_9 ((cfg1.slots t1_0 9).cast nbuf1_9)) (win1_10.stage (cfg1.slots t1_0 10)) (hstage1_10 ((cfg1.slots t1_0 10).cast nbuf1_10)) (win1_11.stage (cfg1.slots t1_0 11)) (hstage1_11 ((cfg1.slots t1_0 11).cast nbuf1_11)) (win1_12.stage (cfg1.slots t1_0 12)) (hstage1_12 ((cfg1.slots t1_0 12).cast nbuf1_12)) (win1_13.stage (cfg1.slots t1_0 13)) (hstage1_13 ((cfg1.slots t1_0 13).cast nbuf1_13)) (win1_14.stage (cfg1.slots t1_0 14)) (hstage1_14 ((cfg1.slots t1_0 14).cast nbuf1_14)) (win1_15.stage (cfg1.slots t1_0 15)) (hstage1_15 ((cfg1.slots t1_0 15).cast nbuf1_15)) (win1_16.stage (cfg1.slots t1_0 16)) (hstage1_16 ((cfg1.slots t1_0 16).cast nbuf1_16)) (Memref.whole cc1_scratch0) (Memref.isWhole_whole _) (Memref.whole cc1_scratch1) (Memref.isWhole_whole _) (Memref.whole cc1_scratch2) (Memref.isWhole_whole _) (Memref.whole cc1_scratch3) (Memref.isWhole_whole _) hc0 hc1 (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0) (iblk1 V c 8 t1_0) (iblk1 V c 9 t1_0) (iblk1 V c 10 t1_0) (iblk1 V c 11 t1_0) (iblk1 V c 12 t1_0) ((dat1 V c).before 15 t1_0 d15) ((dat1 V c).before 16 t1_0 d16) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexact H15
    isplitl [H16]; · iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hrest Hg]
    · isplitl [HS0]; · iexact HS0
      isplitl [HS1]; · iexact HS1
      isplitl [HS2]; · iexact HS2
      isplitl [HS3]; · iexact HS3
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexists _; iexact H16
  · by_cases h1 : t.val = 15
    · have hc0 : ¬cond1_0 (grid1.coords t) := fun h => h0 ((hcond1_0 t).mp h)
      have hc1 : cond1_1 (grid1.coords t) := (hcond1_1 t).mpr h1
      rw [show (dat1 V c).leavesExact 15 t = owns (c : Thread nD τ) (st1_15 t) fullShare ((dat1 V c).after 15 t) from by
        unfold Dat.leavesExact; rw [liveAt1_15 t hc1], after1_15]
      rw [show (dat1 V c).leavesExact 16 t = owns (c : Thread nD τ) (st1_16 t) fullShare ((dat1 V c).after 16 t) from by
        unfold Dat.leavesExact; rw [liveAt1_16 t hc1], after1_16]
      rw [Phi1_castSucc V c t, Phi1_pos V c _ _ h0, acc1_1_pos V c t h0, acc1_2_pos V c t h0]
      unfold view1_1 view1_2 step1_1 step1_2
      iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (sound_kernel1_C c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (Memref.whole cc1_scratch0) (Memref.isWhole_whole _) (Memref.whole cc1_scratch1) (Memref.isWhole_whole _) (Memref.whole cc1_scratch2) (Memref.isWhole_whole _) (Memref.whole cc1_scratch3) (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (hbuf1_1 V c) (hbuf1_2 V c) (acc1_1 V c (t.val - 1) (Nat.lt_of_le_of_lt (Nat.sub_le _ _) t.isLt)) (acc1_2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, HS0, HS1, HS2, HS3⟩
      isplitl [HS0 HS1 HS2 HS3 Hrest Hg]
      · isplitl [HS0]; · iexact HS0
        isplitl [HS1]; · iexact HS1
        isplitl [HS2]; · iexact HS2
        isplitl [HS3]; · iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 15 t (idleAt1_15 t hc1) (noFlush1_15 t hc1),
        Dat.leavesExact_idle (dat1 V c) 16 t (idleAt1_16 t hc1) (noFlush1_16 t hc1)]
      rw [Phi1_castSucc V c t, Phi1_pos V c _ _ h0, acc1_1_pos V c t h0, acc1_2_pos V c t h0]
      unfold view1_1 view1_2 step1_1 step1_2
      iintro ⟨⟨HS0, HS1, HS2, HS3, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply (sound_kernel1_B c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (Memref.whole cc1_scratch0) (Memref.isWhole_whole _) (Memref.whole cc1_scratch1) (Memref.isWhole_whole _) (Memref.whole cc1_scratch2) (Memref.isWhole_whole _) (Memref.whole cc1_scratch3) (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) ((dat1 V c).before 15 t d15) ((dat1 V c).before 16 t d16) (hbuf1_1 V c) (hbuf1_2 V c) (acc1_1 V c (t.val - 1) (Nat.lt_of_le_of_lt (Nat.sub_le _ _) t.isLt)) (acc1_2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, HS0, HS1, HS2, HS3⟩
      isplitl [HS0 HS1 HS2 HS3 Hrest Hg]
      · isplitl [HS0]; · iexact HS0
        isplitl [HS1]; · iexact HS1
        isplitl [HS2]; · iexact HS2
        isplitl [HS3]; · iexact HS3
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The generator register and the core's scoped buffers that are no staging buffer of this call make
    the invariant before the first point: the four
    scratch buffers are among those scoped buffers, at some contents. -/
theorem hin1 (c : Dev nD) :
    iprop((∃ r, prngReg c r) ∗ Pipeline.scopedRest spec1 c) ⊢ (dat1 V c).Φ 0 := by
  rw [show (dat1 V c).Φ 0 = Phi1 V c 0 (Nat.zero_le _) from rfl, Phi1_zero V c 0 _ rfl, scopedRest1_split]
  simp only [scM1_0, scM1_1, scM1_2, scM1_3, owns_whole]
  iintro ⟨Hg, ⟨H0, H1, H2, H3⟩, Hrest⟩
  isplitl [H0]; · iexact H0
  isplitl [H1]; · iexact H1
  isplitl [H2]; · iexact H2
  isplitl [H3]; · iexact H3
  isplitl [Hrest]; · iexact Hrest
  iexact Hg

/-- After the last point the invariant gives them back: the scratch buffers' named contents are forgotten. -/
theorem hout1 (c : Dev nD) :
    (dat1 V c).Φ (Fin.last cfg1.N) ⊢ iprop((∃ r, prngReg c r) ∗ Pipeline.scopedRest spec1 c) := by
  rw [show (dat1 V c).Φ (Fin.last cfg1.N) = Phi1 V c cfg1.N (le_refl _) from rfl,
    Phi1_pos V c _ _ (by rw [show cfg1.N = 16 from N_1]; decide), scopedRest1_split]
  simp only [scM1_0, scM1_1, scM1_2, scM1_3, owns_whole]
  iintro ⟨H0, H1, H2, H3, Hrest, Hg⟩
  isplitl [Hg]; · iexact Hg
  isplitl [H0 H1 H2 H3]
  · isplitl [H0]; · iexists _; iexact H0
    isplitl [H1]; · iexists _; iexact H1
    isplitl [H2]; · iexists _; iexact H2
    iexists _; iexact H3
  iexact Hrest

end Region

end Cert.KernelIdeal.Hand

end
-- ==== Proof.KIPair1Pkg.lean ====
/-
  The second pair region, packaged as the whole run takes it: its proof data at any entry
  contents, reading its arrays off them at full shares and owing nothing; the body obligation;
  and the two ends of its invariant.
-/
import proofs.«122693_g27230092657376_cont_9to1_1130_10_alg».proof.Proof.KIPair1e
import proofs.«122693_g27230092657376_cont_9to1_1130_10_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second pair region's package. -/
def pair1 : Pair1 (F := F) where
  dat := dat1
  hA := A_eq1
  hq := fun _ _ _ => rfl
  howed := fun _ _ _ => rfl
  hrec := fun _ _ _ => rfl
  hbody := body_obligation1
  hin := hin1
  hout := hout1

end Cert.KernelIdeal.Hand

end
-- ==== Proof.KIPair0Val.lean ====
/-
  The first pair region: the values its four output arrays end with, from the arrays it is entered with.

  Eleven of its inputs are one block each, the whole array, the same at every one of the sixteen points; the two
  adjacency inputs give the point t their rows t·256 … t·256 + 255.  Each point writes back its block of the two
  views, and the sixteen blocks tile a view array by rows: row i₀ of the array is row i₀ mod 256 of the block of
  point i₀ / 256.  Each accumulator array is one block, written back once, at the last point, with the accumulator
  after it: the sixteenth term of the sequence that starts at the zero row and adds one point's column sums per step.
-/
import proofs.«122693_g27230092657376_cont_9to1_1130_10_alg».proof.Proof.KIPair0Pkg
import proofs.«122693_g27230092657376_cont_9to1_1130_10_alg».proof.Proof.KIPairIface
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The printed index maps, decided once over the sixteen points: the eleven constant inputs and the two accumulator
    outputs stay at block 0; the two adjacency inputs and the two view outputs are at row block t. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0 :=
  (by decide +kernel : ∀ t : Fin grid0.N, _)

/-! ## Rows and blocks -/

/-- The block (the grid point) a row of a view array lies in, -/
def rowBlk0 (i0 : Fin 4096) : Fin cfg0.N := ⟨i0.val / 256, by rw [show cfg0.N = 16 from N_0]; have := i0.isLt; omega⟩
/-- and its row inside that block. -/
def rowIn0 (i0 : Fin 4096) : Fin 256 := ⟨i0.val % 256, Nat.mod_lt _ (by decide)⟩

section Region
variable {F : FTy → Type} [FloatOps F]
variable (V : (c : Dev nD) → (b : Ref sig .tc) → Buf (Elt F) ((c : Thread nD τ).loc b))

/-! ## The view outputs -/

/-- What point t writes back of view output 1: the point's view block. -/
theorem flushed0_13 (c : Dev nD) (t : Fin cfg0.N) : (dat0 V c).flushed 13 t = view0_1 V c t := by
  show (cfg0.win 13).cut (grid0.coords t) ((dat0 V c).after 13 t) = _
  rw [after0_13]; rfl

/-- An index of the array is in point t's block iff each coordinate is in the block's range on its axis. -/
theorem mem_blk0_13 (t : Fin cfg0.N) (i : S4096x512.Idx) :
    i ∈ ((cfg0.win 13).blk t).view.set ↔ ∀ a : Fin 2, win0_13.index t a * S256x512.size a ≤ (i a).val ∧ (i a).val < win0_13.index t a * S256x512.size a + S256x512.size a := by
  show i ∈ ((View.whole main_call0_v14_0).slice (win0_13.rect t)).set ↔ _
  rw [View.set_slice_whole, Rect.mem_set_unit]
  exact Iff.rfl

/-- The whole view array 1 after the region: row i₀ lies in block i₀ / 256, at row i₀ % 256 of it. -/
def arr0_13 (c : Dev nD) : S4096x512.Idx → Elt F .bf16 :=
  fun i => view0_1 V c (rowBlk0 (i 0)) (ValueIdx.ix2 (rowIn0 (i 0)) (i 1))

theorem flushed0_13_eq (c : Dev nD) (t : Fin cfg0.N) :
    (dat0 V c).flushed 13 t = ((cfg0.win 13).blk t).view.read (Elt F) (arr0_13 V c) := by
  rw [flushed0_13]
  funext j
  show view0_1 V c t j = arr0_13 V c (((cfg0.win 13).blk t).view.emb j)
  obtain ⟨-, -, -, -, -, -, -, -, -, -, -, -, -, -, -, -, -, -, -, -, -, -, -, -, -, -, e13_0, e13_1, -, -, -, -, -, -⟩ := idx_facts0 t
  have hj0 : (j 0).val < 256 := (j 0).isLt
  have hj1 : (j 1).val < 512 := (j 1).isLt
  have c0 : ((((cfg0.win 13).blk t).view.emb j) 0).val = t.val * 256 + (j 0).val := by
    show win0_13.index t (0 : Fin 2) * 256 + 1 * (j 0).val = _; rw [e13_0]; omega
  have c1 : ((((cfg0.win 13).blk t).view.emb j) 1).val = (j 1).val := by
    show win0_13.index t (1 : Fin 2) * 512 + 1 * (j 1).val = _; rw [e13_1]; omega
  have ht : rowBlk0 ((((cfg0.win 13).blk t).view.emb j) 0) = t := Fin.ext (by
    show ((((cfg0.win 13).blk t).view.emb j) 0).val / 256 = t.val; rw [c0]; omega)
  have hj : ValueIdx.ix2 (rowIn0 ((((cfg0.win 13).blk t).view.emb j) 0)) ((((cfg0.win 13).blk t).view.emb j) 1) = j := by
    funext a
    match a with
    | ⟨0, _⟩ => exact Fin.ext (by show ((((cfg0.win 13).blk t).view.emb j) 0).val % 256 = (j 0).val; rw [c0]; omega)
    | ⟨1, _⟩ => exact Fin.ext c1
  unfold arr0_13
  rw [ht]
  exact congrArg (view0_1 V c t) hj.symm

/-- The view array 1 ends holding that function: the sixteen blocks tile it. -/
theorem final0_13 (c : Dev nD) : (dat0 V c).arrAt 13 cfg0.N = arr0_13 V c :=
  (dat0 V c).arrAt_eq_of_cover 13 (arr0_13 V c) (fun t _ => flushed0_13_eq V c t) (fun i => by
    have hi0 : (i 0).val < 4096 := (i 0).isLt
    have hi1 : (i 1).val < 512 := (i 1).isLt
    refine ⟨rowBlk0 (i 0), flush0_13 _, ?_⟩
    rw [mem_blk0_13]
    obtain ⟨-, -, -, -, -, -, -, -, -, -, -, -, -, -, -, -, -, -, -, -, -, -, -, -, -, -, e13_0, e13_1, -, -, -, -, -, -⟩ := idx_facts0 (rowBlk0 (i 0))
    have hb : (rowBlk0 (i 0)).val = (i 0).val / 256 := rfl
    intro a
    match a with
    | ⟨0, _⟩ => show win0_13.index (rowBlk0 (i 0)) (0 : Fin 2) * 256 ≤ (i 0).val ∧ (i 0).val < win0_13.index (rowBlk0 (i 0)) (0 : Fin 2) * 256 + 256; rw [e13_0, hb]; omega
    | ⟨1, _⟩ => show win0_13.index (rowBlk0 (i 0)) (1 : Fin 2) * 512 ≤ (i 1).val ∧ (i 1).val < win0_13.index (rowBlk0 (i 0)) (1 : Fin 2) * 512 + 512; rw [e13_1]; omega)

/-- What point t writes back of view output 2: the point's view block. -/
theorem flushed0_14 (c : Dev nD) (t : Fin cfg0.N) : (dat0 V c).flushed 14 t = view0_2 V c t := by
  show (cfg0.win 14).cut (grid0.coords t) ((dat0 V c).after 14 t) = _
  rw [after0_14]; rfl

/-- An index of the array is in point t's block iff each coordinate is in the block's range on its axis. -/
theorem mem_blk0_14 (t : Fin cfg0.N) (i : S4096x512.Idx) :
    i ∈ ((cfg0.win 14).blk t).view.set ↔ ∀ a : Fin 2, win0_14.index t a * S256x512.size a ≤ (i a).val ∧ (i a).val < win0_14.index t a * S256x512.size a + S256x512.size a := by
  show i ∈ ((View.whole main_call0_v14_1).slice (win0_14.rect t)).set ↔ _
  rw [View.set_slice_whole, Rect.mem_set_unit]
  exact Iff.rfl

/-- The whole view array 2 after the region: row i₀ lies in block i₀ / 256, at row i₀ % 256 of it. -/
def arr0_14 (c : Dev nD) : S4096x512.Idx → Elt F .bf16 :=
  fun i => view0_2 V c (rowBlk0 (i 0)) (ValueIdx.ix2 (rowIn0 (i 0)) (i 1))

theorem flushed0_14_eq (c : Dev nD) (t : Fin cfg0.N) :
    (dat0 V c).flushed 14 t = ((cfg0.win 14).blk t).view.read (Elt F) (arr0_14 V c) := by
  rw [flushed0_14]
  funext j
  show view0_2 V c t j = arr0_14 V c (((cfg0.win 14).blk t).view.emb j)
  obtain ⟨-, -, -, -, -, -, -, -, -, -, -, -, -, -, -, -, -, -, -, -, -, -, -, -, -, -, -, -, e14_0, e14_1, -, -, -, -⟩ := idx_facts0 t
  have hj0 : (j 0).val < 256 := (j 0).isLt
  have hj1 : (j 1).val < 512 := (j 1).isLt
  have c0 : ((((cfg0.win 14).blk t).view.emb j) 0).val = t.val * 256 + (j 0).val := by
    show win0_14.index t (0 : Fin 2) * 256 + 1 * (j 0).val = _; rw [e14_0]; omega
  have c1 : ((((cfg0.win 14).blk t).view.emb j) 1).val = (j 1).val := by
    show win0_14.index t (1 : Fin 2) * 512 + 1 * (j 1).val = _; rw [e14_1]; omega
  have ht : rowBlk0 ((((cfg0.win 14).blk t).view.emb j) 0) = t := Fin.ext (by
    show ((((cfg0.win 14).blk t).view.emb j) 0).val / 256 = t.val; rw [c0]; omega)
  have hj : ValueIdx.ix2 (rowIn0 ((((cfg0.win 14).blk t).view.emb j) 0)) ((((cfg0.win 14).blk t).view.emb j) 1) = j := by
    funext a
    match a with
    | ⟨0, _⟩ => exact Fin.ext (by show ((((cfg0.win 14).blk t).view.emb j) 0).val % 256 = (j 0).val; rw [c0]; omega)
    | ⟨1, _⟩ => exact Fin.ext c1
  unfold arr0_14
  rw [ht]
  exact congrArg (view0_2 V c t) hj.symm

/-- The view array 2 ends holding that function: the sixteen blocks tile it. -/
theorem final0_14 (c : Dev nD) : (dat0 V c).arrAt 14 cfg0.N = arr0_14 V c :=
  (dat0 V c).arrAt_eq_of_cover 14 (arr0_14 V c) (fun t _ => flushed0_14_eq V c t) (fun i => by
    have hi0 : (i 0).val < 4096 := (i 0).isLt
    have hi1 : (i 1).val < 512 := (i 1).isLt
    refine ⟨rowBlk0 (i 0), flush0_14 _, ?_⟩
    rw [mem_blk0_14]
    obtain ⟨-, -, -, -, -, -, -, -, -, -, -, -, -, -, -, -, -, -, -, -, -, -, -, -, -, -, -, -, e14_0, e14_1, -, -, -, -⟩ := idx_facts0 (rowBlk0 (i 0))
    have hb : (rowBlk0 (i 0)).val = (i 0).val / 256 := rfl
    intro a
    match a with
    | ⟨0, _⟩ => show win0_14.index (rowBlk0 (i 0)) (0 : Fin 2) * 256 ≤ (i 0).val ∧ (i 0).val < win0_14.index (rowBlk0 (i 0)) (0 : Fin 2) * 256 + 256; rw [e14_0, hb]; omega
    | ⟨1, _⟩ => show win0_14.index (rowBlk0 (i 0)) (1 : Fin 2) * 512 ≤ (i 1).val ∧ (i 1).val < win0_14.index (rowBlk0 (i 0)) (1 : Fin 2) * 512 + 512; rw [e14_1]; omega)

/-! ## The accumulator outputs -/

/-- What a point writes back of accumulator output 1 (the last point does): the accumulator after it. -/
theorem flushed0_15 (c : Dev nD) (t : Fin cfg0.N) : (dat0 V c).flushed 15 t = acc0_1 V c t.val t.isLt := by
  show (cfg0.win 15).cut (grid0.coords t) ((dat0 V c).after 15 t) = _
  rw [after0_15]; rfl

/-- The accumulator as a sequence from its starting row: one step per point. -/
def accSeq0_1 (c : Dev nD) : ℕ → Vec F S1x512 .f32
  | 0 => (k0_pay3 (F := F))
  | n + 1 => if h : n < cfg0.N then step0_1 V c ⟨n, h⟩ (accSeq0_1 c n) else accSeq0_1 c n

theorem accSeq0_1_succ (c : Dev nD) (n : ℕ) (h : n < cfg0.N) :
    accSeq0_1 V c (n + 1) = step0_1 V c ⟨n, h⟩ (accSeq0_1 V c n) := by
  show (if h : n < cfg0.N then step0_1 V c ⟨n, h⟩ (accSeq0_1 V c n) else accSeq0_1 V c n) = _
  rw [dif_pos h]

/-- The accumulator after point n is the sequence's term n + 1. -/
theorem acc0_1_eq_seq (c : Dev nD) : ∀ (n : ℕ) (hn : n < cfg0.N), acc0_1 V c n hn = accSeq0_1 V c (n + 1)
  | 0, hn => (accSeq0_1_succ V c 0 hn).symm
  | n + 1, hn => by
    rw [accSeq0_1_succ V c (n + 1) hn, ← acc0_1_eq_seq c n (Nat.lt_of_succ_lt hn)]
    rfl

/-- The accumulator after a point depends on the point's number only. -/
theorem acc0_1_congr (c : Dev nD) (n m : ℕ) (hn : n < cfg0.N) (hm : m < cfg0.N) (h : n = m) :
    acc0_1 V c n hn = acc0_1 V c m hm := by subst h; rfl

theorem mem_blk0_15 (t : Fin cfg0.N) (i : S1x512.Idx) :
    i ∈ ((cfg0.win 15).blk t).view.set ↔ ∀ a : Fin 2, win0_15.index t a * S1x512.size a ≤ (i a).val ∧ (i a).val < win0_15.index t a * S1x512.size a + S1x512.size a := by
  show i ∈ ((View.whole main_call0_v14_2).slice (win0_15.rect t)).set ↔ _
  rw [View.set_slice_whole, Rect.mem_set_unit]
  exact Iff.rfl

/-- The accumulator array 1 ends holding the accumulator after the last point: its one block is the whole array,
    written back once, at the last point. -/
theorem final0_15 (c : Dev nD) :
    (dat0 V c).arrAt 15 cfg0.N = acc0_1 V c 15 (by rw [show cfg0.N = 16 from N_0]; decide) :=
  (dat0 V c).arrAt_eq_of_cover 15 (acc0_1 V c 15 (by rw [show cfg0.N = 16 from N_0]; decide)) (fun t hf => by
    have hN : t.val < 16 := lt_of_lt_of_eq t.isLt (show cfg0.N = 16 from N_0)
    have ht : t.val = 15 := by have := (flush0_15 t).mp hf; omega
    rw [flushed0_15]
    obtain ⟨-, -, -, -, -, -, -, -, -, -, -, -, -, -, -, -, -, -, -, -, -, -, -, -, -, -, -, -, -, -, e15_0, e15_1, -, -⟩ := idx_facts0 t
    funext j
    have hj0 : (j 0).val < 1 := (j 0).isLt
    have hj1 : (j 1).val < 512 := (j 1).isLt
    show acc0_1 V c t.val t.isLt j = acc0_1 V c 15 _ (((cfg0.win 15).blk t).view.emb j)
    have hj : ((cfg0.win 15).blk t).view.emb j = j := by
      funext a
      match a with
      | ⟨0, _⟩ => exact Fin.ext (by show win0_15.index t (0 : Fin 2) * 1 + 1 * (j 0).val = (j 0).val; rw [e15_0]; omega)
      | ⟨1, _⟩ => exact Fin.ext (by show win0_15.index t (1 : Fin 2) * 512 + 1 * (j 1).val = (j 1).val; rw [e15_1]; omega)
    rw [hj]
    exact congrFun (acc0_1_congr V c _ _ _ _ ht) j) (fun i => by
    have hi0 : (i 0).val < 1 := (i 0).isLt
    have hi1 : (i 1).val < 512 := (i 1).isLt
    refine ⟨t0_15, (flush0_15 _).mpr rfl, ?_⟩
    rw [mem_blk0_15]
    obtain ⟨-, -, -, -, -, -, -, -, -, -, -, -, -, -, -, -, -, -, -, -, -, -, -, -, -, -, -, -, -, -, e15_0, e15_1, -, -⟩ := idx_facts0 t0_15
    intro a
    match a with
    | ⟨0, _⟩ => show win0_15.index t0_15 (0 : Fin 2) * 1 ≤ (i 0).val ∧ (i 0).val < win0_15.index t0_15 (0 : Fin 2) * 1 + 1; rw [e15_0]; omega
    | ⟨1, _⟩ => show win0_15.index t0_15 (1 : Fin 2) * 512 ≤ (i 1).val ∧ (i 1).val < win0_15.index t0_15 (1 : Fin 2) * 512 + 512; rw [e15_1]; omega)

/-- What a point writes back of accumulator output 2 (the last point does): the accumulator after it. -/
theorem flushed0_16 (c : Dev nD) (t : Fin cfg0.N) : (dat0 V c).flushed 16 t = acc0_2 V c t.val t.isLt := by
  show (cfg0.win 16).cut (grid0.coords t) ((dat0 V c).after 16 t) = _
  rw [after0_16]; rfl

/-- The accumulator as a sequence from its starting row: one step per point. -/
def accSeq0_2 (c : Dev nD) : ℕ → Vec F S1x512 .f32
  | 0 => (k0_pay5 (k0_pay4 (F := F)))
  | n + 1 => if h : n < cfg0.N then step0_2 V c ⟨n, h⟩ (accSeq0_2 c n) else accSeq0_2 c n

theorem accSeq0_2_succ (c : Dev nD) (n : ℕ) (h : n < cfg0.N) :
    accSeq0_2 V c (n + 1) = step0_2 V c ⟨n, h⟩ (accSeq0_2 V c n) := by
  show (if h : n < cfg0.N then step0_2 V c ⟨n, h⟩ (accSeq0_2 V c n) else accSeq0_2 V c n) = _
  rw [dif_pos h]

/-- The accumulator after point n is the sequence's term n + 1. -/
theorem acc0_2_eq_seq (c : Dev nD) : ∀ (n : ℕ) (hn : n < cfg0.N), acc0_2 V c n hn = accSeq0_2 V c (n + 1)
  | 0, hn => (accSeq0_2_succ V c 0 hn).symm
  | n + 1, hn => by
    rw [accSeq0_2_succ V c (n + 1) hn, ← acc0_2_eq_seq c n (Nat.lt_of_succ_lt hn)]
    rfl

/-- The accumulator after a point depends on the point's number only. -/
theorem acc0_2_congr (c : Dev nD) (n m : ℕ) (hn : n < cfg0.N) (hm : m < cfg0.N) (h : n = m) :
    acc0_2 V c n hn = acc0_2 V c m hm := by subst h; rfl

theorem mem_blk0_16 (t : Fin cfg0.N) (i : S1x512.Idx) :
    i ∈ ((cfg0.win 16).blk t).view.set ↔ ∀ a : Fin 2, win0_16.index t a * S1x512.size a ≤ (i a).val ∧ (i a).val < win0_16.index t a * S1x512.size a + S1x512.size a := by
  show i ∈ ((View.whole main_call0_v14_3).slice (win0_16.rect t)).set ↔ _
  rw [View.set_slice_whole, Rect.mem_set_unit]
  exact Iff.rfl

/-- The accumulator array 2 ends holding the accumulator after the last point: its one block is the whole array,
    written back once, at the last point. -/
theorem final0_16 (c : Dev nD) :
    (dat0 V c).arrAt 16 cfg0.N = acc0_2 V c 15 (by rw [show cfg0.N = 16 from N_0]; decide) :=
  (dat0 V c).arrAt_eq_of_cover 16 (acc0_2 V c 15 (by rw [show cfg0.N = 16 from N_0]; decide)) (fun t hf => by
    have hN : t.val < 16 := lt_of_lt_of_eq t.isLt (show cfg0.N = 16 from N_0)
    have ht : t.val = 15 := by have := (flush0_16 t).mp hf; omega
    rw [flushed0_16]
    obtain ⟨-, -, -, -, -, -, -, -, -, -, -, -, -, -, -, -, -, -, -, -, -, -, -, -, -, -, -, -, -, -, -, -, e16_0, e16_1⟩ := idx_facts0 t
    funext j
    have hj0 : (j 0).val < 1 := (j 0).isLt
    have hj1 : (j 1).val < 512 := (j 1).isLt
    show acc0_2 V c t.val t.isLt j = acc0_2 V c 15 _ (((cfg0.win 16).blk t).view.emb j)
    have hj : ((cfg0.win 16).blk t).view.emb j = j := by
      funext a
      match a with
      | ⟨0, _⟩ => exact Fin.ext (by show win0_16.index t (0 : Fin 2) * 1 + 1 * (j 0).val = (j 0).val; rw [e16_0]; omega)
      | ⟨1, _⟩ => exact Fin.ext (by show win0_16.index t (1 : Fin 2) * 512 + 1 * (j 1).val = (j 1).val; rw [e16_1]; omega)
    rw [hj]
    exact congrFun (acc0_2_congr V c _ _ _ _ ht) j) (fun i => by
    have hi0 : (i 0).val < 1 := (i 0).isLt
    have hi1 : (i 1).val < 512 := (i 1).isLt
    refine ⟨t0_15, (flush0_16 _).mpr rfl, ?_⟩
    rw [mem_blk0_16]
    obtain ⟨-, -, -, -, -, -, -, -, -, -, -, -, -, -, -, -, -, -, -, -, -, -, -, -, -, -, -, -, -, -, -, -, e16_0, e16_1⟩ := idx_facts0 t0_15
    intro a
    match a with
    | ⟨0, _⟩ => show win0_16.index t0_15 (0 : Fin 2) * 1 ≤ (i 0).val ∧ (i 0).val < win0_16.index t0_15 (0 : Fin 2) * 1 + 1; rw [e16_0]; omega
    | ⟨1, _⟩ => show win0_16.index t0_15 (1 : Fin 2) * 512 ≤ (i 1).val ∧ (i 1).val < win0_16.index t0_15 (1 : Fin 2) * 512 + 512; rw [e16_1]; omega)

end Region

/-! ## At the exact values: the blocks are the named arrays -/

section AtIdeal
variable (V : Entry (F := Ideal)) (c : Dev nD)

theorem iblk0_0_eq (t : Fin cfg0.N) : iblk0 (F := Ideal) V c 0 t = X0_0 V c := by
  obtain ⟨e0_0, e0_1, -, -, -, -, -, -, -, -, -, -, -, -, -, -, -, -, -, -, -, -, -, -, -, -, -, -, -, -, -, -, -, -⟩ := idx_facts0 t
  funext y
  show V c main_call0_v3 (((cfg0.win 0).blk t).view.emb y) = V c main_call0_v3 y
  refine congrArg (V c main_call0_v3) (funext fun a => Fin.ext ?_)
  match a with
  | ⟨0, _⟩ => show win0_0.index t (0 : Fin 2) * 4096 + 1 * (y 0).val = (y 0).val; omega
  | ⟨1, _⟩ => show win0_0.index t (1 : Fin 2) * 512 + 1 * (y 1).val = (y 1).val; omega

theorem iblk0_1_eq (t : Fin cfg0.N) : iblk0 (F := Ideal) V c 1 t = X0_1 V c := by
  obtain ⟨-, -, e1_0, e1_1, -, -, -, -, -, -, -, -, -, -, -, -, -, -, -, -, -, -, -, -, -, -, -, -, -, -, -, -, -, -⟩ := idx_facts0 t
  funext y
  show V c main_call0_v5 (((cfg0.win 1).blk t).view.emb y) = V c main_call0_v5 y
  refine congrArg (V c main_call0_v5) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

theorem iblk0_2_eq (t : Fin cfg0.N) : iblk0 (F := Ideal) V c 2 t = X0_2 V c := by
  obtain ⟨-, -, -, -, e2_0, e2_1, -, -, -, -, -, -, -, -, -, -, -, -, -, -, -, -, -, -, -, -, -, -, -, -, -, -, -, -⟩ := idx_facts0 t
  funext y
  show V c main_call0_v7 (((cfg0.win 2).blk t).view.emb y) = V c main_call0_v7 y
  refine congrArg (V c main_call0_v7) (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem iblk0_3_eq (t : Fin cfg0.N) : iblk0 (F := Ideal) V c 3 t = X0_3 V c := by
  obtain ⟨-, -, -, -, -, -, e3_0, e3_1, -, -, -, -, -, -, -, -, -, -, -, -, -, -, -, -, -, -, -, -, -, -, -, -, -, -⟩ := idx_facts0 t
  funext y
  show V c main_call0_v8 (((cfg0.win 3).blk t).view.emb y) = V c main_call0_v8 y
  refine congrArg (V c main_call0_v8) (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

theorem iblk0_4_eq (t : Fin cfg0.N) : iblk0 (F := Ideal) V c 4 t = X0_4 V c := by
  obtain ⟨-, -, -, -, -, -, -, -, e4_0, e4_1, -, -, -, -, -, -, -, -, -, -, -, -, -, -, -, -, -, -, -, -, -, -, -, -⟩ := idx_facts0 t
  funext y
  show V c main_call0_v9 (((cfg0.win 4).blk t).view.emb y) = V c main_call0_v9 y
  refine congrArg (V c main_call0_v9) (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem iblk0_5_eq (t : Fin cfg0.N) : iblk0 (F := Ideal) V c 5 t = X0_5 V c := by
  obtain ⟨-, -, -, -, -, -, -, -, -, -, e5_0, e5_1, -, -, -, -, -, -, -, -, -, -, -, -, -, -, -, -, -, -, -, -, -, -⟩ := idx_facts0 t
  funext y
  show V c main_call0_v10 (((cfg0.win 5).blk t).view.emb y) = V c main_call0_v10 y
  refine congrArg (V c main_call0_v10) (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

theorem iblk0_6_eq (t : Fin cfg0.N) : iblk0 (F := Ideal) V c 6 t = X0_6 V c := by
  obtain ⟨-, -, -, -, -, -, -, -, -, -, -, -, e6_0, e6_1, -, -, -, -, -, -, -, -, -, -, -, -, -, -, -, -, -, -, -, -⟩ := idx_facts0 t
  funext y
  show V c main_call0_v11 (((cfg0.win 6).blk t).view.emb y) = V c main_call0_v11 y
  refine congrArg (V c main_call0_v11) (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

theorem iblk0_7_eq (t : Fin cfg0.N) : iblk0 (F := Ideal) V c 7 t = X0_7 V c := by
  obtain ⟨-, -, -, -, -, -, -, -, -, -, -, -, -, -, e7_0, e7_1, -, -, -, -, -, -, -, -, -, -, -, -, -, -, -, -, -, -⟩ := idx_facts0 t
  funext y
  show V c main_call0_v12 (((cfg0.win 7).blk t).view.emb y) = V c main_call0_v12 y
  refine congrArg (V c main_call0_v12) (funext fun a => Fin.ext ?_)
  match a with
  | ⟨0, _⟩ => show win0_7.index t (0 : Fin 2) * 1 + 1 * (y 0).val = (y 0).val; omega
  | ⟨1, _⟩ => show win0_7.index t (1 : Fin 2) * 1 + 1 * (y 1).val = (y 1).val; omega

theorem iblk0_8_eq (t : Fin cfg0.N) : iblk0 (F := Ideal) V c 8 t = X0_8 V c := by
  obtain ⟨-, -, -, -, -, -, -, -, -, -, -, -, -, -, -, -, e8_0, e8_1, -, -, -, -, -, -, -, -, -, -, -, -, -, -, -, -⟩ := idx_facts0 t
  funext y
  show V c main_call0_v13 (((cfg0.win 8).blk t).view.emb y) = V c main_call0_v13 y
  refine congrArg (V c main_call0_v13) (funext fun a => Fin.ext ?_)
  match a with
  | ⟨0, _⟩ => show win0_8.index t (0 : Fin 2) * 1 + 1 * (y 0).val = (y 0).val; omega
  | ⟨1, _⟩ => show win0_8.index t (1 : Fin 2) * 1 + 1 * (y 1).val = (y 1).val; omega

theorem iblk0_9_eq (t : Fin cfg0.N) : iblk0 (F := Ideal) V c 9 t = X0_9 V c := by
  obtain ⟨-, -, -, -, -, -, -, -, -, -, -, -, -, -, -, -, -, -, e9_0, e9_1, -, -, -, -, -, -, -, -, -, -, -, -, -, -⟩ := idx_facts0 t
  funext y
  show V c main_call0_v1 (((cfg0.win 9).blk t).view.emb y) = V c main_call0_v1 y
  refine congrArg (V c main_call0_v1) (funext fun a => Fin.ext ?_)
  match a with
  | ⟨0, _⟩ => show win0_9.index t (0 : Fin 2) * 512 + 1 * (y 0).val = (y 0).val; omega
  | ⟨1, _⟩ => show win0_9.index t (1 : Fin 2) * 512 + 1 * (y 1).val = (y 1).val; omega

theorem iblk0_10_eq (t : Fin cfg0.N) : iblk0 (F := Ideal) V c 10 t = X0_10 V c := by
  obtain ⟨-, -, -, -, -, -, -, -, -, -, -, -, -, -, -, -, -, -, -, -, e10_0, e10_1, -, -, -, -, -, -, -, -, -, -, -, -⟩ := idx_facts0 t
  funext y
  show V c main_call0_v2 (((cfg0.win 10).blk t).view.emb y) = V c main_call0_v2 y
  refine congrArg (V c main_call0_v2) (funext fun a => Fin.ext ?_)
  match a with
  | ⟨0, _⟩ => show win0_10.index t (0 : Fin 2) * 1 + 1 * (y 0).val = (y 0).val; omega
  | ⟨1, _⟩ => show win0_10.index t (1 : Fin 2) * 512 + 1 * (y 1).val = (y 1).val; omega

theorem iblk0_11_eq (t : Fin cfg0.N) (ht : t.val < 16) : iblk0 (F := Ideal) V c 11 t = M0_1 V c ⟨t.val, ht⟩ := by
  obtain ⟨-, -, -, -, -, -, -, -, -, -, -, -, -, -, -, -, -, -, -, -, -, -, e11_0, e11_1, -, -, -, -, -, -, -, -, -, -⟩ := idx_facts0 t
  funext y
  show V c main_arg2 (((cfg0.win 11).blk t).view.emb y) = V c main_arg2 (ix2 (Cert.Spec.row ⟨t.val, ht⟩ (y 0)) (y 1))
  refine congrArg (V c main_arg2) (funext fun a => Fin.ext ?_)
  match a with
  | ⟨0, _⟩ => show win0_11.index t (0 : Fin 2) * 256 + 1 * (y 0).val = t.val * 256 + (y 0).val; omega
  | ⟨1, _⟩ => show win0_11.index t (1 : Fin 2) * 4096 + 1 * (y 1).val = (y 1).val; omega

theorem iblk0_12_eq (t : Fin cfg0.N) (ht : t.val < 16) : iblk0 (F := Ideal) V c 12 t = M0_2 V c ⟨t.val, ht⟩ := by
  obtain ⟨-, -, -, -, -, -, -, -, -, -, -, -, -, -, -, -, -, -, -, -, -, -, -, -, e12_0, e12_1, -, -, -, -, -, -, -, -⟩ := idx_facts0 t
  funext y
  show V c main_arg3 (((cfg0.win 12).blk t).view.emb y) = V c main_arg3 (ix2 (Cert.Spec.row ⟨t.val, ht⟩ (y 0)) (y 1))
  refine congrArg (V c main_arg3) (funext fun a => Fin.ext ?_)
  match a with
  | ⟨0, _⟩ => show win0_12.index t (0 : Fin 2) * 256 + 1 * (y 0).val = t.val * 256 + (y 0).val; omega
  | ⟨1, _⟩ => show win0_12.index t (1 : Fin 2) * 4096 + 1 * (y 1).val = (y 1).val; omega

/-- The first view's block at point t is the first view block of the named arrays. -/
theorem view0_1_eq (t : Fin cfg0.N) (ht : t.val < 16) :
    view0_1 (F := Ideal) V c t = view1blk (X0_0 V c) (X0_1 V c) (X0_3 V c) (X0_5 V c) (X0_7 V c) (M0_1 V c) ⟨t.val, ht⟩ := by
  unfold view0_1 hbuf0_1
  rw [iblk0_11_eq V c t ht, iblk0_0_eq, iblk0_1_eq, iblk0_3_eq, iblk0_5_eq, iblk0_7_eq]

/-- The second view's block at point t is the second view block of the named arrays. -/
theorem view0_2_eq (t : Fin cfg0.N) (ht : t.val < 16) :
    view0_2 (F := Ideal) V c t = view2blk (X0_0 V c) (X0_2 V c) (X0_4 V c) (X0_6 V c) (X0_8 V c) (M0_2 V c) ⟨t.val, ht⟩ := by
  unfold view0_2 hbuf0_2
  rw [iblk0_12_eq V c t ht, iblk0_0_eq, iblk0_2_eq, iblk0_4_eq, iblk0_6_eq, iblk0_8_eq]

/-- One step of the first accumulator, over the named arrays. -/
theorem step0_1_eq (t : Fin cfg0.N) (ht : t.val < 16) (a : FVec Ideal S1x512 .f32) :
    step0_1 (F := Ideal) V c t a = k0_pay11 (F := Ideal) (view1blk (X0_0 V c) (X0_1 V c) (X0_3 V c) (X0_5 V c) (X0_7 V c) (M0_1 V c) ⟨t.val, ht⟩) (X0_9 V c) (X0_10 V c) a := by
  unfold step0_1 hbuf0_1
  rw [iblk0_11_eq V c t ht, iblk0_0_eq, iblk0_1_eq, iblk0_3_eq, iblk0_5_eq, iblk0_7_eq, iblk0_9_eq, iblk0_10_eq]

/-- One step of the second accumulator, over the named arrays. -/
theorem step0_2_eq (t : Fin cfg0.N) (ht : t.val < 16) (a : FVec Ideal S1x512 .f32) :
    step0_2 (F := Ideal) V c t a
      = k0_pay12 (F := Ideal) (k0_pay7 (F := Ideal) (M0_2 V c ⟨t.val, ht⟩) (k0_pay2 (F := Ideal) (X0_0 V c) (X0_2 V c) (X0_4 V c)) (X0_6 V c))
          (k0_pay8 (F := Ideal) (M0_2 V c ⟨t.val, ht⟩) (k0_pay2 (F := Ideal) (X0_0 V c) (X0_2 V c) (X0_4 V c)) (X0_6 V c)) (k0_pay9 (F := Ideal) (X0_8 V c))
          (X0_9 V c) (X0_10 V c) a := by
  unfold step0_2 hbuf0_2
  rw [iblk0_12_eq V c t ht, iblk0_0_eq, iblk0_2_eq, iblk0_4_eq, iblk0_6_eq, iblk0_8_eq, iblk0_9_eq, iblk0_10_eq]

end AtIdeal

/-! ## The region's values, packaged -/

/-- What the first pair region's proof data leave: the two view arrays block by block over the named arrays, and
    the two accumulator arrays as the sixteenth term of their sequences from the zero row. -/
def pairVal0 : PairVal0 (pair0 (F := Ideal)) where
  acc1 := fun V c n => accSeq0_1 (F := Ideal) V c n
  acc2 := fun V c n => accSeq0_2 (F := Ideal) V c n
  acc1_zero := fun _ _ => rfl
  acc1_succ := fun V c t ht => by
    have h : t < cfg0.N := by rw [show cfg0.N = 16 from N_0]; exact ht
    exact (accSeq0_1_succ (F := Ideal) V c t h).trans (step0_1_eq V c ⟨t, h⟩ ht _)
  acc2_zero := fun _ _ => rfl
  acc2_succ := fun V c t ht => by
    have h : t < cfg0.N := by rw [show cfg0.N = 16 from N_0]; exact ht
    exact (accSeq0_2_succ (F := Ideal) V c t h).trans (step0_2_eq V c ⟨t, h⟩ ht _)
  arr13 := fun V c i h1 h2 =>
    (congrFun (final0_13 (F := Ideal) V c) i).trans (congrFun (view0_1_eq V c (rowBlk0 (i 0)) h1) _)
  arr14 := fun V c i h1 h2 =>
    (congrFun (final0_14 (F := Ideal) V c) i).trans (congrFun (view0_2_eq V c (rowBlk0 (i 0)) h1) _)
  arr15 := fun V c => (final0_15 (F := Ideal) V c).trans (acc0_1_eq_seq (F := Ideal) V c 15 _)
  arr16 := fun V c => (final0_16 (F := Ideal) V c).trans (acc0_2_eq_seq (F := Ideal) V c 15 _)

end Cert.KernelIdeal.Hand

end
-- ==== Proof.KIPair1Val.lean ====
/-
  The second pair region: the values its four output arrays end with, from the arrays it is entered with.  Its body
  is the first pair region's term for term, on the other node set's arrays, so the statements and their proofs are
  the first region's with the arrays' names changed: eleven one-block inputs, two adjacency inputs by row blocks,
  two view arrays tiled by the sixteen points' blocks, two accumulator rows written back at the last point.
-/
import proofs.«122693_g27230092657376_cont_9to1_1130_10_alg».proof.Proof.KIPair1Pkg
import proofs.«122693_g27230092657376_cont_9to1_1130_10_alg».proof.Proof.KIPairIface
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The printed index maps, decided once over the sixteen points: the eleven constant inputs and the two accumulator
    outputs stay at block 0; the two adjacency inputs and the two view outputs are at row block t. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0
    ∧ win1_12.index t (0 : Fin 2) = t.val ∧ win1_12.index t (1 : Fin 2) = 0
    ∧ win1_13.index t (0 : Fin 2) = t.val ∧ win1_13.index t (1 : Fin 2) = 0
    ∧ win1_14.index t (0 : Fin 2) = t.val ∧ win1_14.index t (1 : Fin 2) = 0
    ∧ win1_15.index t (0 : Fin 2) = 0 ∧ win1_15.index t (1 : Fin 2) = 0
    ∧ win1_16.index t (0 : Fin 2) = 0 ∧ win1_16.index t (1 : Fin 2) = 0 :=
  (by decide +kernel : ∀ t : Fin grid1.N, _)

/-! ## Rows and blocks -/

/-- The block (the grid point) a row of a view array lies in, -/
def rowBlk1 (i0 : Fin 4096) : Fin cfg1.N := ⟨i0.val / 256, by rw [show cfg1.N = 16 from N_1]; have := i0.isLt; omega⟩
/-- and its row inside that block. -/
def rowIn1 (i0 : Fin 4096) : Fin 256 := ⟨i0.val % 256, Nat.mod_lt _ (by decide)⟩

section Region
variable {F : FTy → Type} [FloatOps F]
variable (V : (c : Dev nD) → (b : Ref sig .tc) → Buf (Elt F) ((c : Thread nD τ).loc b))

/-! ## The view outputs -/

/-- What point t writes back of view output 1: the point's view block. -/
theorem flushed1_13 (c : Dev nD) (t : Fin cfg1.N) : (dat1 V c).flushed 13 t = view1_1 V c t := by
  show (cfg1.win 13).cut (grid1.coords t) ((dat1 V c).after 13 t) = _
  rw [after1_13]; rfl

/-- An index of the array is in point t's block iff each coordinate is in the block's range on its axis. -/
theorem mem_blk1_13 (t : Fin cfg1.N) (i : S4096x512.Idx) :
    i ∈ ((cfg1.win 13).blk t).view.set ↔ ∀ a : Fin 2, win1_13.index t a * S256x512.size a ≤ (i a).val ∧ (i a).val < win1_13.index t a * S256x512.size a + S256x512.size a := by
  show i ∈ ((View.whole main_call0_v26_0).slice (win1_13.rect t)).set ↔ _
  rw [View.set_slice_whole, Rect.mem_set_unit]
  exact Iff.rfl

/-- The whole view array 1 after the region: row i₀ lies in block i₀ / 256, at row i₀ % 256 of it. -/
def arr1_13 (c : Dev nD) : S4096x512.Idx → Elt F .bf16 :=
  fun i => view1_1 V c (rowBlk1 (i 0)) (ValueIdx.ix2 (rowIn1 (i 0)) (i 1))

theorem flushed1_13_eq (c : Dev nD) (t : Fin cfg1.N) :
    (dat1 V c).flushed 13 t = ((cfg1.win 13).blk t).view.read (Elt F) (arr1_13 V c) := by
  rw [flushed1_13]
  funext j
  show view1_1 V c t j = arr1_13 V c (((cfg1.win 13).blk t).view.emb j)
  obtain ⟨-, -, -, -, -, -, -, -, -, -, -, -, -, -, -, -, -, -, -, -, -, -, -, -, -, -, e13_0, e13_1, -, -, -, -, -, -⟩ := idx_facts1 t
  have hj0 : (j 0).val < 256 := (j 0).isLt
  have hj1 : (j 1).val < 512 := (j 1).isLt
  have c0 : ((((cfg1.win 13).blk t).view.emb j) 0).val = t.val * 256 + (j 0).val := by
    show win1_13.index t (0 : Fin 2) * 256 + 1 * (j 0).val = _; rw [e13_0]; omega
  have c1 : ((((cfg1.win 13).blk t).view.emb j) 1).val = (j 1).val := by
    show win1_13.index t (1 : Fin 2) * 512 + 1 * (j 1).val = _; rw [e13_1]; omega
  have ht : rowBlk1 ((((cfg1.win 13).blk t).view.emb j) 0) = t := Fin.ext (by
    show ((((cfg1.win 13).blk t).view.emb j) 0).val / 256 = t.val; rw [c0]; omega)
  have hj : ValueIdx.ix2 (rowIn1 ((((cfg1.win 13).blk t).view.emb j) 0)) ((((cfg1.win 13).blk t).view.emb j) 1) = j := by
    funext a
    match a with
    | ⟨0, _⟩ => exact Fin.ext (by show ((((cfg1.win 13).blk t).view.emb j) 0).val % 256 = (j 0).val; rw [c0]; omega)
    | ⟨1, _⟩ => exact Fin.ext c1
  unfold arr1_13
  rw [ht]
  exact congrArg (view1_1 V c t) hj.symm

/-- The view array 1 ends holding that function: the sixteen blocks tile it. -/
theorem final1_13 (c : Dev nD) : (dat1 V c).arrAt 13 cfg1.N = arr1_13 V c :=
  (dat1 V c).arrAt_eq_of_cover 13 (arr1_13 V c) (fun t _ => flushed1_13_eq V c t) (fun i => by
    have hi0 : (i 0).val < 4096 := (i 0).isLt
    have hi1 : (i 1).val < 512 := (i 1).isLt
    refine ⟨rowBlk1 (i 0), flush1_13 _, ?_⟩
    rw [mem_blk1_13]
    obtain ⟨-, -, -, -, -, -, -, -, -, -, -, -, -, -, -, -, -, -, -, -, -, -, -, -, -, -, e13_0, e13_1, -, -, -, -, -, -⟩ := idx_facts1 (rowBlk1 (i 0))
    have hb : (rowBlk1 (i 0)).val = (i 0).val / 256 := rfl
    intro a
    match a with
    | ⟨0, _⟩ => show win1_13.index (rowBlk1 (i 0)) (0 : Fin 2) * 256 ≤ (i 0).val ∧ (i 0).val < win1_13.index (rowBlk1 (i 0)) (0 : Fin 2) * 256 + 256; rw [e13_0, hb]; omega
    | ⟨1, _⟩ => show win1_13.index (rowBlk1 (i 0)) (1 : Fin 2) * 512 ≤ (i 1).val ∧ (i 1).val < win1_13.index (rowBlk1 (i 0)) (1 : Fin 2) * 512 + 512; rw [e13_1]; omega)

/-- What point t writes back of view output 2: the point's view block. -/
theorem flushed1_14 (c : Dev nD) (t : Fin cfg1.N) : (dat1 V c).flushed 14 t = view1_2 V c t := by
  show (cfg1.win 14).cut (grid1.coords t) ((dat1 V c).after 14 t) = _
  rw [after1_14]; rfl

/-- An index of the array is in point t's block iff each coordinate is in the block's range on its axis. -/
theorem mem_blk1_14 (t : Fin cfg1.N) (i : S4096x512.Idx) :
    i ∈ ((cfg1.win 14).blk t).view.set ↔ ∀ a : Fin 2, win1_14.index t a * S256x512.size a ≤ (i a).val ∧ (i a).val < win1_14.index t a * S256x512.size a + S256x512.size a := by
  show i ∈ ((View.whole main_call0_v26_1).slice (win1_14.rect t)).set ↔ _
  rw [View.set_slice_whole, Rect.mem_set_unit]
  exact Iff.rfl

/-- The whole view array 2 after the region: row i₀ lies in block i₀ / 256, at row i₀ % 256 of it. -/
def arr1_14 (c : Dev nD) : S4096x512.Idx → Elt F .bf16 :=
  fun i => view1_2 V c (rowBlk1 (i 0)) (ValueIdx.ix2 (rowIn1 (i 0)) (i 1))

theorem flushed1_14_eq (c : Dev nD) (t : Fin cfg1.N) :
    (dat1 V c).flushed 14 t = ((cfg1.win 14).blk t).view.read (Elt F) (arr1_14 V c) := by
  rw [flushed1_14]
  funext j
  show view1_2 V c t j = arr1_14 V c (((cfg1.win 14).blk t).view.emb j)
  obtain ⟨-, -, -, -, -, -, -, -, -, -, -, -, -, -, -, -, -, -, -, -, -, -, -, -, -, -, -, -, e14_0, e14_1, -, -, -, -⟩ := idx_facts1 t
  have hj0 : (j 0).val < 256 := (j 0).isLt
  have hj1 : (j 1).val < 512 := (j 1).isLt
  have c0 : ((((cfg1.win 14).blk t).view.emb j) 0).val = t.val * 256 + (j 0).val := by
    show win1_14.index t (0 : Fin 2) * 256 + 1 * (j 0).val = _; rw [e14_0]; omega
  have c1 : ((((cfg1.win 14).blk t).view.emb j) 1).val = (j 1).val := by
    show win1_14.index t (1 : Fin 2) * 512 + 1 * (j 1).val = _; rw [e14_1]; omega
  have ht : rowBlk1 ((((cfg1.win 14).blk t).view.emb j) 0) = t := Fin.ext (by
    show ((((cfg1.win 14).blk t).view.emb j) 0).val / 256 = t.val; rw [c0]; omega)
  have hj : ValueIdx.ix2 (rowIn1 ((((cfg1.win 14).blk t).view.emb j) 0)) ((((cfg1.win 14).blk t).view.emb j) 1) = j := by
    funext a
    match a with
    | ⟨0, _⟩ => exact Fin.ext (by show ((((cfg1.win 14).blk t).view.emb j) 0).val % 256 = (j 0).val; rw [c0]; omega)
    | ⟨1, _⟩ => exact Fin.ext c1
  unfold arr1_14
  rw [ht]
  exact congrArg (view1_2 V c t) hj.symm

/-- The view array 2 ends holding that function: the sixteen blocks tile it. -/
theorem final1_14 (c : Dev nD) : (dat1 V c).arrAt 14 cfg1.N = arr1_14 V c :=
  (dat1 V c).arrAt_eq_of_cover 14 (arr1_14 V c) (fun t _ => flushed1_14_eq V c t) (fun i => by
    have hi0 : (i 0).val < 4096 := (i 0).isLt
    have hi1 : (i 1).val < 512 := (i 1).isLt
    refine ⟨rowBlk1 (i 0), flush1_14 _, ?_⟩
    rw [mem_blk1_14]
    obtain ⟨-, -, -, -, -, -, -, -, -, -, -, -, -, -, -, -, -, -, -, -, -, -, -, -, -, -, -, -, e14_0, e14_1, -, -, -, -⟩ := idx_facts1 (rowBlk1 (i 0))
    have hb : (rowBlk1 (i 0)).val = (i 0).val / 256 := rfl
    intro a
    match a with
    | ⟨0, _⟩ => show win1_14.index (rowBlk1 (i 0)) (0 : Fin 2) * 256 ≤ (i 0).val ∧ (i 0).val < win1_14.index (rowBlk1 (i 0)) (0 : Fin 2) * 256 + 256; rw [e14_0, hb]; omega
    | ⟨1, _⟩ => show win1_14.index (rowBlk1 (i 0)) (1 : Fin 2) * 512 ≤ (i 1).val ∧ (i 1).val < win1_14.index (rowBlk1 (i 0)) (1 : Fin 2) * 512 + 512; rw [e14_1]; omega)

/-! ## The accumulator outputs -/

/-- What a point writes back of accumulator output 1 (the last point does): the accumulator after it. -/
theorem flushed1_15 (c : Dev nD) (t : Fin cfg1.N) : (dat1 V c).flushed 15 t = acc1_1 V c t.val t.isLt := by
  show (cfg1.win 15).cut (grid1.coords t) ((dat1 V c).after 15 t) = _
  rw [after1_15]; rfl

/-- The accumulator as a sequence from its starting row: one step per point. -/
def accSeq1_1 (c : Dev nD) : ℕ → Vec F S1x512 .f32
  | 0 => (k1_pay3 (F := F))
  | n + 1 => if h : n < cfg1.N then step1_1 V c ⟨n, h⟩ (accSeq1_1 c n) else accSeq1_1 c n

theorem accSeq1_1_succ (c : Dev nD) (n : ℕ) (h : n < cfg1.N) :
    accSeq1_1 V c (n + 1) = step1_1 V c ⟨n, h⟩ (accSeq1_1 V c n) := by
  show (if h : n < cfg1.N then step1_1 V c ⟨n, h⟩ (accSeq1_1 V c n) else accSeq1_1 V c n) = _
  rw [dif_pos h]

/-- The accumulator after point n is the sequence's term n + 1. -/
theorem acc1_1_eq_seq (c : Dev nD) : ∀ (n : ℕ) (hn : n < cfg1.N), acc1_1 V c n hn = accSeq1_1 V c (n + 1)
  | 0, hn => (accSeq1_1_succ V c 0 hn).symm
  | n + 1, hn => by
    rw [accSeq1_1_succ V c (n + 1) hn, ← acc1_1_eq_seq c n (Nat.lt_of_succ_lt hn)]
    rfl

/-- The accumulator after a point depends on the point's number only. -/
theorem acc1_1_congr (c : Dev nD) (n m : ℕ) (hn : n < cfg1.N) (hm : m < cfg1.N) (h : n = m) :
    acc1_1 V c n hn = acc1_1 V c m hm := by subst h; rfl

theorem mem_blk1_15 (t : Fin cfg1.N) (i : S1x512.Idx) :
    i ∈ ((cfg1.win 15).blk t).view.set ↔ ∀ a : Fin 2, win1_15.index t a * S1x512.size a ≤ (i a).val ∧ (i a).val < win1_15.index t a * S1x512.size a + S1x512.size a := by
  show i ∈ ((View.whole main_call0_v26_2).slice (win1_15.rect t)).set ↔ _
  rw [View.set_slice_whole, Rect.mem_set_unit]
  exact Iff.rfl

/-- The accumulator array 1 ends holding the accumulator after the last point: its one block is the whole array,
    written back once, at the last point. -/
theorem final1_15 (c : Dev nD) :
    (dat1 V c).arrAt 15 cfg1.N = acc1_1 V c 15 (by rw [show cfg1.N = 16 from N_1]; decide) :=
  (dat1 V c).arrAt_eq_of_cover 15 (acc1_1 V c 15 (by rw [show cfg1.N = 16 from N_1]; decide)) (fun t hf => by
    have hN : t.val < 16 := lt_of_lt_of_eq t.isLt (show cfg1.N = 16 from N_1)
    have ht : t.val = 15 := by have := (flush1_15 t).mp hf; omega
    rw [flushed1_15]
    obtain ⟨-, -, -, -, -, -, -, -, -, -, -, -, -, -, -, -, -, -, -, -, -, -, -, -, -, -, -, -, -, -, e15_0, e15_1, -, -⟩ := idx_facts1 t
    funext j
    have hj0 : (j 0).val < 1 := (j 0).isLt
    have hj1 : (j 1).val < 512 := (j 1).isLt
    show acc1_1 V c t.val t.isLt j = acc1_1 V c 15 _ (((cfg1.win 15).blk t).view.emb j)
    have hj : ((cfg1.win 15).blk t).view.emb j = j := by
      funext a
      match a with
      | ⟨0, _⟩ => exact Fin.ext (by show win1_15.index t (0 : Fin 2) * 1 + 1 * (j 0).val = (j 0).val; rw [e15_0]; omega)
      | ⟨1, _⟩ => exact Fin.ext (by show win1_15.index t (1 : Fin 2) * 512 + 1 * (j 1).val = (j 1).val; rw [e15_1]; omega)
    rw [hj]
    exact congrFun (acc1_1_congr V c _ _ _ _ ht) j) (fun i => by
    have hi0 : (i 0).val < 1 := (i 0).isLt
    have hi1 : (i 1).val < 512 := (i 1).isLt
    refine ⟨t1_15, (flush1_15 _).mpr rfl, ?_⟩
    rw [mem_blk1_15]
    obtain ⟨-, -, -, -, -, -, -, -, -, -, -, -, -, -, -, -, -, -, -, -, -, -, -, -, -, -, -, -, -, -, e15_0, e15_1, -, -⟩ := idx_facts1 t1_15
    intro a
    match a with
    | ⟨0, _⟩ => show win1_15.index t1_15 (0 : Fin 2) * 1 ≤ (i 0).val ∧ (i 0).val < win1_15.index t1_15 (0 : Fin 2) * 1 + 1; rw [e15_0]; omega
    | ⟨1, _⟩ => show win1_15.index t1_15 (1 : Fin 2) * 512 ≤ (i 1).val ∧ (i 1).val < win1_15.index t1_15 (1 : Fin 2) * 512 + 512; rw [e15_1]; omega)

/-- What a point writes back of accumulator output 2 (the last point does): the accumulator after it. -/
theorem flushed1_16 (c : Dev nD) (t : Fin cfg1.N) : (dat1 V c).flushed 16 t = acc1_2 V c t.val t.isLt := by
  show (cfg1.win 16).cut (grid1.coords t) ((dat1 V c).after 16 t) = _
  rw [after1_16]; rfl

/-- The accumulator as a sequence from its starting row: one step per point. -/
def accSeq1_2 (c : Dev nD) : ℕ → Vec F S1x512 .f32
  | 0 => (k1_pay5 (k1_pay4 (F := F)))
  | n + 1 => if h : n < cfg1.N then step1_2 V c ⟨n, h⟩ (accSeq1_2 c n) else accSeq1_2 c n

theorem accSeq1_2_succ (c : Dev nD) (n : ℕ) (h : n < cfg1.N) :
    accSeq1_2 V c (n + 1) = step1_2 V c ⟨n, h⟩ (accSeq1_2 V c n) := by
  show (if h : n < cfg1.N then step1_2 V c ⟨n, h⟩ (accSeq1_2 V c n) else accSeq1_2 V c n) = _
  rw [dif_pos h]

/-- The accumulator after point n is the sequence's term n + 1. -/
theorem acc1_2_eq_seq (c : Dev nD) : ∀ (n : ℕ) (hn : n < cfg1.N), acc1_2 V c n hn = accSeq1_2 V c (n + 1)
  | 0, hn => (accSeq1_2_succ V c 0 hn).symm
  | n + 1, hn => by
    rw [accSeq1_2_succ V c (n + 1) hn, ← acc1_2_eq_seq c n (Nat.lt_of_succ_lt hn)]
    rfl

/-- The accumulator after a point depends on the point's number only. -/
theorem acc1_2_congr (c : Dev nD) (n m : ℕ) (hn : n < cfg1.N) (hm : m < cfg1.N) (h : n = m) :
    acc1_2 V c n hn = acc1_2 V c m hm := by subst h; rfl

theorem mem_blk1_16 (t : Fin cfg1.N) (i : S1x512.Idx) :
    i ∈ ((cfg1.win 16).blk t).view.set ↔ ∀ a : Fin 2, win1_16.index t a * S1x512.size a ≤ (i a).val ∧ (i a).val < win1_16.index t a * S1x512.size a + S1x512.size a := by
  show i ∈ ((View.whole main_call0_v26_3).slice (win1_16.rect t)).set ↔ _
  rw [View.set_slice_whole, Rect.mem_set_unit]
  exact Iff.rfl

/-- The accumulator array 2 ends holding the accumulator after the last point: its one block is the whole array,
    written back once, at the last point. -/
theorem final1_16 (c : Dev nD) :
    (dat1 V c).arrAt 16 cfg1.N = acc1_2 V c 15 (by rw [show cfg1.N = 16 from N_1]; decide) :=
  (dat1 V c).arrAt_eq_of_cover 16 (acc1_2 V c 15 (by rw [show cfg1.N = 16 from N_1]; decide)) (fun t hf => by
    have hN : t.val < 16 := lt_of_lt_of_eq t.isLt (show cfg1.N = 16 from N_1)
    have ht : t.val = 15 := by have := (flush1_16 t).mp hf; omega
    rw [flushed1_16]
    obtain ⟨-, -, -, -, -, -, -, -, -, -, -, -, -, -, -, -, -, -, -, -, -, -, -, -, -, -, -, -, -, -, -, -, e16_0, e16_1⟩ := idx_facts1 t
    funext j
    have hj0 : (j 0).val < 1 := (j 0).isLt
    have hj1 : (j 1).val < 512 := (j 1).isLt
    show acc1_2 V c t.val t.isLt j = acc1_2 V c 15 _ (((cfg1.win 16).blk t).view.emb j)
    have hj : ((cfg1.win 16).blk t).view.emb j = j := by
      funext a
      match a with
      | ⟨0, _⟩ => exact Fin.ext (by show win1_16.index t (0 : Fin 2) * 1 + 1 * (j 0).val = (j 0).val; rw [e16_0]; omega)
      | ⟨1, _⟩ => exact Fin.ext (by show win1_16.index t (1 : Fin 2) * 512 + 1 * (j 1).val = (j 1).val; rw [e16_1]; omega)
    rw [hj]
    exact congrFun (acc1_2_congr V c _ _ _ _ ht) j) (fun i => by
    have hi0 : (i 0).val < 1 := (i 0).isLt
    have hi1 : (i 1).val < 512 := (i 1).isLt
    refine ⟨t1_15, (flush1_16 _).mpr rfl, ?_⟩
    rw [mem_blk1_16]
    obtain ⟨-, -, -, -, -, -, -, -, -, -, -, -, -, -, -, -, -, -, -, -, -, -, -, -, -, -, -, -, -, -, -, -, e16_0, e16_1⟩ := idx_facts1 t1_15
    intro a
    match a with
    | ⟨0, _⟩ => show win1_16.index t1_15 (0 : Fin 2) * 1 ≤ (i 0).val ∧ (i 0).val < win1_16.index t1_15 (0 : Fin 2) * 1 + 1; rw [e16_0]; omega
    | ⟨1, _⟩ => show win1_16.index t1_15 (1 : Fin 2) * 512 ≤ (i 1).val ∧ (i 1).val < win1_16.index t1_15 (1 : Fin 2) * 512 + 512; rw [e16_1]; omega)

end Region

/-! ## At the exact values: the blocks are the named arrays -/

section AtIdeal
variable (V : Entry (F := Ideal)) (c : Dev nD)

theorem iblk1_0_eq (t : Fin cfg1.N) : iblk1 (F := Ideal) V c 0 t = X1_0 V c := by
  obtain ⟨e0_0, e0_1, -, -, -, -, -, -, -, -, -, -, -, -, -, -, -, -, -, -, -, -, -, -, -, -, -, -, -, -, -, -, -, -⟩ := idx_facts1 t
  funext y
  show V c main_call0_v15 (((cfg1.win 0).blk t).view.emb y) = V c main_call0_v15 y
  refine congrArg (V c main_call0_v15) (funext fun a => Fin.ext ?_)
  match a with
  | ⟨0, _⟩ => show win1_0.index t (0 : Fin 2) * 4096 + 1 * (y 0).val = (y 0).val; omega
  | ⟨1, _⟩ => show win1_0.index t (1 : Fin 2) * 512 + 1 * (y 1).val = (y 1).val; omega

theorem iblk1_1_eq (t : Fin cfg1.N) : iblk1 (F := Ideal) V c 1 t = X1_1 V c := by
  obtain ⟨-, -, e1_0, e1_1, -, -, -, -, -, -, -, -, -, -, -, -, -, -, -, -, -, -, -, -, -, -, -, -, -, -, -, -, -, -⟩ := idx_facts1 t
  funext y
  show V c main_call0_v17 (((cfg1.win 1).blk t).view.emb y) = V c main_call0_v17 y
  refine congrArg (V c main_call0_v17) (funext fun a => Fin.ext ?_)
  match a with
  | ⟨0, _⟩ => show win1_1.index t (0 : Fin 2) * 512 + 1 * (y 0).val = (y 0).val; omega
  | ⟨1, _⟩ => show win1_1.index t (1 : Fin 2) * 512 + 1 * (y 1).val = (y 1).val; omega

theorem iblk1_2_eq (t : Fin cfg1.N) : iblk1 (F := Ideal) V c 2 t = X1_2 V c := by
  obtain ⟨-, -, -, -, e2_0, e2_1, -, -, -, -, -, -, -, -, -, -, -, -, -, -, -, -, -, -, -, -, -, -, -, -, -, -, -, -⟩ := idx_facts1 t
  funext y
  show V c main_call0_v19 (((cfg1.win 2).blk t).view.emb y) = V c main_call0_v19 y
  refine congrArg (V c main_call0_v19) (funext fun a => Fin.ext ?_)
  match a with
  | ⟨0, _⟩ => show win1_2.index t (0 : Fin 2) * 512 + 1 * (y 0).val = (y 0).val; omega
  | ⟨1, _⟩ => show win1_2.index t (1 : Fin 2) * 512 + 1 * (y 1).val = (y 1).val; omega

theorem iblk1_3_eq (t : Fin cfg1.N) : iblk1 (F := Ideal) V c 3 t = X1_3 V c := by
  obtain ⟨-, -, -, -, -, -, e3_0, e3_1, -, -, -, -, -, -, -, -, -, -, -, -, -, -, -, -, -, -, -, -, -, -, -, -, -, -⟩ := idx_facts1 t
  funext y
  show V c main_call0_v20 (((cfg1.win 3).blk t).view.emb y) = V c main_call0_v20 y
  refine congrArg (V c main_call0_v20) (funext fun a => Fin.ext ?_)
  match a with
  | ⟨0, _⟩ => show win1_3.index t (0 : Fin 2) * 1 + 1 * (y 0).val = (y 0).val; omega
  | ⟨1, _⟩ => show win1_3.index t (1 : Fin 2) * 512 + 1 * (y 1).val = (y 1).val; omega

theorem iblk1_4_eq (t : Fin cfg1.N) : iblk1 (F := Ideal) V c 4 t = X1_4 V c := by
  obtain ⟨-, -, -, -, -, -, -, -, e4_0, e4_1, -, -, -, -, -, -, -, -, -, -, -, -, -, -, -, -, -, -, -, -, -, -, -, -⟩ := idx_facts1 t
  funext y
  show V c main_call0_v21 (((cfg1.win 4).blk t).view.emb y) = V c main_call0_v21 y
  refine congrArg (V c main_call0_v21) (funext fun a => Fin.ext ?_)
  match a with
  | ⟨0, _⟩ => show win1_4.index t (0 : Fin 2) * 1 + 1 * (y 0).val = (y 0).val; omega
  | ⟨1, _⟩ => show win1_4.index t (1 : Fin 2) * 512 + 1 * (y 1).val = (y 1).val; omega

theorem iblk1_5_eq (t : Fin cfg1.N) : iblk1 (F := Ideal) V c 5 t = X1_5 V c := by
  obtain ⟨-, -, -, -, -, -, -, -, -, -, e5_0, e5_1, -, -, -, -, -, -, -, -, -, -, -, -, -, -, -, -, -, -, -, -, -, -⟩ := idx_facts1 t
  funext y
  show V c main_call0_v22 (((cfg1.win 5).blk t).view.emb y) = V c main_call0_v22 y
  refine congrArg (V c main_call0_v22) (funext fun a => Fin.ext ?_)
  match a with
  | ⟨0, _⟩ => show win1_5.index t (0 : Fin 2) * 1 + 1 * (y 0).val = (y 0).val; omega
  | ⟨1, _⟩ => show win1_5.index t (1 : Fin 2) * 512 + 1 * (y 1).val = (y 1).val; omega

theorem iblk1_6_eq (t : Fin cfg1.N) : iblk1 (F := Ideal) V c 6 t = X1_6 V c := by
  obtain ⟨-, -, -, -, -, -, -, -, -, -, -, -, e6_0, e6_1, -, -, -, -, -, -, -, -, -, -, -, -, -, -, -, -, -, -, -, -⟩ := idx_facts1 t
  funext y
  show V c main_call0_v23 (((cfg1.win 6).blk t).view.emb y) = V c main_call0_v23 y
  refine congrArg (V c main_call0_v23) (funext fun a => Fin.ext ?_)
  match a with
  | ⟨0, _⟩ => show win1_6.index t (0 : Fin 2) * 1 + 1 * (y 0).val = (y 0).val; omega
  | ⟨1, _⟩ => show win1_6.index t (1 : Fin 2) * 512 + 1 * (y 1).val = (y 1).val; omega

theorem iblk1_7_eq (t : Fin cfg1.N) : iblk1 (F := Ideal) V c 7 t = X1_7 V c := by
  obtain ⟨-, -, -, -, -, -, -, -, -, -, -, -, -, -, e7_0, e7_1, -, -, -, -, -, -, -, -, -, -, -, -, -, -, -, -, -, -⟩ := idx_facts1 t
  funext y
  show V c main_call0_v24 (((cfg1.win 7).blk t).view.emb y) = V c main_call0_v24 y
  refine congrArg (V c main_call0_v24) (funext fun a => Fin.ext ?_)
  match a with
  | ⟨0, _⟩ => show win1_7.index t (0 : Fin 2) * 1 + 1 * (y 0).val = (y 0).val; omega
  | ⟨1, _⟩ => show win1_7.index t (1 : Fin 2) * 1 + 1 * (y 1).val = (y 1).val; omega

theorem iblk1_8_eq (t : Fin cfg1.N) : iblk1 (F := Ideal) V c 8 t = X1_8 V c := by
  obtain ⟨-, -, -, -, -, -, -, -, -, -, -, -, -, -, -, -, e8_0, e8_1, -, -, -, -, -, -, -, -, -, -, -, -, -, -, -, -⟩ := idx_facts1 t
  funext y
  show V c main_call0_v25 (((cfg1.win 8).blk t).view.emb y) = V c main_call0_v25 y
  refine congrArg (V c main_call0_v25) (funext fun a => Fin.ext ?_)
  match a with
  | ⟨0, _⟩ => show win1_8.index t (0 : Fin 2) * 1 + 1 * (y 0).val = (y 0).val; omega
  | ⟨1, _⟩ => show win1_8.index t (1 : Fin 2) * 1 + 1 * (y 1).val = (y 1).val; omega

theorem iblk1_9_eq (t : Fin cfg1.N) : iblk1 (F := Ideal) V c 9 t = X1_9 V c := by
  obtain ⟨-, -, -, -, -, -, -, -, -, -, -, -, -, -, -, -, -, -, e9_0, e9_1, -, -, -, -, -, -, -, -, -, -, -, -, -, -⟩ := idx_facts1 t
  funext y
  show V c main_call0_v1 (((cfg1.win 9).blk t).view.emb y) = V c main_call0_v1 y
  refine congrArg (V c main_call0_v1) (funext fun a => Fin.ext ?_)
  match a with
  | ⟨0, _⟩ => show win1_9.index t (0 : Fin 2) * 512 + 1 * (y 0).val = (y 0).val; omega
  | ⟨1, _⟩ => show win1_9.index t (1 : Fin 2) * 512 + 1 * (y 1).val = (y 1).val; omega

theorem iblk1_10_eq (t : Fin cfg1.N) : iblk1 (F := Ideal) V c 10 t = X1_10 V c := by
  obtain ⟨-, -, -, -, -, -, -, -, -, -, -, -, -, -, -, -, -, -, -, -, e10_0, e10_1, -, -, -, -, -, -, -, -, -, -, -, -⟩ := idx_facts1 t
  funext y
  show V c main_call0_v2 (((cfg1.win 10).blk t).view.emb y) = V c main_call0_v2 y
  refine congrArg (V c main_call0_v2) (funext fun a => Fin.ext ?_)
  match a with
  | ⟨0, _⟩ => show win1_10.index t (0 : Fin 2) * 1 + 1 * (y 0).val = (y 0).val; omega
  | ⟨1, _⟩ => show win1_10.index t (1 : Fin 2) * 512 + 1 * (y 1).val = (y 1).val; omega

theorem iblk1_11_eq (t : Fin cfg1.N) (ht : t.val < 16) : iblk1 (F := Ideal) V c 11 t = M1_1 V c ⟨t.val, ht⟩ := by
  obtain ⟨-, -, -, -, -, -, -, -, -, -, -, -, -, -, -, -, -, -, -, -, -, -, e11_0, e11_1, -, -, -, -, -, -, -, -, -, -⟩ := idx_facts1 t
  funext y
  show V c main_arg4 (((cfg1.win 11).blk t).view.emb y) = V c main_arg4 (ix2 (Cert.Spec.row ⟨t.val, ht⟩ (y 0)) (y 1))
  refine congrArg (V c main_arg4) (funext fun a => Fin.ext ?_)
  match a with
  | ⟨0, _⟩ => show win1_11.index t (0 : Fin 2) * 256 + 1 * (y 0).val = t.val * 256 + (y 0).val; omega
  | ⟨1, _⟩ => show win1_11.index t (1 : Fin 2) * 4096 + 1 * (y 1).val = (y 1).val; omega

theorem iblk1_12_eq (t : Fin cfg1.N) (ht : t.val < 16) : iblk1 (F := Ideal) V c 12 t = M1_2 V c ⟨t.val, ht⟩ := by
  obtain ⟨-, -, -, -, -, -, -, -, -, -, -, -, -, -, -, -, -, -, -, -, -, -, -, -, e12_0, e12_1, -, -, -, -, -, -, -, -⟩ := idx_facts1 t
  funext y
  show V c main_arg5 (((cfg1.win 12).blk t).view.emb y) = V c main_arg5 (ix2 (Cert.Spec.row ⟨t.val, ht⟩ (y 0)) (y 1))
  refine congrArg (V c main_arg5) (funext fun a => Fin.ext ?_)
  match a with
  | ⟨0, _⟩ => show win1_12.index t (0 : Fin 2) * 256 + 1 * (y 0).val = t.val * 256 + (y 0).val; omega
  | ⟨1, _⟩ => show win1_12.index t (1 : Fin 2) * 4096 + 1 * (y 1).val = (y 1).val; omega

/-- The first view's block at point t is the first view block of the named arrays. -/
theorem view1_1_eq (t : Fin cfg1.N) (ht : t.val < 16) :
    view1_1 (F := Ideal) V c t = view1blk (X1_0 V c) (X1_1 V c) (X1_3 V c) (X1_5 V c) (X1_7 V c) (M1_1 V c) ⟨t.val, ht⟩ := by
  unfold view1_1 hbuf1_1
  rw [iblk1_11_eq V c t ht, iblk1_0_eq, iblk1_1_eq, iblk1_3_eq, iblk1_5_eq, iblk1_7_eq]
  rfl

/-- The second view's block at point t is the second view block of the named arrays. -/
theorem view1_2_eq (t : Fin cfg1.N) (ht : t.val < 16) :
    view1_2 (F := Ideal) V c t = view2blk (X1_0 V c) (X1_2 V c) (X1_4 V c) (X1_6 V c) (X1_8 V c) (M1_2 V c) ⟨t.val, ht⟩ := by
  unfold view1_2 hbuf1_2
  rw [iblk1_12_eq V c t ht, iblk1_0_eq, iblk1_2_eq, iblk1_4_eq, iblk1_6_eq, iblk1_8_eq]
  rfl

/-- One step of the first accumulator, over the named arrays. -/
theorem step1_1_eq (t : Fin cfg1.N) (ht : t.val < 16) (a : FVec Ideal S1x512 .f32) :
    step1_1 (F := Ideal) V c t a = k0_pay11 (F := Ideal) (view1blk (X1_0 V c) (X1_1 V c) (X1_3 V c) (X1_5 V c) (X1_7 V c) (M1_1 V c) ⟨t.val, ht⟩) (X1_9 V c) (X1_10 V c) a := by
  unfold step1_1 hbuf1_1
  rw [iblk1_11_eq V c t ht, iblk1_0_eq, iblk1_1_eq, iblk1_3_eq, iblk1_5_eq, iblk1_7_eq, iblk1_9_eq, iblk1_10_eq]
  rfl

/-- One step of the second accumulator, over the named arrays. -/
theorem step1_2_eq (t : Fin cfg1.N) (ht : t.val < 16) (a : FVec Ideal S1x512 .f32) :
    step1_2 (F := Ideal) V c t a
      = k0_pay12 (F := Ideal) (k0_pay7 (F := Ideal) (M1_2 V c ⟨t.val, ht⟩) (k0_pay2 (F := Ideal) (X1_0 V c) (X1_2 V c) (X1_4 V c)) (X1_6 V c))
          (k0_pay8 (F := Ideal) (M1_2 V c ⟨t.val, ht⟩) (k0_pay2 (F := Ideal) (X1_0 V c) (X1_2 V c) (X1_4 V c)) (X1_6 V c)) (k0_pay9 (F := Ideal) (X1_8 V c))
          (X1_9 V c) (X1_10 V c) a := by
  unfold step1_2 hbuf1_2
  rw [iblk1_12_eq V c t ht, iblk1_0_eq, iblk1_2_eq, iblk1_4_eq, iblk1_6_eq, iblk1_8_eq, iblk1_9_eq, iblk1_10_eq]
  rfl

end AtIdeal

/-! ## The region's values, packaged -/

/-- What the second pair region's proof data leave: the two view arrays block by block over the named arrays, and
    the two accumulator arrays as the sixteenth term of their sequences from the zero row. -/
def pairVal1 : PairVal1 (pair1 (F := Ideal)) where
  acc1 := fun V c n => accSeq1_1 (F := Ideal) V c n
  acc2 := fun V c n => accSeq1_2 (F := Ideal) V c n
  acc1_zero := fun _ _ => rfl
  acc1_succ := fun V c t ht => by
    have h : t < cfg1.N := by rw [show cfg1.N = 16 from N_1]; exact ht
    exact (accSeq1_1_succ (F := Ideal) V c t h).trans (step1_1_eq V c ⟨t, h⟩ ht _)
  acc2_zero := fun _ _ => rfl
  acc2_succ := fun V c t ht => by
    have h : t < cfg1.N := by rw [show cfg1.N = 16 from N_1]; exact ht
    exact (accSeq1_2_succ (F := Ideal) V c t h).trans (step1_2_eq V c ⟨t, h⟩ ht _)
  arr13 := fun V c i h1 h2 =>
    (congrFun (final1_13 (F := Ideal) V c) i).trans (congrFun (view1_1_eq V c (rowBlk1 (i 0)) h1) _)
  arr14 := fun V c i h1 h2 =>
    (congrFun (final1_14 (F := Ideal) V c) i).trans (congrFun (view1_2_eq V c (rowBlk1 (i 0)) h1) _)
  arr15 := fun V c => (final1_15 (F := Ideal) V c).trans (acc1_1_eq_seq (F := Ideal) V c 15 _)
  arr16 := fun V c => (final1_16 (F := Ideal) V c).trans (acc1_2_eq_seq (F := Ideal) V c 15 _)

end Cert.KernelIdeal.Hand

end
-- ==== Proof.RefIsSpec.lean ====
/-
  The reference program computes the specification.

  Its two results are read one operation at a time, outermost first, down to the argument arrays.
  The two node sets run the same operations on different arguments, and within a node set the two
  views do too, so every stage is proved once, for the first view of the first node set, over
  arbitrary arrays; the other three instances are the same terms at other arguments.

  Stages: the dense layer, the aggregation, the rectifier (a select on "is at least zero"), the
  attention's hidden units, their sums over the nodes (a sum from the zero word), the logit (a
  product of the row vector with the column of means), and the softmax of the two logits as the
  program spells it: the two logits joined into a pair, the pair's maximum taken from −∞ and once
  more against −∞, the shifted exponentials, their sum from zero, the quotients, and the mix from a
  zero array.
-/
import proofs.«122693_g27230092657376_cont_9to1_1130_10_alg».proof.Proof.Gen.ReferenceIdeal.Run
import proofs.«122693_g27230092657376_cont_9to1_1130_10_alg».proof.Proof.Gen.ReferenceIdeal.Read
import proofs.«122693_g27230092657376_cont_9to1_1130_10_alg».proof.Proof.Spec
import proofs.«122693_g27230092657376_cont_9to1_1130_10_alg».proof.Proof.SpecAlgebra

noncomputable section

open scoped BigOperators

namespace Cert.RefSpec

open Cert.ReferenceIdeal Cert.ReferenceIdeal.Gen Cert.ReferenceIdeal.Read Idealize.ShloMosaic Idealize.ShloMosaic.ValueIdx

/-- An array of the program at the ideal reading. -/
abbrev Arr (s : Shape) : Type := (⟨s, .f32⟩ : BufTy).Contents (Elt Ideal)

/-- Two indices of rank at most two agree when their coordinates do. -/
macro "idx_eq" : tactic =>
  `(tactic| (funext a; first
      | exact a.elim0
      | (match a with | ⟨0, _⟩ => rfl | ⟨1, _⟩ => rfl)
      | (match a with | ⟨0, _⟩ => rfl)))

/-! ## One view -/

/-- The dense layer: a product with the transposed weights plus the bias spread over the rows. -/
theorem lin_eq (x0 : Arr S4096x512) (x6 : Arr S512x512) (x7 : Arr S512) (n : Fin 4096) (d : Fin 512) :
    val_main_v4 (F := Ideal) x0 x6 x7 (ix2 n d) = Spec.lin x0 x6 x7 n d := by
  rw [val_main_v4_apply, val_main_v1_apply, val_main_v3_apply, val_main_v2_apply, Ideal.addf_def]
  unfold Spec.lin
  refine congrArg₂ (· + ·) (Finset.sum_congr rfl fun k _ => ?_) (congrArg x7 (by idx_eq))
  rw [val_main_v0_apply]
  exact congrArg₂ (· * ·) (congrArg x0 (by idx_eq)) (congrArg x6 (by idx_eq))

/-- The aggregation: the adjacency times the dense layer plus the second bias. -/
theorem agg_eq (x0 : Arr S4096x512) (x2 : Arr S4096x4096) (x6 : Arr S512x512) (x7 x8 : Arr S512)
    (n : Fin 4096) (d : Fin 512) :
    val_main_v8 (F := Ideal) x0 x2 x6 x7 x8 (ix2 n d) = Spec.agg x0 x2 x6 x7 x8 n d := by
  rw [val_main_v8_apply, val_main_v5_apply, val_main_v7_apply, val_main_v6_apply, Ideal.addf_def]
  unfold Spec.agg
  refine congrArg₂ (· + ·) (Finset.sum_congr rfl fun k _ => ?_) (congrArg x8 (by idx_eq))
  have e : ridx_main_v5 (ix2 n d) k = ix2 k d := by idx_eq
  rw [e, lin_eq]
  exact congrArg (· * _) (congrArg x2 (by idx_eq))

/-- The select on "at least zero" is the rectifier. -/
theorem select_oge_zero (p o : EReal) :
    Scalar.select (FloatOps.cmpf (F := Ideal) (φ := .f32) .oge o (FloatOps.ofBits .f32 0x00000000#32)) o (FloatOps.mulf (F := Ideal) (φ := .f32) p o)
      = Spec.prelu p o := by
  rw [Ideal.cmpf_def, Ideal.ofBits_def, Ideal.ofBits_zero_f32, Ideal.mulf_def]
  unfold Spec.prelu Scalar.select Ideal.cmp
  by_cases h : (0 : EReal) ≤ o
  · simp [h]
  · simp [h]

/-- One view is the rectified aggregation. -/
theorem view_eq (x0 : Arr S4096x512) (x2 : Arr S4096x4096) (x6 : Arr S512x512) (x7 x8 : Arr S512) (x9 : Arr S_)
    (n : Fin 4096) (d : Fin 512) :
    val_main_v13 (F := Ideal) x0 x2 x6 x7 x8 x9 (ix2 n d) = Spec.view x0 x2 x6 x7 x8 x9 n d := by
  rw [val_main_v13_apply, val_main_v10_apply, val_main_v12_apply, val_main_v11_apply, val_main_v9_apply,
    val_main_cst_apply, agg_eq]
  have e : idx_main_v11 (ix2 n d) = ix0 := by idx_eq
  rw [e]
  exact select_oge_zero _ _

/-! ## The attention's logit of one view -/

/-- A hidden unit of the attention at a node. -/
theorem score_eq (x0 : Arr S4096x512) (x2 : Arr S4096x4096) (x6 : Arr S512x512) (x7 x8 : Arr S512) (x9 : Arr S_)
    (x22 : Arr S512x512) (x23 : Arr S512) (n : Fin 4096) (j : Fin 512) :
    val_main_v61 (F := Ideal) x0 x2 x6 x7 x8 x9 x22 x23 (ix2 n j)
      = Spec.score (Spec.view x0 x2 x6 x7 x8 x9) x22 x23 n j := by
  rw [val_main_v61_apply, val_main_v60_apply, val_main_v57_apply, val_main_v59_apply, val_main_v58_apply,
    Ideal.hostUnary_tanh_def, Ideal.addf_def]
  unfold Spec.score
  refine congrArg Ideal.tanh (congrArg₂ (· + ·) (Finset.sum_congr rfl fun k _ => ?_) (congrArg x23 (by idx_eq)))
  have e : lidx_main_v57 (ix2 n j) k = ix2 n k := by idx_eq
  rw [e, view_eq, val_main_v56_apply]
  exact congrArg (_ * ·) (congrArg x22 (by idx_eq))

/-- A hidden unit summed over the nodes: the host's sum starts from the zero word. -/
theorem colsum_eq (x0 : Arr S4096x512) (x2 : Arr S4096x4096) (x6 : Arr S512x512) (x7 x8 : Arr S512) (x9 : Arr S_)
    (x22 : Arr S512x512) (x23 : Arr S512) (j : Fin 512) :
    val_main_v62 (F := Ideal) x0 x2 x6 x7 x8 x9 x22 x23 (ix1 j)
      = Spec.colsum (Spec.view x0 x2 x6 x7 x8 x9) x22 x23 j := by
  rw [val_main_v62_apply, val_main_cst_3_apply, Ideal.ofBits_def, Ideal.ofBits_zero_f32, zero_add]
  unfold Spec.colsum
  refine Finset.sum_congr rfl fun k _ => ?_
  have e : idx_main_v62 (ix1 j) k = ix2 k j := by idx_eq
  rw [e, score_eq]

/-- The logit: the row vector against the column of means. -/
theorem logit_eq (x0 : Arr S4096x512) (x2 : Arr S4096x4096) (x6 : Arr S512x512) (x7 x8 : Arr S512) (x9 : Arr S_)
    (x22 : Arr S512x512) (x23 : Arr S512) (x24 : Arr S1x512) :
    val_main_v67 (F := Ideal) x0 x2 x6 x7 x8 x9 x22 x23 x24 (ix1 0)
      = Spec.logit x24 (Spec.view x0 x2 x6 x7 x8 x9) x22 x23 := by
  rw [val_main_v67_apply, val_main_v66_apply]
  unfold Spec.logit
  refine Finset.sum_congr rfl fun k _ => ?_
  rw [val_main_v65_apply, val_main_v64_apply, val_main_v63_apply, val_main_cst_4_apply, Ideal.hostDivf_def,
    Ideal.ofBits_def]
  have e : idx_main_v65 (ridx_main_v66 (idx_main_v67 (ix1 0)) k) = ix1 k := by idx_eq
  rw [e, colsum_eq]
  exact congrArg (· * _) (congrArg x24 (by idx_eq))

/-! ## The softmax of two logits, as the program spells it -/

/-- The first entry of a pair joined from two one-entry arrays. -/
theorem pair_fst (a b : Arr S1) :
    concatenate S2 0 [⟨S1, a⟩, ⟨S1, b⟩] concatenates_S1_S1_S2_d0 (ix1 0) = a (ix1 0) :=
  concatenate_pair_apply_left (0 : Fin S2.rank) a b concatenates_S1_S1_S2_d0 (ix1 0) rfl (ix1 0)
    (fun c => by match c with | ⟨0, _⟩ => rfl)

/-- The second entry of such a pair. -/
theorem pair_snd (a b : Arr S1) :
    concatenate S2 0 [⟨S1, a⟩, ⟨S1, b⟩] concatenates_S1_S1_S2_d0 (ix1 1) = b (ix1 0) :=
  concatenate_pair_apply_right (0 : Fin S2.rank) a b concatenates_S1_S1_S2_d0 (ix1 1) rfl rfl (ix1 0)
    (fun c hc => absurd (Subsingleton.elim _ _) hc) rfl

/-- A pair's indices are its two positions. -/
def pairIdx : S2.Idx ≃ Fin 2 where
  toFun i := i 0
  invFun t := ix1 t
  left_inv i := (eq_ix1 i).symm
  right_inv _ := rfl

/-- A sum over the two indices of a pair. -/
theorem sum_pair (f : S2.Idx → EReal) : ∑ i : S2.Idx, f i = f (ix1 0) + f (ix1 1) := by
  rw [← Equiv.sum_comp pairIdx.symm f, Fin.sum_univ_two]
  rfl

/-- The maximum of a pair taken from −∞ is the larger entry. -/
theorem max_pair (y : Arr S2) :
    Host.reduce FloatOps.maximumf y (constant (F := Ideal) S_ .f32 0xFF800000#32) reducesTo_S2_S_d0 h_S_ ix0
      = max (y (ix1 0)) (y (ix1 1)) := by
  rw [Host.reduce_eq_fold, Finset.filter_true_of_mem (fun i _ => funext fun b => b.elim0),
    ← Finset.map_univ_equiv pairIdx.symm, Finset.fold_map,
    show (Finset.univ : Finset (Fin 2)) = insert 0 {1} from by decide, Finset.fold_insert (by decide),
    Finset.fold_singleton]
  simp only [Function.comp_apply, Ideal.maximumf_def]
  rw [show (constant (F := Ideal) S_ .f32 0xFF800000#32) (Shape.Idx.first h_S_) = (⊥ : EReal) from Spec.ofBits_negInf,
    max_bot_right]
  rfl

/-! ## The two views of one node set, attended -/

section Attend

variable (x0 : Arr S4096x512) (x2 x3 : Arr S4096x4096) (x6 : Arr S512x512) (x7 x8 : Arr S512) (x9 : Arr S_) (x10 : Arr S512x512) (x11 x12 : Arr S512) (x13 : Arr S_) (x22 : Arr S512x512) (x23 : Arr S512) (x24 : Arr S1x512)

/-- The second view runs the first view's operations on its own arguments. -/
theorem view2_eq (n : Fin 4096) (d : Fin 512) :
    val_main_v27 (F := Ideal) x0 x3 x10 x11 x12 x13 (ix2 n d) = Spec.view x0 x3 x10 x11 x12 x13 n d :=
  view_eq x0 x3 x10 x11 x12 x13 n d

/-- So does its logit. -/
theorem logit2_eq :
    val_main_v79 (F := Ideal) x0 x3 x10 x11 x12 x13 x22 x23 x24 (ix1 0)
      = Spec.logit x24 (Spec.view x0 x3 x10 x11 x12 x13) x22 x23 :=
  logit_eq x0 x3 x10 x11 x12 x13 x22 x23 x24

/-- The pair of logits, first entry. -/
theorem pair0_eq : val_main_v80 (F := Ideal) x0 x2 x3 x6 x7 x8 x9 x10 x11 x12 x13 x22 x23 x24 (ix1 0) = (Spec.logit x24 (Spec.view x0 x2 x6 x7 x8 x9) x22 x23) := by
  unfold val_main_v80
  rw [pair_fst, logit_eq]

/-- The pair of logits, second entry. -/
theorem pair1_eq : val_main_v80 (F := Ideal) x0 x2 x3 x6 x7 x8 x9 x10 x11 x12 x13 x22 x23 x24 (ix1 1) = (Spec.logit x24 (Spec.view x0 x3 x10 x11 x12 x13) x22 x23) := by
  unfold val_main_v80
  rw [pair_snd, logit2_eq]

/-- The shift: the pair's maximum from −∞, once more against −∞. -/
theorem shift_eq : val_main_v82 (F := Ideal) x0 x2 x3 x6 x7 x8 x9 x10 x11 x12 x13 x22 x23 x24 ix0 = max (Spec.logit x24 (Spec.view x0 x2 x6 x7 x8 x9) x22 x23) (Spec.logit x24 (Spec.view x0 x3 x10 x11 x12 x13) x22 x23) := by
  rw [val_main_v82_apply, Ideal.maximumf_def, val_main_cst_8_apply, Ideal.ofBits_def, Spec.max_negInf]
  unfold val_main_v81 val_main_cst_7
  rw [max_pair, pair0_eq, pair1_eq]

/-- The shifted exponential of the first logit. -/
theorem exp0_eq : val_main_v86 (F := Ideal) x0 x2 x3 x6 x7 x8 x9 x10 x11 x12 x13 x22 x23 x24 (ix1 0) = Spec.expShift (Spec.logit x24 (Spec.view x0 x2 x6 x7 x8 x9) x22 x23) (Spec.logit x24 (Spec.view x0 x3 x10 x11 x12 x13) x22 x23) (Spec.logit x24 (Spec.view x0 x2 x6 x7 x8 x9) x22 x23) := by
  rw [val_main_v86_apply, val_main_v85_apply, val_main_v84_apply, val_main_v83_apply, Ideal.hostUnary_exp_def,
    Ideal.subf_def, pair0_eq]
  have e : idx_main_v83 (idx_main_v84 (ix1 0)) = ix0 := by idx_eq
  rw [e, shift_eq]
  rfl

/-- The shifted exponential of the second logit. -/
theorem exp1_eq : val_main_v86 (F := Ideal) x0 x2 x3 x6 x7 x8 x9 x10 x11 x12 x13 x22 x23 x24 (ix1 1) = Spec.expShift (Spec.logit x24 (Spec.view x0 x2 x6 x7 x8 x9) x22 x23) (Spec.logit x24 (Spec.view x0 x3 x10 x11 x12 x13) x22 x23) (Spec.logit x24 (Spec.view x0 x3 x10 x11 x12 x13) x22 x23) := by
  rw [val_main_v86_apply, val_main_v85_apply, val_main_v84_apply, val_main_v83_apply, Ideal.hostUnary_exp_def,
    Ideal.subf_def, pair1_eq]
  have e : idx_main_v83 (idx_main_v84 (ix1 1)) = ix0 := by idx_eq
  rw [e, shift_eq]
  rfl

/-- The denominator: the sum of the two exponentials from the zero word. -/
theorem den_eq : val_main_v87 (F := Ideal) x0 x2 x3 x6 x7 x8 x9 x10 x11 x12 x13 x22 x23 x24 ix0 = Spec.den (Spec.logit x24 (Spec.view x0 x2 x6 x7 x8 x9) x22 x23) (Spec.logit x24 (Spec.view x0 x3 x10 x11 x12 x13) x22 x23) := by
  rw [val_main_v87_apply, val_main_cst_9_apply, Ideal.ofBits_def, Ideal.ofBits_zero_f32, zero_add, sum_pair,
    exp0_eq, exp1_eq]
  rfl

/-- The first weight. -/
theorem beta0_eq : val_main_v90 (F := Ideal) x0 x2 x3 x6 x7 x8 x9 x10 x11 x12 x13 x22 x23 x24 (ix1 0) = Spec.beta (Spec.logit x24 (Spec.view x0 x2 x6 x7 x8 x9) x22 x23) (Spec.logit x24 (Spec.view x0 x3 x10 x11 x12 x13) x22 x23) (Spec.logit x24 (Spec.view x0 x2 x6 x7 x8 x9) x22 x23) := by
  rw [val_main_v90_apply, val_main_v89_apply, val_main_v88_apply, Ideal.hostDivf_def, exp0_eq]
  have e : idx_main_v88 (idx_main_v89 (ix1 0)) = ix0 := by idx_eq
  rw [e, den_eq]
  rfl

/-- The second weight. -/
theorem beta1_eq : val_main_v90 (F := Ideal) x0 x2 x3 x6 x7 x8 x9 x10 x11 x12 x13 x22 x23 x24 (ix1 1) = Spec.beta (Spec.logit x24 (Spec.view x0 x2 x6 x7 x8 x9) x22 x23) (Spec.logit x24 (Spec.view x0 x3 x10 x11 x12 x13) x22 x23) (Spec.logit x24 (Spec.view x0 x3 x10 x11 x12 x13) x22 x23) := by
  rw [val_main_v90_apply, val_main_v89_apply, val_main_v88_apply, Ideal.hostDivf_def, exp1_eq]
  have e : idx_main_v88 (idx_main_v89 (ix1 1)) = ix0 := by idx_eq
  rw [e, den_eq]
  rfl

/-- A one-entry array recast as a scalar keeps its entry. -/
theorem scalar_of_one (y : Arr S1) : shapeCast S_ y shapeCasts_S1_S_ ix0 = y (ix1 0) :=
  shapeCast_apply y shapeCasts_S1_S_ ix0 (ix1 0) (by
    rw [Shape.rowMajor_val_one]
    have h := (Shape.rowMajor S_ ix0).isLt
    have h1 : S_.numel = 1 := rfl
    show 0 = _
    omega)

/-- The first weight, sliced out of the pair and recast as a scalar. -/
theorem w0_eq : val_main_v93 (F := Ideal) x0 x2 x3 x6 x7 x8 x9 x10 x11 x12 x13 x22 x23 x24 ix0 = Spec.beta (Spec.logit x24 (Spec.view x0 x2 x6 x7 x8 x9) x22 x23) (Spec.logit x24 (Spec.view x0 x3 x10 x11 x12 x13) x22 x23) (Spec.logit x24 (Spec.view x0 x2 x6 x7 x8 x9) x22 x23) := by
  unfold val_main_v93
  rw [scalar_of_one, val_main_v92_apply]
  have e : idx_main_v92 (ix1 0) = ix1 0 := by idx_eq
  rw [e, beta0_eq]

/-- The second weight, likewise. -/
theorem w1_eq : val_main_v98 (F := Ideal) x0 x2 x3 x6 x7 x8 x9 x10 x11 x12 x13 x22 x23 x24 ix0 = Spec.beta (Spec.logit x24 (Spec.view x0 x2 x6 x7 x8 x9) x22 x23) (Spec.logit x24 (Spec.view x0 x3 x10 x11 x12 x13) x22 x23) (Spec.logit x24 (Spec.view x0 x3 x10 x11 x12 x13) x22 x23) := by
  unfold val_main_v98
  rw [scalar_of_one, val_main_v97_apply]
  have e : idx_main_v97 (ix1 0) = ix1 1 := by idx_eq
  rw [e, beta1_eq]

/-- The first result at a node and feature: the mix of the two views from a zero array. -/
theorem out_at (n : Fin 4096) (d : Fin 512) :
    val_main_v101 (F := Ideal) x0 x2 x3 x6 x7 x8 x9 x10 x11 x12 x13 x22 x23 x24 (ix2 n d)
      = Spec.outAt x0 x2 x6 x7 x8 x9 x3 x10 x11 x12 x13 x22 x23 x24 n d := by
  rw [val_main_v101_apply, val_main_v96_apply, val_main_v100_apply, val_main_v95_apply, val_main_v91_apply,
    val_main_cst_10_apply, val_main_v94_apply, val_main_v99_apply, Ideal.addf_def, Ideal.addf_def, Ideal.mulf_def,
    Ideal.mulf_def, Ideal.ofBits_def, Ideal.ofBits_zero_f32, zero_add, view_eq, view2_eq]
  have e1 : idx_main_v94 (ix2 n d) = ix0 := by idx_eq
  have e2 : idx_main_v99 (ix2 n d) = ix0 := by idx_eq
  rw [e1, e2, w0_eq, w1_eq]
  rfl

/-- The first result as an array. -/
theorem out_eq :
    val_main_v101 (F := Ideal) x0 x2 x3 x6 x7 x8 x9 x10 x11 x12 x13 x22 x23 x24 = Spec.out x0 x2 x6 x7 x8 x9 x3 x10 x11 x12 x13 x22 x23 x24 :=
  funext fun i =>
    (congrArg (val_main_v101 (F := Ideal) x0 x2 x3 x6 x7 x8 x9 x10 x11 x12 x13 x22 x23 x24) (eq_ix2 i)).trans (out_at x0 x2 x3 x6 x7 x8 x9 x10 x11 x12 x13 x22 x23 x24 (i 0) (i 1))

end Attend

/-- The second node set runs the first one's operations on its own arguments. -/
theorem out2_eq (x1 : Arr S4096x512) (x4 x5 : Arr S4096x4096) (x14 : Arr S512x512) (x15 x16 : Arr S512) (x17 : Arr S_)
    (x18 : Arr S512x512) (x19 x20 : Arr S512) (x21 : Arr S_) (x22 : Arr S512x512) (x23 : Arr S512) (x24 : Arr S1x512) :
    val_main_v147 (F := Ideal) x1 x4 x5 x14 x15 x16 x17 x18 x19 x20 x21 x22 x23 x24
      = Spec.out x1 x4 x14 x15 x16 x17 x5 x18 x19 x20 x21 x22 x23 x24 :=
  out_eq x1 x4 x5 x14 x15 x16 x17 x18 x19 x20 x21 x22 x23 x24

end Cert.RefSpec

end
-- ==== Proof.RefRun.lean ====
/-
  The reference program's run, stated against the specification: every weakly fair execution
  terminates without a fault, each of its two results is the specification's function of the
  argument arrays (the first node set's arguments for the first result, the second's for the
  second), and the argument arrays end as they were launched.  Dropping the two results leaves the
  program's frame.
-/
import proofs.«122693_g27230092657376_cont_9to1_1130_10_alg».proof.Proof.RefIsSpec
import proofs.«122693_g27230092657376_cont_9to1_1130_10_alg».proof.Defs

noncomputable section

namespace Cert.RefSpec

open Cert.ReferenceIdeal Cert.ReferenceIdeal.Gen Cert.ReferenceIdeal.Read Idealize.ShloMosaic Idealize.ShloMosaic.TcCoe Idealize.SL.Sem

/-- The first result, as the run names it, is the specification at the first node set's arguments. -/
theorem res0_eq (m : (ℓ : Loc nD τ sig) → Buf (Elt Ideal) ℓ) (c : Dev nD) :
    Cert.ReferenceIdeal.Value.res_main_v101 m c
      = Spec.out (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg22)) (m ((c.tc : Thread nD τ).loc main_arg23)) (m ((c.tc : Thread nD τ).loc main_arg24)) :=
  (val_main_v101_eq m c).trans (out_eq _ _ _ _ _ _ _ _ _ _ _ _ _ _)

/-- The second result is the specification at the second node set's arguments. -/
theorem res1_eq (m : (ℓ : Loc nD τ sig) → Buf (Elt Ideal) ℓ) (c : Dev nD) :
    Cert.ReferenceIdeal.Value.res_main_v147 m c
      = Spec.out (m ((c.tc : Thread nD τ).loc main_arg1)) (m ((c.tc : Thread nD τ).loc main_arg4)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg5)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (val_main_v147_eq m c).trans (out2_eq _ _ _ _ _ _ _ _ _ _ _ _ _ _)

/-- The reference's run with both results read as the specification. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v101)
        = Spec.out (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg22)) (m ((c.tc : Thread nD τ).loc main_arg23)) (m ((c.tc : Thread nD τ).loc main_arg24))
      ∧ r.2.mem ((c.tc : Thread nD τ).loc main_v147)
        = Spec.out (m ((c.tc : Thread nD τ).loc main_arg1)) (m ((c.tc : Thread nD τ).loc main_arg4)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg5)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run (defs (F := Ideal)) _ _).mono
    (fun _ h c => ⟨(h c).1.trans (res0_eq m c), (h c).2.1.trans (res1_eq m c), (h c).2.2⟩)
    (Cert.ReferenceIdeal.Value.run (F := Ideal) m ρ)

/-- The reference's frame: its run with the results dropped. -/
theorem frame [Cert.Pre_finite_inputs.Facts] : Cert.frame_ReferenceIdeal :=
  fun m ρ _ => (θ_run (defs (F := Ideal)) _ _).mono (fun _ h c => (h c).2.2)
    (Cert.ReferenceIdeal.Value.run (F := Ideal) m ρ)

end Cert.RefSpec

end
-- ==== Proof.LibFiniteReal.lean ====
/-
  "Every entry is finite", read back at the ideal reading: every entry is a real number.

  A precondition that says an array holds finite floats is printed as: take absolute values, compare each with the
  infinity word by "less than", and fold the one-bit answers by "and" from one; the claim states that the result is one.
  At the ideal reading a float is an extended real, the infinity word is `+∞`, the absolute value of `x` is the larger of
  `x` and `−x`, and the comparison is the order's.  So the fold being one says `max x (−x) < +∞` of every entry, and an
  extended real with that property is neither infinity: it is a real number.  This is the step that lets an identity
  proved over the real numbers be used under a finiteness precondition, for an array of any shape.  The companion
  read-back of "every entry is greater than zero" is stated the same way.
-/
import Idealize.ShloMosaic.PureOps.Ideal
import Idealize.ShloMosaic.Lib.ReduceAll
import Idealize.ShloMosaic.Lib.Pipeline.Value

noncomputable section

open Idealize.ShloMosaic

namespace Cert.FiniteReal

/-- The infinity word denotes `+∞`. -/
theorem inf_word : Ideal.ofBits .f32 0x7F800000#32 = (⊤ : EReal) := by simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The absolute value and the comparison at the ideal reading, on any two extended reals. -/
theorem absf_ideal (x : EReal) : FloatOps.absf (F := Ideal) (φ := .f32) x = max x (-x) := rfl
theorem cmpf_ideal (p : CmpFPredicate) (x y : EReal) : FloatOps.cmpf (F := Ideal) (φ := .f32) p x y = Ideal.cmp p x y := rfl

/-- One entry: if "its absolute value is less than the infinity word" is the word one, the entry is a real number. -/
theorem real_of_finite_word (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.hostAbsf_def, absf_ideal, cmpf_ideal, inf_word] at h
  apply real_of_abs_lt_top
  by_contra hn
  unfold Ideal.cmp at h
  simp [hn] at h

section Generic

variable {F : FTy → Type} [FloatOps F] {s : Shape}

/-- The entrywise comparison of the absolute values with a spread scalar, opened at an index. -/
theorem finite_test_open (x : FVec F s .f32) (hb : (⟨0, ![]⟩ : Shape).BroadcastsInDim s (![] : Fin 0 → Fin s.rank))
    (c : FVec F ⟨0, ![]⟩ .f32) (i : s.Idx) :
    cmpf .olt (Host.absf x) (broadcastInDim s ![] hb c) i
      = FloatOps.cmpf .olt (FloatOps.hostAbsf (x i)) (broadcastInDim s ![] hb c i) := rfl

end Generic

/-- All entries: if the fold by "and" of "absolute value less than the infinity word" over the whole array is one, every
    entry of the array is a real number. -/
theorem real_of_all_finite {s u : Shape} {axes : List (Fin s.rank)} (x : FVec Ideal s .f32)
    (hb : (⟨0, ![]⟩ : Shape).BroadcastsInDim s (![] : Fin 0 → Fin s.rank)) (init : u.Idx → BitVec 1)
    (h : s.ReducesTo axes ⟨0, ![]⟩) (hu : 0 < u.numel) (j : (⟨0, ![]⟩ : Shape).Idx)
    (e : Host.reduce IntOp.andi
        (cmpf .olt (Host.absf x) (broadcastInDim s ![] hb (constant (F := Ideal) ⟨0, ![]⟩ .f32 0x7F800000#32))) init h hu j = 1#1)
    (i : s.Idx) : ∃ r : ℝ, x i = (r : EReal) := by
  haveI : Subsingleton (⟨0, ![]⟩ : Shape).Idx := ⟨fun a b => funext fun d => d.elim0⟩
  have e1 := Host.reduce_andi_all _ init h hu j e i
  rw [finite_test_open,
    broadcastInDim_apply ![] hb (constant (F := Ideal) ⟨0, ![]⟩ .f32 0x7F800000#32) i (fun a => a.elim0) (fun a => a.elim0)] at e1
  exact real_of_finite_word (x i) e1

section GenericGt

variable {F : FTy → Type} [FloatOps F] {s : Shape}

/-- The entrywise comparison "greater than" with a spread scalar, opened at an index. -/
theorem gt_test_open (v : FVec F s .f32) (hb : (⟨0, ![]⟩ : Shape).BroadcastsInDim s (![] : Fin 0 → Fin s.rank))
    (c : FVec F ⟨0, ![]⟩ .f32) (i : s.Idx) :
    cmpf .ogt v (broadcastInDim s ![] hb c) i = FloatOps.cmpf .ogt (v i) (broadcastInDim s ![] hb c i) := rfl

end GenericGt

/-- "Every entry is greater than zero", read back: if the fold by "and" of "greater than the zero word" over the whole
    array is one, every entry of the array is positive. -/
theorem pos_of_all_gt_zero {s u : Shape} {axes : List (Fin s.rank)} (v : FVec Ideal s .f32)
    (hb : (⟨0, ![]⟩ : Shape).BroadcastsInDim s (![] : Fin 0 → Fin s.rank)) (init : u.Idx → BitVec 1)
    (h : s.ReducesTo axes ⟨0, ![]⟩) (hu : 0 < u.numel) (j : (⟨0, ![]⟩ : Shape).Idx)
    (e : Host.reduce IntOp.andi
        (cmpf .ogt v (broadcastInDim s ![] hb (constant (F := Ideal) ⟨0, ![]⟩ .f32 0x00000000#32))) init h hu j = 1#1)
    (i : s.Idx) : 0 < v i := by
  haveI : Subsingleton (⟨0, ![]⟩ : Shape).Idx := ⟨fun a b => funext fun d => d.elim0⟩
  have e1 := Host.reduce_andi_all _ init h hu j e i
  rw [gt_test_open,
    broadcastInDim_apply ![] hb (constant (F := Ideal) ⟨0, ![]⟩ .f32 0x00000000#32) i (fun a => a.elim0) (fun a => a.elim0),
    cmpf_ideal] at e1
  have hz : (constant (F := Ideal) ⟨0, ![]⟩ .f32 0x00000000#32) (fun a => a.elim0) = (0 : EReal) := by
    show Ideal.ofBits .f32 0x00000000#32 = 0
    simp [Ideal.ofBits, Ideal.ieee]
  rw [hz] at e1
  by_contra hn
  unfold Ideal.cmp at e1
  simp [hn] at e1

end Cert.FiniteReal

end
-- ==== Proof.PreReal.lean ====
/-
  The precondition says every entry of every argument array is a finite float.  Of the twenty-five
  conjuncts only the last one is needed here: every entry of the attention vector (the last argument,
  one row of 512 entries) is a real number.  The printed predicate is a chain of "and"s whose last
  step joins everything before with the attention vector's test, so the whole being one makes that
  test one, and the test being one makes every entry real.
-/
import proofs.«122693_g27230092657376_cont_9to1_1130_10_alg».proof.Pre_finite_inputs
import proofs.«122693_g27230092657376_cont_9to1_1130_10_alg».proof.Proof.LibFiniteReal
import Idealize.ShloMosaic.Lib.ValueIdx
import Idealize.ShloMosaic.Lib.Affine

noncomputable section

namespace Cert.PreReal

open Idealize.ShloMosaic Idealize.ShloMosaic.ValueIdx Cert.Pre_finite_inputs

variable [Cert.Pre_finite_inputs.Facts]

open Cert.Pre_finite_inputs.Facts

/-- The attention vector's test: "every absolute value is below the infinity word", folded by "and". -/
def test24 (a24 : FVec Ideal S1x512 .f32) : IVec S_ 1 :=
  Host.reduce IntOp.andi
    (cmpf .olt (Host.absf a24) (broadcastInDim S1x512 ![] bcast_S_S1x512 (constant (F := Ideal) S_ .f32 0x7F800000#32)))
    (constantI S_ 1 1#1) reducesTo_S1x512_S_d0_1 h_S_

/-- The printed predicate ends by joining all earlier tests with the attention vector's. -/
theorem fn_last (a0 : FVec Ideal S4096x512 .f32) (a1 : FVec Ideal S4096x512 .f32) (a2 : FVec Ideal S4096x4096 .f32) (a3 : FVec Ideal S4096x4096 .f32) (a4 : FVec Ideal S4096x4096 .f32) (a5 : FVec Ideal S4096x4096 .f32) (a6 : FVec Ideal S512x512 .f32) (a7 : FVec Ideal S512 .f32) (a8 : FVec Ideal S512 .f32) (a9 : FVec Ideal S_ .f32) (a10 : FVec Ideal S512x512 .f32) (a11 : FVec Ideal S512 .f32) (a12 : FVec Ideal S512 .f32) (a13 : FVec Ideal S_ .f32) (a14 : FVec Ideal S512x512 .f32) (a15 : FVec Ideal S512 .f32) (a16 : FVec Ideal S512 .f32) (a17 : FVec Ideal S_ .f32) (a18 : FVec Ideal S512x512 .f32) (a19 : FVec Ideal S512 .f32) (a20 : FVec Ideal S512 .f32) (a21 : FVec Ideal S_ .f32) (a22 : FVec Ideal S512x512 .f32) (a23 : FVec Ideal S512 .f32) (a24 : FVec Ideal S1x512 .f32) :
    ∃ A : IVec S_ 1, fn (F := Ideal) a0 a1 a2 a3 a4 a5 a6 a7 a8 a9 a10 a11 a12 a13 a14 a15 a16 a17 a18 a19 a20 a21 a22 a23 a24 = andi A (test24 a24) :=
  ⟨_, rfl⟩

/-- Under the precondition every entry of the attention vector is a real number. -/
theorem arg24_real (a0 : FVec Ideal S4096x512 .f32) (a1 : FVec Ideal S4096x512 .f32) (a2 : FVec Ideal S4096x4096 .f32) (a3 : FVec Ideal S4096x4096 .f32) (a4 : FVec Ideal S4096x4096 .f32) (a5 : FVec Ideal S4096x4096 .f32) (a6 : FVec Ideal S512x512 .f32) (a7 : FVec Ideal S512 .f32) (a8 : FVec Ideal S512 .f32) (a9 : FVec Ideal S_ .f32) (a10 : FVec Ideal S512x512 .f32) (a11 : FVec Ideal S512 .f32) (a12 : FVec Ideal S512 .f32) (a13 : FVec Ideal S_ .f32) (a14 : FVec Ideal S512x512 .f32) (a15 : FVec Ideal S512 .f32) (a16 : FVec Ideal S512 .f32) (a17 : FVec Ideal S_ .f32) (a18 : FVec Ideal S512x512 .f32) (a19 : FVec Ideal S512 .f32) (a20 : FVec Ideal S512 .f32) (a21 : FVec Ideal S_ .f32) (a22 : FVec Ideal S512x512 .f32) (a23 : FVec Ideal S512 .f32) (a24 : FVec Ideal S1x512 .f32)
    (h : fn (F := Ideal) a0 a1 a2 a3 a4 a5 a6 a7 a8 a9 a10 a11 a12 a13 a14 a15 a16 a17 a18 a19 a20 a21 a22 a23 a24 = fun _ => 1#1) (j : Fin 512) :
    ∃ r : ℝ, a24 (ix2 0 j) = (r : EReal) := by
  obtain ⟨A, hA⟩ := fn_last a0 a1 a2 a3 a4 a5 a6 a7 a8 a9 a10 a11 a12 a13 a14 a15 a16 a17 a18 a19 a20 a21 a22 a23 a24
  have h0 : IntOp.andi (A ix0) (test24 a24 ix0) = 1#1 := by
    have := congrFun h ix0
    rw [hA] at this
    exact this
  have h1 : test24 a24 ix0 = 1#1 := (IntOp.andi_eq_one.1 h0).2
  exact Cert.FiniteReal.real_of_all_finite a24 bcast_S_S1x512 _ reducesTo_S1x512_S_d0_1 h_S_ ix0 h1 (ix2 0 j)

end Cert.PreReal

end
-- ==== Proof.KIAlg.lean ====
/- The two idealized programs agree: from memories that agree on the arguments, the kernel's two results and the
   reference's two results are the same two functions of the arguments — the reference by reading its operations one
   at a time, the kernel by reading what its four regions leave; the one place where the extended reals' infinities
   matter is the softmax's reciprocal, and there the attention row's finiteness (from the precondition) makes the
   denominator nonzero. -/
import proofs.«122693_g27230092657376_cont_9to1_1130_10_alg».proof.Defs
import proofs.«122693_g27230092657376_cont_9to1_1130_10_alg».proof.Proof.KIPost
import proofs.«122693_g27230092657376_cont_9to1_1130_10_alg».proof.Proof.KIValue
import proofs.«122693_g27230092657376_cont_9to1_1130_10_alg».proof.Proof.KIPair0Pkg
import proofs.«122693_g27230092657376_cont_9to1_1130_10_alg».proof.Proof.KIPair1Pkg
import proofs.«122693_g27230092657376_cont_9to1_1130_10_alg».proof.Proof.KIPair0Val
import proofs.«122693_g27230092657376_cont_9to1_1130_10_alg».proof.Proof.KIPair1Val
import proofs.«122693_g27230092657376_cont_9to1_1130_10_alg».proof.Proof.RefRun
import proofs.«122693_g27230092657376_cont_9to1_1130_10_alg».proof.Proof.PreReal
import proofs.«122693_g27230092657376_cont_9to1_1130_10_alg».proof.Proof.Gen.KernelIdeal
import proofs.«122693_g27230092657376_cont_9to1_1130_10_alg».proof.Proof.Gen.ReferenceIdeal
import proofs.«122693_g27230092657376_cont_9to1_1130_10_alg».proof.Proof.Gen.Pre_finite_inputs

set_option maxRecDepth 16384

noncomputable section

namespace Cert.Proof

open Idealize.ShloMosaic Idealize.ShloMosaic.TcCoe Idealize.ShloMosaic.ValueIdx Idealize.SL.Sem
open Cert.KernelIdeal.Hand

set_option maxHeartbeats 1600000 in
theorem algebraic : Cert.algebraic_KernelIdeal_ReferenceIdeal := by
  intro m ρ m' ρ' hpre hagree
  have ha : ∀ (c : Dev Cert.KernelIdeal.nD) (j : Fin 512), ∃ r : ℝ,
      (m ((c.tc : Thread Cert.KernelIdeal.nD Cert.KernelIdeal.τ).loc Cert.KernelIdeal.main_arg24) : Cert.KernelIdeal.S1x512.Idx → EReal) (ix2 0 j) = (r : EReal) :=
    fun c j => Cert.PreReal.arg24_real _ _ _ _ _ _ _ _ _ _ _ _ _ _ _ _ _ _ _ _ _ _ _ _ _ (hpre c) j
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)),
    fun c => Cert.Spec.out (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg5)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · exact (θ_run _ _ _).mono (fun r h c =>
      ⟨(h c).1.trans (kernel_res0 m pair0 pair1 pairVal0 ha c),
        (h c).2.1.trans (kernel_res1 m pair0 pair1 pairVal1 ha c), (h c).2.2⟩)
      (run_post m pair0 pair1 ρ)
  · refine (θ_run _ _ _).mono (fun r h c => ?_) (Cert.RefSpec.run_spec m' ρ')
    obtain ⟨a0, a1, a2, a3, a4, a5, a6, a7, a8, a9, a10, a11, a12, a13, a14, a15, a16, a17, a18, a19, a20, a21, a22, a23, a24⟩ := hagree c
    obtain ⟨h0, h1, hargs⟩ := h c
    refine ⟨?_, ?_, hargs⟩
    · exact h0.trans (congr (congr (congr (congr (congr (congr (congr (congr (congr (congr (congr (congr (congr (congrArg Cert.Spec.out a0) a2) a6) a7) a8) a9) a3) a10) a11) a12) a13) a22) a23) a24)
    · exact h1.trans (congr (congr (congr (congr (congr (congr (congr (congr (congr (congr (congr (congr (congr (congrArg Cert.Spec.out a1) a4) a14) a15) a16) a17) a5) a18) a19) a20) a21) a22) a23) a24)

end Cert.Proof

end
-- ==== Proof.lean ====
/- The certificate: the three frames, the (empty) idealization ledger, and the agreement of the two idealized
   programs. The kernel's program is four regions — two runs of a 16-point kernel that keeps two dense-layer
   outputs and two running column sums in scratch memory across its points, then two runs of a 16-point kernel
   that mixes two views with softmax weights — among two stretches of host operations; each region's body is run
   once per control case, the regions are composed in order, and the arrays each leaves are read back as plain
   sums, products, tanh and exp of the arguments, the same that the reference's operations compute. -/
import proofs.«122693_g27230092657376_cont_9to1_1130_10_alg».proof.Defs
import proofs.«122693_g27230092657376_cont_9to1_1130_10_alg».proof.Proof.Gen.Kernel
import proofs.«122693_g27230092657376_cont_9to1_1130_10_alg».proof.Proof.Gen.KernelIdeal
import proofs.«122693_g27230092657376_cont_9to1_1130_10_alg».proof.Proof.Gen.ReferenceIdeal
import proofs.«122693_g27230092657376_cont_9to1_1130_10_alg».proof.Proof.Gen.Pre_finite_inputs
import proofs.«122693_g27230092657376_cont_9to1_1130_10_alg».proof.Proof.KPost
import proofs.«122693_g27230092657376_cont_9to1_1130_10_alg».proof.Proof.KPair0Pkg
import proofs.«122693_g27230092657376_cont_9to1_1130_10_alg».proof.Proof.KPair1Pkg
import proofs.«122693_g27230092657376_cont_9to1_1130_10_alg».proof.Proof.KIAlg
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m Cert.Kernel.Hand.pair0 Cert.Kernel.Hand.pair1 ρ,
  fun m ρ _ => Cert.KernelIdeal.Hand.frame m Cert.KernelIdeal.Hand.pair0 Cert.KernelIdeal.Hand.pair1 ρ,
  Cert.RefSpec.frame,
  trivial,
  Cert.Proof.algebraic⟩

end Cert.Proof

end
